-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v303)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v303) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v330) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x1600000 : Shape := ⟨3, ![3, 2, 1600000]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_v13 : IVec S_ 1) (main_v16 : IVec S3x128x64 1) : IVec S_ 1 :=
  let main_c_5 : IVec S_ 1 := constantI S_ 1 1#1
  let main_v17 : IVec S_ 1 := (fun x v => Host.reduce IntOp.andi x v reducesTo_S3x128x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S100000x128 .f32) (main_arg1 : IVec S3x2x1600000 32) (main_arg2 : FVec F S3x128x128 .f32) (main_arg3 : FVec F S3x128 .f32) (main_arg4 : FVec F S3x128x64 .f32) (main_arg5 : FVec F S3x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x64 .f32 := Host.absf main_arg4
  let main_cst_4 : FVec F S_ .f32 := constant S_ .f32 0x7F800000#32
  let main_v15 : FVec F S3x128x64 .f32 := broadcastInDim S3x128x64 ![] bcast_S_S3x128x64 main_cst_4
  let main_v16 : IVec S3x128x64 1 := cmpf .olt main_v14 main_v15
  fn_part1 (F := F) main_arg5 main_v13 main_v16
-- ==== Kernel.lean ====
abbrev S100000x128 : Shape := ⟨2, ![100000, 128]⟩
abbrev S3x2x1600000 : Shape := ⟨3, ![3, 2, 1600000]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S3x100000x128 : Shape := ⟨3, ![3, 100000, 128]⟩
abbrev S5000x128 : Shape := ⟨2, ![5000, 128]⟩
abbrev S1x128x128 : Shape := ⟨3, ![1, 128, 128]⟩
abbrev S1x5000x128 : Shape := ⟨3, ![1, 5000, 128]⟩
abbrev S128x128 : Shape := ⟨2, ![128, 128]⟩
abbrev S1x2x1600000 : Shape := ⟨3, ![1, 2, 1600000]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x100000x128 : Shape := ⟨3, ![1, 100000, 128]⟩
abbrev S1600000x128 : Shape := ⟨2, ![1600000, 128]⟩
abbrev S1x100000 : Shape := ⟨2, ![1, 100000]⟩
abbrev S3x100000 : Shape := ⟨2, ![3, 100000]⟩
abbrev S3x100000x1 : Shape := ⟨3, ![3, 100000, 1]⟩
abbrev S3x2000x128 : Shape := ⟨3, ![3, 2000, 128]⟩
abbrev S3x2000x1 : Shape := ⟨3, ![3, 2000, 1]⟩
abbrev S2000x128 : Shape := ⟨2, ![2000, 128]⟩
abbrev S1x2000x128 : Shape := ⟨3, ![1, 2000, 128]⟩
abbrev S1x2000x1 : Shape := ⟨3, ![1, 2000, 1]⟩
abbrev S2000x1 : Shape := ⟨2, ![2000, 1]⟩
abbrev S1x128 : Shape := ⟨2, ![1, 128]⟩
abbrev S128 : Shape := ⟨1, ![128]⟩
abbrev S3x100000x64 : Shape := ⟨3, ![3, 100000, 64]⟩
abbrev S1x128x64 : Shape := ⟨3, ![1, 128, 64]⟩
abbrev S1x5000x64 : Shape := ⟨3, ![1, 5000, 64]⟩
abbrev S128x64 : Shape := ⟨2, ![128, 64]⟩
abbrev S5000x64 : Shape := ⟨2, ![5000, 64]⟩
abbrev S1x100000x64 : Shape := ⟨3, ![1, 100000, 64]⟩
abbrev S100000x64 : Shape := ⟨2, ![100000, 64]⟩
abbrev S1600000x64 : Shape := ⟨2, ![1600000, 64]⟩
abbrev S3x2000x64 : Shape := ⟨3, ![3, 2000, 64]⟩
abbrev S2000x64 : Shape := ⟨2, ![2000, 64]⟩
abbrev S1x2000x64 : Shape := ⟨3, ![1, 2000, 64]⟩
abbrev S1x64 : Shape := ⟨2, ![1, 64]⟩
abbrev S64 : Shape := ⟨1, ![64]⟩

abbrev nBuf : Space → Nat
  | .hbm => 394
  | .vmem => 30
  | .smem => 0
  | _ => 0

abbrev hbmTy0_0 (i : Nat) : BufTy := match i % 128 with
  | 0 => ⟨S100000x128, .f32⟩
  | 1 => ⟨S3x2x1600000, .i32⟩
  | 2 => ⟨S3x128x128, .f32⟩
  | 3 => ⟨S3x128, .f32⟩
  | 4 => ⟨S3x128x64, .f32⟩
  | 5 => ⟨S3x64, .f32⟩
  | 6 => ⟨S3x100000x128, .f32⟩
  | 7 => ⟨S1x2x1600000, .i32⟩
  | 8 => ⟨S2x1600000, .i32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S100000, .f32⟩
  | 50 => ⟨S1x100000x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S1x2x1600000, .i32⟩
  | 69 => ⟨S2x1600000, .i32⟩
  | 70 => ⟨S1x1600000, .i32⟩
  | 71 => ⟨S1600000, .i32⟩
  | 72 => ⟨S1x1600000, .i32⟩
  | 73 => ⟨S1600000, .i32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S100000, .f32⟩
  | 111 => ⟨S1x100000x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S1600000x1, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S1x2x1600000, .i32⟩
  | 2 => ⟨S2x1600000, .i32⟩
  | 3 => ⟨S1x1600000, .i32⟩
  | 4 => ⟨S1600000, .i32⟩
  | 5 => ⟨S1x1600000, .i32⟩
  | 6 => ⟨S1600000, .i32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S100000, .f32⟩
  | 44 => ⟨S1x100000x128, .f32⟩
  | 45 => ⟨S100000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S1x100000x128, .f32⟩
  | 63 => ⟨S1x100000x128, .f32⟩
  | 64 => ⟨S1x100000x128, .f32⟩
  | 65 => ⟨S3x100000x128, .f32⟩
  | 66 => ⟨S1x100000, .f32⟩
  | 67 => ⟨S1x100000, .f32⟩
  | 68 => ⟨S1x100000, .f32⟩
  | 69 => ⟨S3x100000, .f32⟩
  | 70 => ⟨S3x100000x1, .f32⟩
  | 71 => ⟨S100000x128, .f32⟩
  | 72 => ⟨S3x100000x64, .f32⟩
  | 73 => ⟨S1x2x1600000, .i32⟩
  | 74 => ⟨S2x1600000, .i32⟩
  | 75 => ⟨S1x1600000, .i32⟩
  | 76 => ⟨S1600000, .i32⟩
  | 77 => ⟨S1x1600000, .i32⟩
  | 78 => ⟨S1600000, .i32⟩
  | 79 => ⟨S_, .f32⟩
  | 80 => ⟨S1600000, .f32⟩
  | 81 => ⟨S_, .f32⟩
  | 82 => ⟨S100000, .f32⟩
  | 83 => ⟨S1600000x1, .i32⟩
  | 84 => ⟨S100000, .f32⟩
  | 85 => ⟨S_, .f32⟩
  | 86 => ⟨S100000, .f32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S1600000, .f32⟩
  | 115 => ⟨S100000, .f32⟩
  | 116 => ⟨S1x100000x64, .f32⟩
  | 117 => ⟨S100000x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x1, .f32⟩
  | _ => ⟨S100000x128, .f32⟩

abbrev hbmTy0_2 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S1x2x1600000, .i32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000, .f32⟩
  | 49 => ⟨S1x100000x64, .f32⟩
  | 50 => ⟨S100000x64, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x1, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S1x2x1600000, .i32⟩
  | 68 => ⟨S2x1600000, .i32⟩
  | 69 => ⟨S1x1600000, .i32⟩
  | 70 => ⟨S1600000, .i32⟩
  | 71 => ⟨S1x1600000, .i32⟩
  | 72 => ⟨S1600000, .i32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S100000, .f32⟩
  | 110 => ⟨S1x100000x64, .f32⟩
  | 111 => ⟨S100000x64, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x1, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x128, .f32⟩

abbrev hbmTy0_3 (i : Nat) : BufTy := match i % 128 with
  | 0 => ⟨S1x100000x64, .f32⟩
  | 1 => ⟨S1x100000x64, .f32⟩
  | 2 => ⟨S1x100000x64, .f32⟩
  | 3 => ⟨S3x100000x64, .f32⟩
  | 4 => ⟨S1x100000, .f32⟩
  | 5 => ⟨S1x100000, .f32⟩
  | 6 => ⟨S1x100000, .f32⟩
  | 7 => ⟨S3x100000, .f32⟩
  | 8 => ⟨S3x100000x1, .f32⟩
  | 9 => ⟨S100000x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x128x128, .f32⟩
  | .local _ .vmem, ⟨3, _⟩ => ⟨S1x128x128, .f32⟩
  | .local _ .vmem, ⟨4, _⟩ => ⟨S1x5000x128, .f32⟩
  | .local _ .vmem, ⟨5, _⟩ => ⟨S1x5000x128, .f32⟩
  | .local _ .vmem, ⟨6, _⟩ => ⟨S3x2000x128, .f32⟩
  | .local _ .vmem, ⟨7, _⟩ => ⟨S3x2000x128, .f32⟩
  | .local _ .vmem, ⟨8, _⟩ => ⟨S3x2000x128, .f32⟩
  | .local _ .vmem, ⟨9, _⟩ => ⟨S3x2000x128, .f32⟩
  | .local _ .vmem, ⟨10, _⟩ => ⟨S3x2000x1, .f32⟩
  | .local _ .vmem, ⟨11, _⟩ => ⟨S3x2000x1, .f32⟩
  | .local _ .vmem, ⟨12, _⟩ => ⟨S3x128, .f32⟩
  | .local _ .vmem, ⟨13, _⟩ => ⟨S2000x128, .f32⟩
  | .local _ .vmem, ⟨14, _⟩ => ⟨S2000x128, .f32⟩
  | .local _ .vmem, ⟨15, _⟩ => ⟨S5000x128, .f32⟩
  | .local _ .vmem, ⟨16, _⟩ => ⟨S5000x128, .f32⟩
  | .local _ .vmem, ⟨17, _⟩ => ⟨S1x128x64, .f32⟩
  | .local _ .vmem, ⟨18, _⟩ => ⟨S1x128x64, .f32⟩
  | .local _ .vmem, ⟨19, _⟩ => ⟨S1x5000x64, .f32⟩
  | .local _ .vmem, ⟨20, _⟩ => ⟨S1x5000x64, .f32⟩
  | .local _ .vmem, ⟨21, _⟩ => ⟨S3x2000x64, .f32⟩
  | .local _ .vmem, ⟨22, _⟩ => ⟨S3x2000x64, .f32⟩
  | .local _ .vmem, ⟨23, _⟩ => ⟨S3x2000x64, .f32⟩
  | .local _ .vmem, ⟨24, _⟩ => ⟨S3x2000x64, .f32⟩
  | .local _ .vmem, ⟨25, _⟩ => ⟨S3x2000x1, .f32⟩
  | .local _ .vmem, ⟨26, _⟩ => ⟨S3x2000x1, .f32⟩
  | .local _ .vmem, ⟨27, _⟩ => ⟨S3x64, .f32⟩
  | .local _ .vmem, ⟨28, _⟩ => ⟨S2000x64, .f32⟩
  | .local _ .vmem, ⟨29, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_call1_v0 : Ref sig .tc := ⟨.hbm, 88, rfl⟩
abbrev main_call1_v1 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_17 : Ref sig .tc := ⟨.hbm, 100, rfl⟩
abbrev main_v71 : Ref sig .tc := ⟨.hbm, 101, rfl⟩
abbrev main_v72 : Ref sig .tc := ⟨.hbm, 102, rfl⟩
abbrev main_c_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_cst_23 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_24 : Ref sig .tc := ⟨.hbm, 141, rfl⟩
abbrev main_v105 : Ref sig .tc := ⟨.hbm, 142, rfl⟩
abbrev main_v106 : Ref sig .tc := ⟨.hbm, 143, rfl⟩
abbrev main_cst_25 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_26 : Ref sig .tc := ⟨.hbm, 148, rfl⟩
abbrev main_call2_v0 : Ref sig .tc := ⟨.hbm, 149, rfl⟩
abbrev main_call2_v1 : Ref sig .tc := ⟨.hbm, 150, rfl⟩
abbrev main_v110 : Ref sig .tc := ⟨.hbm, 151, rfl⟩
abbrev main_c_27 : Ref sig .tc := ⟨.hbm, 152, rfl⟩
abbrev main_v111 : Ref sig .tc := ⟨.hbm, 153, rfl⟩
abbrev main_v112 : Ref sig .tc := ⟨.hbm, 154, rfl⟩
abbrev main_c_28 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_c_29 : Ref sig .tc := ⟨.hbm, 161, rfl⟩
abbrev main_v118 : Ref sig .tc := ⟨.hbm, 162, rfl⟩
abbrev main_v119 : Ref sig .tc := ⟨.hbm, 163, rfl⟩
abbrev main_c_30 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_c_31 : Ref sig .tc := ⟨.hbm, 174, rfl⟩
abbrev main_v129 : Ref sig .tc := ⟨.hbm, 175, rfl⟩
abbrev main_v130 : Ref sig .tc := ⟨.hbm, 176, rfl⟩
abbrev main_c_32 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_33 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_cst_34 : Ref sig .tc := ⟨.hbm, 207, rfl⟩
abbrev main_v159 : Ref sig .tc := ⟨.hbm, 208, rfl⟩
abbrev main_cst_35 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_36 : Ref sig .tc := ⟨.hbm, 213, rfl⟩
abbrev main_v163 : Ref sig .tc := ⟨.hbm, 214, rfl⟩
abbrev main_v164 : Ref sig .tc := ⟨.hbm, 215, rfl⟩
abbrev main_cst_37 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_38 : Ref sig .tc := ⟨.hbm, 220, rfl⟩
abbrev main_call3_v0 : Ref sig .tc := ⟨.hbm, 221, rfl⟩
abbrev main_call3_v1 : Ref sig .tc := ⟨.hbm, 222, rfl⟩
abbrev main_v168 : Ref sig .tc := ⟨.hbm, 223, rfl⟩
abbrev main_c_39 : Ref sig .tc := ⟨.hbm, 224, rfl⟩
abbrev main_v169 : Ref sig .tc := ⟨.hbm, 225, rfl⟩
abbrev main_v170 : Ref sig .tc := ⟨.hbm, 226, rfl⟩
abbrev main_c_40 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_c_41 : Ref sig .tc := ⟨.hbm, 233, rfl⟩
abbrev main_v176 : Ref sig .tc := ⟨.hbm, 234, rfl⟩
abbrev main_v177 : Ref sig .tc := ⟨.hbm, 235, rfl⟩
abbrev main_c_42 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_c_43 : Ref sig .tc := ⟨.hbm, 246, rfl⟩
abbrev main_v187 : Ref sig .tc := ⟨.hbm, 247, rfl⟩
abbrev main_v188 : Ref sig .tc := ⟨.hbm, 248, rfl⟩
abbrev main_c_44 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_cst_45 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_cst_46 : Ref sig .tc := ⟨.hbm, 268, rfl⟩
abbrev main_v206 : Ref sig .tc := ⟨.hbm, 269, rfl⟩
abbrev main_cst_47 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_48 : Ref sig .tc := ⟨.hbm, 274, rfl⟩
abbrev main_v210 : Ref sig .tc := ⟨.hbm, 275, rfl⟩
abbrev main_v211 : Ref sig .tc := ⟨.hbm, 276, rfl⟩
abbrev main_cst_49 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_cst_50 : Ref sig .tc := ⟨.hbm, 281, rfl⟩
abbrev main_call4_v0 : Ref sig .tc := ⟨.hbm, 282, rfl⟩
abbrev main_call4_v1 : Ref sig .tc := ⟨.hbm, 283, rfl⟩
abbrev main_v215 : Ref sig .tc := ⟨.hbm, 284, rfl⟩
abbrev main_c_51 : Ref sig .tc := ⟨.hbm, 285, rfl⟩
abbrev main_v216 : Ref sig .tc := ⟨.hbm, 286, rfl⟩
abbrev main_v217 : Ref sig .tc := ⟨.hbm, 287, rfl⟩
abbrev main_c_52 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_c_53 : Ref sig .tc := ⟨.hbm, 294, rfl⟩
abbrev main_v223 : Ref sig .tc := ⟨.hbm, 295, rfl⟩
abbrev main_v224 : Ref sig .tc := ⟨.hbm, 296, rfl⟩
abbrev main_c_54 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_c_55 : Ref sig .tc := ⟨.hbm, 307, rfl⟩
abbrev main_v234 : Ref sig .tc := ⟨.hbm, 308, rfl⟩
abbrev main_v235 : Ref sig .tc := ⟨.hbm, 309, rfl⟩
abbrev main_c_56 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_cst_57 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_cst_58 : Ref sig .tc := ⟨.hbm, 329, rfl⟩
abbrev main_v253 : Ref sig .tc := ⟨.hbm, 330, rfl⟩
abbrev main_cst_59 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_cst_60 : Ref sig .tc := ⟨.hbm, 335, rfl⟩
abbrev main_v257 : Ref sig .tc := ⟨.hbm, 336, rfl⟩
abbrev main_v258 : Ref sig .tc := ⟨.hbm, 337, rfl⟩
abbrev main_cst_61 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_cst_62 : Ref sig .tc := ⟨.hbm, 342, rfl⟩
abbrev main_call5_v0 : Ref sig .tc := ⟨.hbm, 343, rfl⟩
abbrev main_call5_v1 : Ref sig .tc := ⟨.hbm, 344, rfl⟩
abbrev main_v262 : Ref sig .tc := ⟨.hbm, 345, rfl⟩
abbrev main_c_63 : Ref sig .tc := ⟨.hbm, 346, rfl⟩
abbrev main_v263 : Ref sig .tc := ⟨.hbm, 347, rfl⟩
abbrev main_v264 : Ref sig .tc := ⟨.hbm, 348, rfl⟩
abbrev main_c_64 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_c_65 : Ref sig .tc := ⟨.hbm, 355, rfl⟩
abbrev main_v270 : Ref sig .tc := ⟨.hbm, 356, rfl⟩
abbrev main_v271 : Ref sig .tc := ⟨.hbm, 357, rfl⟩
abbrev main_c_66 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_v275 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_c_67 : Ref sig .tc := ⟨.hbm, 368, rfl⟩
abbrev main_v281 : Ref sig .tc := ⟨.hbm, 369, rfl⟩
abbrev main_v282 : Ref sig .tc := ⟨.hbm, 370, rfl⟩
abbrev main_c_68 : Ref sig .tc := ⟨.hbm, 371, rfl⟩
abbrev main_v283 : Ref sig .tc := ⟨.hbm, 372, rfl⟩
abbrev main_v284 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_cst_69 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨2, ![20, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![20, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![50], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3x2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3x2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3x2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  slices_S3x2x1600000_S1x2x1600000_0_0_0 : S3x2x1600000.Slices ![0, 0, 0] S1x2x1600000
  shapeCasts_S1x2x1600000_S2x1600000 : S1x2x1600000.ShapeCasts S2x1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x100000x128_S1x100000x128_0_0_0 : S3x100000x128.Slices ![0, 0, 0] S1x100000x128
  shapeCasts_S1x100000x128_S100000x128 : S1x100000x128.ShapeCasts S100000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x2x1600000_S1x2x1600000_1_0_0 : S3x2x1600000.Slices ![1, 0, 0] S1x2x1600000
  slices_S3x100000x128_S1x100000x128_1_0_0 : S3x100000x128.Slices ![1, 0, 0] S1x100000x128
  slices_S3x2x1600000_S1x2x1600000_2_0_0 : S3x2x1600000.Slices ![2, 0, 0] S1x2x1600000
  slices_S3x100000x128_S1x100000x128_2_0_0 : S3x100000x128.Slices ![2, 0, 0] S1x100000x128
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  bcast_S3x100000_S3x100000x1_0_1 : S3x100000.BroadcastsInDim S3x100000x1 (![0, 1] : Fin 2 → Fin S3x100000x1.rank)
  inb_S3x2000x128_S1x2000x128_0_0_0 : ∀ a, (![0, 0, 0] : Fin 3 → Nat) a + S1x2000x128.size a ≤ S3x2000x128.size a
  h_S1x2000x128 : 0 < S1x2000x128.numel
  shapeCasts_S1x2000x128_S2000x128 : S1x2000x128.ShapeCasts S2000x128
  inb_S3x2000x1_S1x2000x1_0_0_0 : ∀ a, (![0, 0, 0] : Fin 3 → Nat) a + S1x2000x1.size a ≤ S3x2000x1.size a
  h_S1x2000x1 : 0 < S1x2000x1.numel
  shapeCasts_S1x2000x1_S2000x1 : S1x2000x1.ShapeCasts S2000x1
  broadcasts_S2000x1_S2000x128 : S2000x1.Broadcasts S2000x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  inb_S3x2000x128_S1x2000x128_1_0_0 : ∀ a, (![1, 0, 0] : Fin 3 → Nat) a + S1x2000x128.size a ≤ S3x2000x128.size a
  inb_S3x2000x1_S1x2000x1_1_0_0 : ∀ a, (![1, 0, 0] : Fin 3 → Nat) a + S1x2000x1.size a ≤ S3x2000x1.size a
  inb_S3x128_S1x128_1_0 : ∀ a, (![1, 0] : Fin 2 → Nat) a + S1x128.size a ≤ S3x128.size a
  inb_S3x2000x128_S1x2000x128_2_0_0 : ∀ a, (![2, 0, 0] : Fin 3 → Nat) a + S1x2000x128.size a ≤ S3x2000x128.size a
  inb_S3x2000x1_S1x2000x1_2_0_0 : ∀ a, (![2, 0, 0] : Fin 3 → Nat) a + S1x2000x1.size a ≤ S3x2000x1.size a
  inb_S3x128_S1x128_2_0 : ∀ a, (![2, 0] : Fin 2 → Nat) a + S1x128.size a ≤ S3x128.size a
  inb_S2000x128_S2000x128_0_0 : ∀ a, (![0, 0] : Fin 2 → Nat) a + S2000x128.size a ≤ S2000x128.size a
  h_S2000x128 : 0 < S2000x128.numel
  shapeCasts_S5000x128_S5000x128 : S5000x128.ShapeCasts S5000x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  shapeCasts_S5000x64_S1x5000x64 : S5000x64.ShapeCasts S1x5000x64
  slices_S3x100000x64_S1x100000x64_0_0_0 : S3x100000x64.Slices ![0, 0, 0] S1x100000x64
  shapeCasts_S1x100000x64_S100000x64 : S1x100000x64.ShapeCasts S100000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x100000x64_S1x100000x64_1_0_0 : S3x100000x64.Slices ![1, 0, 0] S1x100000x64
  slices_S3x100000x64_S1x100000x64_2_0_0 : S3x100000x64.Slices ![2, 0, 0] S1x100000x64
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  inb_S3x2000x64_S1x2000x64_0_0_0 : ∀ a, (![0, 0, 0] : Fin 3 → Nat) a + S1x2000x64.size a ≤ S3x2000x64.size a
  h_S1x2000x64 : 0 < S1x2000x64.numel
  shapeCasts_S1x2000x64_S2000x64 : S1x2000x64.ShapeCasts S2000x64
  broadcasts_S2000x1_S2000x64 : S2000x1.Broadcasts S2000x64
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S2000x64 : S1x64.Broadcasts S2000x64
  inb_S3x2000x64_S1x2000x64_1_0_0 : ∀ a, (![1, 0, 0] : Fin 3 → Nat) a + S1x2000x64.size a ≤ S3x2000x64.size a
  inb_S3x64_S1x64_1_0 : ∀ a, (![1, 0] : Fin 2 → Nat) a + S1x64.size a ≤ S3x64.size a
  inb_S3x2000x64_S1x2000x64_2_0_0 : ∀ a, (![2, 0, 0] : Fin 3 → Nat) a + S1x2000x64.size a ≤ S3x2000x64.size a
  inb_S3x64_S1x64_2_0 : ∀ a, (![2, 0] : Fin 2 → Nat) a + S1x64.size a ≤ S3x64.size a
  inb_S2000x64_S2000x64_0_0 : ∀ a, (![0, 0] : Fin 2 → Nat) a + S2000x64.size a ≤ S2000x64.size a
  h_S2000x64 : 0 < S2000x64.numel
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S3x128x128.size a
  hwx0_1 : ∀ i : grid0.Coords, EltTy.bits .f32 = 32 ∨ (Rect.block (s := S3x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x128.size a ≤ S3x100000x128.size a
  hwx0_2 : ∀ i : grid0.Coords, EltTy.bits .f32 = 32 ∨ (Rect.block (s := S3x100000x128) S1x5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2000x128.size a ≤ S3x100000x128.size a
  hwx1_0 : ∀ i : grid1.Coords, EltTy.bits .f32 = 32 ∨ (Rect.block (s := S3x100000x128) S3x2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x2000x128.size a ≤ S3x100000x128.size a
  hwx1_1 : ∀ i : grid1.Coords, EltTy.bits .f32 = 32 ∨ (Rect.block (s := S3x100000x128) S3x2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x2000x1.size a ≤ S3x100000x1.size a
  hwx1_2 : ∀ i : grid1.Coords, EltTy.bits .f32 = 32 ∨ (Rect.block (s := S3x100000x1) S3x2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128.size a ≤ S3x128.size a
  hwx1_3 : ∀ i : grid1.Coords, EltTy.bits .f32 = 32 ∨ (Rect.block (s := S3x128) S3x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x64.size a ≤ S3x128x64.size a
  hwx2_1 : ∀ i : grid2.Coords, EltTy.bits .f32 = 32 ∨ (Rect.block (s := S3x128x64) S1x128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x5000x64.size a ≤ S3x100000x64.size a
  hwx2_2 : ∀ i : grid2.Coords, EltTy.bits .f32 = 32 ∨ (Rect.block (s := S3x100000x64) S1x5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3x2000x64.size a ≤ S3x100000x64.size a
  hwx3_0 : ∀ i : grid3.Coords, EltTy.bits .f32 = 32 ∨ (Rect.block (s := S3x100000x64) S3x2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3x2000x64.size a ≤ S3x100000x64.size a
  hwx3_1 : ∀ i : grid3.Coords, EltTy.bits .f32 = 32 ∨ (Rect.block (s := S3x100000x64) S3x2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3x2000x1.size a ≤ S3x100000x1.size a
  hwx3_2 : ∀ i : grid3.Coords, EltTy.bits .f32 = 32 ∨ (Rect.block (s := S3x100000x1) S3x2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x64.size a ≤ S3x64.size a
  hwx3_3 : ∀ i : grid3.Coords, EltTy.bits .f32 = 32 ∨ (Rect.block (s := S3x64) S3x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v145) S3x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S3x2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v150) S3x2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S3x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v151) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v151) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1x128x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v152) S1x5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v297) S3x2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v152) S3x2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v302) S3x2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S3x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v303) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S3x2x1600000 : Shape := ⟨3, ![3, 2, 1600000]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S1x2x1600000 : Shape := ⟨3, ![1, 2, 1600000]⟩
abbrev S2x1600000 : Shape := ⟨2, ![2, 1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S100000x64 : Shape := ⟨2, ![100000, 64]⟩
abbrev S1700000x64 : Shape := ⟨2, ![1700000, 64]⟩

abbrev nBuf : Space → Nat
  | .hbm => 421
  | .vmem => 0
  | .smem => 0
  | _ => 0

abbrev hbmTy0_0 (i : Nat) : BufTy := match i % 128 with
  | 0 => ⟨S100000x128, .f32⟩
  | 1 => ⟨S3x2x1600000, .i32⟩
  | 2 => ⟨S3x128x128, .f32⟩
  | 3 => ⟨S3x128, .f32⟩
  | 4 => ⟨S3x128x64, .f32⟩
  | 5 => ⟨S3x64, .f32⟩
  | 6 => ⟨S1x2x1600000, .i32⟩
  | 7 => ⟨S2x1600000, .i32⟩
  | 8 => ⟨S1x128x128, .f32⟩
  | 9 => ⟨S128x128, .f32⟩
  | 10 => ⟨S1x128, .f32⟩
  | 11 => ⟨S128, .f32⟩
  | 12 => ⟨S100000x128, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S1x2x1600000, .i32⟩
  | 73 => ⟨S2x1600000, .i32⟩
  | 74 => ⟨S1x128x128, .f32⟩
  | 75 => ⟨S128x128, .f32⟩
  | 76 => ⟨S1x128, .f32⟩
  | 77 => ⟨S128, .f32⟩
  | 78 => ⟨S100000x128, .f32⟩
  | 79 => ⟨S100000, .i32⟩
  | 80 => ⟨S1x1600000, .i32⟩
  | 81 => ⟨S1600000, .i32⟩
  | 82 => ⟨S1700000, .i32⟩
  | 83 => ⟨S1x1600000, .i32⟩
  | 84 => ⟨S1600000, .i32⟩
  | 85 => ⟨S1700000, .i32⟩
  | 86 => ⟨S_, .f32⟩
  | 87 => ⟨S1700000, .f32⟩
  | 88 => ⟨S_, .f32⟩
  | 89 => ⟨S100000, .f32⟩
  | 90 => ⟨S1700000x1, .i32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x128, .f32⟩
  | _ => ⟨S100000x128, .f32⟩

abbrev hbmTy0_1 (i : Nat) : BufTy := match i % 128 with
  | 0 => ⟨S1700000x1, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S100000x128, .f32⟩
  | 9 => ⟨S100000x128, .f32⟩
  | 10 => ⟨S1x2x1600000, .i32⟩
  | 11 => ⟨S2x1600000, .i32⟩
  | 12 => ⟨S1x128x128, .f32⟩
  | 13 => ⟨S128x128, .f32⟩
  | 14 => ⟨S1x128, .f32⟩
  | 15 => ⟨S128, .f32⟩
  | 16 => ⟨S100000x128, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S1x2x1600000, .i32⟩
  | 88 => ⟨S2x1600000, .i32⟩
  | 89 => ⟨S1x128x64, .f32⟩
  | 90 => ⟨S128x64, .f32⟩
  | 91 => ⟨S1x64, .f32⟩
  | 92 => ⟨S64, .f32⟩
  | 93 => ⟨S100000x64, .f32⟩
  | 94 => ⟨S100000, .i32⟩
  | 95 => ⟨S1x1600000, .i32⟩
  | 96 => ⟨S1600000, .i32⟩
  | 97 => ⟨S1700000, .i32⟩
  | 98 => ⟨S1x1600000, .i32⟩
  | 99 => ⟨S1600000, .i32⟩
  | 100 => ⟨S1700000, .i32⟩
  | 101 => ⟨S_, .f32⟩
  | 102 => ⟨S1700000, .f32⟩
  | 103 => ⟨S_, .f32⟩
  | 104 => ⟨S100000, .f32⟩
  | 105 => ⟨S1700000x1, .i32⟩
  | 106 => ⟨S100000, .f32⟩
  | 107 => ⟨S_, .f32⟩
  | 108 => ⟨S100000, .f32⟩
  | 109 => ⟨S100000, .i1⟩
  | 110 => ⟨S100000, .f32⟩
  | 111 => ⟨S_, .f32⟩
  | 112 => ⟨S_, .f32⟩
  | 113 => ⟨S100000, .f32⟩
  | 114 => ⟨S100000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_2 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000, .f32⟩
  | 5 => ⟨S1700000, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000x64, .f32⟩
  | 15 => ⟨S1700000x1, .f32⟩
  | 16 => ⟨S1700000x64, .f32⟩
  | 17 => ⟨S1700000x64, .f32⟩
  | 18 => ⟨S_, .f32⟩
  | 19 => ⟨S100000x64, .f32⟩
  | 20 => ⟨S1700000x1, .i32⟩
  | 21 => ⟨S100000x64, .f32⟩
  | 22 => ⟨S1x64, .f32⟩
  | 23 => ⟨S100000x64, .f32⟩
  | 24 => ⟨S100000x64, .f32⟩
  | 25 => ⟨S1x2x1600000, .i32⟩
  | 26 => ⟨S2x1600000, .i32⟩
  | 27 => ⟨S1x128x64, .f32⟩
  | 28 => ⟨S128x64, .f32⟩
  | 29 => ⟨S1x64, .f32⟩
  | 30 => ⟨S64, .f32⟩
  | 31 => ⟨S100000x64, .f32⟩
  | 32 => ⟨S100000, .i32⟩
  | 33 => ⟨S1x1600000, .i32⟩
  | 34 => ⟨S1600000, .i32⟩
  | 35 => ⟨S1700000, .i32⟩
  | 36 => ⟨S1x1600000, .i32⟩
  | 37 => ⟨S1600000, .i32⟩
  | 38 => ⟨S1700000, .i32⟩
  | 39 => ⟨S_, .f32⟩
  | 40 => ⟨S1700000, .f32⟩
  | 41 => ⟨S_, .f32⟩
  | 42 => ⟨S100000, .f32⟩
  | 43 => ⟨S1700000x1, .i32⟩
  | 44 => ⟨S100000, .f32⟩
  | 45 => ⟨S_, .f32⟩
  | 46 => ⟨S100000, .f32⟩
  | 47 => ⟨S100000, .i1⟩
  | 48 => ⟨S100000, .f32⟩
  | 49 => ⟨S_, .f32⟩
  | 50 => ⟨S_, .f32⟩
  | 51 => ⟨S100000, .f32⟩
  | 52 => ⟨S100000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S1700000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x64, .f32⟩
  | 81 => ⟨S1700000x1, .f32⟩
  | 82 => ⟨S1700000x64, .f32⟩
  | 83 => ⟨S1700000x64, .f32⟩
  | 84 => ⟨S_, .f32⟩
  | 85 => ⟨S100000x64, .f32⟩
  | 86 => ⟨S1700000x1, .i32⟩
  | 87 => ⟨S100000x64, .f32⟩
  | 88 => ⟨S1x64, .f32⟩
  | 89 => ⟨S100000x64, .f32⟩
  | 90 => ⟨S100000x64, .f32⟩
  | 91 => ⟨S1x2x1600000, .i32⟩
  | 92 => ⟨S2x1600000, .i32⟩
  | 93 => ⟨S1x128x64, .f32⟩
  | 94 => ⟨S128x64, .f32⟩
  | 95 => ⟨S1x64, .f32⟩
  | 96 => ⟨S64, .f32⟩
  | 97 => ⟨S100000x64, .f32⟩
  | 98 => ⟨S100000, .i32⟩
  | 99 => ⟨S1x1600000, .i32⟩
  | 100 => ⟨S1600000, .i32⟩
  | 101 => ⟨S1700000, .i32⟩
  | 102 => ⟨S1x1600000, .i32⟩
  | 103 => ⟨S1600000, .i32⟩
  | 104 => ⟨S1700000, .i32⟩
  | 105 => ⟨S_, .f32⟩
  | 106 => ⟨S1700000, .f32⟩
  | 107 => ⟨S_, .f32⟩
  | 108 => ⟨S100000, .f32⟩
  | 109 => ⟨S1700000x1, .i32⟩
  | 110 => ⟨S100000, .f32⟩
  | 111 => ⟨S_, .f32⟩
  | 112 => ⟨S100000, .f32⟩
  | 113 => ⟨S100000, .i1⟩
  | 114 => ⟨S100000, .f32⟩
  | 115 => ⟨S_, .f32⟩
  | 116 => ⟨S_, .f32⟩
  | 117 => ⟨S100000, .f32⟩
  | 118 => ⟨S100000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S100000x128, .f32⟩

abbrev hbmTy0_3 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000, .f32⟩
  | 9 => ⟨S1700000, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x64, .f32⟩
  | 19 => ⟨S1700000x1, .f32⟩
  | 20 => ⟨S1700000x64, .f32⟩
  | 21 => ⟨S1700000x64, .f32⟩
  | 22 => ⟨S_, .f32⟩
  | 23 => ⟨S100000x64, .f32⟩
  | 24 => ⟨S1700000x1, .i32⟩
  | 25 => ⟨S100000x64, .f32⟩
  | 26 => ⟨S1x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S100000x64, .f32⟩
  | 33 => ⟨S100000x64, .f32⟩
  | 34 => ⟨S_, .f32⟩
  | 35 => ⟨S100000x64, .f32⟩
  | 36 => ⟨S100000x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_call1_v0 : Ref sig .tc := ⟨.hbm, 97, rfl⟩
abbrev main_call1_v1 : Ref sig .tc := ⟨.hbm, 98, rfl⟩
abbrev main_v74 : Ref sig .tc := ⟨.hbm, 99, rfl⟩
abbrev main_c_13 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_15 : Ref sig .tc := ⟨.hbm, 109, rfl⟩
abbrev main_v82 : Ref sig .tc := ⟨.hbm, 110, rfl⟩
abbrev main_v83 : Ref sig .tc := ⟨.hbm, 111, rfl⟩
abbrev main_c_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_17 : Ref sig .tc := ⟨.hbm, 119, rfl⟩
abbrev main_v90 : Ref sig .tc := ⟨.hbm, 120, rfl⟩
abbrev main_v91 : Ref sig .tc := ⟨.hbm, 121, rfl⟩
abbrev main_c_18 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_19 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_20 : Ref sig .tc := ⟨.hbm, 152, rfl⟩
abbrev main_v120 : Ref sig .tc := ⟨.hbm, 153, rfl⟩
abbrev main_cst_21 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_22 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_23 : Ref sig .tc := ⟨.hbm, 162, rfl⟩
abbrev main_call2_v0 : Ref sig .tc := ⟨.hbm, 163, rfl⟩
abbrev main_call2_v1 : Ref sig .tc := ⟨.hbm, 164, rfl⟩
abbrev main_v127 : Ref sig .tc := ⟨.hbm, 165, rfl⟩
abbrev main_c_24 : Ref sig .tc := ⟨.hbm, 166, rfl⟩
abbrev main_v128 : Ref sig .tc := ⟨.hbm, 167, rfl⟩
abbrev main_v129 : Ref sig .tc := ⟨.hbm, 168, rfl⟩
abbrev main_c_25 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_c_26 : Ref sig .tc := ⟨.hbm, 175, rfl⟩
abbrev main_v135 : Ref sig .tc := ⟨.hbm, 176, rfl⟩
abbrev main_v136 : Ref sig .tc := ⟨.hbm, 177, rfl⟩
abbrev main_c_27 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_c_28 : Ref sig .tc := ⟨.hbm, 185, rfl⟩
abbrev main_v143 : Ref sig .tc := ⟨.hbm, 186, rfl⟩
abbrev main_v144 : Ref sig .tc := ⟨.hbm, 187, rfl⟩
abbrev main_c_29 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_30 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_31 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_32 : Ref sig .tc := ⟨.hbm, 209, rfl⟩
abbrev main_v163 : Ref sig .tc := ⟨.hbm, 210, rfl⟩
abbrev main_v164 : Ref sig .tc := ⟨.hbm, 211, rfl⟩
abbrev main_call3_cst : Ref sig .tc := ⟨.hbm, 212, rfl⟩
abbrev main_call3_v0 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_33 : Ref sig .tc := ⟨.hbm, 229, rfl⟩
abbrev main_v180 : Ref sig .tc := ⟨.hbm, 230, rfl⟩
abbrev main_cst_34 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_cst_35 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_36 : Ref sig .tc := ⟨.hbm, 239, rfl⟩
abbrev main_call4_v0 : Ref sig .tc := ⟨.hbm, 240, rfl⟩
abbrev main_call4_v1 : Ref sig .tc := ⟨.hbm, 241, rfl⟩
abbrev main_v187 : Ref sig .tc := ⟨.hbm, 242, rfl⟩
abbrev main_c_37 : Ref sig .tc := ⟨.hbm, 243, rfl⟩
abbrev main_v188 : Ref sig .tc := ⟨.hbm, 244, rfl⟩
abbrev main_v189 : Ref sig .tc := ⟨.hbm, 245, rfl⟩
abbrev main_c_38 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_c_39 : Ref sig .tc := ⟨.hbm, 252, rfl⟩
abbrev main_v195 : Ref sig .tc := ⟨.hbm, 253, rfl⟩
abbrev main_v196 : Ref sig .tc := ⟨.hbm, 254, rfl⟩
abbrev main_c_40 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_c_41 : Ref sig .tc := ⟨.hbm, 262, rfl⟩
abbrev main_v203 : Ref sig .tc := ⟨.hbm, 263, rfl⟩
abbrev main_v204 : Ref sig .tc := ⟨.hbm, 264, rfl⟩
abbrev main_c_42 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_cst_43 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_cst_44 : Ref sig .tc := ⟨.hbm, 295, rfl⟩
abbrev main_v233 : Ref sig .tc := ⟨.hbm, 296, rfl⟩
abbrev main_cst_45 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_cst_46 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_cst_47 : Ref sig .tc := ⟨.hbm, 305, rfl⟩
abbrev main_call5_v0 : Ref sig .tc := ⟨.hbm, 306, rfl⟩
abbrev main_call5_v1 : Ref sig .tc := ⟨.hbm, 307, rfl⟩
abbrev main_v240 : Ref sig .tc := ⟨.hbm, 308, rfl⟩
abbrev main_c_48 : Ref sig .tc := ⟨.hbm, 309, rfl⟩
abbrev main_v241 : Ref sig .tc := ⟨.hbm, 310, rfl⟩
abbrev main_v242 : Ref sig .tc := ⟨.hbm, 311, rfl⟩
abbrev main_c_49 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_c_50 : Ref sig .tc := ⟨.hbm, 318, rfl⟩
abbrev main_v248 : Ref sig .tc := ⟨.hbm, 319, rfl⟩
abbrev main_v249 : Ref sig .tc := ⟨.hbm, 320, rfl⟩
abbrev main_c_51 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_c_52 : Ref sig .tc := ⟨.hbm, 328, rfl⟩
abbrev main_v256 : Ref sig .tc := ⟨.hbm, 329, rfl⟩
abbrev main_v257 : Ref sig .tc := ⟨.hbm, 330, rfl⟩
abbrev main_c_53 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_cst_54 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_cst_55 : Ref sig .tc := ⟨.hbm, 361, rfl⟩
abbrev main_v286 : Ref sig .tc := ⟨.hbm, 362, rfl⟩
abbrev main_cst_56 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_cst_57 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_cst_58 : Ref sig .tc := ⟨.hbm, 371, rfl⟩
abbrev main_call6_v0 : Ref sig .tc := ⟨.hbm, 372, rfl⟩
abbrev main_call6_v1 : Ref sig .tc := ⟨.hbm, 373, rfl⟩
abbrev main_v293 : Ref sig .tc := ⟨.hbm, 374, rfl⟩
abbrev main_c_59 : Ref sig .tc := ⟨.hbm, 375, rfl⟩
abbrev main_v294 : Ref sig .tc := ⟨.hbm, 376, rfl⟩
abbrev main_v295 : Ref sig .tc := ⟨.hbm, 377, rfl⟩
abbrev main_c_60 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_c_61 : Ref sig .tc := ⟨.hbm, 384, rfl⟩
abbrev main_v301 : Ref sig .tc := ⟨.hbm, 385, rfl⟩
abbrev main_v302 : Ref sig .tc := ⟨.hbm, 386, rfl⟩
abbrev main_c_62 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_c_63 : Ref sig .tc := ⟨.hbm, 394, rfl⟩
abbrev main_v309 : Ref sig .tc := ⟨.hbm, 395, rfl⟩
abbrev main_v310 : Ref sig .tc := ⟨.hbm, 396, rfl⟩
abbrev main_c_64 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_cst_65 : Ref sig .tc := ⟨.hbm, 406, rfl⟩
abbrev main_v319 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_cst_66 : Ref sig .tc := ⟨.hbm, 413, rfl⟩
abbrev main_v325 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_cst_67 : Ref sig .tc := ⟨.hbm, 418, rfl⟩
abbrev main_v329 : Ref sig .tc := ⟨.hbm, 419, rfl⟩
abbrev main_v330 : Ref sig .tc := ⟨.hbm, 420, rfl⟩

abbrev nD : Nat := 1
abbrev τ : Topo := Topo.v7x

variable {F : FTy → Type} [FloatOps F]

class Facts₀ : Prop where
  slices_S3x2x1600000_S1x2x1600000_0_0_0 : S3x2x1600000.Slices ![0, 0, 0] S1x2x1600000
  shapeCasts_S1x2x1600000_S2x1600000 : S1x2x1600000.ShapeCasts S2x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x1600000_S1x2x1600000_1_0_0 : S3x2x1600000.Slices ![1, 0, 0] S1x2x1600000
  slices_S3x128x128_S1x128x128_1_0_0 : S3x128x128.Slices ![1, 0, 0] S1x128x128
  slices_S3x128_S1x128_1_0 : S3x128.Slices ![1, 0] S1x128
  slices_S3x2x1600000_S1x2x1600000_2_0_0 : S3x2x1600000.Slices ![2, 0, 0] S1x2x1600000
  slices_S3x128x128_S1x128x128_2_0_0 : S3x128x128.Slices ![2, 0, 0] S1x128x128
  slices_S3x128_S1x128_2_0 : S3x128.Slices ![2, 0] S1x128
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x128x64_S1x128x64_1_0_0 : S3x128x64.Slices ![1, 0, 0] S1x128x64
  slices_S3x64_S1x64_1_0 : S3x64.Slices ![1, 0] S1x64
  slices_S3x128x64_S1x128x64_2_0_0 : S3x128x64.Slices ![2, 0, 0] S1x128x64
  slices_S3x64_S1x64_2_0 : S3x64.Slices ![2, 0] S1x64
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.K.Reg0.lean ====
/-
  The first linear layer as a region of the program: out[r] = x · W[r] for the three relations r, run as a
  pipeline over the grid (20, 3). At the point (i, r) the body reads rows 5000 i … 5000 i + 4999 of x (window 0, a
  block [5000, 128]) and the matrix W[r] (window 1, a block [1, 128, 128]) and writes the block
  [1, 5000, 128] of the result at (r, 5000 i, 0) (window 2).

  Everything here is stated at a parameter V, the contents of the core's buffers when the region is entered, and at
  any float instance: each window's block at a point, what the body leaves in the output window's staging buffer as
  a function of the two input blocks, the body's triple, the pipeline's proof data, and the body obligation. The
  body reads both inputs whole, reads the output's buffer (and drops what it read), and overwrites the output's
  buffer whole with the product; it keeps nothing from point to point. The rows of x are not fetched again while
  only r moves: the buffer then still holds the block, since the block index has not moved.
-/
import proofs.«128058_j54425825575251_2_alg».proof.Proof.Gen.Kernel.Launch
import proofs.«128058_j54425825575251_2_alg».proof.Proof.Gen.Kernel.Skeleton
import proofs.«128058_j54425825575251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: the staging buffer holds the block at every point, fetched there or not (when only the relation
    moves, the block index has not moved), for any proof data whose array is V's and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix W[r]: the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S1x128x128 := Rect.unit (s := S1x128x128) ![0, 0, 0] S1x128x128.size inb_S1x128x128_S1x128x128_0_0_0
abbrev r0_2 : Rect S1x5000x128 := Rect.unit (s := S1x5000x128) ![0, 0, 0] S1x5000x128.size inb_S1x5000x128_S1x5000x128_0_0_0

/-! ## What the body leaves in the output window's buffer -/

/-- The output's staging buffer after the body, from the two input blocks: its one store, of the product. -/
def out0_2 (x0 : Vec F S5000x128 .f32) (x1 : Vec F S1x128x128 .f32) : Vec F S1x5000x128 .f32 :=
  View.canon [⟨r0_2, k0_pay1 (View.ld x0 r0_0) (View.ld x1 r0_1)⟩]

/-- The store covers the buffer. -/
theorem cover0_2 (p0 : Vec F S1x5000x128 .f32) (y : S1x5000x128.Idx) :
    ∃ pc ∈ ([⟨r0_2, p0⟩] : List (View.Piece (Elt F) S1x5000x128 .f32)), y ∈ pc.1.set :=
  View.cover_of_tiled [⟨r0_2, p0⟩] S1x5000x128.size (by rfl) y

/-! ## The body's triple -/

set_option maxHeartbeats 1000000 in
/-- The body on whole staging memrefs, the inputs' at read contents x0, x1 and the output's at anything, runs to the
    continuation holding the inputs' as they were and the output's at out0_2 of the inputs'. -/
theorem sound_kernel0 (c : Dev nD) (E : Set ℕ) (i : grid0.Coords) (arg2 : Memref sig .tc .vmem S5000x128 .f32) (harg2 : arg2.IsWhole)
    (arg3 : Memref sig .tc .vmem S1x128x128 .f32) (harg3 : arg3.IsWhole) (arg4 : Memref sig .tc .vmem S1x5000x128 .f32) (harg4 : arg4.IsWhole)
    (x0 : Vec F S5000x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t each
    input's buffer at its block and the output's at out0_2 of the input blocks; the invariant is the core's other
    scoped buffers and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem recorded0 (c : Dev nD) (t : Fin (cfg0.N + 1)) : (dat0 V c).recorded t = Set.univ := rfl
theorem q0 (c : Dev nD) (w : Fin cfg0.W) : (dat0 V c).q w = fullShare := rfl
theorem Φ_eq0 (c : Dev nD) (t : Fin (cfg0.N + 1)) : (dat0 V c).Φ t = Pipeline.ΦA spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem body_obligation_loose0 (c : Dev nD) : Pipeline.BodyObligationLoose (dat0 (F := F) V c) (defs₀ (F := F)) Variants.none () Set.univ :=
  (body_obligation0 V c).loose

/-! ## Entering and leaving the region's invariant -/

/-- The invariant is entered from the generator register and the core's scoped buffers that are no staging buffer
    of this region, -/
theorem hin0 (c : Dev nD) :
    iprop((∃ r, prngReg c r) ∗ Pipeline.scopedRest (Ix := Unit) (Name := ℕ) (U := UR sig nD τ) (Lvl := ℕ) (Val := Elt F) spec0 c : sProp 𝕄)
      ⊢ (dat0 V c).Φ 0 := by
  rw [Φ_eq0]; unfold Pipeline.ΦA
  iintro ⟨Hp, Hr⟩
  isplitl [Hr]; · iexact Hr
  iexact Hp

/-- and gives them back. -/
theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c : sProp 𝕄) := by
  rw [Φ_eq0]; unfold Pipeline.ΦA
  iintro ⟨Hr, Hp⟩
  isplitl [Hp]; · iexact Hp
  iexact Hr

end Cert.Kernel.Hand

end
-- ==== Proof.K.Reg1.lean ====
/-
  The first combine region of the program (pipeline 1 of its four): a grid of 50 points, each taking rows
  2000·t … 2000·t + 1999 of three stacked arrays S, XL : [3, 100000, 128] and D : [3, 100000, 1], the whole bias
  array B : [3, 128], and leaving rows 2000·t … of the output [100000, 128].

  Everything is stated at a PARAMETER V, the core's buffer contents when the region is entered. Per window: its block
  at a point, read off V; the fact that an input window's staging buffer holds that block whenever the body runs
  (fetched at that point or left from an earlier one: the bias window is fetched once, its block index never
  moves). The body reads nine sub-blocks (relation r of S, XL, D at r = 0, 1, 2 and row r of B), and stores ONE
  rectangle, the whole output block; what it stores is the composition of its two payload functions. The proof data
  of the pipeline hold the input blocks in place and that stored value in the output window; the body obligation is
  the body's triple at every point; the invariant is the class's (scoped rest and generator register, untouched).
-/
import proofs.«128058_j54425825575251_2_alg».proof.Proof.Gen.Kernel.Launch
import proofs.«128058_j54425825575251_2_alg».proof.Proof.Gen.Kernel.Skeleton
import proofs.«128058_j54425825575251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: relation r of a [3, 2000, C] block, of the [3, 2000, 1] block, row r of the bias, and
    the whole output block -/

abbrev r1_a0 : Rect S3x2000x128 := Rect.unit (s := S3x2000x128) ![0, 0, 0] S1x2000x128.size inb_S3x2000x128_S1x2000x128_0_0_0
abbrev r1_a1 : Rect S3x2000x128 := Rect.unit (s := S3x2000x128) ![1, 0, 0] S1x2000x128.size inb_S3x2000x128_S1x2000x128_1_0_0
abbrev r1_a2 : Rect S3x2000x128 := Rect.unit (s := S3x2000x128) ![2, 0, 0] S1x2000x128.size inb_S3x2000x128_S1x2000x128_2_0_0
abbrev r1_d0 : Rect S3x2000x1 := Rect.unit (s := S3x2000x1) ![0, 0, 0] S1x2000x1.size inb_S3x2000x1_S1x2000x1_0_0_0
abbrev r1_d1 : Rect S3x2000x1 := Rect.unit (s := S3x2000x1) ![1, 0, 0] S1x2000x1.size inb_S3x2000x1_S1x2000x1_1_0_0
abbrev r1_d2 : Rect S3x2000x1 := Rect.unit (s := S3x2000x1) ![2, 0, 0] S1x2000x1.size inb_S3x2000x1_S1x2000x1_2_0_0
abbrev r1_b0 : Rect S3x128 := Rect.unit (s := S3x128) ![0, 0] S1x128.size inb_S3x128_S1x128_0_0
abbrev r1_b1 : Rect S3x128 := Rect.unit (s := S3x128) ![1, 0] S1x128.size inb_S3x128_S1x128_1_0
abbrev r1_b2 : Rect S3x128 := Rect.unit (s := S3x128) ![2, 0] S1x128.size inb_S3x128_S1x128_2_0
abbrev r1_o : Rect S2000x128 := Rect.unit (s := S2000x128) ![0, 0] S2000x128.size inb_S2000x128_S2000x128_0_0

/-! ## What the body leaves in the output window's buffer -/

/-- The output window's staging buffer after the body, from the input windows' blocks: its one store, of the second
    payload applied to the first (relations 0 and 1 and S's relation 2 are summed first, then XL·D and B of relation 2,
    the factor and, here, the maximum with zero). -/
def out1_4 (x0 : Vec F S3x2000x128 .f32) (x1 : Vec F S3x2000x128 .f32) (x2 : Vec F S3x2000x1 .f32) (x3 : Vec F S3x128 .f32) : Vec F S2000x128 .f32 :=
  View.canon [⟨r1_o, k1_pay1 (k1_pay2 (View.ld x0 r1_a0) (View.ld x1 r1_a0) (View.ld x2 r1_d0) (View.ld x3 r1_b0)
      (View.ld x0 r1_a1) (View.ld x1 r1_a1) (View.ld x2 r1_d1) (View.ld x3 r1_b1) (View.ld x0 r1_a2))
    (View.ld x1 r1_a2) (View.ld x2 r1_d2) (View.ld x3 r1_b2)⟩]

/-- The one store is of the whole buffer. -/
theorem cover1_4 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body's triple -/

set_option maxHeartbeats 2000000 in
/-- The body on whole staging memrefs, the inputs' at contents x0 … x3 and the output's at anything, runs to the
    continuation holding the inputs' as they were and the output's at out1_4 of the inputs'. -/
theorem sound_kernel1 (c : Dev nD) (E : Set ℕ) (i : grid1.Coords) (arg1 : Memref sig .tc .vmem S3x2000x128 .f32) (harg1 : arg1.IsWhole) (arg2 : Memref sig .tc .vmem S3x2000x128 .f32) (harg2 : arg2.IsWhole) (arg3 : Memref sig .tc .vmem S3x2000x1 .f32) (harg3 : arg3.IsWhole) (arg4 : Memref sig .tc .vmem S3x128 .f32) (harg4 : arg4.IsWhole) (arg5 : Memref sig .tc .vmem S2000x128 .f32) (harg5 : arg5.IsWhole)
    (x0 : Vec F S3x2000x128 .f32) (x1 : Vec F S3x2000x128 .f32) (x2 : Vec F S3x2000x1 .f32) (x3 : Vec F S3x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-! ## The pipeline's proof data -/

/-- The proof data of pipeline 1 on core c: the arrays as the region finds them; after the body at point t each
    input's buffer at its block and the output's at out1_4 of the input blocks; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := by dsimp only [dat1]
theorem recorded1 (c : Dev nD) (t : Fin (cfg1.N + 1)) : (dat1 V c).recorded t = Set.univ := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem body_obligation_loose1 (c : Dev nD) : Pipeline.BodyObligationLoose (dat1 (F := F) V c) (defs₀ (F := F)) Variants.none () Set.univ :=
  (body_obligation1 V c).loose

/-! ## Entering and leaving the invariant: the generator register and the scoped rest, in and out -/

theorem hin1 (c : Dev nD) :
    iprop((∃ r, prngReg c r) ∗ Pipeline.scopedRest (Ix := Unit) (Name := ℕ) (U := UR sig nD τ) (Lvl := ℕ) (Val := Elt F) spec1 c : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp

theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c : sProp 𝕄) := by
  rw [show (dat1 V c).Φ (Fin.last cfg1.N) = Pipeline.ΦA spec1 c from rfl]; unfold Pipeline.ΦA
  iintro ⟨Hr, Hp⟩
  isplitl [Hp]; · iexact Hp
  iexact Hr

end Region1

end Cert.Kernel.Hand

end
-- ==== Proof.K.Reg2.lean ====
/-
  The second linear layer as a region of the program: out[r] = h · W[r] for the three relations r, run as a
  pipeline over the grid (20, 3). At the point (i, r) the body reads rows 5000 i … 5000 i + 4999 of the hidden
  features h (window 0, a block [5000, 128]) and the matrix W[r] (window 1, a block [1, 128, 64]) and writes the
  block [1, 5000, 64] of the result at (r, 5000 i, 0) (window 2).

  Everything here is stated at a parameter V, the contents of the core's buffers when the region is entered, and at
  any float instance: each window's block at a point, what the body leaves in the output window's staging buffer as
  a function of the two input blocks, the body's triple, the pipeline's proof data, and the body obligation. The
  body reads both inputs whole, reads the output's buffer (and drops what it read), and overwrites the output's
  buffer whole with the product; it keeps nothing from point to point. The rows of h are not fetched again while
  only r moves: the buffer then still holds the block, since the block index has not moved.
-/
import proofs.«128058_j54425825575251_2_alg».proof.Proof.Gen.Kernel.Launch
import proofs.«128058_j54425825575251_2_alg».proof.Proof.Gen.Kernel.Skeleton
import proofs.«128058_j54425825575251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of h: the staging buffer holds the block at every point, fetched there or not (when only the relation
    moves, the block index has not moved), for any proof data whose array is V's and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The matrix W[r]: the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5000x128 := Rect.unit (s := S5000x128) ![0, 0] S5000x128.size inb_S5000x128_S5000x128_0_0
abbrev r2_1 : Rect S1x128x64 := Rect.unit (s := S1x128x64) ![0, 0, 0] S1x128x64.size inb_S1x128x64_S1x128x64_0_0_0
abbrev r2_2 : Rect S1x5000x64 := Rect.unit (s := S1x5000x64) ![0, 0, 0] S1x5000x64.size inb_S1x5000x64_S1x5000x64_0_0_0

/-! ## What the body leaves in the output window's buffer -/

/-- The output's staging buffer after the body, from the two input blocks: its one store, of the product. -/
def out2_2 (x0 : Vec F S5000x128 .f32) (x1 : Vec F S1x128x64 .f32) : Vec F S1x5000x64 .f32 :=
  View.canon [⟨r2_2, k2_pay1 (View.ld x0 r2_0) (View.ld x1 r2_1)⟩]

/-- The store covers the buffer. -/
theorem cover2_2 (p0 : Vec F S1x5000x64 .f32) (y : S1x5000x64.Idx) :
    ∃ pc ∈ ([⟨r2_2, p0⟩] : List (View.Piece (Elt F) S1x5000x64 .f32)), y ∈ pc.1.set :=
  View.cover_of_tiled [⟨r2_2, p0⟩] S1x5000x64.size (by rfl) y

/-! ## The body's triple -/

set_option maxHeartbeats 1000000 in
/-- The body on whole staging memrefs, the inputs' at read contents x0, x1 and the output's at anything, runs to the
    continuation holding the inputs' as they were and the output's at out2_2 of the inputs'. -/
theorem sound_kernel2 (c : Dev nD) (E : Set ℕ) (i : grid2.Coords) (arg2 : Memref sig .tc .vmem S5000x128 .f32) (harg2 : arg2.IsWhole)
    (arg3 : Memref sig .tc .vmem S1x128x64 .f32) (harg3 : arg3.IsWhole) (arg4 : Memref sig .tc .vmem S1x5000x64 .f32) (harg4 : arg4.IsWhole)
    (x0 : Vec F S5000x128 .f32) (x1 : Vec F S1x128x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__linear_kernel i arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core c: the arrays as the region finds them; after the body at point t each
    input's buffer at its block and the output's at out2_2 of the input blocks; the invariant is the core's other
    scoped buffers and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem owed2 (c : Dev nD) (t : Fin (cfg2.N + 1)) : (dat2 V c).owed t = 0 := rfl
theorem recorded2 (c : Dev nD) (t : Fin (cfg2.N + 1)) : (dat2 V c).recorded t = Set.univ := rfl
theorem q2 (c : Dev nD) (w : Fin cfg2.W) : (dat2 V c).q w = fullShare := rfl
theorem Φ_eq2 (c : Dev nD) (t : Fin (cfg2.N + 1)) : (dat2 V c).Φ t = Pipeline.ΦA spec2 c := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

theorem body_obligation_loose2 (c : Dev nD) : Pipeline.BodyObligationLoose (dat2 (F := F) V c) (defs₀ (F := F)) Variants.none () Set.univ :=
  (body_obligation2 V c).loose

/-! ## Entering and leaving the region's invariant -/

/-- The invariant is entered from the generator register and the core's scoped buffers that are no staging buffer
    of this region, -/
theorem hin2 (c : Dev nD) :
    iprop((∃ r, prngReg c r) ∗ Pipeline.scopedRest (Ix := Unit) (Name := ℕ) (U := UR sig nD τ) (Lvl := ℕ) (Val := Elt F) spec2 c : sProp 𝕄)
      ⊢ (dat2 V c).Φ 0 := by
  rw [Φ_eq2]; unfold Pipeline.ΦA
  iintro ⟨Hp, Hr⟩
  isplitl [Hr]; · iexact Hr
  iexact Hp

/-- and gives them back. -/
theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c : sProp 𝕄) := by
  rw [Φ_eq2]; unfold Pipeline.ΦA
  iintro ⟨Hr, Hp⟩
  isplitl [Hp]; · iexact Hp
  iexact Hr

end Cert.Kernel.Hand

end
-- ==== Proof.K.Reg3.lean ====
/-
  The second combine region of the program (pipeline 3 of its four): a grid of 50 points, each taking rows
  2000·t … 2000·t + 1999 of three stacked arrays S, XL : [3, 100000, 64] and D : [3, 100000, 1], the whole bias
  array B : [3, 64], and leaving rows 2000·t … of the output [100000, 64].

  Everything is stated at a PARAMETER V, the core's buffer contents when the region is entered. Per window: its block
  at a point, read off V; the fact that an input window's staging buffer holds that block whenever the body runs
  (fetched at that point or left from an earlier one: the bias window is fetched once, its block index never
  moves). The body reads nine sub-blocks (relation r of S, XL, D at r = 0, 1, 2 and row r of B), and stores ONE
  rectangle, the whole output block; what it stores is the composition of its two payload functions. The proof data
  of the pipeline hold the input blocks in place and that stored value in the output window; the body obligation is
  the body's triple at every point; the invariant is the class's (scoped rest and generator register, untouched).
-/
import proofs.«128058_j54425825575251_2_alg».proof.Proof.Gen.Kernel.Launch
import proofs.«128058_j54425825575251_2_alg».proof.Proof.Gen.Kernel.Skeleton
import proofs.«128058_j54425825575251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: relation r of a [3, 2000, C] block, of the [3, 2000, 1] block, row r of the bias, and
    the whole output block -/

abbrev r3_a0 : Rect S3x2000x64 := Rect.unit (s := S3x2000x64) ![0, 0, 0] S1x2000x64.size inb_S3x2000x64_S1x2000x64_0_0_0
abbrev r3_a1 : Rect S3x2000x64 := Rect.unit (s := S3x2000x64) ![1, 0, 0] S1x2000x64.size inb_S3x2000x64_S1x2000x64_1_0_0
abbrev r3_a2 : Rect S3x2000x64 := Rect.unit (s := S3x2000x64) ![2, 0, 0] S1x2000x64.size inb_S3x2000x64_S1x2000x64_2_0_0
abbrev r3_d0 : Rect S3x2000x1 := Rect.unit (s := S3x2000x1) ![0, 0, 0] S1x2000x1.size inb_S3x2000x1_S1x2000x1_0_0_0
abbrev r3_d1 : Rect S3x2000x1 := Rect.unit (s := S3x2000x1) ![1, 0, 0] S1x2000x1.size inb_S3x2000x1_S1x2000x1_1_0_0
abbrev r3_d2 : Rect S3x2000x1 := Rect.unit (s := S3x2000x1) ![2, 0, 0] S1x2000x1.size inb_S3x2000x1_S1x2000x1_2_0_0
abbrev r3_b0 : Rect S3x64 := Rect.unit (s := S3x64) ![0, 0] S1x64.size inb_S3x64_S1x64_0_0
abbrev r3_b1 : Rect S3x64 := Rect.unit (s := S3x64) ![1, 0] S1x64.size inb_S3x64_S1x64_1_0
abbrev r3_b2 : Rect S3x64 := Rect.unit (s := S3x64) ![2, 0] S1x64.size inb_S3x64_S1x64_2_0
abbrev r3_o : Rect S2000x64 := Rect.unit (s := S2000x64) ![0, 0] S2000x64.size inb_S2000x64_S2000x64_0_0

/-! ## What the body leaves in the output window's buffer -/

/-- The output window's staging buffer after the body, from the input windows' blocks: its one store, of the second
    payload applied to the first (relations 0 and 1 and S's relation 2 are summed first, then XL·D and B of relation 2,
    then the factor; no maximum here). -/
def out3_4 (x0 : Vec F S3x2000x64 .f32) (x1 : Vec F S3x2000x64 .f32) (x2 : Vec F S3x2000x1 .f32) (x3 : Vec F S3x64 .f32) : Vec F S2000x64 .f32 :=
  View.canon [⟨r3_o, k3_pay1 (k3_pay2 (View.ld x0 r3_a0) (View.ld x1 r3_a0) (View.ld x2 r3_d0) (View.ld x3 r3_b0)
      (View.ld x0 r3_a1) (View.ld x1 r3_a1) (View.ld x2 r3_d1) (View.ld x3 r3_b1) (View.ld x0 r3_a2))
    (View.ld x1 r3_a2) (View.ld x2 r3_d2) (View.ld x3 r3_b2)⟩]

/-- The one store is of the whole buffer. -/
theorem cover3_4 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

/-! ## The body's triple -/

set_option maxHeartbeats 2000000 in
/-- The body on whole staging memrefs, the inputs' at contents x0 … x3 and the output's at anything, runs to the
    continuation holding the inputs' as they were and the output's at out3_4 of the inputs'. -/
theorem sound_kernel3 (c : Dev nD) (E : Set ℕ) (i : grid3.Coords) (arg1 : Memref sig .tc .vmem S3x2000x64 .f32) (harg1 : arg1.IsWhole) (arg2 : Memref sig .tc .vmem S3x2000x64 .f32) (harg2 : arg2.IsWhole) (arg3 : Memref sig .tc .vmem S3x2000x1 .f32) (harg3 : arg3.IsWhole) (arg4 : Memref sig .tc .vmem S3x64 .f32) (harg4 : arg4.IsWhole) (arg5 : Memref sig .tc .vmem S2000x64 .f32) (harg5 : arg5.IsWhole)
    (x0 : Vec F S3x2000x64 .f32) (x1 : Vec F S3x2000x64 .f32) (x2 : Vec F S3x2000x1 .f32) (x3 : Vec F S3x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover3_4 _)

/-! ## The pipeline's proof data -/

/-- The proof data of pipeline 3 on core c: the arrays as the region finds them; after the body at point t each
    input's buffer at its block and the output's at out3_4 of the input blocks; the class's invariant; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem owed3 (c : Dev nD) (t : Fin (cfg3.N + 1)) : (dat3 V c).owed t = 0 := by dsimp only [dat3]
theorem recorded3 (c : Dev nD) (t : Fin (cfg3.N + 1)) : (dat3 V c).recorded t = Set.univ := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's owed tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

theorem body_obligation_loose3 (c : Dev nD) : Pipeline.BodyObligationLoose (dat3 (F := F) V c) (defs₀ (F := F)) Variants.none () Set.univ :=
  (body_obligation3 V c).loose

/-! ## Entering and leaving the invariant: the generator register and the scoped rest, in and out -/

theorem hin3 (c : Dev nD) :
    iprop((∃ r, prngReg c r) ∗ Pipeline.scopedRest (Ix := Unit) (Name := ℕ) (U := UR sig nD τ) (Lvl := ℕ) (Val := Elt F) spec3 c : sProp 𝕄) ⊢ (dat3 V c).Φ 0 := by
  rw [show (dat3 V c).Φ 0 = Pipeline.ΦA spec3 c from rfl]; unfold Pipeline.ΦA
  iintro ⟨Hp, Hr⟩
  isplitl [Hr]; · iexact Hr
  iexact Hp

theorem hout3 (c : Dev nD) :
    (dat3 V c).Φ (Fin.last cfg3.N) ⊢ iprop((∃ r, prngReg c r) ∗ Pipeline.scopedRest (Ix := Unit) (Name := ℕ) (U := UR sig nD τ) (Lvl := ℕ) (Val := Elt F) spec3 c : sProp 𝕄) := by
  rw [show (dat3 V c).Φ (Fin.last cfg3.N) = Pipeline.ΦA spec3 c from rfl]; unfold Pipeline.ΦA
  iintro ⟨Hr, Hp⟩
  isplitl [Hp]; · iexact Hp
  iexact Hr

end Region3

end Cert.Kernel.Hand

end
-- ==== Proof.LibRegionA.lean ====
/-
  A kernel region of a program of several regions, as a segment of @main, when the region's windows stage pairwise
  DISTINCT whole arrays, the kernel has no semaphore of its own, no prefetched table, and owes nothing.

  The thread state around the region is "every unscoped buffer of the core at a valuation, the generator register at
  some state, nothing owed". At entry the region's arrays are split out of the core's unscoped buffers, each at what
  the entry valuation holds there; at exit they are put back at what the pipeline leaves, into a valuation that has
  exactly those contents at the arrays and agrees with the entry valuation elsewhere. The unscoped buffers that are no
  window's array pass by the region; the region's invariant is entered from, and gives back, the generator register
  and the core's scoped buffers that are no staging buffer.
-/
import Idealize.ShloMosaic.Lib.Pipeline.Frame
import Idealize.ShloMosaic.Lib.Pipeline.Regions
import Idealize.ShloMosaic.Lib.Pipeline.RegionsLoop

noncomputable section

namespace Cert.RegionA

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- What rides beside the unscoped buffers through every segment: the core's generator register at some state and
    its owes, at nothing. -/
abbrev Ride (c : Dev nD) : sProp 𝕄 :=
  iprop((∃ r, prngReg c r) ∗ ∃ W, owes (c : Thread nD τ) (0 : CellTallies nD τ sig Unit) W)

/-- The thread state between two segments: every unscoped buffer of core c at the valuation V, beside Ride. -/
abbrev St (V : Valuation τ sig Val) (c : Dev nD) : sProp 𝕄 :=
  iprop(StableHlo.held (c : Thread nD τ) (ucRefs τ sig) V ∗ Ride (τ := τ) (sig := sig) (Val := Val) c)

variable (pcs : P → PCfg sig Λ₀ Val) (a : (p : P) → (pcs p).Adm)
  (pdats : (p : P) → (c : Dev nD) → Dat τ Val Unit ℕ (UR sig nD τ) ℕ (pin pcs a p) c)
  (defs₀ : Defs nD τ sig Val Λ₀) (𝒱₀ : Variants)
  (L : GSem nD τ sig → Finset Unit) (lv : GSem nD τ sig → Unit → ℕ)

set_option backward.isDefEq.respectTransparency.types false in
/-- The region p as a segment entered from St (V c) and left at St (V' c), where V' has the region's arrays at
    what the pipeline leaves (hF) and agrees with V elsewhere (hrest). -/
def regionSeg (p : P)
    (hw : WinFacts (pin pcs a p).spec)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (harr : ∀ w, ((pin pcs a p).spec w).arr.IsWhole)
    (hbody : ∀ c, BodyObligationLoose (pdats p c) defs₀ 𝒱₀ () Set.univ)
    (howed : ∀ c t, (pdats p c).owed t = 0)
    (hrec : ∀ c t, (pdats p c).recorded t = Set.univ)
    (hshare : ∀ c w, (pdats p c).share w = fullShare)
    (hpf : ∀ c : Dev nD, (BI.emp : sProp 𝕄) ⊢ prefHeld (pcs p).pre c (fun _ => fullShare) (a p).1)
    (V V' : (c : Dev nD) → Valuation τ sig Val)
    (hA : ∀ c w, (pdats p c).A w = V c (arrRef (pin pcs a p).spec w))
    (hF : ∀ c w, (pdats p c).arrAt w (pin pcs a p).N = V' c (arrRef (pin pcs a p).spec w))
    (hrest : ∀ c (b : Ref sig .tc), b ∉ Finset.univ.image (arrRef (pin pcs a p).spec) → V' c b = V c b)
    (hin : ∀ c, iprop((∃ r, prngReg c r) ∗ scopedRest (pin pcs a p).spec c : sProp 𝕄) ⊢ (pdats p c).Φ 0)
    (hout : ∀ c, (pdats p c).Φ (Fin.last (pin pcs a p).N) ⊢ iprop((∃ r, prngReg c r) ∗ scopedRest (pin pcs a p).spec c : sProp 𝕄)) :
    RegionSeg pcs a pdats () defs₀ 𝒱₀ L lv p where
  win := hw.to₀
  block_pos := hne
  stage_whole := hstage
  K := PEmpty
  osem k := k.elim
  ho := OwnSemFacts.none _
  hbody := hbody
  hwaits := hwaits_of_owed_zero pcs a pdats () L lv p howed
  pre c := St (V c) c
  post c := St (V' c) c
  X c := iprop(∃ r, prngReg c r)
  Y c := iprop(∃ r, prngReg c r)
  Z c := unscopedRest (Ix := Unit) (Name := ℕ) (U := UR sig nD τ) (Lvl := ℕ) (pin pcs a p).spec c (fun b => V c b)
  hentry c := by
    rw [ownSems0_none]
    have hs := arrays_of_unscopedBufs (p := p) pcs a pdats hw harr c (hshare c) (fun b => V c b) (hA c)
    rw [unscopedBufs_held] at hs
    unfold St
    iintro ⟨⟨Hub, Hp, HO⟩, -, -⟩
    ihave H := hs $$ Hub
    icases H with ⟨Ha, Hrest⟩
    imodintro
    isplitl [Ha]; · iexact Ha
    isplitr; · iapply (hpf c); iempintro
    isplitl [HO]
    · unfold Dat.owesAt owesWithin
      rw [howed c 0]
      icases HO with ⟨%W, HO⟩; iexists W; isplitr
      · ipureintro; unfold Dat.bound; rw [hrec c 0]; exact fun _ _ => Or.inl trivial
      iexact HO
    isplitl [Hp]; · iexact Hp
    iexact Hrest
  hin c := by
    iintro ⟨Hp, -, Hr⟩
    iapply (hin c)
    isplitl [Hp]; · iexact Hp
    iexact Hr
  hout c := by
    rw [ownSems0_none]
    iintro H
    ihave H' := (hout c) $$ H
    icases H' with ⟨Hp, Hr⟩
    isplitl [Hp]; · iexact Hp
    isplitr; · iempintro
    iexact Hr
  hexit c := by
    have hj := unscopedBufs_of_arrays (p := p) pcs a (Ix := Unit) (Name := ℕ) (U := UR sig nD τ) (Lvl := ℕ) hw harr c pdats
      (hshare c) (fun b => V c b) (fun b => V' c b) ((pdats p c).arrAt · (pin pcs a p).N) (hF c) (hrest c)
    rw [unscopedBufs_held] at hj
    unfold St
    iintro ⟨Ha, HO, HY, Hrest⟩
    imodintro
    isplitl [Ha Hrest]
    · iapply hj; isplitl [Ha] <;> iassumption
    isplitl [HY]; · iexact HY
    unfold Dat.owesAt owesWithin
    rw [howed c (Fin.last _)]
    icases HO with ⟨%W, -, HO⟩; iexists W; iexact HO

end Cert.RegionA

end
-- ==== Proof.K.RunAll.lean ====
/-
  The whole run of the program of four kernel regions (linear, combine, linear, combine) with host stretches between
  them: every weakly fair execution terminates, nothing faults, and every unscoped buffer of every core ends at the last
  valuation of the fold through @main — the launch contents, each host stretch applied, each region's output array at
  what its pipeline leaves.

  What a region leaves depends on the contents it is entered from, which depend on what the regions before it left. So
  the four output arrays are defined one after the other (o1, o9, o10, o18), each from the fold up to its region over
  the outputs before it; the fold up to a region reads only the outputs of the regions before it (V8_congr, V9_congr,
  V17_congr), so the final family of outputs meets every region's defining equation.
-/
import proofs.«128058_j54425825575251_2_alg».proof.Proof.Gen.Kernel.Regions
import proofs.«128058_j54425825575251_2_alg».proof.Proof.K.Reg0
import proofs.«128058_j54425825575251_2_alg».proof.Proof.K.Reg1
import proofs.«128058_j54425825575251_2_alg».proof.Proof.K.Reg2
import proofs.«128058_j54425825575251_2_alg».proof.Proof.K.Reg3
import proofs.«128058_j54425825575251_2_alg».proof.Proof.LibRegionA
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, one after the other -/

/-- The contents region 0 is entered from: the launch memory. -/
abbrev Vin0 : (c : Dev nD) → (b : Ref sig .tc) → Buf (Elt F) ((c : Thread nD τ).loc b) := fun c b => Gen.V0 m c b
/-- Region 0 (the first linear step) leaves this in main_v0. -/
def o1 (c : Dev nD) : Buf (Elt F) ((c : Thread nD τ).loc main_v0) := (dat0 (Vin0 m) c).arrAt 2 cfg0.N
def ou1 : Gen.Outs (F := F) := fun _ r c => Function.update (Gen.V0 m c) main_v0 (o1 m c) r
/-- The contents region 1 is entered from. -/
abbrev Vin1 : (c : Dev nD) → (b : Ref sig .tc) → Buf (Elt F) ((c : Thread nD τ).loc b) := fun c b => Gen.V8 m (ou1 m) c b
/-- Region 1 (the first combine step) leaves this in main_v151. -/
def o9 (c : Dev nD) : Buf (Elt F) ((c : Thread nD τ).loc main_v151) := (dat1 (Vin1 m) c).arrAt 4 cfg1.N
def ou2 : Gen.Outs (F := F) := fun _ r c => Function.update (Function.update (Gen.V0 m c) main_v0 (o1 m c)) main_v151 (o9 m c) r
/-- The contents region 2 is entered from. -/
abbrev Vin2 : (c : Dev nD) → (b : Ref sig .tc) → Buf (Elt F) ((c : Thread nD τ).loc b) := fun c b => Gen.V9 m (ou2 m) c b
/-- Region 2 (the second linear step) leaves this in main_v152. -/
def o10 (c : Dev nD) : Buf (Elt F) ((c : Thread nD τ).loc main_v152) := (dat2 (Vin2 m) c).arrAt 2 cfg2.N
def ou3 : Gen.Outs (F := F) := fun _ r c =>
  Function.update (Function.update (Function.update (Gen.V0 m c) main_v0 (o1 m c)) main_v151 (o9 m c)) main_v152 (o10 m c) r
/-- The contents region 3 is entered from. -/
abbrev Vin3 : (c : Dev nD) → (b : Ref sig .tc) → Buf (Elt F) ((c : Thread nD τ).loc b) := fun c b => Gen.V17 m (ou3 m) c b
/-- Region 3 (the second combine step) leaves this in main_v303, the program's result. -/
def o18 (c : Dev nD) : Buf (Elt F) ((c : Thread nD τ).loc main_v303) := (dat3 (Vin3 m) c).arrAt 4 cfg3.N
/-- The four outputs together. -/
def outs : Gen.Outs (F := F) := fun _ r c =>
  Function.update (Function.update (Function.update (Function.update (Gen.V0 m c) main_v0 (o1 m c)) main_v151 (o9 m c)) main_v152 (o10 m c))
    main_v303 (o18 m c) r

theorem ne_of {r r' : Ref sig .tc} (h : r ≠ r') : (Proc.devRef .tc r : DevRef τ sig) ≠ Proc.devRef .tc r' :=
  StableHlo.devRef_ne_of_ne h

theorem outs_v0 (J : ℕ) (c : Dev nD) : outs m J main_v0 c = o1 m c := by
  unfold outs
  rw [Function.update_of_ne (ne_of (by decide)), Function.update_of_ne (ne_of (by decide)),
    Function.update_of_ne (ne_of (by decide)), Function.update_self]
theorem outs_v151 (J : ℕ) (c : Dev nD) : outs m J main_v151 c = o9 m c := by
  unfold outs
  rw [Function.update_of_ne (ne_of (by decide)), Function.update_of_ne (ne_of (by decide)), Function.update_self]
theorem outs_v152 (J : ℕ) (c : Dev nD) : outs m J main_v152 c = o10 m c := by
  unfold outs
  rw [Function.update_of_ne (ne_of (by decide)), Function.update_self]
theorem outs_v303 (J : ℕ) (c : Dev nD) : outs m J main_v303 c = o18 m c := by
  unfold outs
  rw [Function.update_self]
theorem ou1_v0 (J : ℕ) (c : Dev nD) : ou1 m J main_v0 c = o1 m c := by
  unfold ou1; rw [Function.update_self]
theorem ou2_v0 (J : ℕ) (c : Dev nD) : ou2 m J main_v0 c = o1 m c := by
  unfold ou2; rw [Function.update_of_ne (ne_of (by decide)), Function.update_self]
theorem ou2_v151 (J : ℕ) (c : Dev nD) : ou2 m J main_v151 c = o9 m c := by
  unfold ou2; rw [Function.update_self]
theorem ou3_v0 (J : ℕ) (c : Dev nD) : ou3 m J main_v0 c = o1 m c := by
  unfold ou3; rw [Function.update_of_ne (ne_of (by decide)), Function.update_of_ne (ne_of (by decide)), Function.update_self]
theorem ou3_v151 (J : ℕ) (c : Dev nD) : ou3 m J main_v151 c = o9 m c := by
  unfold ou3; rw [Function.update_of_ne (ne_of (by decide)), Function.update_self]
theorem ou3_v152 (J : ℕ) (c : Dev nD) : ou3 m J main_v152 c = o10 m c := by
  unfold ou3; rw [Function.update_self]

/-! ## The fold up to a region reads only the outputs before it -/

theorem V8_congr (o o' : Gen.Outs (F := F)) (c : Dev nD) (h1 : o 1 main_v0 c = o' 1 main_v0 c) :
    Gen.V8 m o c = Gen.V8 m o' c := by
  dsimp only [Gen.V8, Gen.V7, Gen.V6, Gen.V5, Gen.V4, Gen.V3, Gen.V2, Gen.V1]
  rw [h1]

theorem V9_congr (o o' : Gen.Outs (F := F)) (c : Dev nD) (h1 : o 1 main_v0 c = o' 1 main_v0 c)
    (h9 : o 9 main_v151 c = o' 9 main_v151 c) : Gen.V9 m o c = Gen.V9 m o' c := by
  dsimp only [Gen.V9]
  rw [V8_congr m o o' c h1, h9]

theorem V17_congr (o o' : Gen.Outs (F := F)) (c : Dev nD) (h1 : o 1 main_v0 c = o' 1 main_v0 c)
    (h9 : o 9 main_v151 c = o' 9 main_v151 c) (h10 : o 10 main_v152 c = o' 10 main_v152 c) :
    Gen.V17 m o c = Gen.V17 m o' c := by
  dsimp only [Gen.V17, Gen.V16, Gen.V15, Gen.V14, Gen.V13, Gen.V12, Gen.V11, Gen.V10]
  rw [V9_congr m o o' c h1 h9, h10]

theorem V8_outs (c : Dev nD) : Gen.V8 m (outs m) c = Gen.V8 m (ou1 m) c :=
  V8_congr m _ _ c ((outs_v0 m 1 c).trans (ou1_v0 m 1 c).symm)
theorem V9_outs (c : Dev nD) : Gen.V9 m (outs m) c = Gen.V9 m (ou2 m) c :=
  V9_congr m _ _ c ((outs_v0 m 1 c).trans (ou2_v0 m 1 c).symm) ((outs_v151 m 9 c).trans (ou2_v151 m 9 c).symm)
theorem V17_outs (c : Dev nD) : Gen.V17 m (outs m) c = Gen.V17 m (ou3 m) c :=
  V17_congr m _ _ c ((outs_v0 m 1 c).trans (ou3_v0 m 1 c).symm) ((outs_v151 m 9 c).trans (ou3_v151 m 9 c).symm)
    ((outs_v152 m 10 c).trans (ou3_v152 m 10 c).symm)

/-! ## The proof data family -/

abbrev 𝒱₀ : Variants := Variants.none
abbrev L : GSem nD τ sig → Finset Unit := fun _ => ∅
abbrev lv : GSem nD τ sig → Unit → ℕ := fun _ _ => 0

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c

/-! ## The regions as segments

  Each region is entered from "every unscoped buffer at the fold's valuation before it" and left at the valuation after
  it: its input arrays end as they were entered, its output array at what the pipeline leaves, every other buffer
  untouched. -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hpf (p : Fin 4) (c : Dev nD) :
    (BI.emp : sProp 𝕄) ⊢ Pipeline.prefHeld (pcfgs (F := F) p).pre c (fun _ => fullShare) (Gen.adm (F := F) p).1 := by
  match p with
  | ⟨0, _⟩ => unfold Pipeline.prefHeld; rw [show (Finset.univ : Finset (Fin 0)) = ∅ from rfl, BI.bigSep_empty]
  | ⟨1, _⟩ => unfold Pipeline.prefHeld; rw [show (Finset.univ : Finset (Fin 0)) = ∅ from rfl, BI.bigSep_empty]
  | ⟨2, _⟩ => unfold Pipeline.prefHeld; rw [show (Finset.univ : Finset (Fin 0)) = ∅ from rfl, BI.bigSep_empty]
  | ⟨3, _⟩ => unfold Pipeline.prefHeld; rw [show (Finset.univ : Finset (Fin 0)) = ∅ from rfl, BI.bigSep_empty]

/-- Region 0: inputs main_arg0, main_arg2 end as entered; main_v0 at what the pipeline leaves. -/
theorem hF0 (c : Dev nD) : ∀ w : Fin cfg0.W, (pdats m 0 c).arrAt w cfg0.N = Gen.V1 m (outs m) c (Pipeline.arrRef spec0 w)
  | ⟨0, _⟩ => (((pdats m 0 c).arrAt_in 0 rfl _).trans (A_eq0 (Vin0 m) c 0)).trans (Gen.V1_of m (outs m) c main_arg0 (by decide)).symm
  | ⟨1, _⟩ => (((pdats m 0 c).arrAt_in 1 rfl _).trans (A_eq0 (Vin0 m) c 1)).trans (Gen.V1_of m (outs m) c main_arg2 (by decide)).symm
  | ⟨2, _⟩ => by
    show o1 m c = Function.update (Gen.V0 m c) main_v0 (outs m 1 main_v0 c) main_v0
    rw [Function.update_self, outs_v0]

theorem hrest0 (c : Dev nD) (b : Ref sig .tc) (hb : b ∉ Finset.univ.image (Pipeline.arrRef spec0)) :
    Gen.V1 m (outs m) c b = Gen.V0 m c b :=
  Gen.V1_of m (outs m) c b fun h => hb (by
    rw [List.mem_singleton.mp h]; exact Finset.mem_image.mpr ⟨2, Finset.mem_univ _, rfl⟩)

set_option maxHeartbeats 1600000 in
def reg0 : RegionSeg (pcfgs (F := F)) Gen.adm (pdats m) () defs₀ 𝒱₀ L lv 0 :=
  Cert.RegionA.regionSeg (pcfgs (F := F)) Gen.adm (pdats m) defs₀ 𝒱₀ L lv 0
    launch0.win launch0.block_pos launch0.stage_whole launch0.arr_whole
    (fun c => body_obligation_loose0 (Vin0 m) c) (fun c t => owed0 (Vin0 m) c t) (fun c t => recorded0 (Vin0 m) c t)
    (fun c => (pdats m 0 c).share_full fun _ => rfl) (hpf 0)
    (fun c => Gen.V0 m c) (fun c => Gen.V1 m (outs m) c)
    (fun c w => A_eq0 (Vin0 m) c w) (hF0 m) (hrest0 m) (fun c => hin0 (Vin0 m) c) (fun c => hout0 (Vin0 m) c)

/-- Region 1: inputs main_v145, main_v0, main_v150, main_arg3 end as entered; main_v151 at what the pipeline leaves. -/
theorem hA1 (c : Dev nD) (w : Fin cfg1.W) : (pdats m 1 c).A w = Gen.V8 m (outs m) c (Pipeline.arrRef spec1 w) :=
  (A_eq1 (Vin1 m) c w).trans (congrFun (V8_outs m c).symm (Proc.devRef .tc (Pipeline.arrRef spec1 w)))

theorem hF1 (c : Dev nD) : ∀ w : Fin cfg1.W, (pdats m 1 c).arrAt w cfg1.N = Gen.V9 m (outs m) c (Pipeline.arrRef spec1 w)
  | ⟨0, _⟩ => (((pdats m 1 c).arrAt_in 0 rfl _).trans (hA1 m c 0)).trans (Gen.V9_of m (outs m) c main_v145 (by decide)).symm
  | ⟨1, _⟩ => (((pdats m 1 c).arrAt_in 1 rfl _).trans (hA1 m c 1)).trans (Gen.V9_of m (outs m) c main_v0 (by decide)).symm
  | ⟨2, _⟩ => (((pdats m 1 c).arrAt_in 2 rfl _).trans (hA1 m c 2)).trans (Gen.V9_of m (outs m) c main_v150 (by decide)).symm
  | ⟨3, _⟩ => (((pdats m 1 c).arrAt_in 3 rfl _).trans (hA1 m c 3)).trans (Gen.V9_of m (outs m) c main_arg3 (by decide)).symm
  | ⟨4, _⟩ => by
    show o9 m c = Function.update (Gen.V8 m (outs m) c) main_v151 (outs m 9 main_v151 c) main_v151
    rw [Function.update_self, outs_v151]

theorem hrest1 (c : Dev nD) (b : Ref sig .tc) (hb : b ∉ Finset.univ.image (Pipeline.arrRef spec1)) :
    Gen.V9 m (outs m) c b = Gen.V8 m (outs m) c b :=
  Gen.V9_of m (outs m) c b fun h => hb (by
    rw [List.mem_singleton.mp h]; exact Finset.mem_image.mpr ⟨4, Finset.mem_univ _, rfl⟩)

set_option maxHeartbeats 1600000 in
def reg1 : RegionSeg (pcfgs (F := F)) Gen.adm (pdats m) () defs₀ 𝒱₀ L lv 1 :=
  Cert.RegionA.regionSeg (pcfgs (F := F)) Gen.adm (pdats m) defs₀ 𝒱₀ L lv 1
    launch1.win launch1.block_pos launch1.stage_whole launch1.arr_whole
    (fun c => body_obligation_loose1 (Vin1 m) c) (fun c t => owed1 (Vin1 m) c t) (fun c t => recorded1 (Vin1 m) c t)
    (fun c => (pdats m 1 c).share_full fun _ => rfl) (hpf 1)
    (fun c => Gen.V8 m (outs m) c) (fun c => Gen.V9 m (outs m) c)
    (hA1 m) (hF1 m) (hrest1 m) (fun c => hin1 (Vin1 m) c) (fun c => hout1 (Vin1 m) c)

/-- Region 2: inputs main_v151, main_arg4 end as entered; main_v152 at what the pipeline leaves. -/
theorem hA2 (c : Dev nD) (w : Fin cfg2.W) : (pdats m 2 c).A w = Gen.V9 m (outs m) c (Pipeline.arrRef spec2 w) :=
  (A_eq2 (Vin2 m) c w).trans (congrFun (V9_outs m c).symm (Proc.devRef .tc (Pipeline.arrRef spec2 w)))

theorem hF2 (c : Dev nD) : ∀ w : Fin cfg2.W, (pdats m 2 c).arrAt w cfg2.N = Gen.V10 m (outs m) c (Pipeline.arrRef spec2 w)
  | ⟨0, _⟩ => (((pdats m 2 c).arrAt_in 0 rfl _).trans (hA2 m c 0)).trans (Gen.V10_of m (outs m) c main_v151 (by decide)).symm
  | ⟨1, _⟩ => (((pdats m 2 c).arrAt_in 1 rfl _).trans (hA2 m c 1)).trans (Gen.V10_of m (outs m) c main_arg4 (by decide)).symm
  | ⟨2, _⟩ => by
    show o10 m c = Function.update (Gen.V9 m (outs m) c) main_v152 (outs m 10 main_v152 c) main_v152
    rw [Function.update_self, outs_v152]

theorem hrest2 (c : Dev nD) (b : Ref sig .tc) (hb : b ∉ Finset.univ.image (Pipeline.arrRef spec2)) :
    Gen.V10 m (outs m) c b = Gen.V9 m (outs m) c b :=
  Gen.V10_of m (outs m) c b fun h => hb (by
    rw [List.mem_singleton.mp h]; exact Finset.mem_image.mpr ⟨2, Finset.mem_univ _, rfl⟩)

set_option maxHeartbeats 1600000 in
def reg2 : RegionSeg (pcfgs (F := F)) Gen.adm (pdats m) () defs₀ 𝒱₀ L lv 2 :=
  Cert.RegionA.regionSeg (pcfgs (F := F)) Gen.adm (pdats m) defs₀ 𝒱₀ L lv 2
    launch2.win launch2.block_pos launch2.stage_whole launch2.arr_whole
    (fun c => body_obligation_loose2 (Vin2 m) c) (fun c t => owed2 (Vin2 m) c t) (fun c t => recorded2 (Vin2 m) c t)
    (fun c => (pdats m 2 c).share_full fun _ => rfl) (hpf 2)
    (fun c => Gen.V9 m (outs m) c) (fun c => Gen.V10 m (outs m) c)
    (hA2 m) (hF2 m) (hrest2 m) (fun c => hin2 (Vin2 m) c) (fun c => hout2 (Vin2 m) c)

/-- Region 3: inputs main_v297, main_v152, main_v302, main_arg5 end as entered; main_v303 at what the pipeline leaves. -/
theorem hA3 (c : Dev nD) (w : Fin cfg3.W) : (pdats m 3 c).A w = Gen.V17 m (outs m) c (Pipeline.arrRef spec3 w) :=
  (A_eq3 (Vin3 m) c w).trans (congrFun (V17_outs m c).symm (Proc.devRef .tc (Pipeline.arrRef spec3 w)))

theorem hF3 (c : Dev nD) : ∀ w : Fin cfg3.W, (pdats m 3 c).arrAt w cfg3.N = Gen.V18 m (outs m) c (Pipeline.arrRef spec3 w)
  | ⟨0, _⟩ => (((pdats m 3 c).arrAt_in 0 rfl _).trans (hA3 m c 0)).trans (Gen.V18_of m (outs m) c main_v297 (by decide)).symm
  | ⟨1, _⟩ => (((pdats m 3 c).arrAt_in 1 rfl _).trans (hA3 m c 1)).trans (Gen.V18_of m (outs m) c main_v152 (by decide)).symm
  | ⟨2, _⟩ => (((pdats m 3 c).arrAt_in 2 rfl _).trans (hA3 m c 2)).trans (Gen.V18_of m (outs m) c main_v302 (by decide)).symm
  | ⟨3, _⟩ => (((pdats m 3 c).arrAt_in 3 rfl _).trans (hA3 m c 3)).trans (Gen.V18_of m (outs m) c main_arg5 (by decide)).symm
  | ⟨4, _⟩ => by
    show o18 m c = Function.update (Gen.V17 m (outs m) c) main_v303 (outs m 18 main_v303 c) main_v303
    rw [Function.update_self, outs_v303]

theorem hrest3 (c : Dev nD) (b : Ref sig .tc) (hb : b ∉ Finset.univ.image (Pipeline.arrRef spec3)) :
    Gen.V18 m (outs m) c b = Gen.V17 m (outs m) c b :=
  Gen.V18_of m (outs m) c b fun h => hb (by
    rw [List.mem_singleton.mp h]; exact Finset.mem_image.mpr ⟨4, Finset.mem_univ _, rfl⟩)

set_option maxHeartbeats 1600000 in
def reg3 : RegionSeg (pcfgs (F := F)) Gen.adm (pdats m) () defs₀ 𝒱₀ L lv 3 :=
  Cert.RegionA.regionSeg (pcfgs (F := F)) Gen.adm (pdats m) defs₀ 𝒱₀ L lv 3
    launch3.win launch3.block_pos launch3.stage_whole launch3.arr_whole
    (fun c => body_obligation_loose3 (Vin3 m) c) (fun c t => owed3 (Vin3 m) c t) (fun c t => recorded3 (Vin3 m) c t)
    (fun c => (pdats m 3 c).share_full fun _ => rfl) (hpf 3)
    (fun c => Gen.V17 m (outs m) c) (fun c => Gen.V18 m (outs m) c)
    (hA3 m) (hF3 m) (hrest3 m) (fun c => hin3 (Vin3 m) c) (fun c => hout3 (Vin3 m) c)

/-! ## The run -/

/-- What rides beside the buffers between any two items. -/
abbrev E : Fin 5 → Dev nD → sProp 𝕄 := fun _ c => Cert.RegionA.Ride (τ := τ) (sig := sig) (Val := Elt F) c

/-- @main's eighteen items as segments, on core c. -/
abbrev segs (c : Dev nD) : List (Seg (pcfgs (F := F)) Gen.adm (pdats m) () defs₀ 𝒱₀ L lv) :=
  Gen.segs m (outs m) 𝒱₀ L lv (E (F := F)) () (pdats m) (reg0 m) (reg1 m) (reg2 m) (reg3 m) c

/-- @main is the run of its items. -/
theorem main_run (c : Dev nD) : main (F := F) c = Pipeline.Seg.run (segs m c) := (main_chain c).trans (by chain_rfl)

/-- The last thread state regrouped: the buffers and the generator register, beside the core owing nothing. -/
theorem last_link (V : Valuation τ sig (Elt F)) (c : Dev nD) :
    Cert.RegionA.St (τ := τ) (sig := sig) (Val := Elt F) V c
      ⊢ (iprop((StableHlo.held (c : Thread nD τ) (Pipeline.ucRefs τ sig) V ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- Every weakly fair execution of @main terminates, nothing faulting, with every unscoped buffer of every core at the
    last valuation of the fold. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V18 m (outs m) c b) :=
  Pipeline.θ_run_regions_kit_dev (pcfgs (F := F)) Gen.adm (pdats m) () cellOf_inj emb₁ defs₀ 𝒱₀ L lv m ρ main (segs m)
    (fun c Q => by rw [main_run m c])
    (fun c => by simp only [segs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => Cert.RegionA.St (Gen.V0 m c) c)
    (Tₙ := fun c => iprop(StableHlo.held (c : Thread nD τ) (Pipeline.ucRefs τ sig) (Gen.V18 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, last_link (Gen.V18 m (outs m) c) c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V18 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V18 m (outs m) c) s')
      isplitl [Hh] <;> iassumption)
    (hQ := fun s h => h)

/-- The frame: the six argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Gen.V18_main_arg0 m (outs m) c),
     (h c _ (mem_uc main_arg1 (by decide))).trans (Gen.V18_main_arg1 m (outs m) c),
     (h c _ (mem_uc main_arg2 (by decide))).trans (Gen.V18_main_arg2 m (outs m) c),
     (h c _ (mem_uc main_arg3 (by decide))).trans (Gen.V18_main_arg3 m (outs m) c),
     (h c _ (mem_uc main_arg4 (by decide))).trans (Gen.V18_main_arg4 m (outs m) c),
     (h c _ (mem_uc main_arg5 (by decide))).trans (Gen.V18_main_arg5 m (outs m) c)⟩) (run_all m ρ)

/-- The run with the result named: main_v303 ends at what region 3 leaves, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v303) = o18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v303 (by decide))).trans (by
        show Function.update (Gen.V17 m (outs m) c) main_v303 (outs m 18 main_v303 c) main_v303 = _
        rw [Function.update_self, outs_v303]),
     (h c _ (mem_uc main_arg0 (by decide))).trans (Gen.V18_main_arg0 m (outs m) c),
     (h c _ (mem_uc main_arg1 (by decide))).trans (Gen.V18_main_arg1 m (outs m) c),
     (h c _ (mem_uc main_arg2 (by decide))).trans (Gen.V18_main_arg2 m (outs m) c),
     (h c _ (mem_uc main_arg3 (by decide))).trans (Gen.V18_main_arg3 m (outs m) c),
     (h c _ (mem_uc main_arg4 (by decide))).trans (Gen.V18_main_arg4 m (outs m) c),
     (h c _ (mem_uc main_arg5 (by decide))).trans (Gen.V18_main_arg5 m (outs m) c)⟩) (run_all m ρ)

end Cert.Kernel.Hand

end
-- ==== Proof.KI.Reg0.lean ====
/-
  The first linear layer as a region of the program: out[r] = x · W[r] for the three relations r, run as a
  pipeline over the grid (20, 3). At the point (i, r) the body reads rows 5000 i … 5000 i + 4999 of x (window 0, a
  block [5000, 128]) and the matrix W[r] (window 1, a block [1, 128, 128]) and writes the block
  [1, 5000, 128] of the result at (r, 5000 i, 0) (window 2).

  Everything here is stated at a parameter V, the contents of the core's buffers when the region is entered, and at
  any float instance: each window's block at a point, what the body leaves in the output window's staging buffer as
  a function of the two input blocks, the body's triple, the pipeline's proof data, and the body obligation. The
  body reads both inputs whole, reads the output's buffer (and drops what it read), and overwrites the output's
  buffer whole with the product; it keeps nothing from point to point. The rows of x are not fetched again while
  only r moves: the buffer then still holds the block, since the block index has not moved.
-/
import proofs.«128058_j54425825575251_2_alg».proof.Proof.Gen.KernelIdeal.Launch
import proofs.«128058_j54425825575251_2_alg».proof.Proof.Gen.KernelIdeal.Skeleton
import proofs.«128058_j54425825575251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: the staging buffer holds the block at every point, fetched there or not (when only the relation
    moves, the block index has not moved), for any proof data whose array is V's and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix W[r]: the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S1x128x128 := Rect.unit (s := S1x128x128) ![0, 0, 0] S1x128x128.size inb_S1x128x128_S1x128x128_0_0_0
abbrev r0_2 : Rect S1x5000x128 := Rect.unit (s := S1x5000x128) ![0, 0, 0] S1x5000x128.size inb_S1x5000x128_S1x5000x128_0_0_0

/-! ## What the body leaves in the output window's buffer -/

/-- The output's staging buffer after the body, from the two input blocks: its one store, of the product. -/
def out0_2 (x0 : Vec F S5000x128 .f32) (x1 : Vec F S1x128x128 .f32) : Vec F S1x5000x128 .f32 :=
  View.canon [⟨r0_2, k0_pay1 (View.ld x0 r0_0) (View.ld x1 r0_1)⟩]

/-- The store covers the buffer. -/
theorem cover0_2 (p0 : Vec F S1x5000x128 .f32) (y : S1x5000x128.Idx) :
    ∃ pc ∈ ([⟨r0_2, p0⟩] : List (View.Piece (Elt F) S1x5000x128 .f32)), y ∈ pc.1.set :=
  View.cover_of_tiled [⟨r0_2, p0⟩] S1x5000x128.size (by rfl) y

/-! ## The body's triple -/

set_option maxHeartbeats 1000000 in
/-- The body on whole staging memrefs, the inputs' at read contents x0, x1 and the output's at anything, runs to the
    continuation holding the inputs' as they were and the output's at out0_2 of the inputs'. -/
theorem sound_kernel0 (c : Dev nD) (E : Set ℕ) (i : grid0.Coords) (arg2 : Memref sig .tc .vmem S5000x128 .f32) (harg2 : arg2.IsWhole)
    (arg3 : Memref sig .tc .vmem S1x128x128 .f32) (harg3 : arg3.IsWhole) (arg4 : Memref sig .tc .vmem S1x5000x128 .f32) (harg4 : arg4.IsWhole)
    (x0 : Vec F S5000x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t each
    input's buffer at its block and the output's at out0_2 of the input blocks; the invariant is the core's other
    scoped buffers and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem recorded0 (c : Dev nD) (t : Fin (cfg0.N + 1)) : (dat0 V c).recorded t = Set.univ := rfl
theorem q0 (c : Dev nD) (w : Fin cfg0.W) : (dat0 V c).q w = fullShare := rfl
theorem Φ_eq0 (c : Dev nD) (t : Fin (cfg0.N + 1)) : (dat0 V c).Φ t = Pipeline.ΦA spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem body_obligation_loose0 (c : Dev nD) : Pipeline.BodyObligationLoose (dat0 (F := F) V c) (defs₀ (F := F)) Variants.none () Set.univ :=
  (body_obligation0 V c).loose

/-! ## Entering and leaving the region's invariant -/

/-- The invariant is entered from the generator register and the core's scoped buffers that are no staging buffer
    of this region, -/
theorem hin0 (c : Dev nD) :
    iprop((∃ r, prngReg c r) ∗ Pipeline.scopedRest (Ix := Unit) (Name := ℕ) (U := UR sig nD τ) (Lvl := ℕ) (Val := Elt F) spec0 c : sProp 𝕄)
      ⊢ (dat0 V c).Φ 0 := by
  rw [Φ_eq0]; unfold Pipeline.ΦA
  iintro ⟨Hp, Hr⟩
  isplitl [Hr]; · iexact Hr
  iexact Hp

/-- and gives them back. -/
theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c : sProp 𝕄) := by
  rw [Φ_eq0]; unfold Pipeline.ΦA
  iintro ⟨Hr, Hp⟩
  isplitl [Hp]; · iexact Hp
  iexact Hr

end Cert.KernelIdeal.Hand

end
-- ==== Proof.KI.Reg1.lean ====
/-
  The first combine region of the program (pipeline 1 of its four): a grid of 50 points, each taking rows
  2000·t … 2000·t + 1999 of three stacked arrays S, XL : [3, 100000, 128] and D : [3, 100000, 1], the whole bias
  array B : [3, 128], and leaving rows 2000·t … of the output [100000, 128].

  Everything is stated at a PARAMETER V, the core's buffer contents when the region is entered. Per window: its block
  at a point, read off V; the fact that an input window's staging buffer holds that block whenever the body runs
  (fetched at that point or left from an earlier one: the bias window is fetched once, its block index never
  moves). The body reads nine sub-blocks (relation r of S, XL, D at r = 0, 1, 2 and row r of B), and stores ONE
  rectangle, the whole output block; what it stores is the composition of its two payload functions. The proof data
  of the pipeline hold the input blocks in place and that stored value in the output window; the body obligation is
  the body's triple at every point; the invariant is the class's (scoped rest and generator register, untouched).
-/
import proofs.«128058_j54425825575251_2_alg».proof.Proof.Gen.KernelIdeal.Launch
import proofs.«128058_j54425825575251_2_alg».proof.Proof.Gen.KernelIdeal.Skeleton
import proofs.«128058_j54425825575251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: relation r of a [3, 2000, C] block, of the [3, 2000, 1] block, row r of the bias, and
    the whole output block -/

abbrev r1_a0 : Rect S3x2000x128 := Rect.unit (s := S3x2000x128) ![0, 0, 0] S1x2000x128.size inb_S3x2000x128_S1x2000x128_0_0_0
abbrev r1_a1 : Rect S3x2000x128 := Rect.unit (s := S3x2000x128) ![1, 0, 0] S1x2000x128.size inb_S3x2000x128_S1x2000x128_1_0_0
abbrev r1_a2 : Rect S3x2000x128 := Rect.unit (s := S3x2000x128) ![2, 0, 0] S1x2000x128.size inb_S3x2000x128_S1x2000x128_2_0_0
abbrev r1_d0 : Rect S3x2000x1 := Rect.unit (s := S3x2000x1) ![0, 0, 0] S1x2000x1.size inb_S3x2000x1_S1x2000x1_0_0_0
abbrev r1_d1 : Rect S3x2000x1 := Rect.unit (s := S3x2000x1) ![1, 0, 0] S1x2000x1.size inb_S3x2000x1_S1x2000x1_1_0_0
abbrev r1_d2 : Rect S3x2000x1 := Rect.unit (s := S3x2000x1) ![2, 0, 0] S1x2000x1.size inb_S3x2000x1_S1x2000x1_2_0_0
abbrev r1_b0 : Rect S3x128 := Rect.unit (s := S3x128) ![0, 0] S1x128.size inb_S3x128_S1x128_0_0
abbrev r1_b1 : Rect S3x128 := Rect.unit (s := S3x128) ![1, 0] S1x128.size inb_S3x128_S1x128_1_0
abbrev r1_b2 : Rect S3x128 := Rect.unit (s := S3x128) ![2, 0] S1x128.size inb_S3x128_S1x128_2_0
abbrev r1_o : Rect S2000x128 := Rect.unit (s := S2000x128) ![0, 0] S2000x128.size inb_S2000x128_S2000x128_0_0

/-! ## What the body leaves in the output window's buffer -/

/-- The output window's staging buffer after the body, from the input windows' blocks: its one store, of the second
    payload applied to the first (relations 0 and 1 and S's relation 2 are summed first, then XL·D and B of relation 2,
    the factor and, here, the maximum with zero). -/
def out1_4 (x0 : Vec F S3x2000x128 .f32) (x1 : Vec F S3x2000x128 .f32) (x2 : Vec F S3x2000x1 .f32) (x3 : Vec F S3x128 .f32) : Vec F S2000x128 .f32 :=
  View.canon [⟨r1_o, k1_pay1 (k1_pay2 (View.ld x0 r1_a0) (View.ld x1 r1_a0) (View.ld x2 r1_d0) (View.ld x3 r1_b0)
      (View.ld x0 r1_a1) (View.ld x1 r1_a1) (View.ld x2 r1_d1) (View.ld x3 r1_b1) (View.ld x0 r1_a2))
    (View.ld x1 r1_a2) (View.ld x2 r1_d2) (View.ld x3 r1_b2)⟩]

/-- The one store is of the whole buffer. -/
theorem cover1_4 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body's triple -/

set_option maxHeartbeats 2000000 in
/-- The body on whole staging memrefs, the inputs' at contents x0 … x3 and the output's at anything, runs to the
    continuation holding the inputs' as they were and the output's at out1_4 of the inputs'. -/
theorem sound_kernel1 (c : Dev nD) (E : Set ℕ) (i : grid1.Coords) (arg1 : Memref sig .tc .vmem S3x2000x128 .f32) (harg1 : arg1.IsWhole) (arg2 : Memref sig .tc .vmem S3x2000x128 .f32) (harg2 : arg2.IsWhole) (arg3 : Memref sig .tc .vmem S3x2000x1 .f32) (harg3 : arg3.IsWhole) (arg4 : Memref sig .tc .vmem S3x128 .f32) (harg4 : arg4.IsWhole) (arg5 : Memref sig .tc .vmem S2000x128 .f32) (harg5 : arg5.IsWhole)
    (x0 : Vec F S3x2000x128 .f32) (x1 : Vec F S3x2000x128 .f32) (x2 : Vec F S3x2000x1 .f32) (x3 : Vec F S3x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-! ## The pipeline's proof data -/

/-- The proof data of pipeline 1 on core c: the arrays as the region finds them; after the body at point t each
    input's buffer at its block and the output's at out1_4 of the input blocks; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := by dsimp only [dat1]
theorem recorded1 (c : Dev nD) (t : Fin (cfg1.N + 1)) : (dat1 V c).recorded t = Set.univ := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem body_obligation_loose1 (c : Dev nD) : Pipeline.BodyObligationLoose (dat1 (F := F) V c) (defs₀ (F := F)) Variants.none () Set.univ :=
  (body_obligation1 V c).loose

/-! ## Entering and leaving the invariant: the generator register and the scoped rest, in and out -/

theorem hin1 (c : Dev nD) :
    iprop((∃ r, prngReg c r) ∗ Pipeline.scopedRest (Ix := Unit) (Name := ℕ) (U := UR sig nD τ) (Lvl := ℕ) (Val := Elt F) spec1 c : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp

theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c : sProp 𝕄) := by
  rw [show (dat1 V c).Φ (Fin.last cfg1.N) = Pipeline.ΦA spec1 c from rfl]; unfold Pipeline.ΦA
  iintro ⟨Hr, Hp⟩
  isplitl [Hp]; · iexact Hp
  iexact Hr

end Region1

end Cert.KernelIdeal.Hand

end
-- ==== Proof.KI.Reg2.lean ====
/-
  The second linear layer as a region of the program: out[r] = h · W[r] for the three relations r, run as a
  pipeline over the grid (20, 3). At the point (i, r) the body reads rows 5000 i … 5000 i + 4999 of the hidden
  features h (window 0, a block [5000, 128]) and the matrix W[r] (window 1, a block [1, 128, 64]) and writes the
  block [1, 5000, 64] of the result at (r, 5000 i, 0) (window 2).

  Everything here is stated at a parameter V, the contents of the core's buffers when the region is entered, and at
  any float instance: each window's block at a point, what the body leaves in the output window's staging buffer as
  a function of the two input blocks, the body's triple, the pipeline's proof data, and the body obligation. The
  body reads both inputs whole, reads the output's buffer (and drops what it read), and overwrites the output's
  buffer whole with the product; it keeps nothing from point to point. The rows of h are not fetched again while
  only r moves: the buffer then still holds the block, since the block index has not moved.
-/
import proofs.«128058_j54425825575251_2_alg».proof.Proof.Gen.KernelIdeal.Launch
import proofs.«128058_j54425825575251_2_alg».proof.Proof.Gen.KernelIdeal.Skeleton
import proofs.«128058_j54425825575251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of h: the staging buffer holds the block at every point, fetched there or not (when only the relation
    moves, the block index has not moved), for any proof data whose array is V's and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The matrix W[r]: the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5000x128 := Rect.unit (s := S5000x128) ![0, 0] S5000x128.size inb_S5000x128_S5000x128_0_0
abbrev r2_1 : Rect S1x128x64 := Rect.unit (s := S1x128x64) ![0, 0, 0] S1x128x64.size inb_S1x128x64_S1x128x64_0_0_0
abbrev r2_2 : Rect S1x5000x64 := Rect.unit (s := S1x5000x64) ![0, 0, 0] S1x5000x64.size inb_S1x5000x64_S1x5000x64_0_0_0

/-! ## What the body leaves in the output window's buffer -/

/-- The output's staging buffer after the body, from the two input blocks: its one store, of the product. -/
def out2_2 (x0 : Vec F S5000x128 .f32) (x1 : Vec F S1x128x64 .f32) : Vec F S1x5000x64 .f32 :=
  View.canon [⟨r2_2, k2_pay1 (View.ld x0 r2_0) (View.ld x1 r2_1)⟩]

/-- The store covers the buffer. -/
theorem cover2_2 (p0 : Vec F S1x5000x64 .f32) (y : S1x5000x64.Idx) :
    ∃ pc ∈ ([⟨r2_2, p0⟩] : List (View.Piece (Elt F) S1x5000x64 .f32)), y ∈ pc.1.set :=
  View.cover_of_tiled [⟨r2_2, p0⟩] S1x5000x64.size (by rfl) y

/-! ## The body's triple -/

set_option maxHeartbeats 1000000 in
/-- The body on whole staging memrefs, the inputs' at read contents x0, x1 and the output's at anything, runs to the
    continuation holding the inputs' as they were and the output's at out2_2 of the inputs'. -/
theorem sound_kernel2 (c : Dev nD) (E : Set ℕ) (i : grid2.Coords) (arg2 : Memref sig .tc .vmem S5000x128 .f32) (harg2 : arg2.IsWhole)
    (arg3 : Memref sig .tc .vmem S1x128x64 .f32) (harg3 : arg3.IsWhole) (arg4 : Memref sig .tc .vmem S1x5000x64 .f32) (harg4 : arg4.IsWhole)
    (x0 : Vec F S5000x128 .f32) (x1 : Vec F S1x128x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__linear_kernel i arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core c: the arrays as the region finds them; after the body at point t each
    input's buffer at its block and the output's at out2_2 of the input blocks; the invariant is the core's other
    scoped buffers and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem owed2 (c : Dev nD) (t : Fin (cfg2.N + 1)) : (dat2 V c).owed t = 0 := rfl
theorem recorded2 (c : Dev nD) (t : Fin (cfg2.N + 1)) : (dat2 V c).recorded t = Set.univ := rfl
theorem q2 (c : Dev nD) (w : Fin cfg2.W) : (dat2 V c).q w = fullShare := rfl
theorem Φ_eq2 (c : Dev nD) (t : Fin (cfg2.N + 1)) : (dat2 V c).Φ t = Pipeline.ΦA spec2 c := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

theorem body_obligation_loose2 (c : Dev nD) : Pipeline.BodyObligationLoose (dat2 (F := F) V c) (defs₀ (F := F)) Variants.none () Set.univ :=
  (body_obligation2 V c).loose

/-! ## Entering and leaving the region's invariant -/

/-- The invariant is entered from the generator register and the core's scoped buffers that are no staging buffer
    of this region, -/
theorem hin2 (c : Dev nD) :
    iprop((∃ r, prngReg c r) ∗ Pipeline.scopedRest (Ix := Unit) (Name := ℕ) (U := UR sig nD τ) (Lvl := ℕ) (Val := Elt F) spec2 c : sProp 𝕄)
      ⊢ (dat2 V c).Φ 0 := by
  rw [Φ_eq2]; unfold Pipeline.ΦA
  iintro ⟨Hp, Hr⟩
  isplitl [Hr]; · iexact Hr
  iexact Hp

/-- and gives them back. -/
theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c : sProp 𝕄) := by
  rw [Φ_eq2]; unfold Pipeline.ΦA
  iintro ⟨Hr, Hp⟩
  isplitl [Hp]; · iexact Hp
  iexact Hr

end Cert.KernelIdeal.Hand

end
-- ==== Proof.KI.Reg3.lean ====
/-
  The second combine region of the program (pipeline 3 of its four): a grid of 50 points, each taking rows
  2000·t … 2000·t + 1999 of three stacked arrays S, XL : [3, 100000, 64] and D : [3, 100000, 1], the whole bias
  array B : [3, 64], and leaving rows 2000·t … of the output [100000, 64].

  Everything is stated at a PARAMETER V, the core's buffer contents when the region is entered. Per window: its block
  at a point, read off V; the fact that an input window's staging buffer holds that block whenever the body runs
  (fetched at that point or left from an earlier one: the bias window is fetched once, its block index never
  moves). The body reads nine sub-blocks (relation r of S, XL, D at r = 0, 1, 2 and row r of B), and stores ONE
  rectangle, the whole output block; what it stores is the composition of its two payload functions. The proof data
  of the pipeline hold the input blocks in place and that stored value in the output window; the body obligation is
  the body's triple at every point; the invariant is the class's (scoped rest and generator register, untouched).
-/
import proofs.«128058_j54425825575251_2_alg».proof.Proof.Gen.KernelIdeal.Launch
import proofs.«128058_j54425825575251_2_alg».proof.Proof.Gen.KernelIdeal.Skeleton
import proofs.«128058_j54425825575251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: relation r of a [3, 2000, C] block, of the [3, 2000, 1] block, row r of the bias, and
    the whole output block -/

abbrev r3_a0 : Rect S3x2000x64 := Rect.unit (s := S3x2000x64) ![0, 0, 0] S1x2000x64.size inb_S3x2000x64_S1x2000x64_0_0_0
abbrev r3_a1 : Rect S3x2000x64 := Rect.unit (s := S3x2000x64) ![1, 0, 0] S1x2000x64.size inb_S3x2000x64_S1x2000x64_1_0_0
abbrev r3_a2 : Rect S3x2000x64 := Rect.unit (s := S3x2000x64) ![2, 0, 0] S1x2000x64.size inb_S3x2000x64_S1x2000x64_2_0_0
abbrev r3_d0 : Rect S3x2000x1 := Rect.unit (s := S3x2000x1) ![0, 0, 0] S1x2000x1.size inb_S3x2000x1_S1x2000x1_0_0_0
abbrev r3_d1 : Rect S3x2000x1 := Rect.unit (s := S3x2000x1) ![1, 0, 0] S1x2000x1.size inb_S3x2000x1_S1x2000x1_1_0_0
abbrev r3_d2 : Rect S3x2000x1 := Rect.unit (s := S3x2000x1) ![2, 0, 0] S1x2000x1.size inb_S3x2000x1_S1x2000x1_2_0_0
abbrev r3_b0 : Rect S3x64 := Rect.unit (s := S3x64) ![0, 0] S1x64.size inb_S3x64_S1x64_0_0
abbrev r3_b1 : Rect S3x64 := Rect.unit (s := S3x64) ![1, 0] S1x64.size inb_S3x64_S1x64_1_0
abbrev r3_b2 : Rect S3x64 := Rect.unit (s := S3x64) ![2, 0] S1x64.size inb_S3x64_S1x64_2_0
abbrev r3_o : Rect S2000x64 := Rect.unit (s := S2000x64) ![0, 0] S2000x64.size inb_S2000x64_S2000x64_0_0

/-! ## What the body leaves in the output window's buffer -/

/-- The output window's staging buffer after the body, from the input windows' blocks: its one store, of the second
    payload applied to the first (relations 0 and 1 and S's relation 2 are summed first, then XL·D and B of relation 2,
    then the factor; no maximum here). -/
def out3_4 (x0 : Vec F S3x2000x64 .f32) (x1 : Vec F S3x2000x64 .f32) (x2 : Vec F S3x2000x1 .f32) (x3 : Vec F S3x64 .f32) : Vec F S2000x64 .f32 :=
  View.canon [⟨r3_o, k3_pay1 (k3_pay2 (View.ld x0 r3_a0) (View.ld x1 r3_a0) (View.ld x2 r3_d0) (View.ld x3 r3_b0)
      (View.ld x0 r3_a1) (View.ld x1 r3_a1) (View.ld x2 r3_d1) (View.ld x3 r3_b1) (View.ld x0 r3_a2))
    (View.ld x1 r3_a2) (View.ld x2 r3_d2) (View.ld x3 r3_b2)⟩]

/-- The one store is of the whole buffer. -/
theorem cover3_4 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

/-! ## The body's triple -/

set_option maxHeartbeats 2000000 in
/-- The body on whole staging memrefs, the inputs' at contents x0 … x3 and the output's at anything, runs to the
    continuation holding the inputs' as they were and the output's at out3_4 of the inputs'. -/
theorem sound_kernel3 (c : Dev nD) (E : Set ℕ) (i : grid3.Coords) (arg1 : Memref sig .tc .vmem S3x2000x64 .f32) (harg1 : arg1.IsWhole) (arg2 : Memref sig .tc .vmem S3x2000x64 .f32) (harg2 : arg2.IsWhole) (arg3 : Memref sig .tc .vmem S3x2000x1 .f32) (harg3 : arg3.IsWhole) (arg4 : Memref sig .tc .vmem S3x64 .f32) (harg4 : arg4.IsWhole) (arg5 : Memref sig .tc .vmem S2000x64 .f32) (harg5 : arg5.IsWhole)
    (x0 : Vec F S3x2000x64 .f32) (x1 : Vec F S3x2000x64 .f32) (x2 : Vec F S3x2000x1 .f32) (x3 : Vec F S3x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover3_4 _)

/-! ## The pipeline's proof data -/

/-- The proof data of pipeline 3 on core c: the arrays as the region finds them; after the body at point t each
    input's buffer at its block and the output's at out3_4 of the input blocks; the class's invariant; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem owed3 (c : Dev nD) (t : Fin (cfg3.N + 1)) : (dat3 V c).owed t = 0 := by dsimp only [dat3]
theorem recorded3 (c : Dev nD) (t : Fin (cfg3.N + 1)) : (dat3 V c).recorded t = Set.univ := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's owed tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

theorem body_obligation_loose3 (c : Dev nD) : Pipeline.BodyObligationLoose (dat3 (F := F) V c) (defs₀ (F := F)) Variants.none () Set.univ :=
  (body_obligation3 V c).loose

/-! ## Entering and leaving the invariant: the generator register and the scoped rest, in and out -/

theorem hin3 (c : Dev nD) :
    iprop((∃ r, prngReg c r) ∗ Pipeline.scopedRest (Ix := Unit) (Name := ℕ) (U := UR sig nD τ) (Lvl := ℕ) (Val := Elt F) spec3 c : sProp 𝕄) ⊢ (dat3 V c).Φ 0 := by
  rw [show (dat3 V c).Φ 0 = Pipeline.ΦA spec3 c from rfl]; unfold Pipeline.ΦA
  iintro ⟨Hp, Hr⟩
  isplitl [Hr]; · iexact Hr
  iexact Hp

theorem hout3 (c : Dev nD) :
    (dat3 V c).Φ (Fin.last cfg3.N) ⊢ iprop((∃ r, prngReg c r) ∗ Pipeline.scopedRest (Ix := Unit) (Name := ℕ) (U := UR sig nD τ) (Lvl := ℕ) (Val := Elt F) spec3 c : sProp 𝕄) := by
  rw [show (dat3 V c).Φ (Fin.last cfg3.N) = Pipeline.ΦA spec3 c from rfl]; unfold Pipeline.ΦA
  iintro ⟨Hr, Hp⟩
  isplitl [Hp]; · iexact Hp
  iexact Hr

end Region3

end Cert.KernelIdeal.Hand

end
-- ==== Proof.KI.RunAll.lean ====
/-
  The whole run of the program of four kernel regions (linear, combine, linear, combine) with host stretches between
  them: every weakly fair execution terminates, nothing faults, and every unscoped buffer of every core ends at the last
  valuation of the fold through @main — the launch contents, each host stretch applied, each region's output array at
  what its pipeline leaves.

  What a region leaves depends on the contents it is entered from, which depend on what the regions before it left. So
  the four output arrays are defined one after the other (o1, o9, o10, o18), each from the fold up to its region over
  the outputs before it; the fold up to a region reads only the outputs of the regions before it (V8_congr, V9_congr,
  V17_congr), so the final family of outputs meets every region's defining equation.
-/
import proofs.«128058_j54425825575251_2_alg».proof.Proof.Gen.KernelIdeal.Regions
import proofs.«128058_j54425825575251_2_alg».proof.Proof.KI.Reg0
import proofs.«128058_j54425825575251_2_alg».proof.Proof.KI.Reg1
import proofs.«128058_j54425825575251_2_alg».proof.Proof.KI.Reg2
import proofs.«128058_j54425825575251_2_alg».proof.Proof.KI.Reg3
import proofs.«128058_j54425825575251_2_alg».proof.Proof.LibRegionA
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What the regions leave, one after the other -/

/-- The contents region 0 is entered from: the launch memory. -/
abbrev Vin0 : (c : Dev nD) → (b : Ref sig .tc) → Buf (Elt F) ((c : Thread nD τ).loc b) := fun c b => Gen.V0 m c b
/-- Region 0 (the first linear step) leaves this in main_v0. -/
def o1 (c : Dev nD) : Buf (Elt F) ((c : Thread nD τ).loc main_v0) := (dat0 (Vin0 m) c).arrAt 2 cfg0.N
def ou1 : Gen.Outs (F := F) := fun _ r c => Function.update (Gen.V0 m c) main_v0 (o1 m c) r
/-- The contents region 1 is entered from. -/
abbrev Vin1 : (c : Dev nD) → (b : Ref sig .tc) → Buf (Elt F) ((c : Thread nD τ).loc b) := fun c b => Gen.V8 m (ou1 m) c b
/-- Region 1 (the first combine step) leaves this in main_v151. -/
def o9 (c : Dev nD) : Buf (Elt F) ((c : Thread nD τ).loc main_v151) := (dat1 (Vin1 m) c).arrAt 4 cfg1.N
def ou2 : Gen.Outs (F := F) := fun _ r c => Function.update (Function.update (Gen.V0 m c) main_v0 (o1 m c)) main_v151 (o9 m c) r
/-- The contents region 2 is entered from. -/
abbrev Vin2 : (c : Dev nD) → (b : Ref sig .tc) → Buf (Elt F) ((c : Thread nD τ).loc b) := fun c b => Gen.V9 m (ou2 m) c b
/-- Region 2 (the second linear step) leaves this in main_v152. -/
def o10 (c : Dev nD) : Buf (Elt F) ((c : Thread nD τ).loc main_v152) := (dat2 (Vin2 m) c).arrAt 2 cfg2.N
def ou3 : Gen.Outs (F := F) := fun _ r c =>
  Function.update (Function.update (Function.update (Gen.V0 m c) main_v0 (o1 m c)) main_v151 (o9 m c)) main_v152 (o10 m c) r
/-- The contents region 3 is entered from. -/
abbrev Vin3 : (c : Dev nD) → (b : Ref sig .tc) → Buf (Elt F) ((c : Thread nD τ).loc b) := fun c b => Gen.V17 m (ou3 m) c b
/-- Region 3 (the second combine step) leaves this in main_v303, the program's result. -/
def o18 (c : Dev nD) : Buf (Elt F) ((c : Thread nD τ).loc main_v303) := (dat3 (Vin3 m) c).arrAt 4 cfg3.N
/-- The four outputs together. -/
def outs : Gen.Outs (F := F) := fun _ r c =>
  Function.update (Function.update (Function.update (Function.update (Gen.V0 m c) main_v0 (o1 m c)) main_v151 (o9 m c)) main_v152 (o10 m c))
    main_v303 (o18 m c) r

theorem ne_of {r r' : Ref sig .tc} (h : r ≠ r') : (Proc.devRef .tc r : DevRef τ sig) ≠ Proc.devRef .tc r' :=
  StableHlo.devRef_ne_of_ne h

theorem outs_v0 (J : ℕ) (c : Dev nD) : outs m J main_v0 c = o1 m c := by
  unfold outs
  rw [Function.update_of_ne (ne_of (by decide)), Function.update_of_ne (ne_of (by decide)),
    Function.update_of_ne (ne_of (by decide)), Function.update_self]
theorem outs_v151 (J : ℕ) (c : Dev nD) : outs m J main_v151 c = o9 m c := by
  unfold outs
  rw [Function.update_of_ne (ne_of (by decide)), Function.update_of_ne (ne_of (by decide)), Function.update_self]
theorem outs_v152 (J : ℕ) (c : Dev nD) : outs m J main_v152 c = o10 m c := by
  unfold outs
  rw [Function.update_of_ne (ne_of (by decide)), Function.update_self]
theorem outs_v303 (J : ℕ) (c : Dev nD) : outs m J main_v303 c = o18 m c := by
  unfold outs
  rw [Function.update_self]
theorem ou1_v0 (J : ℕ) (c : Dev nD) : ou1 m J main_v0 c = o1 m c := by
  unfold ou1; rw [Function.update_self]
theorem ou2_v0 (J : ℕ) (c : Dev nD) : ou2 m J main_v0 c = o1 m c := by
  unfold ou2; rw [Function.update_of_ne (ne_of (by decide)), Function.update_self]
theorem ou2_v151 (J : ℕ) (c : Dev nD) : ou2 m J main_v151 c = o9 m c := by
  unfold ou2; rw [Function.update_self]
theorem ou3_v0 (J : ℕ) (c : Dev nD) : ou3 m J main_v0 c = o1 m c := by
  unfold ou3; rw [Function.update_of_ne (ne_of (by decide)), Function.update_of_ne (ne_of (by decide)), Function.update_self]
theorem ou3_v151 (J : ℕ) (c : Dev nD) : ou3 m J main_v151 c = o9 m c := by
  unfold ou3; rw [Function.update_of_ne (ne_of (by decide)), Function.update_self]
theorem ou3_v152 (J : ℕ) (c : Dev nD) : ou3 m J main_v152 c = o10 m c := by
  unfold ou3; rw [Function.update_self]

/-! ## The fold up to a region reads only the outputs before it -/

theorem V8_congr (o o' : Gen.Outs (F := F)) (c : Dev nD) (h1 : o 1 main_v0 c = o' 1 main_v0 c) :
    Gen.V8 m o c = Gen.V8 m o' c := by
  dsimp only [Gen.V8, Gen.V7, Gen.V6, Gen.V5, Gen.V4, Gen.V3, Gen.V2, Gen.V1]
  rw [h1]

theorem V9_congr (o o' : Gen.Outs (F := F)) (c : Dev nD) (h1 : o 1 main_v0 c = o' 1 main_v0 c)
    (h9 : o 9 main_v151 c = o' 9 main_v151 c) : Gen.V9 m o c = Gen.V9 m o' c := by
  dsimp only [Gen.V9]
  rw [V8_congr m o o' c h1, h9]

theorem V17_congr (o o' : Gen.Outs (F := F)) (c : Dev nD) (h1 : o 1 main_v0 c = o' 1 main_v0 c)
    (h9 : o 9 main_v151 c = o' 9 main_v151 c) (h10 : o 10 main_v152 c = o' 10 main_v152 c) :
    Gen.V17 m o c = Gen.V17 m o' c := by
  dsimp only [Gen.V17, Gen.V16, Gen.V15, Gen.V14, Gen.V13, Gen.V12, Gen.V11, Gen.V10]
  rw [V9_congr m o o' c h1 h9, h10]

theorem V8_outs (c : Dev nD) : Gen.V8 m (outs m) c = Gen.V8 m (ou1 m) c :=
  V8_congr m _ _ c ((outs_v0 m 1 c).trans (ou1_v0 m 1 c).symm)
theorem V9_outs (c : Dev nD) : Gen.V9 m (outs m) c = Gen.V9 m (ou2 m) c :=
  V9_congr m _ _ c ((outs_v0 m 1 c).trans (ou2_v0 m 1 c).symm) ((outs_v151 m 9 c).trans (ou2_v151 m 9 c).symm)
theorem V17_outs (c : Dev nD) : Gen.V17 m (outs m) c = Gen.V17 m (ou3 m) c :=
  V17_congr m _ _ c ((outs_v0 m 1 c).trans (ou3_v0 m 1 c).symm) ((outs_v151 m 9 c).trans (ou3_v151 m 9 c).symm)
    ((outs_v152 m 10 c).trans (ou3_v152 m 10 c).symm)

/-! ## The proof data family -/

abbrev 𝒱₀ : Variants := Variants.none
abbrev L : GSem nD τ sig → Finset Unit := fun _ => ∅
abbrev lv : GSem nD τ sig → Unit → ℕ := fun _ _ => 0

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c

/-! ## The regions as segments

  Each region is entered from "every unscoped buffer at the fold's valuation before it" and left at the valuation after
  it: its input arrays end as they were entered, its output array at what the pipeline leaves, every other buffer
  untouched. -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hpf (p : Fin 4) (c : Dev nD) :
    (BI.emp : sProp 𝕄) ⊢ Pipeline.prefHeld (pcfgs (F := F) p).pre c (fun _ => fullShare) (Gen.adm (F := F) p).1 := by
  match p with
  | ⟨0, _⟩ => unfold Pipeline.prefHeld; rw [show (Finset.univ : Finset (Fin 0)) = ∅ from rfl, BI.bigSep_empty]
  | ⟨1, _⟩ => unfold Pipeline.prefHeld; rw [show (Finset.univ : Finset (Fin 0)) = ∅ from rfl, BI.bigSep_empty]
  | ⟨2, _⟩ => unfold Pipeline.prefHeld; rw [show (Finset.univ : Finset (Fin 0)) = ∅ from rfl, BI.bigSep_empty]
  | ⟨3, _⟩ => unfold Pipeline.prefHeld; rw [show (Finset.univ : Finset (Fin 0)) = ∅ from rfl, BI.bigSep_empty]

/-- Region 0: inputs main_arg0, main_arg2 end as entered; main_v0 at what the pipeline leaves. -/
theorem hF0 (c : Dev nD) : ∀ w : Fin cfg0.W, (pdats m 0 c).arrAt w cfg0.N = Gen.V1 m (outs m) c (Pipeline.arrRef spec0 w)
  | ⟨0, _⟩ => (((pdats m 0 c).arrAt_in 0 rfl _).trans (A_eq0 (Vin0 m) c 0)).trans (Gen.V1_of m (outs m) c main_arg0 (by decide)).symm
  | ⟨1, _⟩ => (((pdats m 0 c).arrAt_in 1 rfl _).trans (A_eq0 (Vin0 m) c 1)).trans (Gen.V1_of m (outs m) c main_arg2 (by decide)).symm
  | ⟨2, _⟩ => by
    show o1 m c = Function.update (Gen.V0 m c) main_v0 (outs m 1 main_v0 c) main_v0
    rw [Function.update_self, outs_v0]

theorem hrest0 (c : Dev nD) (b : Ref sig .tc) (hb : b ∉ Finset.univ.image (Pipeline.arrRef spec0)) :
    Gen.V1 m (outs m) c b = Gen.V0 m c b :=
  Gen.V1_of m (outs m) c b fun h => hb (by
    rw [List.mem_singleton.mp h]; exact Finset.mem_image.mpr ⟨2, Finset.mem_univ _, rfl⟩)

set_option maxHeartbeats 1600000 in
def reg0 : RegionSeg (pcfgs (F := F)) Gen.adm (pdats m) () defs₀ 𝒱₀ L lv 0 :=
  Cert.RegionA.regionSeg (pcfgs (F := F)) Gen.adm (pdats m) defs₀ 𝒱₀ L lv 0
    launch0.win launch0.block_pos launch0.stage_whole launch0.arr_whole
    (fun c => body_obligation_loose0 (Vin0 m) c) (fun c t => owed0 (Vin0 m) c t) (fun c t => recorded0 (Vin0 m) c t)
    (fun c => (pdats m 0 c).share_full fun _ => rfl) (hpf 0)
    (fun c => Gen.V0 m c) (fun c => Gen.V1 m (outs m) c)
    (fun c w => A_eq0 (Vin0 m) c w) (hF0 m) (hrest0 m) (fun c => hin0 (Vin0 m) c) (fun c => hout0 (Vin0 m) c)

/-- Region 1: inputs main_v145, main_v0, main_v150, main_arg3 end as entered; main_v151 at what the pipeline leaves. -/
theorem hA1 (c : Dev nD) (w : Fin cfg1.W) : (pdats m 1 c).A w = Gen.V8 m (outs m) c (Pipeline.arrRef spec1 w) :=
  (A_eq1 (Vin1 m) c w).trans (congrFun (V8_outs m c).symm (Proc.devRef .tc (Pipeline.arrRef spec1 w)))

theorem hF1 (c : Dev nD) : ∀ w : Fin cfg1.W, (pdats m 1 c).arrAt w cfg1.N = Gen.V9 m (outs m) c (Pipeline.arrRef spec1 w)
  | ⟨0, _⟩ => (((pdats m 1 c).arrAt_in 0 rfl _).trans (hA1 m c 0)).trans (Gen.V9_of m (outs m) c main_v145 (by decide)).symm
  | ⟨1, _⟩ => (((pdats m 1 c).arrAt_in 1 rfl _).trans (hA1 m c 1)).trans (Gen.V9_of m (outs m) c main_v0 (by decide)).symm
  | ⟨2, _⟩ => (((pdats m 1 c).arrAt_in 2 rfl _).trans (hA1 m c 2)).trans (Gen.V9_of m (outs m) c main_v150 (by decide)).symm
  | ⟨3, _⟩ => (((pdats m 1 c).arrAt_in 3 rfl _).trans (hA1 m c 3)).trans (Gen.V9_of m (outs m) c main_arg3 (by decide)).symm
  | ⟨4, _⟩ => by
    show o9 m c = Function.update (Gen.V8 m (outs m) c) main_v151 (outs m 9 main_v151 c) main_v151
    rw [Function.update_self, outs_v151]

theorem hrest1 (c : Dev nD) (b : Ref sig .tc) (hb : b ∉ Finset.univ.image (Pipeline.arrRef spec1)) :
    Gen.V9 m (outs m) c b = Gen.V8 m (outs m) c b :=
  Gen.V9_of m (outs m) c b fun h => hb (by
    rw [List.mem_singleton.mp h]; exact Finset.mem_image.mpr ⟨4, Finset.mem_univ _, rfl⟩)

set_option maxHeartbeats 1600000 in
def reg1 : RegionSeg (pcfgs (F := F)) Gen.adm (pdats m) () defs₀ 𝒱₀ L lv 1 :=
  Cert.RegionA.regionSeg (pcfgs (F := F)) Gen.adm (pdats m) defs₀ 𝒱₀ L lv 1
    launch1.win launch1.block_pos launch1.stage_whole launch1.arr_whole
    (fun c => body_obligation_loose1 (Vin1 m) c) (fun c t => owed1 (Vin1 m) c t) (fun c t => recorded1 (Vin1 m) c t)
    (fun c => (pdats m 1 c).share_full fun _ => rfl) (hpf 1)
    (fun c => Gen.V8 m (outs m) c) (fun c => Gen.V9 m (outs m) c)
    (hA1 m) (hF1 m) (hrest1 m) (fun c => hin1 (Vin1 m) c) (fun c => hout1 (Vin1 m) c)

/-- Region 2: inputs main_v151, main_arg4 end as entered; main_v152 at what the pipeline leaves. -/
theorem hA2 (c : Dev nD) (w : Fin cfg2.W) : (pdats m 2 c).A w = Gen.V9 m (outs m) c (Pipeline.arrRef spec2 w) :=
  (A_eq2 (Vin2 m) c w).trans (congrFun (V9_outs m c).symm (Proc.devRef .tc (Pipeline.arrRef spec2 w)))

theorem hF2 (c : Dev nD) : ∀ w : Fin cfg2.W, (pdats m 2 c).arrAt w cfg2.N = Gen.V10 m (outs m) c (Pipeline.arrRef spec2 w)
  | ⟨0, _⟩ => (((pdats m 2 c).arrAt_in 0 rfl _).trans (hA2 m c 0)).trans (Gen.V10_of m (outs m) c main_v151 (by decide)).symm
  | ⟨1, _⟩ => (((pdats m 2 c).arrAt_in 1 rfl _).trans (hA2 m c 1)).trans (Gen.V10_of m (outs m) c main_arg4 (by decide)).symm
  | ⟨2, _⟩ => by
    show o10 m c = Function.update (Gen.V9 m (outs m) c) main_v152 (outs m 10 main_v152 c) main_v152
    rw [Function.update_self, outs_v152]

theorem hrest2 (c : Dev nD) (b : Ref sig .tc) (hb : b ∉ Finset.univ.image (Pipeline.arrRef spec2)) :
    Gen.V10 m (outs m) c b = Gen.V9 m (outs m) c b :=
  Gen.V10_of m (outs m) c b fun h => hb (by
    rw [List.mem_singleton.mp h]; exact Finset.mem_image.mpr ⟨2, Finset.mem_univ _, rfl⟩)

set_option maxHeartbeats 1600000 in
def reg2 : RegionSeg (pcfgs (F := F)) Gen.adm (pdats m) () defs₀ 𝒱₀ L lv 2 :=
  Cert.RegionA.regionSeg (pcfgs (F := F)) Gen.adm (pdats m) defs₀ 𝒱₀ L lv 2
    launch2.win launch2.block_pos launch2.stage_whole launch2.arr_whole
    (fun c => body_obligation_loose2 (Vin2 m) c) (fun c t => owed2 (Vin2 m) c t) (fun c t => recorded2 (Vin2 m) c t)
    (fun c => (pdats m 2 c).share_full fun _ => rfl) (hpf 2)
    (fun c => Gen.V9 m (outs m) c) (fun c => Gen.V10 m (outs m) c)
    (hA2 m) (hF2 m) (hrest2 m) (fun c => hin2 (Vin2 m) c) (fun c => hout2 (Vin2 m) c)

/-- Region 3: inputs main_v297, main_v152, main_v302, main_arg5 end as entered; main_v303 at what the pipeline leaves. -/
theorem hA3 (c : Dev nD) (w : Fin cfg3.W) : (pdats m 3 c).A w = Gen.V17 m (outs m) c (Pipeline.arrRef spec3 w) :=
  (A_eq3 (Vin3 m) c w).trans (congrFun (V17_outs m c).symm (Proc.devRef .tc (Pipeline.arrRef spec3 w)))

theorem hF3 (c : Dev nD) : ∀ w : Fin cfg3.W, (pdats m 3 c).arrAt w cfg3.N = Gen.V18 m (outs m) c (Pipeline.arrRef spec3 w)
  | ⟨0, _⟩ => (((pdats m 3 c).arrAt_in 0 rfl _).trans (hA3 m c 0)).trans (Gen.V18_of m (outs m) c main_v297 (by decide)).symm
  | ⟨1, _⟩ => (((pdats m 3 c).arrAt_in 1 rfl _).trans (hA3 m c 1)).trans (Gen.V18_of m (outs m) c main_v152 (by decide)).symm
  | ⟨2, _⟩ => (((pdats m 3 c).arrAt_in 2 rfl _).trans (hA3 m c 2)).trans (Gen.V18_of m (outs m) c main_v302 (by decide)).symm
  | ⟨3, _⟩ => (((pdats m 3 c).arrAt_in 3 rfl _).trans (hA3 m c 3)).trans (Gen.V18_of m (outs m) c main_arg5 (by decide)).symm
  | ⟨4, _⟩ => by
    show o18 m c = Function.update (Gen.V17 m (outs m) c) main_v303 (outs m 18 main_v303 c) main_v303
    rw [Function.update_self, outs_v303]

theorem hrest3 (c : Dev nD) (b : Ref sig .tc) (hb : b ∉ Finset.univ.image (Pipeline.arrRef spec3)) :
    Gen.V18 m (outs m) c b = Gen.V17 m (outs m) c b :=
  Gen.V18_of m (outs m) c b fun h => hb (by
    rw [List.mem_singleton.mp h]; exact Finset.mem_image.mpr ⟨4, Finset.mem_univ _, rfl⟩)

set_option maxHeartbeats 1600000 in
def reg3 : RegionSeg (pcfgs (F := F)) Gen.adm (pdats m) () defs₀ 𝒱₀ L lv 3 :=
  Cert.RegionA.regionSeg (pcfgs (F := F)) Gen.adm (pdats m) defs₀ 𝒱₀ L lv 3
    launch3.win launch3.block_pos launch3.stage_whole launch3.arr_whole
    (fun c => body_obligation_loose3 (Vin3 m) c) (fun c t => owed3 (Vin3 m) c t) (fun c t => recorded3 (Vin3 m) c t)
    (fun c => (pdats m 3 c).share_full fun _ => rfl) (hpf 3)
    (fun c => Gen.V17 m (outs m) c) (fun c => Gen.V18 m (outs m) c)
    (hA3 m) (hF3 m) (hrest3 m) (fun c => hin3 (Vin3 m) c) (fun c => hout3 (Vin3 m) c)

/-! ## The run -/

/-- What rides beside the buffers between any two items. -/
abbrev E : Fin 5 → Dev nD → sProp 𝕄 := fun _ c => Cert.RegionA.Ride (τ := τ) (sig := sig) (Val := Elt F) c

/-- @main's eighteen items as segments, on core c. -/
abbrev segs (c : Dev nD) : List (Seg (pcfgs (F := F)) Gen.adm (pdats m) () defs₀ 𝒱₀ L lv) :=
  Gen.segs m (outs m) 𝒱₀ L lv (E (F := F)) () (pdats m) (reg0 m) (reg1 m) (reg2 m) (reg3 m) c

/-- @main is the run of its items. -/
theorem main_run (c : Dev nD) : main (F := F) c = Pipeline.Seg.run (segs m c) := (main_chain c).trans (by chain_rfl)

/-- The last thread state regrouped: the buffers and the generator register, beside the core owing nothing. -/
theorem last_link (V : Valuation τ sig (Elt F)) (c : Dev nD) :
    Cert.RegionA.St (τ := τ) (sig := sig) (Val := Elt F) V c
      ⊢ (iprop((StableHlo.held (c : Thread nD τ) (Pipeline.ucRefs τ sig) V ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- Every weakly fair execution of @main terminates, nothing faulting, with every unscoped buffer of every core at the
    last valuation of the fold. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V18 m (outs m) c b) :=
  Pipeline.θ_run_regions_kit_dev (pcfgs (F := F)) Gen.adm (pdats m) () cellOf_inj emb₁ defs₀ 𝒱₀ L lv m ρ main (segs m)
    (fun c Q => by rw [main_run m c])
    (fun c => by simp only [segs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => Cert.RegionA.St (Gen.V0 m c) c)
    (Tₙ := fun c => iprop(StableHlo.held (c : Thread nD τ) (Pipeline.ucRefs τ sig) (Gen.V18 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, last_link (Gen.V18 m (outs m) c) c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V18 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V18 m (outs m) c) s')
      isplitl [Hh] <;> iassumption)
    (hQ := fun s h => h)

/-- The frame: the six argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Gen.V18_main_arg0 m (outs m) c),
     (h c _ (mem_uc main_arg1 (by decide))).trans (Gen.V18_main_arg1 m (outs m) c),
     (h c _ (mem_uc main_arg2 (by decide))).trans (Gen.V18_main_arg2 m (outs m) c),
     (h c _ (mem_uc main_arg3 (by decide))).trans (Gen.V18_main_arg3 m (outs m) c),
     (h c _ (mem_uc main_arg4 (by decide))).trans (Gen.V18_main_arg4 m (outs m) c),
     (h c _ (mem_uc main_arg5 (by decide))).trans (Gen.V18_main_arg5 m (outs m) c)⟩) (run_all m ρ)

/-- The run with the result named: main_v303 ends at what region 3 leaves, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v303) = o18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v303 (by decide))).trans (by
        show Function.update (Gen.V17 m (outs m) c) main_v303 (outs m 18 main_v303 c) main_v303 = _
        rw [Function.update_self, outs_v303]),
     (h c _ (mem_uc main_arg0 (by decide))).trans (Gen.V18_main_arg0 m (outs m) c),
     (h c _ (mem_uc main_arg1 (by decide))).trans (Gen.V18_main_arg1 m (outs m) c),
     (h c _ (mem_uc main_arg2 (by decide))).trans (Gen.V18_main_arg2 m (outs m) c),
     (h c _ (mem_uc main_arg3 (by decide))).trans (Gen.V18_main_arg3 m (outs m) c),
     (h c _ (mem_uc main_arg4 (by decide))).trans (Gen.V18_main_arg4 m (outs m) c),
     (h c _ (mem_uc main_arg5 (by decide))).trans (Gen.V18_main_arg5 m (outs m) c)⟩) (run_all m ρ)

end Cert.KernelIdeal.Hand

end
-- ==== Proof.KI.MatmulPlain.lean ====
/-
  A plain matrix product on the matrix unit, read at an index, at the ideal values.

  A has rows of K numbers and B has K rows of n numbers; entry (a, b) of A · B is the sum over c of A[a, c] · B[c, b].
  The matrix unit computes it contracting the last axis of the left operand with the first axis of the right one,
  into a zero accumulator: at the ideal values that is the sum itself.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LinearUnit

open Idealize.ShloMosaic Idealize.ShloMosaic.ValueIdx

variable {M K n : Nat} {φ₁ φ₂ : FTy}

/-- The matrix unit's plain product, into the zero accumulator, at an index. -/
theorem matmul_plain_apply (w : DotDims.WF ⟨2, ![M, K]⟩ ⟨2, ![K, n]⟩ ⟨2, ![M, n]⟩ [1] [0] [0] [1] [] [])
    (prec : Option ContractPrecision) (A : FVec Ideal ⟨2, ![M, K]⟩ φ₁) (B : FVec Ideal ⟨2, ![K, n]⟩ φ₂) (a : Fin M) (b : Fin n) :
    FloatOps.matmul (⟨[1], [0], [0], [1], [], [], w⟩ : DotDims ⟨2, ![M, K]⟩ ⟨2, ![K, n]⟩ ⟨2, ![M, n]⟩) prec A B
        (constant ⟨2, ![M, n]⟩ .f32 0x00000000#32) (ix2 a b)
      = ∑ c : Fin K, A (ix2 a c) * B (ix2 c b) := by
  rw [Ideal.matmul_constant_zero_apply,
    ← Equiv.sum_comp (contrEquiv1 (⟨[1], [0], [0], [1], [], [], w⟩ : DotDims ⟨2, ![M, K]⟩ ⟨2, ![K, n]⟩ ⟨2, ![M, n]⟩) K rfl rfl).symm]
  refine Finset.sum_congr rfl fun c _ => ?_
  have c2 := contrEquiv1_symm_val
    (⟨[1], [0], [0], [1], [], [], w⟩ : DotDims ⟨2, ![M, K]⟩ ⟨2, ![K, n]⟩ ⟨2, ![M, n]⟩) K rfl rfl c
  have l2 : (⟨[1], [0], [0], [1], [], [], w⟩ : DotDims ⟨2, ![M, K]⟩ ⟨2, ![K, n]⟩ ⟨2, ![M, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, n]⟩ ⟨2, ![M, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LinearUnit

end
-- ==== Proof.KI.Val0.lean ====
/-
  The value of the first linear layer at the ideal values: after the region, entry (r, i, n) of the result
  [3, 100000, 128] is the sum over k of x[i, k] · W[r, k, n], x and W as the region finds them.

  The point (a, r) of the grid writes back the block [1, 5000, 128] at (r, 5000 a, 0); what the body left in it is
  the product of rows 5000 a … 5000 a + 4999 of x with W[r] (the changes of float format are the identity at the
  ideal values, the casts only add or drop the unit axis, and the matrix unit's product into a zero accumulator is
  the sum). So each block written back is the restriction of ONE function of the two arrays to the block; the
  blocks tile the array (row i of relation r lies in the block of the point (i / 5000, r)); hence the array ends
  holding that function.
-/
import proofs.«128058_j54425825575251_2_alg».proof.Proof.KI.Reg0
import proofs.«128058_j54425825575251_2_alg».proof.Proof.KI.MatmulPlain
import Idealize.ShloMosaic.Lib.Pipeline.Value

set_option maxRecDepth 16384

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)

/-! ## The body's product at an index -/

/-- Entry (0, p, n) of what the body stores: row p of the rows of x against column n of the matrix. -/
theorem pay0_apply (x0 : Vec Ideal S5000x128 .f32) (x1 : Vec Ideal S1x128x128 .f32) (u : Fin 1) (p : Fin 5000) (n : Fin 128) :
    k0_pay1 (F := Ideal) x0 x1 (ix3 u p n) = ∑ k : Fin 128, x0 (ix2 p k) * x1 (ix3 (0 : Fin 1) k n) := by
  have hu : u.val = 0 := by omega
  unfold k0_pay1
  refine (shapeCast_apply _ shapeCasts_S5000x128_S1x5000x128 (ix3 u p n) (ix2 p n) ?_).trans ?_
  · rw [Shape.rowMajor_val_two, Shape.rowMajor_val_three]
    show p.val * 128 + n.val = (u.val * 5000 + p.val) * 128 + n.val
    rw [hu]; omega
  refine (Cert.LinearUnit.matmul_plain_apply dot_S5000x128_S128x128_S5000x128_1_0_0_1_n_n_wf none _ _ p n).trans ?_
  refine Finset.sum_congr rfl fun k _ => ?_
  refine congrArg (x0 (ix2 p k) * ·) ?_
  exact shapeCast_apply x1 shapeCasts_S1x128x128_S128x128 (ix2 k n) (ix3 (0 : Fin 1) k n) (by
    rw [Shape.rowMajor_val_two, Shape.rowMajor_val_three]
    show ((0 : Fin 1).val * 128 + k.val) * 128 + n.val = k.val * 128 + n.val
    show (0 * 128 + k.val) * 128 + n.val = k.val * 128 + n.val
    omega)

/-! ## The result as one function of the two arrays -/

/-- Entry (r, i, n): the sum over k of X[i, k] · W[r, k, n]. -/
def lin0 (X : S100000x128.Idx → Elt Ideal .f32) (W : S3x128x128.Idx → Elt Ideal .f32) : S3x100000x128.Idx → Elt Ideal .f32 :=
  fun j => ∑ k : Fin 128, X (ix2 (⟨(j 1).val, (j 1).isLt⟩ : Fin 100000) k)
    * W (ix3 (⟨(j 0).val, (j 0).isLt⟩ : Fin 3) k (⟨(j 2).val, (j 2).isLt⟩ : Fin 128))

theorem lin0_apply (X : S100000x128.Idx → Elt Ideal .f32) (W : S3x128x128.Idx → Elt Ideal .f32) (r : Fin 3) (i : Fin 100000) (n : Fin 128) :
    lin0 X W (ix3 r i n) = ∑ k : Fin 128, X (ix2 i k) * W (ix3 r k n) := rfl

variable (V : (c : Dev nD) → (b : Ref sig .tc) → Buf (Elt Ideal) ((c : Thread nD τ).loc b))

/-- The printed index maps over the grid: the rows of x move with the result's second axis, the matrix with its
    first, every other block index is zero, and the result's block indices stay in their ranges. -/
theorem idx_facts0 : ∀ t : Fin cfg0.N, win0_0.index t (0 : Fin 2) = win0_2.index t (1 : Fin 3)
    ∧ win0_0.index t (1 : Fin 2) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 2
    ∧ win0_2.index t (1 : Fin 3) ≤ 19 :=
  (by decide +kernel : ∀ t : Fin grid0.N, _)

/-- Every block of the result is some point's. -/
theorem idx_onto0 : ∀ (q0 : Fin 3) (q1 : Fin 20), ∃ t : Fin cfg0.N, win0_2.index t = ![q0.val, q1.val, 0] :=
  (by decide +kernel : ∀ (q0 : Fin 3) (q1 : Fin 20), ∃ t : Fin grid0.N, win0_2.index t = ![q0.val, q1.val, 0])

theorem hz2_0 : (![0, 0] : Fin 2 → Nat) = fun _ => 0 := funext fun a => by fin_cases a <;> rfl
theorem hz3_0 : (![0, 0, 0] : Fin 3 → Nat) = fun _ => 0 := funext fun a => by fin_cases a <;> rfl

/-- What point t writes back is block t of the product of the arrays as the region finds them. -/
theorem flushed0_eq (c : Dev nD) (t : Fin cfg0.N) :
    (dat0 (F := Ideal) V c).flushed 2 t
      = ((cfg0.win 2).blk t).view.read (Elt Ideal) (lin0 (V c main_arg0) (V c main_arg2)) := by
  show (cfg0.win 2).cut (grid0.coords t) ((dat0 (F := Ideal) V c).after 2 t) = _
  rw [after0_2]
  unfold out0_2
  rw [View.canon_unit_zero hz3_0]
  simp only [View.ld_unit_zero (S := S5000x128) hz2_0, View.ld_unit_zero (S := S1x128x128) hz3_0]
  obtain ⟨e0, e1, e2, e3, e4, e5, e6, e7⟩ := idx_facts0 t
  funext y
  show k0_pay1 (F := Ideal) (iblk0 V c 0 t) (iblk0 V c 1 t) y
    = lin0 (V c main_arg0) (V c main_arg2) (((cfg0.win 2).blk t).view.emb y)
  obtain ⟨u, p, n, rfl⟩ : ∃ (u : Fin 1) (p : Fin 5000) (n : Fin 128), y = ix3 u p n := ⟨y 0, y 1, y 2, eq_ix3 y⟩
  refine (pay0_apply (iblk0 V c 0 t) (iblk0 V c 1 t) u p n).trans ?_
  refine Finset.sum_congr rfl fun k _ => ?_
  have hu : u.val = 0 := by omega
  have hx : iblk0 V c 0 t (ix2 p k)
      = V c main_arg0 (ix2 (⟨((((cfg0.win 2).blk t).view.emb (ix3 u p n)) 1).val, ((((cfg0.win 2).blk t).view.emb (ix3 u p n)) 1).isLt⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (1 : Fin 3) * 5000 + 1 * p.val; omega
    | ⟨1, _⟩ => show win0_0.index t (1 : Fin 2) * 128 + 1 * k.val = k.val; omega
  have hw : iblk0 V c 1 t (ix3 (0 : Fin 1) k n)
      = V c main_arg2 (ix3 (⟨((((cfg0.win 2).blk t).view.emb (ix3 u p n)) 0).val, ((((cfg0.win 2).blk t).view.emb (ix3 u p n)) 0).isLt⟩ : Fin 3) k
          (⟨((((cfg0.win 2).blk t).view.emb (ix3 u p n)) 2).val, ((((cfg0.win 2).blk t).view.emb (ix3 u p n)) 2).isLt⟩ : Fin 128)) := by
    show V c main_arg2 (((cfg0.win 1).blk t).view.emb (ix3 (0 : Fin 1) k n)) = _
    refine congrArg (V c main_arg2) ?_
    funext a; apply Fin.ext
    match a with
    | ⟨0, _⟩ => show win0_1.index t (0 : Fin 3) * 1 + 1 * 0 = win0_2.index t (0 : Fin 3) * 1 + 1 * u.val; omega
    | ⟨1, _⟩ => show win0_1.index t (1 : Fin 3) * 128 + 1 * k.val = k.val; omega
    | ⟨2, _⟩ => show win0_1.index t (2 : Fin 3) * 128 + 1 * n.val = win0_2.index t (2 : Fin 3) * 128 + 1 * n.val; omega
  rw [hx, hw]

/-- An index of the result is in point t's block iff each coordinate is in the block's range on its axis. -/
theorem mem_blk0 (t : Fin cfg0.N) (i : S3x100000x128.Idx) :
    i ∈ ((cfg0.win 2).blk t).view.set ↔ ∀ a : Fin 3, win0_2.index t a * S1x5000x128.size a ≤ (i a).val ∧ (i a).val < win0_2.index t a * S1x5000x128.size a + S1x5000x128.size a := by
  show i ∈ ((View.whole main_v0).slice (win0_2.rect t)).set ↔ _
  rw [View.set_slice_whole, Rect.mem_set_unit]
  exact Iff.rfl

/-- Every index of the result is in some point's block: row i of relation r in that of the point (i / 5000, r). -/
theorem cover0 (i : S3x100000x128.Idx) :
    ∃ t : Fin cfg0.N, (cfg0.win 2).flush t = true ∧ i ∈ ((cfg0.win 2).blk t).view.set := by
  have hi0 : (i 0).val < 3 := (i 0).isLt
  have hi1 : (i 1).val < 100000 := (i 1).isLt
  have hi2 : (i 2).val < 128 := (i 2).isLt
  obtain ⟨t, ht⟩ := idx_onto0 ⟨(i 0).val, hi0⟩ ⟨(i 1).val / 5000, by omega⟩
  have q0 : win0_2.index t (0 : Fin 3) = (i 0).val := congrFun ht 0
  have q1 : win0_2.index t (1 : Fin 3) = (i 1).val / 5000 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5000 ≤ (i 1).val ∧ (i 1).val < win0_2.index t (1 : Fin 3) * 5000 + 5000; omega
  | ⟨2, _⟩ => show win0_2.index t (2 : Fin 3) * 128 ≤ (i 2).val ∧ (i 2).val < win0_2.index t (2 : Fin 3) * 128 + 128; omega

/-- The result after the region is the product of the arrays as the region finds them. -/
theorem arr0 (c : Dev nD) :
    (dat0 (F := Ideal) V c).arrAt 2 cfg0.N = lin0 (V c main_arg0) (V c main_arg2) :=
  (dat0 (F := Ideal) V c).arrAt_eq_of_cover 2 (lin0 (V c main_arg0) (V c main_arg2)) (fun t _ => flushed0_eq V c t) cover0

/-- The same, entry by entry. -/
theorem final0 (c : Dev nD) (r : Fin 3) (i : Fin 100000) (n : Fin 128) :
    (dat0 (F := Ideal) V c).arrAt 2 cfg0.N (ix3 r i n) = lin0 (V c main_arg0) (V c main_arg2) (ix3 r i n) :=
  congrFun (arr0 V c) (ix3 r i n)

/-- The same, with the two arrays named: entry (r, i, n) is the sum over k of X[i, k] · W[r, k, n]. -/
theorem final0_of (c : Dev nD) (X : S100000x128.Idx → Elt Ideal .f32) (W : S3x128x128.Idx → Elt Ideal .f32)
    (hX : V c main_arg0 = X) (hW : V c main_arg2 = W) (r : Fin 3) (i : Fin 100000) (n : Fin 128) :
    (dat0 (F := Ideal) V c).arrAt 2 cfg0.N (ix3 r i n) = ∑ k : Fin 128, X (ix2 i k) * W (ix3 r k n) := by
  subst hX hW
  exact (final0 V c r i n).trans (lin0_apply (V c main_arg0) (V c main_arg2) r i n)

end Cert.KernelIdeal.Hand

end
-- ==== Proof.KI.Val1.lean ====
/-
  The value the first combine region leaves, at the exact extended reals: row n, column j of the output array is

    max ((S₀ + XL₀·D₀ + B₀ + S₁ + XL₁·D₁ + B₁ + S₂ + XL₂·D₂ + B₂) · κ) 0,

  the sum taken from the left in that order, where S_r, XL_r are row n, column j of relation r of the two stacked
  [3, 100000, 128] arrays, D_r is row n of relation r of the [3, 100000, 1] array, B_r is column j of row r of the
  bias, κ is the named constant and 0 the zero word. Each output block is written back once, at its own grid point;
  the blocks tile the array; so the array after the region is that function at every index.
-/
import proofs.«128058_j54425825575251_2_alg».proof.Proof.KI.Reg1
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

/-! ## The scalar formula -/

/-- One output element from the twelve input elements it depends on, associated as the body computes it. -/
def comb1 (s0 l0 d0 b0 s1 l1 d1 b1 s2 l2 d2 b2 : EReal) : EReal :=
  max (((((((((s0 + l0 * d0) + b0) + s1) + l1 * d1) + b1) + s2) + l2 * d2) + b2)
      * (Named.named (F := Ideal) κ "inv_3" (φ := .f32) 0x3EAAAAAB#32))
    (Scalar.ofBits (F := Ideal) .f32 0x00000000#32)

/-- The whole output array as one function of the four input arrays. -/
def G1 (S XL : S3x100000x128.Idx → EReal) (D : S3x100000x1.Idx → EReal) (B : S3x128.Idx → EReal) : S100000x128.Idx → EReal :=
  fun i => comb1
    (S (ix3 (0 : Fin 3) (i 0) (i 1))) (XL (ix3 (0 : Fin 3) (i 0) (i 1))) (D (ix3 (0 : Fin 3) (i 0) (0 : Fin 1))) (B (ix2 (0 : Fin 3) (i 1)))
    (S (ix3 (1 : Fin 3) (i 0) (i 1))) (XL (ix3 (1 : Fin 3) (i 0) (i 1))) (D (ix3 (1 : Fin 3) (i 0) (0 : Fin 1))) (B (ix2 (1 : Fin 3) (i 1)))
    (S (ix3 (2 : Fin 3) (i 0) (i 1))) (XL (ix3 (2 : Fin 3) (i 0) (i 1))) (D (ix3 (2 : Fin 3) (i 0) (0 : Fin 1))) (B (ix2 (2 : Fin 3) (i 1)))

/-! ## Layout steps of the payloads, at an index -/

/-- A column broadcast over the lanes reads, at (p, c), the column's entry at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Relation r of a [3, 2000, 128] block, loaded as a [1, 2000, 128] vector, at (0, p, q). -/
theorem ld_rel (x : S3x2000x128.Idx → EReal) (o : ℕ) (inb) (r : Fin 3) (hr : r.val = o) (p : Fin 2000) (q : Fin 128) :
    View.ld (Val := Elt Ideal) (e' := .f32) x (Rect.unit (s := S3x2000x128) ![o, 0, 0] S1x2000x128.size inb) (ix3 (0 : Fin 1) p q) = x (ix3 r p q) := by
  show x _ = x _
  congr 1; funext a; apply Fin.ext
  match a with
  | ⟨0, _⟩ => show o + 1 * 0 = r.val; omega
  | ⟨1, _⟩ => show 0 + 1 * p.val = p.val; omega
  | ⟨2, _⟩ => show 0 + 1 * q.val = q.val; omega

/-- Relation r of the [3, 2000, 1] block, loaded as a [1, 2000, 1] vector, at (0, p, 0). -/
theorem ld_relD (x : S3x2000x1.Idx → EReal) (o : ℕ) (inb) (r : Fin 3) (hr : r.val = o) (p : Fin 2000) :
    View.ld (Val := Elt Ideal) (e' := .f32) x (Rect.unit (s := S3x2000x1) ![o, 0, 0] S1x2000x1.size inb) (ix3 (0 : Fin 1) p (0 : Fin 1)) = x (ix3 r p (0 : Fin 1)) := by
  show x _ = x _
  congr 1; funext a; apply Fin.ext
  match a with
  | ⟨0, _⟩ => show o + 1 * 0 = r.val; omega
  | ⟨1, _⟩ => show 0 + 1 * p.val = p.val; omega
  | ⟨2, _⟩ => show 0 + 1 * 0 = 0; omega

/-- Row r of the bias, loaded as a [1, 128] vector, at (0, q). -/
theorem ld_relB (x : S3x128.Idx → EReal) (o : ℕ) (inb) (r : Fin 3) (hr : r.val = o) (q : Fin 128) :
    View.ld (Val := Elt Ideal) (e' := .f32) x (Rect.unit (s := S3x128) ![o, 0] S1x128.size inb) (ix2 (0 : Fin 1) q) = x (ix2 r q) := by
  show x _ = x _
  congr 1; funext a; apply Fin.ext
  match a with
  | ⟨0, _⟩ => show o + 1 * 0 = r.val; omega
  | ⟨1, _⟩ => show 0 + 1 * q.val = q.val; omega

/-- A [1, 2000, 128] vector viewed [2000, 128], at (p, q). -/
theorem sq_a (v : Vec Ideal S1x2000x128 .f32) (p : Fin 2000) (q : Fin 128) :
    shapeCast S2000x128 v shapeCasts_S1x2000x128_S2000x128 (ix2 p q) = v (ix3 (0 : Fin 1) p q) :=
  shapeCast_1ab_ab_apply v _ p q

/-- A [1, 2000, 1] vector viewed [2000, 1] and spread over the lanes, at (p, q). -/
theorem sq_d (v : Vec Ideal S1x2000x1 .f32) (p : Fin 2000) (q : Fin 128) :
    broadcastTo S2000x128 (shapeCast S2000x1 v shapeCasts_S1x2000x1_S2000x1) broadcasts_S2000x1_S2000x128 (ix2 p q) = v (ix3 (0 : Fin 1) p (0 : Fin 1)) :=
  (broadcastTo_a1_ab_apply _ _ p q).trans (shapeCast_1ab_ab_apply v _ p (0 : Fin 1))

/-- A [1, 128] row viewed [128], then [1, 128], and spread over the rows, at (p, q). -/
theorem sq_b (v : Vec Ideal S1x128 .f32) (p : Fin 2000) (q : Fin 128) :
    broadcastTo S2000x128 (shapeCast S1x128 (shapeCast S128 v shapeCasts_S1x128_S128) shapeCasts_S128_S1x128) broadcasts_S1x128_S2000x128 (ix2 p q) = v (ix2 (0 : Fin 1) q) :=
  (broadcastTo_1b_ab_apply _ _ p q).trans ((shapeCast_a_1a_apply _ _ (0 : Fin 1) q).trans (shapeCast_1a_a_apply v _ q))

/-! ## The stored value at an index of the block -/

/-- The body's stored vector at (p, q): the scalar formula of the twelve loaded elements. -/
theorem pay1_apply (v0 v2 : Vec Ideal S1x2000x128 .f32) (v4 : Vec Ideal S1x2000x1 .f32) (v9 : Vec Ideal S1x128 .f32)
    (v14 v17 : Vec Ideal S1x2000x128 .f32) (v19 : Vec Ideal S1x2000x1 .f32) (v24 : Vec Ideal S1x128 .f32)
    (v29 v32 : Vec Ideal S1x2000x128 .f32) (v34 : Vec Ideal S1x2000x1 .f32) (v39 : Vec Ideal S1x128 .f32) (p : Fin 2000) (q : Fin 128) :
    k1_pay1 (k1_pay2 v0 v2 v4 v9 v14 v17 v19 v24 v29) v32 v34 v39 (ix2 p q)
      = comb1 (v0 (ix3 (0 : Fin 1) p q)) (v2 (ix3 (0 : Fin 1) p q)) (v4 (ix3 (0 : Fin 1) p (0 : Fin 1))) (v9 (ix2 (0 : Fin 1) q))
          (v14 (ix3 (0 : Fin 1) p q)) (v17 (ix3 (0 : Fin 1) p q)) (v19 (ix3 (0 : Fin 1) p (0 : Fin 1))) (v24 (ix2 (0 : Fin 1) q))
          (v29 (ix3 (0 : Fin 1) p q)) (v32 (ix3 (0 : Fin 1) p q)) (v34 (ix3 (0 : Fin 1) p (0 : Fin 1))) (v39 (ix2 (0 : Fin 1) q)) := by
  unfold k1_pay1 k1_pay2 comb1
  simp only [maximumf_apply, mulf_apply, addf_apply, broadcast_apply]
  rw [sq_a v0 p q, sq_a v2 p q, sq_d v4 p q, sq_b v9 p q, sq_a v14 p q, sq_a v17 p q, sq_d v19 p q, sq_b v24 p q,
    sq_a v29 p q, sq_a v32 p q, sq_d v34 p q, sq_b v39 p q]

/-! ## The output block at an index, from the input blocks -/

theorem hz2 : (![0, 0] : Fin 2 → Nat) = fun _ => 0 := funext fun a => by fin_cases a <;> rfl

/-- What the body leaves in the output buffer, at (p, q): the scalar formula of the input buffers' entries at row p
    of each relation, lane q. -/
theorem out1_4_apply (x0 x1 : Vec Ideal S3x2000x128 .f32) (x2 : Vec Ideal S3x2000x1 .f32) (x3 : Vec Ideal S3x128 .f32) (p : Fin 2000) (q : Fin 128) :
    out1_4 x0 x1 x2 x3 (ix2 p q) = comb1
      (x0 (ix3 (0 : Fin 3) p q)) (x1 (ix3 (0 : Fin 3) p q)) (x2 (ix3 (0 : Fin 3) p (0 : Fin 1))) (x3 (ix2 (0 : Fin 3) q))
      (x0 (ix3 (1 : Fin 3) p q)) (x1 (ix3 (1 : Fin 3) p q)) (x2 (ix3 (1 : Fin 3) p (0 : Fin 1))) (x3 (ix2 (1 : Fin 3) q))
      (x0 (ix3 (2 : Fin 3) p q)) (x1 (ix3 (2 : Fin 3) p q)) (x2 (ix3 (2 : Fin 3) p (0 : Fin 1))) (x3 (ix2 (2 : Fin 3) q)) := by
  unfold out1_4
  rw [View.canon_unit_zero hz2]
  refine (pay1_apply _ _ _ _ _ _ _ _ _ _ _ _ p q).trans ?_
  rw [ld_rel x0 0 _ 0 rfl p q, ld_rel x1 0 _ 0 rfl p q, ld_relD x2 0 _ 0 rfl p, ld_relB x3 0 _ 0 rfl q,
    ld_rel x0 1 _ 1 rfl p q, ld_rel x1 1 _ 1 rfl p q, ld_relD x2 1 _ 1 rfl p, ld_relB x3 1 _ 1 rfl q,
    ld_rel x0 2 _ 2 rfl p q, ld_rel x1 2 _ 2 rfl p q, ld_relD x2 2 _ 2 rfl p, ld_relB x3 2 _ 2 rfl q]

section AtV
variable (V : (c : Dev nD) → (b : Ref sig .tc) → Buf (Elt Ideal) ((c : Thread nD τ).loc b))

/-- The printed index maps over the grid: the three stacked inputs and the output move along the rows with the
    point; the bias stays. -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = t.val ∧ win1_2.index t (2 : Fin 3) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t is rows 2000·t … of S. -/
theorem iblk1_0_apply (c : Dev nD) (t : Fin cfg1.N) (r : Fin 3) (p : Fin 2000) (q : Fin 128) (n : Fin 100000) (hn : n.val = 2000 * t.val + p.val) :
    (iblk1 V c 0 t : Vec Ideal S3x2000x128 .f32) (ix3 r p q) = (V c main_v145 : S3x100000x128.Idx → EReal) (ix3 r n q) := by
  obtain ⟨e0, e1, e2, -⟩ := idx_facts1 t
  unfold iblk1
  rw [View.read_apply]
  show V c main_v145 _ = V c main_v145 _
  congr 1; funext a; apply Fin.ext
  match a with
  | ⟨0, _⟩ => show win1_0.index t (0 : Fin 3) * 3 + 1 * r.val = r.val; rw [e0]; omega
  | ⟨1, _⟩ => show win1_0.index t (1 : Fin 3) * 2000 + 1 * p.val = n.val; rw [e1, hn]; omega
  | ⟨2, _⟩ => show win1_0.index t (2 : Fin 3) * 128 + 1 * q.val = q.val; rw [e2]; omega

/-- Window 1's block at point t is rows 2000·t … of XL. -/
theorem iblk1_1_apply (c : Dev nD) (t : Fin cfg1.N) (r : Fin 3) (p : Fin 2000) (q : Fin 128) (n : Fin 100000) (hn : n.val = 2000 * t.val + p.val) :
    (iblk1 V c 1 t : Vec Ideal S3x2000x128 .f32) (ix3 r p q) = (V c main_v0 : S3x100000x128.Idx → EReal) (ix3 r n q) := by
  obtain ⟨-, -, -, e0, e1, e2, -⟩ := idx_facts1 t
  unfold iblk1
  rw [View.read_apply]
  show V c main_v0 _ = V c main_v0 _
  congr 1; funext a; apply Fin.ext
  match a with
  | ⟨0, _⟩ => show win1_1.index t (0 : Fin 3) * 3 + 1 * r.val = r.val; rw [e0]; omega
  | ⟨1, _⟩ => show win1_1.index t (1 : Fin 3) * 2000 + 1 * p.val = n.val; rw [e1, hn]; omega
  | ⟨2, _⟩ => show win1_1.index t (2 : Fin 3) * 128 + 1 * q.val = q.val; rw [e2]; omega

/-- Window 2's block at point t is rows 2000·t … of D. -/
theorem iblk1_2_apply (c : Dev nD) (t : Fin cfg1.N) (r : Fin 3) (p : Fin 2000) (n : Fin 100000) (hn : n.val = 2000 * t.val + p.val) :
    (iblk1 V c 2 t : Vec Ideal S3x2000x1 .f32) (ix3 r p (0 : Fin 1)) = (V c main_v150 : S3x100000x1.Idx → EReal) (ix3 r n (0 : Fin 1)) := by
  obtain ⟨-, -, -, -, -, -, e0, e1, e2, -⟩ := idx_facts1 t
  unfold iblk1
  rw [View.read_apply]
  show V c main_v150 _ = V c main_v150 _
  congr 1; funext a; apply Fin.ext
  match a with
  | ⟨0, _⟩ => show win1_2.index t (0 : Fin 3) * 3 + 1 * r.val = r.val; rw [e0]; omega
  | ⟨1, _⟩ => show win1_2.index t (1 : Fin 3) * 2000 + 1 * p.val = n.val; rw [e1, hn]; omega
  | ⟨2, _⟩ => show win1_2.index t (2 : Fin 3) * 1 + 1 * 0 = 0; rw [e2]

/-- Window 3's block at every point is the whole bias. -/
theorem iblk1_3_apply (c : Dev nD) (t : Fin cfg1.N) (r : Fin 3) (q : Fin 128) :
    (iblk1 V c 3 t : Vec Ideal S3x128 .f32) (ix2 r q) = (V c main_arg3 : S3x128.Idx → EReal) (ix2 r q) := by
  obtain ⟨-, -, -, -, -, -, -, -, -, e0, e1, -⟩ := idx_facts1 t
  unfold iblk1
  rw [View.read_apply]
  show V c main_arg3 _ = V c main_arg3 _
  congr 1; funext a; apply Fin.ext
  match a with
  | ⟨0, _⟩ => show win1_3.index t (0 : Fin 2) * 3 + 1 * r.val = r.val; rw [e0]; omega
  | ⟨1, _⟩ => show win1_3.index t (1 : Fin 2) * 128 + 1 * q.val = q.val; rw [e1]; omega

end AtV

section Final
variable (V : (c : Dev nD) → (b : Ref sig .tc) → Buf (Elt Ideal) ((c : Thread nD τ).loc b))

/-- What point t writes back is block t of G1 of the arrays as the region finds them. -/
theorem flushed1_eq (c : Dev nD) (t : Fin cfg1.N) :
    (dat1 V c).flushed 4 t = ((cfg1.win 4).blk t).view.read (Elt Ideal) (G1 (V c main_v145) (V c main_v0) (V c main_v150) (V c main_arg3)) := by
  show (cfg1.win 4).cut (grid1.coords t) ((dat1 V c).after 4 t) = _
  rw [after1_4]
  funext y
  obtain ⟨p, q, rfl⟩ : ∃ (p : Fin 2000) (q : Fin 128), y = ix2 p q := ⟨y 0, y 1, eq_ix2 y⟩
  obtain ⟨-, -, -, -, -, -, -, -, -, -, -, e0, e1⟩ := idx_facts1 t
  have ht : t.val < 50 := lt_of_lt_of_eq t.isLt (show cfg1.N = 50 from N_1)
  have hp : p.val < 2000 := p.isLt
  obtain ⟨n, hn⟩ : ∃ n : Fin 100000, n.val = 2000 * t.val + p.val := ⟨⟨2000 * t.val + p.val, by omega⟩, rfl⟩
  show out1_4 (iblk1 V c 0 t) (iblk1 V c 1 t) (iblk1 V c 2 t) (iblk1 V c 3 t) (ix2 p q) = G1 _ _ _ _ (((cfg1.win 4).blk t).view.emb (ix2 p q))
  have hemb : ((cfg1.win 4).blk t).view.emb (ix2 p q) = ix2 n q := by
    funext a; apply Fin.ext
    match a with
    | ⟨0, _⟩ => show win1_4.index t (0 : Fin 2) * 2000 + 1 * p.val = n.val; rw [e0, hn]; omega
    | ⟨1, _⟩ => show win1_4.index t (1 : Fin 2) * 128 + 1 * q.val = q.val; rw [e1]; omega
  rw [hemb]
  refine (out1_4_apply _ _ _ _ p q).trans ?_
  rw [iblk1_0_apply V c t 0 p q n hn, iblk1_0_apply V c t 1 p q n hn, iblk1_0_apply V c t 2 p q n hn,
    iblk1_1_apply V c t 0 p q n hn, iblk1_1_apply V c t 1 p q n hn, iblk1_1_apply V c t 2 p q n hn,
    iblk1_2_apply V c t 0 p n hn, iblk1_2_apply V c t 1 p n hn, iblk1_2_apply V c t 2 p n hn,
    iblk1_3_apply V c t 0 q, iblk1_3_apply V c t 1 q, iblk1_3_apply V c t 2 q]
  rfl

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v151).slice (win1_4.rect t)).set ↔ _
  rw [View.set_slice_whole, Rect.mem_set_unit]
  exact Iff.rfl

/-- The blocks tile the array: row r is in the block of point r / 2000. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, htv⟩ : ∃ t : Fin cfg1.N, t.val = (i 0).val / 2000 := ⟨⟨(i 0).val / 2000, by rw [show cfg1.N = 50 from N_1]; omega⟩, rfl⟩
  obtain ⟨-, -, -, -, -, -, -, -, -, -, -, e0, e1⟩ := idx_facts1 t
  refine ⟨t, flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    rw [e0, htv]; omega
  | ⟨1, _⟩ =>
    show win1_4.index t (1 : Fin 2) * 128 ≤ (i 1).val ∧ (i 1).val < win1_4.index t (1 : Fin 2) * 128 + 128
    rw [e1]; omega

/-- THE OUTPUT ARRAY after the region: G1 of the four input arrays as the region finds them. -/
theorem final1_fun (c : Dev nD) :
    (dat1 V c).arrAt 4 cfg1.N = G1 (V c main_v145) (V c main_v0) (V c main_v150) (V c main_arg3) :=
  (dat1 V c).arrAt_eq_of_cover 4 (G1 (V c main_v145) (V c main_v0) (V c main_v150) (V c main_arg3)) (fun t _ => flushed1_eq V c t) cover1

/-- The same, element by element. -/
theorem final1 (c : Dev nD) (n : Fin 100000) (j : Fin 128) :
    (dat1 V c).arrAt 4 cfg1.N (ix2 n j) = comb1
      ((V c main_v145 : S3x100000x128.Idx → EReal) (ix3 (0 : Fin 3) n j)) ((V c main_v0 : S3x100000x128.Idx → EReal) (ix3 (0 : Fin 3) n j))
      ((V c main_v150 : S3x100000x1.Idx → EReal) (ix3 (0 : Fin 3) n (0 : Fin 1))) ((V c main_arg3 : S3x128.Idx → EReal) (ix2 (0 : Fin 3) j))
      ((V c main_v145 : S3x100000x128.Idx → EReal) (ix3 (1 : Fin 3) n j)) ((V c main_v0 : S3x100000x128.Idx → EReal) (ix3 (1 : Fin 3) n j))
      ((V c main_v150 : S3x100000x1.Idx → EReal) (ix3 (1 : Fin 3) n (0 : Fin 1))) ((V c main_arg3 : S3x128.Idx → EReal) (ix2 (1 : Fin 3) j))
      ((V c main_v145 : S3x100000x128.Idx → EReal) (ix3 (2 : Fin 3) n j)) ((V c main_v0 : S3x100000x128.Idx → EReal) (ix3 (2 : Fin 3) n j))
      ((V c main_v150 : S3x100000x1.Idx → EReal) (ix3 (2 : Fin 3) n (0 : Fin 1))) ((V c main_arg3 : S3x128.Idx → EReal) (ix2 (2 : Fin 3) j)) := by
  rw [final1_fun]
  rfl

end Final

end Cert.KernelIdeal.Hand

end
-- ==== Proof.KI.Val2.lean ====
/-
  The value of the second linear layer at the ideal values: after the region, entry (r, i, n) of the result
  [3, 100000, 64] is the sum over k of h[i, k] · W[r, k, n], h and W as the region finds them.

  The point (a, r) of the grid writes back the block [1, 5000, 64] at (r, 5000 a, 0); what the body left in it is
  the product of rows 5000 a … 5000 a + 4999 of h with W[r] (the changes of float format are the identity at the
  ideal values, the casts only add or drop the unit axis, and the matrix unit's product into a zero accumulator is
  the sum). So each block written back is the restriction of ONE function of the two arrays to the block; the
  blocks tile the array (row i of relation r lies in the block of the point (i / 5000, r)); hence the array ends
  holding that function.
-/
import proofs.«128058_j54425825575251_2_alg».proof.Proof.KI.Reg2
import proofs.«128058_j54425825575251_2_alg».proof.Proof.KI.MatmulPlain
import Idealize.ShloMosaic.Lib.Pipeline.Value

set_option maxRecDepth 16384

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)

/-! ## The body's product at an index -/

/-- Entry (0, p, n) of what the body stores: row p of the rows of h against column n of the matrix. -/
theorem pay2_apply (x0 : Vec Ideal S5000x128 .f32) (x1 : Vec Ideal S1x128x64 .f32) (u : Fin 1) (p : Fin 5000) (n : Fin 64) :
    k2_pay1 (F := Ideal) x0 x1 (ix3 u p n) = ∑ k : Fin 128, x0 (ix2 p k) * x1 (ix3 (0 : Fin 1) k n) := by
  have hu : u.val = 0 := by omega
  unfold k2_pay1
  refine (shapeCast_apply _ shapeCasts_S5000x64_S1x5000x64 (ix3 u p n) (ix2 p n) ?_).trans ?_
  · rw [Shape.rowMajor_val_two, Shape.rowMajor_val_three]
    show p.val * 64 + n.val = (u.val * 5000 + p.val) * 64 + n.val
    rw [hu]; omega
  refine (Cert.LinearUnit.matmul_plain_apply dot_S5000x128_S128x64_S5000x64_1_0_0_1_n_n_wf none _ _ p n).trans ?_
  refine Finset.sum_congr rfl fun k _ => ?_
  refine congrArg₂ (· * ·) ?_ ?_
  · exact congrFun (shapeCast_self x0 shapeCasts_S5000x128_S5000x128) (ix2 p k)
  · exact shapeCast_apply x1 shapeCasts_S1x128x64_S128x64 (ix2 k n) (ix3 (0 : Fin 1) k n) (by
      rw [Shape.rowMajor_val_two, Shape.rowMajor_val_three]
      show (0 * 128 + k.val) * 64 + n.val = k.val * 64 + n.val
      omega)

/-! ## The result as one function of the two arrays -/

/-- Entry (r, i, n): the sum over k of X[i, k] · W[r, k, n]. -/
def lin2 (X : S100000x128.Idx → Elt Ideal .f32) (W : S3x128x64.Idx → Elt Ideal .f32) : S3x100000x64.Idx → Elt Ideal .f32 :=
  fun j => ∑ k : Fin 128, X (ix2 (⟨(j 1).val, (j 1).isLt⟩ : Fin 100000) k)
    * W (ix3 (⟨(j 0).val, (j 0).isLt⟩ : Fin 3) k (⟨(j 2).val, (j 2).isLt⟩ : Fin 64))

theorem lin2_apply (X : S100000x128.Idx → Elt Ideal .f32) (W : S3x128x64.Idx → Elt Ideal .f32) (r : Fin 3) (i : Fin 100000) (n : Fin 64) :
    lin2 X W (ix3 r i n) = ∑ k : Fin 128, X (ix2 i k) * W (ix3 r k n) := rfl

variable (V : (c : Dev nD) → (b : Ref sig .tc) → Buf (Elt Ideal) ((c : Thread nD τ).loc b))

/-- The printed index maps over the grid: the rows of h move with the result's second axis, the matrix with its
    first, every other block index is zero, and the result's block indices stay in their ranges. -/
theorem idx_facts2 : ∀ t : Fin cfg2.N, win2_0.index t (0 : Fin 2) = win2_2.index t (1 : Fin 3)
    ∧ win2_0.index t (1 : Fin 2) = 0
    ∧ win2_1.index t (0 : Fin 3) = win2_2.index t (0 : Fin 3)
    ∧ win2_1.index t (1 : Fin 3) = 0
    ∧ win2_1.index t (2 : Fin 3) = 0
    ∧ win2_2.index t (2 : Fin 3) = 0
    ∧ win2_2.index t (0 : Fin 3) ≤ 2
    ∧ win2_2.index t (1 : Fin 3) ≤ 19 :=
  (by decide +kernel : ∀ t : Fin grid2.N, _)

/-- Every block of the result is some point's. -/
theorem idx_onto2 : ∀ (q0 : Fin 3) (q1 : Fin 20), ∃ t : Fin cfg2.N, win2_2.index t = ![q0.val, q1.val, 0] :=
  (by decide +kernel : ∀ (q0 : Fin 3) (q1 : Fin 20), ∃ t : Fin grid2.N, win2_2.index t = ![q0.val, q1.val, 0])

theorem hz2_2 : (![0, 0] : Fin 2 → Nat) = fun _ => 0 := funext fun a => by fin_cases a <;> rfl
theorem hz3_2 : (![0, 0, 0] : Fin 3 → Nat) = fun _ => 0 := funext fun a => by fin_cases a <;> rfl

/-- What point t writes back is block t of the product of the arrays as the region finds them. -/
theorem flushed2_eq (c : Dev nD) (t : Fin cfg2.N) :
    (dat2 (F := Ideal) V c).flushed 2 t
      = ((cfg2.win 2).blk t).view.read (Elt Ideal) (lin2 (V c main_v151) (V c main_arg4)) := by
  show (cfg2.win 2).cut (grid2.coords t) ((dat2 (F := Ideal) V c).after 2 t) = _
  rw [after2_2]
  unfold out2_2
  rw [View.canon_unit_zero hz3_2]
  simp only [View.ld_unit_zero (S := S5000x128) hz2_2, View.ld_unit_zero (S := S1x128x64) hz3_2]
  obtain ⟨e0, e1, e2, e3, e4, e5, e6, e7⟩ := idx_facts2 t
  funext y
  show k2_pay1 (F := Ideal) (iblk2 V c 0 t) (iblk2 V c 1 t) y
    = lin2 (V c main_v151) (V c main_arg4) (((cfg2.win 2).blk t).view.emb y)
  obtain ⟨u, p, n, rfl⟩ : ∃ (u : Fin 1) (p : Fin 5000) (n : Fin 64), y = ix3 u p n := ⟨y 0, y 1, y 2, eq_ix3 y⟩
  refine (pay2_apply (iblk2 V c 0 t) (iblk2 V c 1 t) u p n).trans ?_
  refine Finset.sum_congr rfl fun k _ => ?_
  have hu : u.val = 0 := by omega
  have hx : iblk2 V c 0 t (ix2 p k)
      = V c main_v151 (ix2 (⟨((((cfg2.win 2).blk t).view.emb (ix3 u p n)) 1).val, ((((cfg2.win 2).blk t).view.emb (ix3 u p n)) 1).isLt⟩ : Fin 100000) k) := by
    show V c main_v151 (((cfg2.win 0).blk t).view.emb (ix2 p k)) = _
    refine congrArg (V c main_v151) ?_
    funext a; apply Fin.ext
    match a with
    | ⟨0, _⟩ => show win2_0.index t (0 : Fin 2) * 5000 + 1 * p.val = win2_2.index t (1 : Fin 3) * 5000 + 1 * p.val; omega
    | ⟨1, _⟩ => show win2_0.index t (1 : Fin 2) * 128 + 1 * k.val = k.val; omega
  have hw : iblk2 V c 1 t (ix3 (0 : Fin 1) k n)
      = V c main_arg4 (ix3 (⟨((((cfg2.win 2).blk t).view.emb (ix3 u p n)) 0).val, ((((cfg2.win 2).blk t).view.emb (ix3 u p n)) 0).isLt⟩ : Fin 3) k
          (⟨((((cfg2.win 2).blk t).view.emb (ix3 u p n)) 2).val, ((((cfg2.win 2).blk t).view.emb (ix3 u p n)) 2).isLt⟩ : Fin 64)) := by
    show V c main_arg4 (((cfg2.win 1).blk t).view.emb (ix3 (0 : Fin 1) k n)) = _
    refine congrArg (V c main_arg4) ?_
    funext a; apply Fin.ext
    match a with
    | ⟨0, _⟩ => show win2_1.index t (0 : Fin 3) * 1 + 1 * 0 = win2_2.index t (0 : Fin 3) * 1 + 1 * u.val; omega
    | ⟨1, _⟩ => show win2_1.index t (1 : Fin 3) * 128 + 1 * k.val = k.val; omega
    | ⟨2, _⟩ => show win2_1.index t (2 : Fin 3) * 64 + 1 * n.val = win2_2.index t (2 : Fin 3) * 64 + 1 * n.val; omega
  rw [hx, hw]

/-- An index of the result is in point t's block iff each coordinate is in the block's range on its axis. -/
theorem mem_blk2 (t : Fin cfg2.N) (i : S3x100000x64.Idx) :
    i ∈ ((cfg2.win 2).blk t).view.set ↔ ∀ a : Fin 3, win2_2.index t a * S1x5000x64.size a ≤ (i a).val ∧ (i a).val < win2_2.index t a * S1x5000x64.size a + S1x5000x64.size a := by
  show i ∈ ((View.whole main_v152).slice (win2_2.rect t)).set ↔ _
  rw [View.set_slice_whole, Rect.mem_set_unit]
  exact Iff.rfl

/-- Every index of the result is in some point's block: row i of relation r in that of the point (i / 5000, r). -/
theorem cover2 (i : S3x100000x64.Idx) :
    ∃ t : Fin cfg2.N, (cfg2.win 2).flush t = true ∧ i ∈ ((cfg2.win 2).blk t).view.set := by
  have hi0 : (i 0).val < 3 := (i 0).isLt
  have hi1 : (i 1).val < 100000 := (i 1).isLt
  have hi2 : (i 2).val < 64 := (i 2).isLt
  obtain ⟨t, ht⟩ := idx_onto2 ⟨(i 0).val, hi0⟩ ⟨(i 1).val / 5000, by omega⟩
  have q0 : win2_2.index t (0 : Fin 3) = (i 0).val := congrFun ht 0
  have q1 : win2_2.index t (1 : Fin 3) = (i 1).val / 5000 := congrFun ht 1
  have q2 : win2_2.index t (2 : Fin 3) = 0 := congrFun ht 2
  refine ⟨t, flush2_2 t, ?_⟩
  rw [mem_blk2]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 5000 ≤ (i 1).val ∧ (i 1).val < win2_2.index t (1 : Fin 3) * 5000 + 5000; omega
  | ⟨2, _⟩ => show win2_2.index t (2 : Fin 3) * 64 ≤ (i 2).val ∧ (i 2).val < win2_2.index t (2 : Fin 3) * 64 + 64; omega

/-- The result after the region is the product of the arrays as the region finds them. -/
theorem arr2 (c : Dev nD) :
    (dat2 (F := Ideal) V c).arrAt 2 cfg2.N = lin2 (V c main_v151) (V c main_arg4) :=
  (dat2 (F := Ideal) V c).arrAt_eq_of_cover 2 (lin2 (V c main_v151) (V c main_arg4)) (fun t _ => flushed2_eq V c t) cover2

/-- The same, entry by entry. -/
theorem final2 (c : Dev nD) (r : Fin 3) (i : Fin 100000) (n : Fin 64) :
    (dat2 (F := Ideal) V c).arrAt 2 cfg2.N (ix3 r i n) = lin2 (V c main_v151) (V c main_arg4) (ix3 r i n) :=
  congrFun (arr2 V c) (ix3 r i n)

/-- The same, with the two arrays named: entry (r, i, n) is the sum over k of X[i, k] · W[r, k, n]. -/
theorem final2_of (c : Dev nD) (X : S100000x128.Idx → Elt Ideal .f32) (W : S3x128x64.Idx → Elt Ideal .f32)
    (hX : V c main_v151 = X) (hW : V c main_arg4 = W) (r : Fin 3) (i : Fin 100000) (n : Fin 64) :
    (dat2 (F := Ideal) V c).arrAt 2 cfg2.N (ix3 r i n) = ∑ k : Fin 128, X (ix2 i k) * W (ix3 r k n) := by
  subst hX hW
  exact (final2 V c r i n).trans (lin2_apply (V c main_v151) (V c main_arg4) r i n)

end Cert.KernelIdeal.Hand

end
-- ==== Proof.KI.Val3.lean ====
/-
  The value the second combine region leaves, at the exact extended reals: row n, column j of the output array is

    (S₀ + XL₀·D₀ + B₀ + S₁ + XL₁·D₁ + B₁ + S₂ + XL₂·D₂ + B₂) · κ,

  the sum taken from the left in that order, where S_r, XL_r are row n, column j of relation r of the two stacked
  [3, 100000, 64] arrays, D_r is row n of relation r of the [3, 100000, 1] array, B_r is column j of row r of the
  bias and κ is the named constant. Each output block is written back once, at its own grid point; the blocks tile
  the array; so the array after the region is that function at every index.
-/
import proofs.«128058_j54425825575251_2_alg».proof.Proof.KI.Reg3
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

/-! ## The scalar formula -/

/-- One output element from the twelve input elements it depends on, associated as the body computes it. -/
def comb3 (s0 l0 d0 b0 s1 l1 d1 b1 s2 l2 d2 b2 : EReal) : EReal :=
  ((((((((s0 + l0 * d0) + b0) + s1) + l1 * d1) + b1) + s2) + l2 * d2) + b2)
    * (Named.named (F := Ideal) κ "inv_3" (φ := .f32) 0x3EAAAAAB#32)

/-- The whole output array as one function of the four input arrays. -/
def G3 (S XL : S3x100000x64.Idx → EReal) (D : S3x100000x1.Idx → EReal) (B : S3x64.Idx → EReal) : S100000x64.Idx → EReal :=
  fun i => comb3
    (S (ix3 (0 : Fin 3) (i 0) (i 1))) (XL (ix3 (0 : Fin 3) (i 0) (i 1))) (D (ix3 (0 : Fin 3) (i 0) (0 : Fin 1))) (B (ix2 (0 : Fin 3) (i 1)))
    (S (ix3 (1 : Fin 3) (i 0) (i 1))) (XL (ix3 (1 : Fin 3) (i 0) (i 1))) (D (ix3 (1 : Fin 3) (i 0) (0 : Fin 1))) (B (ix2 (1 : Fin 3) (i 1)))
    (S (ix3 (2 : Fin 3) (i 0) (i 1))) (XL (ix3 (2 : Fin 3) (i 0) (i 1))) (D (ix3 (2 : Fin 3) (i 0) (0 : Fin 1))) (B (ix2 (2 : Fin 3) (i 1)))

/-! ## Layout steps of the payloads, at an index -/

/-- A column broadcast over the lanes reads, at (p, c), the column's entry at p. -/
theorem broadcastTo_a1_ab_apply3 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Relation r of a [3, 2000, 64] block, loaded as a [1, 2000, 64] vector, at (0, p, q). -/
theorem ld_rel3 (x : S3x2000x64.Idx → EReal) (o : ℕ) (inb) (r : Fin 3) (hr : r.val = o) (p : Fin 2000) (q : Fin 64) :
    View.ld (Val := Elt Ideal) (e' := .f32) x (Rect.unit (s := S3x2000x64) ![o, 0, 0] S1x2000x64.size inb) (ix3 (0 : Fin 1) p q) = x (ix3 r p q) := by
  show x _ = x _
  congr 1; funext a; apply Fin.ext
  match a with
  | ⟨0, _⟩ => show o + 1 * 0 = r.val; omega
  | ⟨1, _⟩ => show 0 + 1 * p.val = p.val; omega
  | ⟨2, _⟩ => show 0 + 1 * q.val = q.val; omega

/-- Relation r of the [3, 2000, 1] block, loaded as a [1, 2000, 1] vector, at (0, p, 0). -/
theorem ld_relD3 (x : S3x2000x1.Idx → EReal) (o : ℕ) (inb) (r : Fin 3) (hr : r.val = o) (p : Fin 2000) :
    View.ld (Val := Elt Ideal) (e' := .f32) x (Rect.unit (s := S3x2000x1) ![o, 0, 0] S1x2000x1.size inb) (ix3 (0 : Fin 1) p (0 : Fin 1)) = x (ix3 r p (0 : Fin 1)) := by
  show x _ = x _
  congr 1; funext a; apply Fin.ext
  match a with
  | ⟨0, _⟩ => show o + 1 * 0 = r.val; omega
  | ⟨1, _⟩ => show 0 + 1 * p.val = p.val; omega
  | ⟨2, _⟩ => show 0 + 1 * 0 = 0; omega

/-- Row r of the bias, loaded as a [1, 64] vector, at (0, q). -/
theorem ld_relB3 (x : S3x64.Idx → EReal) (o : ℕ) (inb) (r : Fin 3) (hr : r.val = o) (q : Fin 64) :
    View.ld (Val := Elt Ideal) (e' := .f32) x (Rect.unit (s := S3x64) ![o, 0] S1x64.size inb) (ix2 (0 : Fin 1) q) = x (ix2 r q) := by
  show x _ = x _
  congr 1; funext a; apply Fin.ext
  match a with
  | ⟨0, _⟩ => show o + 1 * 0 = r.val; omega
  | ⟨1, _⟩ => show 0 + 1 * q.val = q.val; omega

/-- A [1, 2000, 64] vector viewed [2000, 64], at (p, q). -/
theorem sq_a3 (v : Vec Ideal S1x2000x64 .f32) (p : Fin 2000) (q : Fin 64) :
    shapeCast S2000x64 v shapeCasts_S1x2000x64_S2000x64 (ix2 p q) = v (ix3 (0 : Fin 1) p q) :=
  shapeCast_1ab_ab_apply v _ p q

/-- A [1, 2000, 1] vector viewed [2000, 1] and spread over the lanes, at (p, q). -/
theorem sq_d3 (v : Vec Ideal S1x2000x1 .f32) (p : Fin 2000) (q : Fin 64) :
    broadcastTo S2000x64 (shapeCast S2000x1 v shapeCasts_S1x2000x1_S2000x1) broadcasts_S2000x1_S2000x64 (ix2 p q) = v (ix3 (0 : Fin 1) p (0 : Fin 1)) :=
  (broadcastTo_a1_ab_apply3 _ _ p q).trans (shapeCast_1ab_ab_apply v _ p (0 : Fin 1))

/-- A [1, 64] row viewed [64], then [1, 64], and spread over the rows, at (p, q). -/
theorem sq_b3 (v : Vec Ideal S1x64 .f32) (p : Fin 2000) (q : Fin 64) :
    broadcastTo S2000x64 (shapeCast S1x64 (shapeCast S64 v shapeCasts_S1x64_S64) shapeCasts_S64_S1x64) broadcasts_S1x64_S2000x64 (ix2 p q) = v (ix2 (0 : Fin 1) q) :=
  (broadcastTo_1b_ab_apply _ _ p q).trans ((shapeCast_a_1a_apply _ _ (0 : Fin 1) q).trans (shapeCast_1a_a_apply v _ q))

/-! ## The stored value at an index of the block -/

/-- The body's stored vector at (p, q): the scalar formula of the twelve loaded elements. -/
theorem pay3_apply (v0 v2 : Vec Ideal S1x2000x64 .f32) (v4 : Vec Ideal S1x2000x1 .f32) (v9 : Vec Ideal S1x64 .f32)
    (v14 v17 : Vec Ideal S1x2000x64 .f32) (v19 : Vec Ideal S1x2000x1 .f32) (v24 : Vec Ideal S1x64 .f32)
    (v29 v32 : Vec Ideal S1x2000x64 .f32) (v34 : Vec Ideal S1x2000x1 .f32) (v39 : Vec Ideal S1x64 .f32) (p : Fin 2000) (q : Fin 64) :
    k3_pay1 (k3_pay2 v0 v2 v4 v9 v14 v17 v19 v24 v29) v32 v34 v39 (ix2 p q)
      = comb3 (v0 (ix3 (0 : Fin 1) p q)) (v2 (ix3 (0 : Fin 1) p q)) (v4 (ix3 (0 : Fin 1) p (0 : Fin 1))) (v9 (ix2 (0 : Fin 1) q))
          (v14 (ix3 (0 : Fin 1) p q)) (v17 (ix3 (0 : Fin 1) p q)) (v19 (ix3 (0 : Fin 1) p (0 : Fin 1))) (v24 (ix2 (0 : Fin 1) q))
          (v29 (ix3 (0 : Fin 1) p q)) (v32 (ix3 (0 : Fin 1) p q)) (v34 (ix3 (0 : Fin 1) p (0 : Fin 1))) (v39 (ix2 (0 : Fin 1) q)) := by
  unfold k3_pay1 k3_pay2 comb3
  simp only [mulf_apply, addf_apply, broadcast_apply]
  rw [sq_a3 v0 p q, sq_a3 v2 p q, sq_d3 v4 p q, sq_b3 v9 p q, sq_a3 v14 p q, sq_a3 v17 p q, sq_d3 v19 p q, sq_b3 v24 p q,
    sq_a3 v29 p q, sq_a3 v32 p q, sq_d3 v34 p q, sq_b3 v39 p q]

/-! ## The output block at an index, from the input blocks -/

theorem hz2_3 : (![0, 0] : Fin 2 → Nat) = fun _ => 0 := funext fun a => by fin_cases a <;> rfl

/-- What the body leaves in the output buffer, at (p, q): the scalar formula of the input buffers' entries at row p
    of each relation, lane q. -/
theorem out3_4_apply (x0 x1 : Vec Ideal S3x2000x64 .f32) (x2 : Vec Ideal S3x2000x1 .f32) (x3 : Vec Ideal S3x64 .f32) (p : Fin 2000) (q : Fin 64) :
    out3_4 x0 x1 x2 x3 (ix2 p q) = comb3
      (x0 (ix3 (0 : Fin 3) p q)) (x1 (ix3 (0 : Fin 3) p q)) (x2 (ix3 (0 : Fin 3) p (0 : Fin 1))) (x3 (ix2 (0 : Fin 3) q))
      (x0 (ix3 (1 : Fin 3) p q)) (x1 (ix3 (1 : Fin 3) p q)) (x2 (ix3 (1 : Fin 3) p (0 : Fin 1))) (x3 (ix2 (1 : Fin 3) q))
      (x0 (ix3 (2 : Fin 3) p q)) (x1 (ix3 (2 : Fin 3) p q)) (x2 (ix3 (2 : Fin 3) p (0 : Fin 1))) (x3 (ix2 (2 : Fin 3) q)) := by
  unfold out3_4
  rw [View.canon_unit_zero hz2_3]
  refine (pay3_apply _ _ _ _ _ _ _ _ _ _ _ _ p q).trans ?_
  rw [ld_rel3 x0 0 _ 0 rfl p q, ld_rel3 x1 0 _ 0 rfl p q, ld_relD3 x2 0 _ 0 rfl p, ld_relB3 x3 0 _ 0 rfl q,
    ld_rel3 x0 1 _ 1 rfl p q, ld_rel3 x1 1 _ 1 rfl p q, ld_relD3 x2 1 _ 1 rfl p, ld_relB3 x3 1 _ 1 rfl q,
    ld_rel3 x0 2 _ 2 rfl p q, ld_rel3 x1 2 _ 2 rfl p q, ld_relD3 x2 2 _ 2 rfl p, ld_relB3 x3 2 _ 2 rfl q]

section AtV
variable (V : (c : Dev nD) → (b : Ref sig .tc) → Buf (Elt Ideal) ((c : Thread nD τ).loc b))

/-- The printed index maps over the grid: the three stacked inputs and the output move along the rows with the
    point; the bias stays. -/
theorem idx_facts3 : ∀ t : Fin cfg3.N,
    win3_0.index t (0 : Fin 3) = 0 ∧ win3_0.index t (1 : Fin 3) = t.val ∧ win3_0.index t (2 : Fin 3) = 0
    ∧ win3_1.index t (0 : Fin 3) = 0 ∧ win3_1.index t (1 : Fin 3) = t.val ∧ win3_1.index t (2 : Fin 3) = 0
    ∧ win3_2.index t (0 : Fin 3) = 0 ∧ win3_2.index t (1 : Fin 3) = t.val ∧ win3_2.index t (2 : Fin 3) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point t is rows 2000·t … of S. -/
theorem iblk3_0_apply (c : Dev nD) (t : Fin cfg3.N) (r : Fin 3) (p : Fin 2000) (q : Fin 64) (n : Fin 100000) (hn : n.val = 2000 * t.val + p.val) :
    (iblk3 V c 0 t : Vec Ideal S3x2000x64 .f32) (ix3 r p q) = (V c main_v297 : S3x100000x64.Idx → EReal) (ix3 r n q) := by
  obtain ⟨e0, e1, e2, -⟩ := idx_facts3 t
  unfold iblk3
  rw [View.read_apply]
  show V c main_v297 _ = V c main_v297 _
  congr 1; funext a; apply Fin.ext
  match a with
  | ⟨0, _⟩ => show win3_0.index t (0 : Fin 3) * 3 + 1 * r.val = r.val; rw [e0]; omega
  | ⟨1, _⟩ => show win3_0.index t (1 : Fin 3) * 2000 + 1 * p.val = n.val; rw [e1, hn]; omega
  | ⟨2, _⟩ => show win3_0.index t (2 : Fin 3) * 64 + 1 * q.val = q.val; rw [e2]; omega

/-- Window 1's block at point t is rows 2000·t … of XL. -/
theorem iblk3_1_apply (c : Dev nD) (t : Fin cfg3.N) (r : Fin 3) (p : Fin 2000) (q : Fin 64) (n : Fin 100000) (hn : n.val = 2000 * t.val + p.val) :
    (iblk3 V c 1 t : Vec Ideal S3x2000x64 .f32) (ix3 r p q) = (V c main_v152 : S3x100000x64.Idx → EReal) (ix3 r n q) := by
  obtain ⟨-, -, -, e0, e1, e2, -⟩ := idx_facts3 t
  unfold iblk3
  rw [View.read_apply]
  show V c main_v152 _ = V c main_v152 _
  congr 1; funext a; apply Fin.ext
  match a with
  | ⟨0, _⟩ => show win3_1.index t (0 : Fin 3) * 3 + 1 * r.val = r.val; rw [e0]; omega
  | ⟨1, _⟩ => show win3_1.index t (1 : Fin 3) * 2000 + 1 * p.val = n.val; rw [e1, hn]; omega
  | ⟨2, _⟩ => show win3_1.index t (2 : Fin 3) * 64 + 1 * q.val = q.val; rw [e2]; omega

/-- Window 2's block at point t is rows 2000·t … of D. -/
theorem iblk3_2_apply (c : Dev nD) (t : Fin cfg3.N) (r : Fin 3) (p : Fin 2000) (n : Fin 100000) (hn : n.val = 2000 * t.val + p.val) :
    (iblk3 V c 2 t : Vec Ideal S3x2000x1 .f32) (ix3 r p (0 : Fin 1)) = (V c main_v302 : S3x100000x1.Idx → EReal) (ix3 r n (0 : Fin 1)) := by
  obtain ⟨-, -, -, -, -, -, e0, e1, e2, -⟩ := idx_facts3 t
  unfold iblk3
  rw [View.read_apply]
  show V c main_v302 _ = V c main_v302 _
  congr 1; funext a; apply Fin.ext
  match a with
  | ⟨0, _⟩ => show win3_2.index t (0 : Fin 3) * 3 + 1 * r.val = r.val; rw [e0]; omega
  | ⟨1, _⟩ => show win3_2.index t (1 : Fin 3) * 2000 + 1 * p.val = n.val; rw [e1, hn]; omega
  | ⟨2, _⟩ => show win3_2.index t (2 : Fin 3) * 1 + 1 * 0 = 0; rw [e2]

/-- Window 3's block at every point is the whole bias. -/
theorem iblk3_3_apply (c : Dev nD) (t : Fin cfg3.N) (r : Fin 3) (q : Fin 64) :
    (iblk3 V c 3 t : Vec Ideal S3x64 .f32) (ix2 r q) = (V c main_arg5 : S3x64.Idx → EReal) (ix2 r q) := by
  obtain ⟨-, -, -, -, -, -, -, -, -, e0, e1, -⟩ := idx_facts3 t
  unfold iblk3
  rw [View.read_apply]
  show V c main_arg5 _ = V c main_arg5 _
  congr 1; funext a; apply Fin.ext
  match a with
  | ⟨0, _⟩ => show win3_3.index t (0 : Fin 2) * 3 + 1 * r.val = r.val; rw [e0]; omega
  | ⟨1, _⟩ => show win3_3.index t (1 : Fin 2) * 64 + 1 * q.val = q.val; rw [e1]; omega

end AtV

section Final
variable (V : (c : Dev nD) → (b : Ref sig .tc) → Buf (Elt Ideal) ((c : Thread nD τ).loc b))

/-- What point t writes back is block t of G3 of the arrays as the region finds them. -/
theorem flushed3_eq (c : Dev nD) (t : Fin cfg3.N) :
    (dat3 V c).flushed 4 t = ((cfg3.win 4).blk t).view.read (Elt Ideal) (G3 (V c main_v297) (V c main_v152) (V c main_v302) (V c main_arg5)) := by
  show (cfg3.win 4).cut (grid3.coords t) ((dat3 V c).after 4 t) = _
  rw [after3_4]
  funext y
  obtain ⟨p, q, rfl⟩ : ∃ (p : Fin 2000) (q : Fin 64), y = ix2 p q := ⟨y 0, y 1, eq_ix2 y⟩
  obtain ⟨-, -, -, -, -, -, -, -, -, -, -, e0, e1⟩ := idx_facts3 t
  have ht : t.val < 50 := lt_of_lt_of_eq t.isLt (show cfg3.N = 50 from N_3)
  have hp : p.val < 2000 := p.isLt
  obtain ⟨n, hn⟩ : ∃ n : Fin 100000, n.val = 2000 * t.val + p.val := ⟨⟨2000 * t.val + p.val, by omega⟩, rfl⟩
  show out3_4 (iblk3 V c 0 t) (iblk3 V c 1 t) (iblk3 V c 2 t) (iblk3 V c 3 t) (ix2 p q) = G3 _ _ _ _ (((cfg3.win 4).blk t).view.emb (ix2 p q))
  have hemb : ((cfg3.win 4).blk t).view.emb (ix2 p q) = ix2 n q := by
    funext a; apply Fin.ext
    match a with
    | ⟨0, _⟩ => show win3_4.index t (0 : Fin 2) * 2000 + 1 * p.val = n.val; rw [e0, hn]; omega
    | ⟨1, _⟩ => show win3_4.index t (1 : Fin 2) * 64 + 1 * q.val = q.val; rw [e1]; omega
  rw [hemb]
  refine (out3_4_apply _ _ _ _ p q).trans ?_
  rw [iblk3_0_apply V c t 0 p q n hn, iblk3_0_apply V c t 1 p q n hn, iblk3_0_apply V c t 2 p q n hn,
    iblk3_1_apply V c t 0 p q n hn, iblk3_1_apply V c t 1 p q n hn, iblk3_1_apply V c t 2 p q n hn,
    iblk3_2_apply V c t 0 p n hn, iblk3_2_apply V c t 1 p n hn, iblk3_2_apply V c t 2 p n hn,
    iblk3_3_apply V c t 0 q, iblk3_3_apply V c t 1 q, iblk3_3_apply V c t 2 q]
  rfl

/-- An index of the output array is in point t's block iff each coordinate is in the block's range on its axis. -/
theorem mem_blk3 (t : Fin cfg3.N) (i : S100000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v303).slice (win3_4.rect t)).set ↔ _
  rw [View.set_slice_whole, Rect.mem_set_unit]
  exact Iff.rfl

/-- The blocks tile the array: row r is in the block of point r / 2000. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, htv⟩ : ∃ t : Fin cfg3.N, t.val = (i 0).val / 2000 := ⟨⟨(i 0).val / 2000, by rw [show cfg3.N = 50 from N_3]; omega⟩, rfl⟩
  obtain ⟨-, -, -, -, -, -, -, -, -, -, -, e0, e1⟩ := idx_facts3 t
  refine ⟨t, flush3_4 t, ?_⟩
  rw [mem_blk3]
  intro a
  match a with
  | ⟨0, _⟩ =>
    show win3_4.index t (0 : Fin 2) * 2000 ≤ (i 0).val ∧ (i 0).val < win3_4.index t (0 : Fin 2) * 2000 + 2000
    rw [e0, htv]; omega
  | ⟨1, _⟩ =>
    show win3_4.index t (1 : Fin 2) * 64 ≤ (i 1).val ∧ (i 1).val < win3_4.index t (1 : Fin 2) * 64 + 64
    rw [e1]; omega

/-- THE OUTPUT ARRAY after the region: G3 of the four input arrays as the region finds them. -/
theorem final3_fun (c : Dev nD) :
    (dat3 V c).arrAt 4 cfg3.N = G3 (V c main_v297) (V c main_v152) (V c main_v302) (V c main_arg5) :=
  (dat3 V c).arrAt_eq_of_cover 4 (G3 (V c main_v297) (V c main_v152) (V c main_v302) (V c main_arg5)) (fun t _ => flushed3_eq V c t) cover3

/-- The same, element by element. -/
theorem final3 (c : Dev nD) (n : Fin 100000) (j : Fin 64) :
    (dat3 V c).arrAt 4 cfg3.N (ix2 n j) = comb3
      ((V c main_v297 : S3x100000x64.Idx → EReal) (ix3 (0 : Fin 3) n j)) ((V c main_v152 : S3x100000x64.Idx → EReal) (ix3 (0 : Fin 3) n j))
      ((V c main_v302 : S3x100000x1.Idx → EReal) (ix3 (0 : Fin 3) n (0 : Fin 1))) ((V c main_arg5 : S3x64.Idx → EReal) (ix2 (0 : Fin 3) j))
      ((V c main_v297 : S3x100000x64.Idx → EReal) (ix3 (1 : Fin 3) n j)) ((V c main_v152 : S3x100000x64.Idx → EReal) (ix3 (1 : Fin 3) n j))
      ((V c main_v302 : S3x100000x1.Idx → EReal) (ix3 (1 : Fin 3) n (0 : Fin 1))) ((V c main_arg5 : S3x64.Idx → EReal) (ix2 (1 : Fin 3) j))
      ((V c main_v297 : S3x100000x64.Idx → EReal) (ix3 (2 : Fin 3) n j)) ((V c main_v152 : S3x100000x64.Idx → EReal) (ix3 (2 : Fin 3) n j))
      ((V c main_v302 : S3x100000x1.Idx → EReal) (ix3 (2 : Fin 3) n (0 : Fin 1))) ((V c main_arg5 : S3x64.Idx → EReal) (ix2 (2 : Fin 3) j)) := by
  rw [final3_fun]
  rfl

end Final

end Cert.KernelIdeal.Hand

end
-- ==== Proof.Spec.lean ====
/-
  A graph convolution over several relations, in two arrangements.

  For one relation: every node i has the degree "number of edges whose destination word is i, plus one" (its
  self-loop), the factor dinv i = g (deg i), and receives, from every edge e landing on it, the row of the edge's
  source node scaled by dinv (source) * dinv (destination); the self-loop contributes the node's own row scaled by
  dinv i * dinv i; a bias row is added.

  * The FIRST arrangement scatters the edges' messages, and adds the self-loop term xl i * (dinv i * dinv i) and the
    degree's + 1 separately.
  * The SECOND arrangement appends the N self-loops to the E edges and scatters once over all E + N entries.

  They agree on the extended reals: a sum over the entries landing on i splits into the edges landing on i and the
  one self-loop of i (sum_lands_split), and only commutativity and associativity of + are used besides.
-/
import Idealize.ShloMosaic.PureOps.Ideal.Laws

noncomputable section

namespace Cert.GCN

open Finset

variable {E E' N C : ℕ}

/-- The entries whose destination word, read signed, is i. -/
def lands (dstW : Fin E → BitVec 32) (i : Fin N) : Finset (Fin E) :=
  univ.filter fun e => (dstW e).toInt = (i.val : Int)

/-- Entry e of the first E of E' = E + N entries. -/
def inl (hE : E' = E + N) (e : Fin E) : Fin E' := Fin.cast hE.symm (Fin.castAdd N e)
/-- Entry j of the last N of E' = E + N entries. -/
def inr (hE : E' = E + N) (j : Fin N) : Fin E' := Fin.cast hE.symm (Fin.natAdd E j)

/-- A sum over the entries of the long list landing on i: the edges landing on i, and the self-loop of i. -/
theorem sum_lands_split (hE : E' = E + N) (dstW : Fin E → BitVec 32) (dstW' : Fin E' → BitVec 32)
    (hl : ∀ e, dstW' (inl hE e) = dstW e) (hr : ∀ j : Fin N, (dstW' (inr hE j)).toInt = (j.val : Int))
    (f : Fin E' → EReal) (i : Fin N) :
    ∑ e' ∈ lands dstW' i, f e' = ∑ e ∈ lands dstW i, f (inl hE e) + f (inr hE i) := by
  subst hE
  unfold lands
  rw [Finset.sum_filter, Fin.sum_univ_add, Finset.sum_filter]
  congr 1
  · refine Finset.sum_congr rfl fun e _ => ?_
    have := hl e
    unfold inl at this
    simp only [Fin.cast_eq_self] at this ⊢
    rw [this]
    rfl
  · have hcond : ∀ j : Fin N, ((dstW' (Fin.natAdd E j)).toInt = (i.val : Int)) ↔ j = i := by
      intro j
      have := hr j
      unfold inr at this
      simp only [Fin.cast_eq_self] at this
      rw [this]
      constructor
      · intro h; exact Fin.ext (by exact_mod_cast h)
      · intro h; rw [h]
    simp only [hcond]
    rw [Finset.sum_ite_eq' Finset.univ i fun j => f (Fin.natAdd E j)]
    simp [inr]

section OneRelation

variable (g : EReal → EReal) (one : EReal)

/-! ### The first arrangement -/

/-- The degree: the edges landing on i, each counted one, plus one. -/
def degK (dstW : Fin E → BitVec 32) (i : Fin N) : EReal := (0 + ∑ _e ∈ lands dstW i, one) + one

def dinvK (dstW : Fin E → BitVec 32) (i : Fin N) : EReal := g (degK one dstW i)

def normK (dstW : Fin E → BitVec 32) (srcRow dstRow : Fin E → Fin N) (e : Fin E) : EReal :=
  dinvK g one dstW (srcRow e) * dinvK g one dstW (dstRow e)

/-- The scattered messages of the edges. -/
def scatK (dstW : Fin E → BitVec 32) (srcRow dstRow : Fin E → Fin N) (xl : Fin N → Fin C → EReal)
    (i : Fin N) (n : Fin C) : EReal :=
  0 + ∑ e ∈ lands dstW i, xl (srcRow e) n * normK g one dstW srcRow dstRow e

def dsqK (dstW : Fin E → BitVec 32) (i : Fin N) : EReal := dinvK g one dstW i * dinvK g one dstW i

/-! ### The second arrangement -/

def degR (dstW' : Fin E' → BitVec 32) (i : Fin N) : EReal := 0 + ∑ _e ∈ lands dstW' i, one

def dinvR (dstW' : Fin E' → BitVec 32) (i : Fin N) : EReal := g (degR one dstW' i)

def normR (dstW' : Fin E' → BitVec 32) (srcRow' dstRow' : Fin E' → Fin N) (e : Fin E') : EReal :=
  dinvR g one dstW' (srcRow' e) * dinvR g one dstW' (dstRow' e)

/-- One scatter over edges and self-loops, then the bias. -/
def convR (dstW' : Fin E' → BitVec 32) (srcRow' dstRow' : Fin E' → Fin N) (xl : Fin N → Fin C → EReal)
    (b : Fin C → EReal) (i : Fin N) (n : Fin C) : EReal :=
  (0 + ∑ e ∈ lands dstW' i, xl (srcRow' e) n * normR g one dstW' srcRow' dstRow' e) + b n

/-! ### They agree -/

variable (hE : E' = E + N) (dstW : Fin E → BitVec 32) (srcRow dstRow : Fin E → Fin N)
  (dstW' : Fin E' → BitVec 32) (srcRow' dstRow' : Fin E' → Fin N)
  (hdl : ∀ e, dstW' (inl hE e) = dstW e) (hsl : ∀ e, srcRow' (inl hE e) = srcRow e)
  (hrl : ∀ e, dstRow' (inl hE e) = dstRow e)
  (hdr : ∀ j : Fin N, (dstW' (inr hE j)).toInt = (j.val : Int)) (hsr : ∀ j : Fin N, srcRow' (inr hE j) = j)
  (hrr : ∀ j : Fin N, dstRow' (inr hE j) = j)

include hdl hdr in
theorem degR_eq (i : Fin N) : degR one dstW' i = degK one dstW i := by
  unfold degR degK
  rw [sum_lands_split hE dstW dstW' hdl hdr (fun _ => one) i, zero_add, zero_add]

include hdl hdr in
theorem dinvR_eq (i : Fin N) : dinvR g one dstW' i = dinvK g one dstW i := by
  unfold dinvR dinvK
  rw [degR_eq one hE dstW dstW' hdl hdr i]

include hdl hsl hrl hdr hsr hrr in
/-- The second arrangement is the first: scattered edge messages, the self-loop term, the bias. -/
theorem convR_eq (xl : Fin N → Fin C → EReal) (b : Fin C → EReal) (i : Fin N) (n : Fin C) :
    convR g one dstW' srcRow' dstRow' xl b i n
      = (scatK g one dstW srcRow dstRow xl i n + xl i n * dsqK g one dstW i) + b n := by
  unfold convR scatK dsqK
  rw [sum_lands_split hE dstW dstW' hdl hdr _ i, zero_add, zero_add]
  congr 2
  · refine Finset.sum_congr rfl fun e _ => ?_
    unfold normR normK
    rw [hsl e, hrl e, dinvR_eq g one hE dstW dstW' hdl hdr, dinvR_eq g one hE dstW dstW' hdl hdr]
  · unfold normR
    rw [hsr i, hrr i, dinvR_eq g one hE dstW dstW' hdl hdr]

end OneRelation

end Cert.GCN

end
-- ==== Proof.SpecNet.lean ====
/-
  The network at the program's shapes: 100000 nodes, 1600000 edges per relation, three relations, two layers.

  Word-level readings shared by both programs: an index word that is negative is wrapped by the node count; a gather
  reads the row whose number is the (wrapped) word clamped into [0, 99999]; a scatter lands an entry on row i exactly
  when its raw word, read signed, is i. The factor of a node is g (degree) with g d = (d > 0 ? rsqrt d : 0).
-/
import proofs.«128058_j54425825575251_2_alg».proof.Proof.Spec
import Idealize.ShloMosaic.Lib.ValueIdx

noncomputable section

namespace Cert.Net

open Idealize.ShloMosaic Idealize.ShloMosaic.ValueIdx Finset

/-- A negative word is wrapped by the node count. -/
def wrapW (w : BitVec 32) : BitVec 32 := Scalar.select (IntOp.cmpi .slt w 0#32) (IntOp.addi w 100000#32) w

/-- The row a gather reads at a (wrapped) word: the word, read signed, clamped into [0, 99999]. -/
def clampRow (w : BitVec 32) : Fin 100000 := ⟨min w.toInt.toNat 99999, by omega⟩

/-- The row a gather reads for a raw edge word. -/
def rowW (w : BitVec 32) : Fin 100000 := clampRow (wrapW w)

/-- d ↦ (d > 0 ? rsqrt d : 0). -/
def gD (d : EReal) : EReal := Scalar.select (Ideal.cmp .ogt d 0) (Ideal.rsqrt d) 0

/-- The float 1.0. -/
def oneE : EReal := Ideal.ofBits .f32 0x3F800000#32

/-- The edge array: relation r, row 0 = source words, row 1 = destination words. -/
abbrev EI : Type := (⟨3, ![3, 2, 1600000]⟩ : Shape).Idx → BitVec 32

def srcW (ei : EI) (r : Fin 3) (e : Fin 1600000) : BitVec 32 := ei (ix3 r 0 e)
def dstW (ei : EI) (r : Fin 3) (e : Fin 1600000) : BitVec 32 := ei (ix3 r 1 e)

/-- x · W[r]: the linear step of relation r. -/
def lin {C : ℕ} (X : Fin 100000 → Fin 128 → EReal) (W : Fin 3 → Fin 128 → Fin C → EReal)
    (r : Fin 3) (i : Fin 100000) (n : Fin C) : EReal := ∑ k : Fin 128, X i k * W r k n

/-! ### The first arrangement (scatter the edges; self-loop and bias added in the combine step) -/

def scat {C : ℕ} (ei : EI) (XL : Fin 3 → Fin 100000 → Fin C → EReal) (r : Fin 3) (i : Fin 100000) (n : Fin C) : EReal :=
  GCN.scatK gD oneE (dstW ei r) (fun e => rowW (srcW ei r e)) (fun e => rowW (dstW ei r e)) (XL r) i n

def dsq (ei : EI) (r : Fin 3) (i : Fin 100000) : EReal := GCN.dsqK gD oneE (dstW ei r) i

/-- The combine step as the kernel body associates it, scaled by inv3. -/
def comb {C : ℕ} (S XL : Fin 3 → Fin 100000 → Fin C → EReal) (D : Fin 3 → Fin 100000 → EReal)
    (B : Fin 3 → Fin C → EReal) (inv3 : EReal) (i : Fin 100000) (n : Fin C) : EReal :=
  ((((((((S 0 i n + XL 0 i n * D 0 i) + B 0 n) + S 1 i n) + XL 1 i n * D 1 i) + B 1 n) + S 2 i n)
      + XL 2 i n * D 2 i) + B 2 n) * inv3

/-- One layer in the first arrangement. -/
def layerK {C : ℕ} (ei : EI) (X : Fin 100000 → Fin 128 → EReal) (W : Fin 3 → Fin 128 → Fin C → EReal)
    (B : Fin 3 → Fin C → EReal) (inv3 : EReal) (i : Fin 100000) (n : Fin C) : EReal :=
  comb (scat ei (lin X W)) (lin X W) (dsq ei) B inv3 i n

/-- Both layers in the first arrangement, a maximum with zero between them. -/
def netK (ei : EI) (X : Fin 100000 → Fin 128 → EReal) (W1 : Fin 3 → Fin 128 → Fin 128 → EReal)
    (B1 : Fin 3 → Fin 128 → EReal) (W2 : Fin 3 → Fin 128 → Fin 64 → EReal) (B2 : Fin 3 → Fin 64 → EReal)
    (inv3 : EReal) (i : Fin 100000) (n : Fin 64) : EReal :=
  layerK ei (fun i k => max (layerK ei X W1 B1 inv3 i k) 0) W2 B2 inv3 i n

/-! ### The second arrangement (append the self-loops, scatter once, add the bias, average by dividing) -/

/-- The long list of relation r: its 1600000 edges, then the 100000 self-loops j ↦ j. -/
def srcW' (ei : EI) (r : Fin 3) (e : Fin 1700000) : BitVec 32 :=
  if h : e.val < 1600000 then srcW ei r ⟨e.val, h⟩ else BitVec.ofNat 32 (e.val - 1600000)
def dstW' (ei : EI) (r : Fin 3) (e : Fin 1700000) : BitVec 32 :=
  if h : e.val < 1600000 then dstW ei r ⟨e.val, h⟩ else BitVec.ofNat 32 (e.val - 1600000)

def convR {C : ℕ} (ei : EI) (XL : Fin 3 → Fin 100000 → Fin C → EReal) (B : Fin 3 → Fin C → EReal)
    (r : Fin 3) (i : Fin 100000) (n : Fin C) : EReal :=
  GCN.convR gD oneE (dstW' ei r) (fun e => rowW (srcW' ei r e)) (fun e => rowW (dstW' ei r e)) (XL r) (B r) i n

/-- One layer in the second arrangement: the relations' results summed from zero, divided by three. -/
def layerR {C : ℕ} (ei : EI) (X : Fin 100000 → Fin 128 → EReal) (W : Fin 3 → Fin 128 → Fin C → EReal)
    (B : Fin 3 → Fin C → EReal) (three : EReal) (i : Fin 100000) (n : Fin C) : EReal :=
  Ideal.div (((0 + convR ei (lin X W) B 0 i n) + convR ei (lin X W) B 1 i n) + convR ei (lin X W) B 2 i n) three

def netR (ei : EI) (X : Fin 100000 → Fin 128 → EReal) (W1 : Fin 3 → Fin 128 → Fin 128 → EReal)
    (B1 : Fin 3 → Fin 128 → EReal) (W2 : Fin 3 → Fin 128 → Fin 64 → EReal) (B2 : Fin 3 → Fin 64 → EReal)
    (three : EReal) (i : Fin 100000) (n : Fin 64) : EReal :=
  layerR ei (fun i k => max (layerR ei X W1 B1 three i k) 0) W2 B2 three i n

end Cert.Net

end
-- ==== Proof.LibEdgeOps.lean ====
/-
  A gather of whole rows and a scatter that adds whole rows (or single numbers), read at an index.

  The operand is an array of `N` rows of `C` numbers, the index array holds one row number per edge (`E` edges, as an
  `E × 1` array of signed words). The gather reads, for edge `e`, the row whose number is the edge's word clamped
  into `[0, N − 1]`. The scatter adds, into row `i`, the update rows of exactly the edges whose word IS `i` (read
  signed, not clamped: an edge whose word is outside `[0, N)` adds nothing). The one-dimensional scatter (one number
  per edge, into an array of `N` numbers) lands on the same edges.
-/
import Idealize.ShloMosaic.PureOps.Ideal.Laws
import Idealize.ShloMosaic.Lib.ValueIdx

noncomputable section

namespace Cert.EdgeOps

open Idealize.ShloMosaic Idealize.ShloMosaic.ValueIdx

variable {N E C w : Nat}

/-! ## The row gather -/

/-- The dimension numbers of `x[idx]` for an array of rows: the row axis collapsed, the row taken whole. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its word, read signed, clamped into `[0, N − 1]`. -/
def rowOf (hN : 0 < N) (idx : IVec ⟨2, ![E, 1]⟩ w) (e : Fin E) : Fin N :=
  ⟨min (idx (ix2 e 0)).toInt.toNat (N - 1), by omega⟩

/-- THE ROW GATHER READ AT `(e, k)`: entry `k` of the row edge `e` reads. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k) = x (ix2 (rowOf hN idx e) k) := by
  have h0 : ((rowGather N E C wf).operandIdx (ix2 e k) idx (0 : Fin 2)).val = (rowOf hN idx e).val := by
    show (rowGather N E C wf).start (ix2 e k) idx 0 + (rowGather N E C wf).batchCoord (ix2 e k) 0
      + (rowGather N E C wf).offCoord (ix2 e k) 0 = _
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGather N E C wf).operandIdx (ix2 e k) idx (1 : Fin 2)).val = k.val := by
    show (rowGather N E C wf).start (ix2 e k) idx 1 + (rowGather N E C wf).batchCoord (ix2 e k) 1
      + (rowGather N E C wf).offCoord (ix2 e k) 1 = _
    rw [GatherDims.batchCoord_eq_zero _ _ _ List.not_mem_nil, Nat.add_zero]
    unfold GatherDims.start
    rw [dif_neg (show (1 : Fin 2) ∉ (rowGather N E C wf).startIndexMap from (by decide : (1 : Fin 2) ∉ [(0 : Fin 2)])), Nat.zero_add]
    unfold GatherDims.offCoord
    rw [dif_pos (show (1 : Fin 2) ∈ (rowGather N E C wf).sKept from (GatherDims.mem_sKept _ _).mpr
      ⟨(by decide : (1 : Fin 2) ∉ [(0 : Fin 2)]), List.not_mem_nil⟩)]
    rfl
  unfold Host.gather
  congr 1
  funext a
  refine Fin.ext ?_
  match a with
  | ⟨0, _⟩ => exact h0
  | ⟨1, _⟩ => exact h1

/-! ## The scatters that add -/

/-- The dimension numbers of `zeros.at[idx].add(rows)`: update `(e, k)` goes to `(idx[e], k)`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of `zeros.at[idx].add(numbers)`: update `e` goes to `idx[e]`. -/
abbrev numScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The edges that land on row `i`: those whose word, read signed, is `i`. -/
def lands (idx : IVec ⟨2, ![E, 1]⟩ w) (i : Fin N) : Finset (Fin E) :=
  Finset.univ.filter fun e => (idx (ix2 e 0)).toInt = (i.val : Int)

section RowScatter
variable (wf : ScatterDims.WF ⟨2, ![N, C]⟩ ⟨2, ![E, 1]⟩ ⟨2, ![E, C]⟩ [1] [0] [0] 1) (idx : IVec ⟨2, ![E, 1]⟩ w)
  (e : Fin E) (k : Fin C)

theorem rowScatter_start0 : (rowScatter N E C wf).start (ix2 e k) idx (0 : Fin 2) = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e k) ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start1 : (rowScatter N E C wf).start (ix2 e k) idx (1 : Fin 2) = 0 := by
  unfold ScatterDims.start
  rw [dif_neg (show (1 : Fin 2) ∉ (rowScatter N E C wf).scatterDimsToOperandDims from
    (by decide : (1 : Fin 2) ∉ [(0 : Fin 2)]))]

theorem rowScatter_window0 : (rowScatter N E C wf).window (ix2 e k) (0 : Fin 2) = 0 := by
  unfold ScatterDims.window
  rw [dif_neg]
  show (0 : Fin 2) ∉ (⟨2, ![N, C]⟩ : Shape).kept [(0 : Fin 2)]
  simp [Shape.kept]

theorem rowScatter_window1 : (rowScatter N E C wf).window (ix2 e k) (1 : Fin 2) = k.val := by
  unfold ScatterDims.window
  rw [dif_pos (show (1 : Fin 2) ∈ (rowScatter N E C wf).sKept from by
    show (1 : Fin 2) ∈ (⟨2, ![N, C]⟩ : Shape).kept [(0 : Fin 2)]
    simp [Shape.kept])]
  rfl

/-- Update `(e, k)` lands on `(i, n)` exactly when edge `e`'s word is `i` and `k` is `n`. -/
theorem rowScatter_resultIdx (i : Fin N) (n : Fin C) :
    (rowScatter N E C wf).resultIdx? (ix2 e k) idx = some (ix2 i n)
      ↔ (idx (ix2 e 0)).toInt = (i.val : Int) ∧ k = n := by
  unfold ScatterDims.resultIdx?
  constructor
  · intro h
    split at h
    · rename_i hh
      have hf := Option.some.inj h
      have e0 : ((rowScatter N E C wf).start (ix2 e k) idx 0 + ((rowScatter N E C wf).window (ix2 e k) 0 : Nat)).toNat
          = i.val := congrArg (fun f => (f (0 : Fin 2)).val) hf
      have e1 : ((rowScatter N E C wf).start (ix2 e k) idx 1 + ((rowScatter N E C wf).window (ix2 e k) 1 : Nat)).toNat
          = n.val := congrArg (fun f => (f (1 : Fin 2)).val) hf
      have h0 := (hh 0).1
      rw [rowScatter_start0, rowScatter_window0] at e0 h0
      rw [rowScatter_start1, rowScatter_window1] at e1
      refine ⟨by omega, Fin.ext (by omega)⟩
    · exact absurd h (by simp)
  · rintro ⟨hz, rfl⟩
    have hall : ∀ a : Fin 2, 0 ≤ (rowScatter N E C wf).start (ix2 e k) idx a + ((rowScatter N E C wf).window (ix2 e k) a : Nat)
        ∧ (rowScatter N E C wf).start (ix2 e k) idx a + ((rowScatter N E C wf).window (ix2 e k) a : Nat)
          < ((⟨2, ![N, C]⟩ : Shape).size a : Nat) := by
      intro a
      match a with
      | ⟨0, _⟩ =>
        show 0 ≤ (rowScatter N E C wf).start (ix2 e k) idx 0 + ((rowScatter N E C wf).window (ix2 e k) 0 : Nat)
          ∧ (rowScatter N E C wf).start (ix2 e k) idx 0 + ((rowScatter N E C wf).window (ix2 e k) 0 : Nat) < (N : Int)
        rw [rowScatter_start0, rowScatter_window0, hz]
        have := i.isLt
        omega
      | ⟨1, _⟩ =>
        show 0 ≤ (rowScatter N E C wf).start (ix2 e k) idx 1 + ((rowScatter N E C wf).window (ix2 e k) 1 : Nat)
          ∧ (rowScatter N E C wf).start (ix2 e k) idx 1 + ((rowScatter N E C wf).window (ix2 e k) 1 : Nat) < (C : Int)
        rw [rowScatter_start1, rowScatter_window1]
        have := k.isLt
        omega
    rw [dif_pos hall]
    refine congrArg some (funext fun a => Fin.ext ?_)
    match a with
    | ⟨0, _⟩ =>
      show ((rowScatter N E C wf).start (ix2 e k) idx 0 + ((rowScatter N E C wf).window (ix2 e k) 0 : Nat)).toNat = i.val
      rw [rowScatter_start0, rowScatter_window0, hz]
      omega
    | ⟨1, _⟩ =>
      show ((rowScatter N E C wf).start (ix2 e k) idx 1 + ((rowScatter N E C wf).window (ix2 e k) 1 : Nat)).toNat = k.val
      rw [rowScatter_start1, rowScatter_window1]
      omega

/-- THE ROW SCATTER READ AT `(i, n)`: the operand there plus, over the edges landing on row `i`, entry `n` of
    their update rows. -/
theorem scatterAdd_rows_apply (z : (⟨2, ![N, C]⟩ : Shape).Idx → EReal) (upd : (⟨2, ![E, C]⟩ : Shape).Idx → EReal)
    (i : Fin N) (n : Fin C) :
    Ideal.hostScatterAdd (rowScatter N E C wf) z idx upd (ix2 i n)
      = z (ix2 i n) + ∑ e ∈ lands idx i, upd (ix2 e n) := by
  unfold Ideal.hostScatterAdd
  refine congrArg (z (ix2 i n) + ·) ?_
  rw [Finset.sum_filter, sum_idx2, lands, Finset.sum_filter]
  refine Finset.sum_congr rfl fun e _ => ?_
  simp only [rowScatter_resultIdx]
  by_cases hz : (idx (ix2 e 0)).toInt = (i.val : Int)
  · simp only [hz, true_and, if_true]
    rw [Finset.sum_ite_eq' Finset.univ n fun k => upd (ix2 e k)]
    simp
  · simp [hz]

end RowScatter

section NumScatter
variable (wf : ScatterDims.WF ⟨1, ![N]⟩ ⟨2, ![E, 1]⟩ ⟨1, ![E]⟩ [] [0] [0] 1) (idx : IVec ⟨2, ![E, 1]⟩ w) (e : Fin E)

theorem numScatter_start0 : (numScatter N E wf).start (ix1 e) idx (0 : Fin 1) = (idx (ix2 e 0)).toInt := by
  unfold ScatterDims.start
  rw [dif_pos (show (0 : Fin 1) ∈ (numScatter N E wf).scatterDimsToOperandDims from List.mem_singleton.mpr rfl)]
  have hsi : (numScatter N E wf).siIdx (ix1 e) ⟨List.idxOf (0 : Fin 1) (numScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem numScatter_window0 : (numScatter N E wf).window (ix1 e) (0 : Fin 1) = 0 := by
  unfold ScatterDims.window
  rw [dif_neg]
  show (0 : Fin 1) ∉ (⟨1, ![N]⟩ : Shape).kept [(0 : Fin 1)]
  simp [Shape.kept]

/-- Update `e` lands on `i` exactly when edge `e`'s word is `i`. -/
theorem numScatter_resultIdx (i : Fin N) :
    (numScatter N E wf).resultIdx? (ix1 e) idx = some (ix1 i) ↔ (idx (ix2 e 0)).toInt = (i.val : Int) := by
  unfold ScatterDims.resultIdx?
  constructor
  · intro h
    split at h
    · rename_i hh
      have hf := Option.some.inj h
      have e0 : ((numScatter N E wf).start (ix1 e) idx 0 + ((numScatter N E wf).window (ix1 e) 0 : Nat)).toNat
          = i.val := congrArg (fun f => (f (0 : Fin 1)).val) hf
      have h0 := (hh 0).1
      rw [numScatter_start0, numScatter_window0] at e0 h0
      omega
    · exact absurd h (by simp)
  · intro hz
    have hall : ∀ a : Fin 1, 0 ≤ (numScatter N E wf).start (ix1 e) idx a + ((numScatter N E wf).window (ix1 e) a : Nat)
        ∧ (numScatter N E wf).start (ix1 e) idx a + ((numScatter N E wf).window (ix1 e) a : Nat)
          < ((⟨1, ![N]⟩ : Shape).size a : Nat) := by
      intro a
      match a with
      | ⟨0, _⟩ =>
        show 0 ≤ (numScatter N E wf).start (ix1 e) idx 0 + ((numScatter N E wf).window (ix1 e) 0 : Nat)
          ∧ (numScatter N E wf).start (ix1 e) idx 0 + ((numScatter N E wf).window (ix1 e) 0 : Nat) < (N : Int)
        rw [numScatter_start0, numScatter_window0, hz]
        have := i.isLt
        omega
    rw [dif_pos hall]
    refine congrArg some (funext fun a => Fin.ext ?_)
    match a with
    | ⟨0, _⟩ =>
      show ((numScatter N E wf).start (ix1 e) idx 0 + ((numScatter N E wf).window (ix1 e) 0 : Nat)).toNat = i.val
      rw [numScatter_start0, numScatter_window0, hz]
      omega

/-- Every index of a one-axis shape is `ix1` of its coordinate: a sum over the indices is a sum over the coordinate. -/
theorem sum_idx1 {M : Type*} [AddCommMonoid M] {n : Nat} (f : (⟨1, ![n]⟩ : Shape).Idx → M) :
    ∑ j, f j = ∑ a : Fin n, f (ix1 a) := by
  refine Fintype.sum_equiv ⟨fun j => j 0, fun a => ix1 a, fun j => (eq_ix1 j).symm, fun _ => rfl⟩ _ _ fun j => ?_
  exact congrArg f (eq_ix1 j)

/-- THE NUMBER SCATTER READ AT `i`: the operand there plus the updates of the edges landing on `i`. -/
theorem scatterAdd_nums_apply (z : (⟨1, ![N]⟩ : Shape).Idx → EReal) (upd : (⟨1, ![E]⟩ : Shape).Idx → EReal) (i : Fin N) :
    Ideal.hostScatterAdd (numScatter N E wf) z idx upd (ix1 i) = z (ix1 i) + ∑ e ∈ lands idx i, upd (ix1 e) := by
  unfold Ideal.hostScatterAdd
  refine congrArg (z (ix1 i) + ·) ?_
  rw [Finset.sum_filter, sum_idx1, lands, Finset.sum_filter]
  refine Finset.sum_congr rfl fun e _ => ?_
  simp only [numScatter_resultIdx]

end NumScatter

end Cert.EdgeOps

end
-- ==== Proof.KH.Ops.lean ====
/-
  The host operations of one relation of one layer, read at an index.

  From the edge array (three relations, a row of source words and a row of destination words each) the program cuts
  a relation's two rows; counts, for every node, the edges whose destination word is that node, and adds one; takes
  the factor (d > 0 ? rsqrt d : 0) of that degree; wraps a negative word by the node count; gathers the factors of
  an edge's two ends and multiplies them; gathers the source node's row, scales it by that product, and adds the
  scaled rows into the destination nodes. Each of these arrays is read here at one index, as the sums and products
  of the first arrangement of the graph convolution.
-/
import proofs.«128058_j54425825575251_2_alg».proof.Proof.Gen.KernelIdeal
import proofs.«128058_j54425825575251_2_alg».proof.Proof.SpecNet
import proofs.«128058_j54425825575251_2_alg».proof.Proof.LibEdgeOps
import Idealize.ShloMosaic.Lib.Pipeline.Value
import Idealize.ShloMosaic.Lib.ValueLayout

set_option maxRecDepth 16384

noncomputable section

namespace Cert.KernelIdeal.HostValue

open Cert.KernelIdeal Cert.KernelIdeal.Facts₀
open Idealize.ShloMosaic Idealize.ShloMosaic.ValueIdx
open Cert.Net
open Idealize.ShloMosaic.TcCoe Idealize.SL.Sem

/-! ## A gather of single numbers -/

section NumGather
variable {N E w : Nat}

/-- The dimension numbers of x[idx] for an array of numbers. -/
abbrev numGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The number gather read at e: the entry whose number is edge e's word, read signed, clamped into [0, N − 1]. -/
theorem gather_nums_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (numGather N E wf) x idx (ix1 e) = x (ix1 (EdgeOps.rowOf hN idx e)) := by
  have h0 : ((numGather N E wf).operandIdx (ix1 e) idx (0 : Fin 1)).val = (EdgeOps.rowOf hN idx e).val := by
    show (numGather N E wf).start (ix1 e) idx 0 + (numGather N E wf).batchCoord (ix1 e) 0
      + (numGather N E wf).offCoord (ix1 e) 0 = _
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (0 : Fin 1) ∈ (numGather N E wf).startIndexMap from List.mem_singleton.mpr rfl)]
    have hsi : (numGather N E wf).siIdx (ix1 e) ⟨List.idxOf (0 : Fin 1) (numGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

end NumGather

/-! ## A relation's two rows of the edge array -/

/-- Row q of relation r of the edge array, as a vector of words: the slices' offsets o, o2 are (r, 0, 0) and (q, 0). -/
def edgeRowV (o : Fin 3 → Nat) (h1 : S3x2x1600000.Slices o S1x2x1600000) (o2 : Fin 2 → Nat)
    (h2 : S2x1600000.Slices o2 S1x1600000) (ei : IVec S3x2x1600000 32) : IVec S1600000 32 :=
  fun i => shapeCast S1600000 (extractStridedSlice S1x1600000 o2
    (fun i => shapeCast S2x1600000 (extractStridedSlice S1x2x1600000 o ei h1) shapeCasts_S1x2x1600000_S2x1600000 i) h2)
    shapeCasts_S1x1600000_S1600000 i

theorem edgeRowV_apply (r : Fin 3) (q : Fin 2) (o : Fin 3 → Nat) (h1 : S3x2x1600000.Slices o S1x2x1600000)
    (o2 : Fin 2 → Nat) (h2 : S2x1600000.Slices o2 S1x1600000) (ho : o = ![r.val, 0, 0]) (ho2 : o2 = ![q.val, 0])
    (ei : IVec S3x2x1600000 32) (e : Fin 1600000) :
    edgeRowV o h1 o2 h2 ei (ix1 e) = ei (ix3 r q e) := by
  subst ho ho2
  unfold edgeRowV
  refine (shapeCast_apply _ _ (ix1 e) (ix2 (0 : Fin 1) e) ?_).trans ?_
  · rw [Shape.rowMajor_val_two, Shape.rowMajor_val_one]
    show 0 * 1600000 + e.val = e.val
    omega
  refine (extractStridedSlice_apply _ _ _ (ix2 (0 : Fin 1) e) (ix2 q e) ?_).trans ?_
  · intro a
    match a with
    | ⟨0, _⟩ => show q.val = q.val + 0; omega
    | ⟨1, _⟩ => show e.val = 0 + e.val; omega
  refine (shapeCast_apply _ _ (ix2 q e) (ix3 (0 : Fin 1) q e) ?_).trans ?_
  · rw [Shape.rowMajor_val_three, Shape.rowMajor_val_two]
    show (0 * 2 + q.val) * 1600000 + e.val = q.val * 1600000 + e.val
    omega
  refine extractStridedSlice_apply _ _ _ (ix3 (0 : Fin 1) q e) (ix3 r q e) ?_
  intro a
  match a with
  | ⟨0, _⟩ => show r.val = r.val + 0; omega
  | ⟨1, _⟩ => show q.val = 0 + q.val; omega
  | ⟨2, _⟩ => show e.val = 0 + e.val; omega

/-! ## Broadcasts of a number and of a vector to a column -/

theorem bcast0_apply {α : Type} {s : Shape} (h : S_.BroadcastsInDim s (![] : Fin 0 → Fin s.rank)) (x : S_.Idx → α) (j : s.Idx) :
    broadcastInDim s ![] h x j = x ix0 :=
  broadcastInDim_apply _ _ _ j ix0 (fun a => a.elim0)

theorem bcastCol_apply {α : Type} (h : S1600000.BroadcastsInDim S1600000x1 (![0] : Fin 1 → Fin 2)) (x : S1600000.Idx → α)
    (e : Fin 1600000) : broadcastInDim S1600000x1 ![0] h x (ix2 e 0) = x (ix1 e) :=
  broadcastInDim_apply _ _ _ (ix2 e (0 : Fin 1)) (ix1 e) (fun a => by
    match a with
    | ⟨0, _⟩ => show e.val = if (1600000 : ℕ) = 1 then 0 else e.val; rw [if_neg (by decide)])

/-- The row a gather reads at a column of words: the word clamped. -/
theorem rowOf_bcastCol (h : S1600000.BroadcastsInDim S1600000x1 (![0] : Fin 1 → Fin 2)) (v : IVec S1600000 32) (e : Fin 1600000) :
    EdgeOps.rowOf (N := 100000) (by decide) (broadcastInDim S1600000x1 ![0] h v) e = clampRow (v (ix1 e)) := by
  unfold EdgeOps.rowOf clampRow
  refine Fin.ext ?_
  show min ((broadcastInDim S1600000x1 ![0] h v) (ix2 e 0)).toInt.toNat (100000 - 1) = min (v (ix1 e)).toInt.toNat 99999
  rw [bcastCol_apply]

/-- The edges landing on a node, for a column of words: those whose word is the node. -/
theorem lands_bcastCol (h : S1600000.BroadcastsInDim S1600000x1 (![0] : Fin 1 → Fin 2)) (v : IVec S1600000 32) (i : Fin 100000) :
    EdgeOps.lands (broadcastInDim S1600000x1 ![0] h v) i = GCN.lands (fun e => v (ix1 e)) i := by
  unfold EdgeOps.lands GCN.lands
  refine Finset.filter_congr fun e _ => ?_
  rw [bcastCol_apply]

/-! ## The program's operations, at the extended reals -/

section AtIdeal
variable {s si su : Shape} {w : ℕ} {φ : FTy}

theorem hostScatterAdd_eq (d : ScatterDims s si su) (x : FVec Ideal s φ) (idx : IVec si w) (upd : FVec Ideal su φ) :
    Host.scatterAdd d x idx upd = Ideal.hostScatterAdd d x idx upd := rfl

theorem hostRsqrt_apply (x : FVec Ideal s φ) (i : s.Idx) : Host.rsqrt x i = Ideal.rsqrt (x i) := rfl

end AtIdeal

theorem numScatter_eq : scatter_S100000_S1600000x1_S1600000_n_0_0_1
    = EdgeOps.numScatter 100000 1600000 scatter_S100000_S1600000x1_S1600000_n_0_0_1_wf := rfl

theorem numGather_eq : gather_S100000_S1600000x1_S1600000_n_0_n_n_0_1_1
    = numGather 100000 1600000 gather_S100000_S1600000x1_S1600000_n_0_n_n_0_1_1_wf := rfl

/-! ## Degrees and factors -/

/-- The degrees of a relation's nodes, from its destination words: a one counted per landing edge, from zero, plus one. -/
def degV (dst : IVec S1600000 32) : FVec Ideal S100000 .f32 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

theorem one_apply {s : Shape} (h : S_.BroadcastsInDim s (![] : Fin 0 → Fin s.rank)) (j : s.Idx) :
    broadcastInDim s ![] h (constant (F := Ideal) S_ .f32 0x3F800000#32) j = oneE :=
  bcast0_apply h _ j

theorem zero_apply {s : Shape} (h : S_.BroadcastsInDim s (![] : Fin 0 → Fin s.rank)) (j : s.Idx) :
    broadcastInDim s ![] h (constant (F := Ideal) S_ .f32 0x00000000#32) j = 0 :=
  (bcast0_apply h _ j).trans Ideal.ofBits_zero_f32

theorem degV_apply (dst : IVec S1600000 32) (i : Fin 100000) :
    degV dst (ix1 i) = GCN.degK oneE (fun e => dst (ix1 e)) i := by
  unfold degV GCN.degK
  rw [addf_apply, numScatter_eq, hostScatterAdd_eq, EdgeOps.scatterAdd_nums_apply, zero_apply, one_apply, lands_bcastCol,
    Finset.sum_congr rfl (fun e _ => one_apply bcast_S_S1600000 (ix1 e))]

/-- The factors of a relation's nodes: (d > 0 ? rsqrt d : 0) of the degree. -/
def dinvV (dst : IVec S1600000 32) : FVec Ideal S100000 .f32 :=
  select (cmpf .ogt (degV dst) (broadcastInDim S100000 ![] bcast_S_S100000 (constant (F := Ideal) S_ .f32 0x00000000#32)))
    (Host.rsqrt (degV dst)) (broadcastInDim S100000 ![] bcast_S_S100000 (constant (F := Ideal) S_ .f32 0x00000000#32))

theorem dinvV_apply (dst : IVec S1600000 32) (i : Fin 100000) :
    dinvV dst (ix1 i) = GCN.dinvK gD oneE (fun e => dst (ix1 e)) i := by
  unfold dinvV GCN.dinvK gD
  rw [select_apply, cmpf_apply, Ideal.cmpf_def, hostRsqrt_apply, zero_apply, degV_apply]

/-! ## Wrapped words, and the product of an edge's two factors -/

/-- A vector of words, the negative ones wrapped by the node count. -/
def wrapV (w : IVec S1600000 32) : IVec S1600000 32 :=
  select (cmpi .slt w (broadcastInDim S1600000 ![] bcast_S_S1600000 (constantI S_ 32 0#32)))
    (addi w (broadcastInDim S1600000 ![] bcast_S_S1600000 (constantI S_ 32 100000#32))) w

theorem cmpi_apply {s : Shape} {w : ℕ} (p : CmpIPredicate) (x y : IVec s w) (i : s.Idx) : cmpi p x y i = IntOp.cmpi p (x i) (y i) := rfl
theorem addi_apply {s : Shape} {w : ℕ} (x y : IVec s w) (i : s.Idx) : addi x y i = IntOp.addi (x i) (y i) := rfl

theorem wrapV_apply (w : IVec S1600000 32) (e : Fin 1600000) : wrapV w (ix1 e) = wrapW (w (ix1 e)) := by
  unfold wrapV wrapW
  rw [select_apply, cmpi_apply, addi_apply, bcast0_apply, bcast0_apply, constantI_apply, constantI_apply]

/-- Per edge, the product of the factors of its two ends. -/
def normV (src dst : IVec S1600000 32) (dinv : FVec Ideal S100000 .f32) : FVec Ideal S1600000 .f32 :=
  mulf (Host.gather gather_S100000_S1600000x1_S1600000_n_0_n_n_0_1_1 dinv
      (broadcastInDim S1600000x1 ![0] bcast_S1600000_S1600000x1_0 (wrapV src)))
    (Host.gather gather_S100000_S1600000x1_S1600000_n_0_n_n_0_1_1 dinv
      (broadcastInDim S1600000x1 ![0] bcast_S1600000_S1600000x1_0 (wrapV dst)))

theorem normV_apply (src dst : IVec S1600000 32) (dinv : FVec Ideal S100000 .f32) (e : Fin 1600000) :
    normV src dst dinv (ix1 e) = dinv (ix1 (rowW (src (ix1 e)))) * dinv (ix1 (rowW (dst (ix1 e)))) := by
  unfold normV rowW
  rw [mulf_apply, numGather_eq, gather_nums_apply (N := 100000) (by decide), gather_nums_apply (N := 100000) (by decide),
    rowOf_bcastCol, rowOf_bcastCol, wrapV_apply, wrapV_apply]

/-! ## The rows of one relation, the messages, and their scatter -/

section Rows
variable {C : ℕ}

/-- Relation r's rows of a stacked array: the slice's offset o is (r, 0, 0). -/
def relRowsV (o : Fin 3 → Nat) (h : (⟨3, ![3, 100000, C]⟩ : Shape).Slices o ⟨3, ![1, 100000, C]⟩)
    (hc : (⟨3, ![1, 100000, C]⟩ : Shape).ShapeCasts ⟨2, ![100000, C]⟩)
    (X : FVec Ideal ⟨3, ![3, 100000, C]⟩ .f32) : FVec Ideal ⟨2, ![100000, C]⟩ .f32 :=
  fun i => shapeCast ⟨2, ![100000, C]⟩ (extractStridedSlice ⟨3, ![1, 100000, C]⟩ o X h) hc i

theorem relRowsV_apply (r : Fin 3) (o : Fin 3 → Nat) (h : (⟨3, ![3, 100000, C]⟩ : Shape).Slices o ⟨3, ![1, 100000, C]⟩)
    (hc : (⟨3, ![1, 100000, C]⟩ : Shape).ShapeCasts ⟨2, ![100000, C]⟩) (ho : o = ![r.val, 0, 0])
    (X : FVec Ideal ⟨3, ![3, 100000, C]⟩ .f32) (i : Fin 100000) (k : Fin C) :
    relRowsV o h hc X (ix2 i k) = X (ix3 r i k) := by
  subst ho
  unfold relRowsV
  refine (shapeCast_apply _ _ (ix2 i k) (ix3 (0 : Fin 1) i k) ?_).trans ?_
  · rw [Shape.rowMajor_val_three, Shape.rowMajor_val_two]
    show (0 * 100000 + i.val) * C + k.val = i.val * C + k.val
    rw [Nat.zero_mul, Nat.zero_add]
  refine extractStridedSlice_apply _ _ _ (ix3 (0 : Fin 1) i k) (ix3 r i k) ?_
  intro a
  match a with
  | ⟨0, _⟩ => show r.val = r.val + 0; omega
  | ⟨1, _⟩ => show i.val = 0 + i.val; omega
  | ⟨2, _⟩ => show k.val = 0 + k.val; omega

/-- The scattered messages of a relation: per edge the source node's row scaled by the product of the two factors,
    added into the destination node's row, from zero. The gather's and the scatter's dimension numbers dG, dS are
    those of whole rows. -/
def scatV (dG : GatherDims ⟨2, ![100000, C]⟩ ⟨2, ![1600000, 1]⟩ ⟨2, ![1600000, C]⟩)
    (dS : ScatterDims ⟨2, ![100000, C]⟩ ⟨2, ![1600000, 1]⟩ ⟨2, ![1600000, C]⟩)
    (hb : S1600000x1.BroadcastsInDim ⟨2, ![1600000, C]⟩ (![0, 1] : Fin 2 → Fin 2))
    (hz : S_.BroadcastsInDim ⟨2, ![100000, C]⟩ (![] : Fin 0 → Fin 2))
    (src dst : IVec S1600000 32) (dinv : FVec Ideal S100000 .f32) (xl : FVec Ideal ⟨2, ![100000, C]⟩ .f32) :
    FVec Ideal ⟨2, ![100000, C]⟩ .f32 :=
  Host.scatterAdd dS
    (broadcastInDim ⟨2, ![100000, C]⟩ ![] hz (constant (F := Ideal) S_ .f32 0x00000000#32))
    (broadcastInDim S1600000x1 ![0] bcast_S1600000_S1600000x1_0 dst)
    (mulf (Host.gather dG xl (broadcastInDim S1600000x1 ![0] bcast_S1600000_S1600000x1_0 (wrapV src)))
      (broadcastInDim ⟨2, ![1600000, C]⟩ ![0, 1] hb
        (broadcastInDim S1600000x1 ![0] bcast_S1600000_S1600000x1_0 (normV src dst dinv))))

theorem colRow_apply {α : Type} (hb : S1600000x1.BroadcastsInDim ⟨2, ![1600000, C]⟩ (![0, 1] : Fin 2 → Fin 2))
    (h : S1600000.BroadcastsInDim S1600000x1 (![0] : Fin 1 → Fin 2)) (x : S1600000.Idx → α) (e : Fin 1600000) (n : Fin C) :
    broadcastInDim ⟨2, ![1600000, C]⟩ ![0, 1] hb (broadcastInDim S1600000x1 ![0] h x) (ix2 e n) = x (ix1 e) :=
  (broadcastInDim_apply _ _ _ (ix2 e n) (ix2 e (0 : Fin 1)) (fun a => by
    match a with
    | ⟨0, _⟩ => show e.val = if (1600000 : ℕ) = 1 then 0 else e.val; rw [if_neg (by decide)]
    | ⟨1, _⟩ => show (0 : ℕ) = if (1 : ℕ) = 1 then 0 else n.val; rw [if_pos rfl])).trans (bcastCol_apply h x e)

theorem scatV_apply (wfG : GatherDims.WF ⟨2, ![100000, C]⟩ ⟨2, ![1600000, 1]⟩ ⟨2, ![1600000, C]⟩ [1] [0] [] [0] [] 1 ![1, C])
    (wfS : ScatterDims.WF ⟨2, ![100000, C]⟩ ⟨2, ![1600000, 1]⟩ ⟨2, ![1600000, C]⟩ [1] [0] [0] 1)
    (dG : GatherDims ⟨2, ![100000, C]⟩ ⟨2, ![1600000, 1]⟩ ⟨2, ![1600000, C]⟩)
    (dS : ScatterDims ⟨2, ![100000, C]⟩ ⟨2, ![1600000, 1]⟩ ⟨2, ![1600000, C]⟩)
    (hG : dG = EdgeOps.rowGather 100000 1600000 C wfG) (hS : dS = EdgeOps.rowScatter 100000 1600000 C wfS)
    (hb : S1600000x1.BroadcastsInDim ⟨2, ![1600000, C]⟩ (![0, 1] : Fin 2 → Fin 2))
    (hz : S_.BroadcastsInDim ⟨2, ![100000, C]⟩ (![] : Fin 0 → Fin 2))
    (src dst : IVec S1600000 32) (xl : FVec Ideal ⟨2, ![100000, C]⟩ .f32) (i : Fin 100000) (n : Fin C) :
    scatV dG dS hb hz src dst (dinvV dst) xl (ix2 i n)
      = GCN.scatK gD oneE (fun e => dst (ix1 e)) (fun e => rowW (src (ix1 e))) (fun e => rowW (dst (ix1 e)))
          (fun i k => xl (ix2 i k)) i n := by
  subst hG hS
  unfold scatV GCN.scatK GCN.normK
  rw [hostScatterAdd_eq, EdgeOps.scatterAdd_rows_apply, zero_apply, lands_bcastCol]
  refine congrArg (fun t => (0 : EReal) + t) (Finset.sum_congr rfl fun e _ => ?_)
  rw [mulf_apply, EdgeOps.gather_rows_apply (N := 100000) (by decide), rowOf_bcastCol, wrapV_apply, colRow_apply, normV_apply,
    dinvV_apply, dinvV_apply]
  rfl

end Rows

/-- The squared factor of a node. -/
theorem dsq_apply (dst : IVec S1600000 32) (i : Fin 100000) :
    mulf (dinvV dst) (dinvV dst) (ix1 i) = GCN.dsqK gD oneE (fun e => dst (ix1 e)) i := by
  unfold GCN.dsqK
  rw [mulf_apply, dinvV_apply]

/-! ## A relation's two results, from the rows of the edge array and of the stacked rows -/

section Assemble
variable {C : ℕ}

/-- The scattered messages of relation r. -/
theorem scat_of (wfG : GatherDims.WF ⟨2, ![100000, C]⟩ ⟨2, ![1600000, 1]⟩ ⟨2, ![1600000, C]⟩ [1] [0] [] [0] [] 1 ![1, C])
    (wfS : ScatterDims.WF ⟨2, ![100000, C]⟩ ⟨2, ![1600000, 1]⟩ ⟨2, ![1600000, C]⟩ [1] [0] [0] 1)
    (dG : GatherDims ⟨2, ![100000, C]⟩ ⟨2, ![1600000, 1]⟩ ⟨2, ![1600000, C]⟩)
    (dS : ScatterDims ⟨2, ![100000, C]⟩ ⟨2, ![1600000, 1]⟩ ⟨2, ![1600000, C]⟩)
    (hG : dG = EdgeOps.rowGather 100000 1600000 C wfG) (hS : dS = EdgeOps.rowScatter 100000 1600000 C wfS)
    (hb : S1600000x1.BroadcastsInDim ⟨2, ![1600000, C]⟩ (![0, 1] : Fin 2 → Fin 2))
    (hz : S_.BroadcastsInDim ⟨2, ![100000, C]⟩ (![] : Fin 0 → Fin 2))
    (ei : EI) (X : FVec Ideal ⟨3, ![3, 100000, C]⟩ .f32) (r : Fin 3)
    (src dst : IVec S1600000 32) (xl : FVec Ideal ⟨2, ![100000, C]⟩ .f32)
    (hs : ∀ e, src (ix1 e) = ei (ix3 r 0 e)) (hd : ∀ e, dst (ix1 e) = ei (ix3 r 1 e))
    (hx : ∀ i k, xl (ix2 i k) = X (ix3 r i k)) (i : Fin 100000) (n : Fin C) :
    scatV dG dS hb hz src dst (dinvV dst) xl (ix2 i n) = Net.scat ei (fun r i k => X (ix3 r i k)) r i n := by
  rw [scatV_apply wfG wfS dG dS hG hS]
  unfold Net.scat
  have h1 : (fun e => dst (ix1 e)) = dstW ei r := funext hd
  have h2 : (fun e => rowW (src (ix1 e))) = fun e => rowW (srcW ei r e) := funext fun e => congrArg rowW (hs e)
  have h3 : (fun e => rowW (dst (ix1 e))) = fun e => rowW (dstW ei r e) := funext fun e => congrArg rowW (hd e)
  have h4 : (fun i k => xl (ix2 i k)) = fun i k => X (ix3 r i k) := funext fun i => funext fun k => hx i k
  rw [h1, h2, h3, h4]

/-- The squared factors of relation r. -/
theorem dsq_of (ei : EI) (r : Fin 3) (dst : IVec S1600000 32) (hd : ∀ e, dst (ix1 e) = ei (ix3 r 1 e)) (i : Fin 100000) :
    mulf (dinvV dst) (dinvV dst) (ix1 i) = Net.dsq ei r i := by
  rw [dsq_apply]
  unfold Net.dsq
  rw [show (fun e => dst (ix1 e)) = dstW ei r from funext hd]

end Assemble

/-- The edge words as launched. -/
abbrev eiOf (m : (ℓ : Loc nD τ sig) → Buf (Elt Ideal) ℓ) (c : Dev nD) : Net.EI := m ((c.tc : Thread nD τ).loc main_arg1)

end Cert.KernelIdeal.HostValue

end
-- ==== Proof.KH.Stack.lean ====
/-
  Three arrays stacked along a new leading axis, and the result buffer of the three-operand host operation that
  stacks them.

  A host operation of three operands writes its function's value of the operands' contents; when the three operand
  buffers are a literal family that value is stated with each operand's contents at its own buffer, so that a run
  read back as a fold over the operations goes on being computed at the operands. The stacked array itself, read at
  (r, i, n), is the r-th operand at (i, n): each operand is first given a leading axis of extent one, and the three
  pieces are laid end to end along that axis.
-/
import Idealize.ShloMosaic.Lib.StableHlo.Run
import Idealize.ShloMosaic.Lib.Pipeline.Value
import Idealize.ShloMosaic.Lib.ValueIdx

namespace Idealize.ShloMosaic.StableHlo

/-- The result of a three-operand operation at its result buffer: its function at the three operands' contents, each
    read at its own buffer. -/
theorem nary3_result {τ : Topo} {sig : RefSig} {Val : EltTy → Type} {x0 x1 x2 y : Ref sig .tc}
    (f : ((k : Fin 3) → ((![x0, x1, x2] : Fin 3 → Ref sig .tc) k).ty.Contents Val) → y.ty.Contents Val) (hxs hy)
    (V : Valuation τ sig Val) :
    (nary (τ := τ) ![x0, x1, x2] y f hxs hy).result V (Proc.devRef .tc y)
      = f (Fin.cons (V (Proc.devRef .tc x0)) (Fin.cons (V (Proc.devRef .tc x1)) (Fin.cons (V (Proc.devRef .tc x2))
          (fun i => i.elim0)))) := by
  rw [nary_result]; congr 1; funext k; fin_cases k <;> rfl

/-- The contents of one buffer after a literal list of host operations: each operation's result at its own result
    buffer is its function's value, at any other buffer what was there; a three-operand operation's operands are
    read each at its own buffer. -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-- The same, with the result buffer left out of the rewriting index: the form one pass of rewriting takes. -/
theorem nary3_result' {τ : Topo} {sig : RefSig} {Val : EltTy → Type} {x0 x1 x2 y : Ref sig .tc}
    (f : ((k : Fin 3) → ((![x0, x1, x2] : Fin 3 → Ref sig .tc) k).ty.Contents Val) → y.ty.Contents Val) (hxs hy)
    (V : Valuation τ sig Val) :
    (nary (τ := τ) ![x0, x1, x2] y f hxs hy).result V (no_index (Proc.devRef .tc y))
      = f (Fin.cons (V (Proc.devRef .tc x0)) (Fin.cons (V (Proc.devRef .tc x1)) (Fin.cons (V (Proc.devRef .tc x2))
          (fun i => i.elim0)))) :=
  nary3_result f hxs hy V

/-- The contents of one buffer after a literal list of host operations, by ONE pass of rewriting (each shared
    intermediate buffer visited once): the form for the long stretches. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Idealize.ShloMosaic.StableHlo

namespace Cert.KernelIdeal.HostValue

open Idealize.ShloMosaic Idealize.ShloMosaic.ValueIdx

variable {α : Type} {C : ℕ}

/-- Three arrays of rows stacked: at (r, i, n) the r-th array at (i, n). -/
theorem stackRows_apply (hb : (⟨2, ![100000, C]⟩ : Shape).BroadcastsInDim ⟨3, ![1, 100000, C]⟩ (![1, 2] : Fin 2 → Fin 3))
    (hc : Shape.Concatenates [(⟨3, ![1, 100000, C]⟩ : Shape), ⟨3, ![1, 100000, C]⟩, ⟨3, ![1, 100000, C]⟩] ⟨3, ![3, 100000, C]⟩ 0)
    (a : Fin 3 → (⟨2, ![100000, C]⟩ : Shape).Idx → α) (r : Fin 3) (i : Fin 100000) (n : Fin C) :
    concatenate ⟨3, ![3, 100000, C]⟩ 0
      [⟨⟨3, ![1, 100000, C]⟩, broadcastInDim ⟨3, ![1, 100000, C]⟩ ![1, 2] hb (a 0)⟩,
       ⟨⟨3, ![1, 100000, C]⟩, broadcastInDim ⟨3, ![1, 100000, C]⟩ ![1, 2] hb (a 1)⟩,
       ⟨⟨3, ![1, 100000, C]⟩, broadcastInDim ⟨3, ![1, 100000, C]⟩ ![1, 2] hb (a 2)⟩] hc (ix3 r i n)
      = a r (ix2 i n) := by
  have hbc : ∀ (x : (⟨2, ![100000, C]⟩ : Shape).Idx → α),
      broadcastInDim ⟨3, ![1, 100000, C]⟩ ![1, 2] hb x (ix3 (0 : Fin 1) i n) = x (ix2 i n) := fun x =>
    broadcastInDim_apply _ _ _ (ix3 (0 : Fin 1) i n) (ix2 i n) (fun b => by
      match b with
      | ⟨0, _⟩ => show i.val = if (100000 : ℕ) = 1 then 0 else i.val; rw [if_neg (by decide)]
      | ⟨1, _⟩ => show n.val = if C = 1 then 0 else n.val; have := n.isLt; split <;> omega)
  have hi : ∀ b : Fin 3, b.cast rfl ≠ (0 : Fin 3) → ((ix3 (0 : Fin 1) i n : (⟨3, ![1, 100000, C]⟩ : Shape).Idx) b).val
      = ((ix3 r i n : (⟨3, ![3, 100000, C]⟩ : Shape).Idx) (b.cast rfl)).val := by
    intro b hb'
    match b with
    | ⟨0, _⟩ => exact absurd rfl hb'
    | ⟨1, _⟩ => rfl
    | ⟨2, _⟩ => rfl
  match r with
  | ⟨0, _⟩ =>
    refine Eq.trans ?_ (hbc _)
    exact concatenate_apply_piece (t := ⟨3, ![3, 100000, C]⟩) (0 : Fin 3)
      [⟨⟨3, ![1, 100000, C]⟩, broadcastInDim ⟨3, ![1, 100000, C]⟩ ![1, 2] hb (a 0)⟩,
       ⟨⟨3, ![1, 100000, C]⟩, broadcastInDim ⟨3, ![1, 100000, C]⟩ ![1, 2] hb (a 1)⟩,
       ⟨⟨3, ![1, 100000, C]⟩, broadcastInDim ⟨3, ![1, 100000, C]⟩ ![1, 2] hb (a 2)⟩]
      hc _ 0 (by decide : (0 : ℕ) < 3) _ _ rfl rfl 0 rfl (ix3 (0 : Fin 1) i n) hi rfl
  | ⟨1, _⟩ =>
    refine Eq.trans ?_ (hbc _)
    exact concatenate_apply_piece (t := ⟨3, ![3, 100000, C]⟩) (0 : Fin 3)
      [⟨⟨3, ![1, 100000, C]⟩, broadcastInDim ⟨3, ![1, 100000, C]⟩ ![1, 2] hb (a 0)⟩,
       ⟨⟨3, ![1, 100000, C]⟩, broadcastInDim ⟨3, ![1, 100000, C]⟩ ![1, 2] hb (a 1)⟩,
       ⟨⟨3, ![1, 100000, C]⟩, broadcastInDim ⟨3, ![1, 100000, C]⟩ ![1, 2] hb (a 2)⟩]
      hc _ 1 (by decide : (1 : ℕ) < 3) _ _ rfl rfl 1 rfl (ix3 (0 : Fin 1) i n) hi rfl
  | ⟨2, _⟩ =>
    refine Eq.trans ?_ (hbc _)
    exact concatenate_apply_piece (t := ⟨3, ![3, 100000, C]⟩) (0 : Fin 3)
      [⟨⟨3, ![1, 100000, C]⟩, broadcastInDim ⟨3, ![1, 100000, C]⟩ ![1, 2] hb (a 0)⟩,
       ⟨⟨3, ![1, 100000, C]⟩, broadcastInDim ⟨3, ![1, 100000, C]⟩ ![1, 2] hb (a 1)⟩,
       ⟨⟨3, ![1, 100000, C]⟩, broadcastInDim ⟨3, ![1, 100000, C]⟩ ![1, 2] hb (a 2)⟩]
      hc _ 2 (by decide : (2 : ℕ) < 3) _ _ rfl rfl 2 rfl (ix3 (0 : Fin 1) i n) hi rfl

/-- Three vectors stacked and given a trailing axis of extent one: at (r, i, 0) the r-th vector at i. -/
theorem stackNums_apply (hb : (⟨1, ![100000]⟩ : Shape).BroadcastsInDim ⟨2, ![1, 100000]⟩ (![1] : Fin 1 → Fin 2))
    (hc : Shape.Concatenates [(⟨2, ![1, 100000]⟩ : Shape), ⟨2, ![1, 100000]⟩, ⟨2, ![1, 100000]⟩] ⟨2, ![3, 100000]⟩ 0)
    (hb2 : (⟨2, ![3, 100000]⟩ : Shape).BroadcastsInDim ⟨3, ![3, 100000, 1]⟩ (![0, 1] : Fin 2 → Fin 3))
    (a : Fin 3 → (⟨1, ![100000]⟩ : Shape).Idx → α) (r : Fin 3) (i : Fin 100000) :
    broadcastInDim ⟨3, ![3, 100000, 1]⟩ ![0, 1] hb2 (concatenate ⟨2, ![3, 100000]⟩ 0
      [⟨⟨2, ![1, 100000]⟩, broadcastInDim ⟨2, ![1, 100000]⟩ ![1] hb (a 0)⟩,
       ⟨⟨2, ![1, 100000]⟩, broadcastInDim ⟨2, ![1, 100000]⟩ ![1] hb (a 1)⟩,
       ⟨⟨2, ![1, 100000]⟩, broadcastInDim ⟨2, ![1, 100000]⟩ ![1] hb (a 2)⟩] hc) (ix3 r i 0)
      = a r (ix1 i) := by
  refine (broadcastInDim_apply _ _ _ (ix3 r i (0 : Fin 1)) (ix2 r i) (fun b => by
    match b with
    | ⟨0, _⟩ => show r.val = if (3 : ℕ) = 1 then 0 else r.val; rw [if_neg (by decide)]
    | ⟨1, _⟩ => show i.val = if (100000 : ℕ) = 1 then 0 else i.val; rw [if_neg (by decide)])).trans ?_
  have hbc : ∀ (x : (⟨1, ![100000]⟩ : Shape).Idx → α),
      broadcastInDim ⟨2, ![1, 100000]⟩ ![1] hb x (ix2 (0 : Fin 1) i) = x (ix1 i) := fun x =>
    broadcastInDim_apply _ _ _ (ix2 (0 : Fin 1) i) (ix1 i) (fun b => by
      match b with
      | ⟨0, _⟩ => show i.val = if (100000 : ℕ) = 1 then 0 else i.val; rw [if_neg (by decide)])
  have hi : ∀ b : Fin 2, b.cast rfl ≠ (0 : Fin 2) → ((ix2 (0 : Fin 1) i : (⟨2, ![1, 100000]⟩ : Shape).Idx) b).val
      = ((ix2 r i : (⟨2, ![3, 100000]⟩ : Shape).Idx) (b.cast rfl)).val := by
    intro b hb'
    match b with
    | ⟨0, _⟩ => exact absurd rfl hb'
    | ⟨1, _⟩ => rfl
  match r with
  | ⟨0, _⟩ =>
    refine Eq.trans ?_ (hbc _)
    exact concatenate_apply_piece (t := ⟨2, ![3, 100000]⟩) (0 : Fin 2)
      [⟨⟨2, ![1, 100000]⟩, broadcastInDim ⟨2, ![1, 100000]⟩ ![1] hb (a 0)⟩,
       ⟨⟨2, ![1, 100000]⟩, broadcastInDim ⟨2, ![1, 100000]⟩ ![1] hb (a 1)⟩,
       ⟨⟨2, ![1, 100000]⟩, broadcastInDim ⟨2, ![1, 100000]⟩ ![1] hb (a 2)⟩]
      hc _ 0 (by decide : (0 : ℕ) < 3) _ _ rfl rfl 0 rfl (ix2 (0 : Fin 1) i) hi rfl
  | ⟨1, _⟩ =>
    refine Eq.trans ?_ (hbc _)
    exact concatenate_apply_piece (t := ⟨2, ![3, 100000]⟩) (0 : Fin 2)
      [⟨⟨2, ![1, 100000]⟩, broadcastInDim ⟨2, ![1, 100000]⟩ ![1] hb (a 0)⟩,
       ⟨⟨2, ![1, 100000]⟩, broadcastInDim ⟨2, ![1, 100000]⟩ ![1] hb (a 1)⟩,
       ⟨⟨2, ![1, 100000]⟩, broadcastInDim ⟨2, ![1, 100000]⟩ ![1] hb (a 2)⟩]
      hc _ 1 (by decide : (1 : ℕ) < 3) _ _ rfl rfl 1 rfl (ix2 (0 : Fin 1) i) hi rfl
  | ⟨2, _⟩ =>
    refine Eq.trans ?_ (hbc _)
    exact concatenate_apply_piece (t := ⟨2, ![3, 100000]⟩) (0 : Fin 2)
      [⟨⟨2, ![1, 100000]⟩, broadcastInDim ⟨2, ![1, 100000]⟩ ![1] hb (a 0)⟩,
       ⟨⟨2, ![1, 100000]⟩, broadcastInDim ⟨2, ![1, 100000]⟩ ![1] hb (a 1)⟩,
       ⟨⟨2, ![1, 100000]⟩, broadcastInDim ⟨2, ![1, 100000]⟩ ![1] hb (a 2)⟩]
      hc _ 2 (by decide : (2 : ℕ) < 3) _ _ rfl rfl 2 rfl (ix2 (0 : Fin 1) i) hi rfl

end Cert.KernelIdeal.HostValue
-- ==== Proof.KH.Stretch1a.lean ====
/-
  The host stretches between the first linear region and the first combine region, each read as a function of the
  buffers it starts from, whatever they hold. This module: relation 0's two rows of the edge array, its degrees compared with zero and their rsqrt; the select of its factors.
-/
import proofs.«128058_j54425825575251_2_alg».proof.Proof.Gen.KernelIdeal.Regions
import proofs.«128058_j54425825575251_2_alg».proof.Proof.KH.Ops
import proofs.«128058_j54425825575251_2_alg».proof.Proof.KH.Stack

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L1

section Stretches
variable (W : Valuation τ sig (Elt Ideal))

/-! ### The first stretch: relation 0's rows of the edge array, its degrees compared with zero, their rsqrt -/

theorem a0_src : (after Gen.hostOps1 W main_v4 : IVec S1600000 32) = (edgeRowV ![0, 0, 0] slices_S3x2x1600000_S1x2x1600000_0_0_0 ![0, 0] slices_S2x1600000_S1x1600000_0_0 (W main_arg1)) := by
  after_results_simp3 <;> rfl
theorem a0_dst : (after Gen.hostOps1 W main_v6 : IVec S1600000 32) = (edgeRowV ![0, 0, 0] slices_S3x2x1600000_S1x2x1600000_0_0_0 ![1, 0] slices_S2x1600000_S1x1600000_1_0 (W main_arg1)) := by
  after_results_simp3 <;> rfl
theorem a0_cmp : (after Gen.hostOps1 W main_v14 : IVec S100000 1)
    = cmpf .ogt (degV (edgeRowV ![0, 0, 0] slices_S3x2x1600000_S1x2x1600000_0_0_0 ![1, 0] slices_S2x1600000_S1x1600000_1_0 (W main_arg1))) (broadcastInDim S100000 ![] bcast_S_S100000 (constant (F := Ideal) S_ .f32 0x00000000#32)) := by
  after_results_simp3 <;> rfl
theorem a0_rs : (after Gen.hostOps1 W main_v15 : FVec Ideal S100000 .f32)
    = Host.rsqrt (degV (edgeRowV ![0, 0, 0] slices_S3x2x1600000_S1x2x1600000_0_0_0 ![1, 0] slices_S2x1600000_S1x1600000_1_0 (W main_arg1))) := by
  after_results_simp3 <;> rfl
theorem a0_cst : (after Gen.hostOps1 W main_cst_3 : FVec Ideal S_ .f32) = constant (F := Ideal) S_ .f32 0x00000000#32 := by
  after_results_simp3 <;> rfl

/-! ### The select of relation 0's factors -/

theorem b0_dinv : (after Gen.hostOps1_1 W main_v16 : FVec Ideal S100000 .f32)
    = select (W main_v14) (W main_v15) (broadcastInDim S100000 ![] bcast_S_S100000 (W main_cst_3)) := by
  after_results_simp3 <;> rfl

end Stretches

end L1

end Cert.KernelIdeal.HostValue

end
-- ==== Proof.KH.Stretch1b.lean ====
/-
  The host stretches between the first linear region and the first combine region, each read as a function of the
  buffers it starts from, whatever they hold. This module: relation 0's messages scattered and its factors squared; relation 1's rows, compare and rsqrt; the select of relation 1's factors.
-/
import proofs.«128058_j54425825575251_2_alg».proof.Proof.Gen.KernelIdeal.Regions
import proofs.«128058_j54425825575251_2_alg».proof.Proof.KH.Ops
import proofs.«128058_j54425825575251_2_alg».proof.Proof.KH.Stack

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L1

section Stretches
variable (W : Valuation τ sig (Elt Ideal))

/-! ### Relation 0's messages scattered and its factors squared; relation 1's rows, compare and rsqrt -/

theorem c0_scat : (after Gen.hostOps1_2 W main_v47 : FVec Ideal S100000x128 .f32)
    = scatV gather_S100000x128_S1600000x1_S1600000x128_1_0_n_n_0_1_1128 scatter_S100000x128_S1600000x1_S1600000x128_1_0_0_1 bcast_S1600000x1_S1600000x128_0_1 bcast_S_S100000x128 (W main_v4) (W main_v6) (W main_v16) (relRowsV ![0, 0, 0] slices_S3x100000x128_S1x100000x128_0_0_0 shapeCasts_S1x100000x128_S100000x128 (W main_v0)) := by
  after_results_simp3 <;> rfl
theorem c0_dsq : (after Gen.hostOps1_2 W main_v32 : FVec Ideal S100000 .f32)
    = (mulf (W main_v16 : FVec Ideal S100000 .f32) (W main_v16 : FVec Ideal S100000 .f32) : FVec Ideal S100000 .f32) := by
  after_results_simp3 <;> rfl

theorem a1_src : (after Gen.hostOps1_2 W main_v51 : IVec S1600000 32) = (edgeRowV ![1, 0, 0] slices_S3x2x1600000_S1x2x1600000_1_0_0 ![0, 0] slices_S2x1600000_S1x1600000_0_0 (W main_arg1)) := by
  after_results_simp3 <;> rfl
theorem a1_dst : (after Gen.hostOps1_2 W main_v53 : IVec S1600000 32) = (edgeRowV ![1, 0, 0] slices_S3x2x1600000_S1x2x1600000_1_0_0 ![1, 0] slices_S2x1600000_S1x1600000_1_0 (W main_arg1)) := by
  after_results_simp3 <;> rfl
theorem a1_cmp : (after Gen.hostOps1_2 W main_v61 : IVec S100000 1)
    = cmpf .ogt (degV (edgeRowV ![1, 0, 0] slices_S3x2x1600000_S1x2x1600000_1_0_0 ![1, 0] slices_S2x1600000_S1x1600000_1_0 (W main_arg1))) (broadcastInDim S100000 ![] bcast_S_S100000 (constant (F := Ideal) S_ .f32 0x00000000#32)) := by
  after_results_simp3 <;> rfl
theorem a1_rs : (after Gen.hostOps1_2 W main_v62 : FVec Ideal S100000 .f32)
    = Host.rsqrt (degV (edgeRowV ![1, 0, 0] slices_S3x2x1600000_S1x2x1600000_1_0_0 ![1, 0] slices_S2x1600000_S1x1600000_1_0 (W main_arg1))) := by
  after_results_simp3 <;> rfl
theorem a1_cst : (after Gen.hostOps1_2 W main_cst_14 : FVec Ideal S_ .f32) = constant (F := Ideal) S_ .f32 0x00000000#32 := by
  after_results_simp3 <;> rfl

/-! ### The select of relation 1's factors -/

theorem b1_dinv : (after Gen.hostOps1_3 W main_v63 : FVec Ideal S100000 .f32)
    = select (W main_v61) (W main_v62) (broadcastInDim S100000 ![] bcast_S_S100000 (W main_cst_14)) := by
  after_results_simp3 <;> rfl

end Stretches

end L1

end Cert.KernelIdeal.HostValue

end
-- ==== Proof.KH.Stretch1c.lean ====
/-
  The host stretches between the first linear region and the first combine region, each read as a function of the
  buffers it starts from, whatever they hold. This module: relation 1's messages scattered and its factors squared; relation 2's rows, compare and rsqrt; the select of relation 2's factors.
-/
import proofs.«128058_j54425825575251_2_alg».proof.Proof.Gen.KernelIdeal.Regions
import proofs.«128058_j54425825575251_2_alg».proof.Proof.KH.Ops
import proofs.«128058_j54425825575251_2_alg».proof.Proof.KH.Stack

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L1

section Stretches
variable (W : Valuation τ sig (Elt Ideal))

/-! ### Relation 1's messages and squares; relation 2's rows, compare and rsqrt -/

theorem c1_scat : (after Gen.hostOps1_4 W main_v94 : FVec Ideal S100000x128 .f32)
    = scatV gather_S100000x128_S1600000x1_S1600000x128_1_0_n_n_0_1_1128 scatter_S100000x128_S1600000x1_S1600000x128_1_0_0_1 bcast_S1600000x1_S1600000x128_0_1 bcast_S_S100000x128 (W main_v51) (W main_v53) (W main_v63) (relRowsV ![1, 0, 0] slices_S3x100000x128_S1x100000x128_1_0_0 shapeCasts_S1x100000x128_S100000x128 (W main_v0)) := by
  after_results_simp3 <;> rfl
theorem c1_dsq : (after Gen.hostOps1_4 W main_v79 : FVec Ideal S100000 .f32)
    = (mulf (W main_v63 : FVec Ideal S100000 .f32) (W main_v63 : FVec Ideal S100000 .f32) : FVec Ideal S100000 .f32) := by
  after_results_simp3 <;> rfl

theorem a2_src : (after Gen.hostOps1_4 W main_v98 : IVec S1600000 32) = (edgeRowV ![2, 0, 0] slices_S3x2x1600000_S1x2x1600000_2_0_0 ![0, 0] slices_S2x1600000_S1x1600000_0_0 (W main_arg1)) := by
  after_results_simp3 <;> rfl
theorem a2_dst : (after Gen.hostOps1_4 W main_v100 : IVec S1600000 32) = (edgeRowV ![2, 0, 0] slices_S3x2x1600000_S1x2x1600000_2_0_0 ![1, 0] slices_S2x1600000_S1x1600000_1_0 (W main_arg1)) := by
  after_results_simp3 <;> rfl
theorem a2_cmp : (after Gen.hostOps1_4 W main_v108 : IVec S100000 1)
    = cmpf .ogt (degV (edgeRowV ![2, 0, 0] slices_S3x2x1600000_S1x2x1600000_2_0_0 ![1, 0] slices_S2x1600000_S1x1600000_1_0 (W main_arg1))) (broadcastInDim S100000 ![] bcast_S_S100000 (constant (F := Ideal) S_ .f32 0x00000000#32)) := by
  after_results_simp3 <;> rfl
theorem a2_rs : (after Gen.hostOps1_4 W main_v109 : FVec Ideal S100000 .f32)
    = Host.rsqrt (degV (edgeRowV ![2, 0, 0] slices_S3x2x1600000_S1x2x1600000_2_0_0 ![1, 0] slices_S2x1600000_S1x1600000_1_0 (W main_arg1))) := by
  after_results_simp3 <;> rfl
theorem a2_cst : (after Gen.hostOps1_4 W main_cst_26 : FVec Ideal S_ .f32) = constant (F := Ideal) S_ .f32 0x00000000#32 := by
  after_results_simp3 <;> rfl

/-! ### The select of relation 2's factors -/

theorem b2_dinv : (after Gen.hostOps1_5 W main_v110 : FVec Ideal S100000 .f32)
    = select (W main_v108) (W main_v109) (broadcastInDim S100000 ![] bcast_S_S100000 (W main_cst_26)) := by
  after_results_simp3 <;> rfl

end Stretches

end L1

end Cert.KernelIdeal.HostValue

end
-- ==== Proof.KH.Stretch1d.lean ====
/-
  The host stretches between the first linear region and the first combine region, each read as a function of the
  buffers it starts from, whatever they hold. This module: the last stretch, cut after relation 2's scattered messages: what the first part leaves in the buffers the
  second part reads, and the second part's two stacks from whatever it starts from.
-/
import proofs.«128058_j54425825575251_2_alg».proof.Proof.Gen.KernelIdeal.Regions
import proofs.«128058_j54425825575251_2_alg».proof.Proof.KH.Ops
import proofs.«128058_j54425825575251_2_alg».proof.Proof.KH.Stack

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L1

/-- A line of host operations run in two parts. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The contents of one buffer after the first 38 operations of the last stretch, by one pass of rewriting. -/
macro "head_results" : tactic =>
  `(tactic| (simp (disch := decide) only [Gen.hostOps1_6, List.take_succ_cons, List.take_zero, after_cons, after_nil,
      nullary_result', unary_result', binary_result', ternary_result', quaternary_result', reshape_result',
      nullary_result_ne', unary_result_ne', binary_result_ne', ternary_result_ne', quaternary_result_ne', reshape_result_ne',
      nary_result_ne']))

/-! ### The second part: the two stacks, from whatever buffers it starts from -/

section Tail
variable (F : Valuation τ sig (Elt Ideal))

theorem t_scat : (after (List.drop 38 Gen.hostOps1_6) F main_v145 : FVec Ideal S3x100000x128 .f32)
    = concatenate S3x100000x128 0
        [⟨S1x100000x128, broadcastInDim S1x100000x128 ![1, 2] bcast_S100000x128_S1x100000x128_1_2 (F main_v47)⟩,
         ⟨S1x100000x128, broadcastInDim S1x100000x128 ![1, 2] bcast_S100000x128_S1x100000x128_1_2 (F main_v94)⟩,
         ⟨S1x100000x128, broadcastInDim S1x100000x128 ![1, 2] bcast_S100000x128_S1x100000x128_1_2 (F main_v141)⟩]
        concatenates_S1x100000x128_S1x100000x128_S1x100000x128_S3x100000x128_d0 := by
  simp only [Gen.hostOps1_6, List.drop_succ_cons, List.drop_zero]
  after_results3
  rfl

theorem t_dsq : (after (List.drop 38 Gen.hostOps1_6) F main_v150 : FVec Ideal S3x100000x1 .f32)
    = broadcastInDim S3x100000x1 ![0, 1] bcast_S3x100000_S3x100000x1_0_1 (concatenate S3x100000 0
        [⟨S1x100000, broadcastInDim S1x100000 ![1] bcast_S100000_S1x100000_1 (F main_v32)⟩,
         ⟨S1x100000, broadcastInDim S1x100000 ![1] bcast_S100000_S1x100000_1 (F main_v79)⟩,
         ⟨S1x100000, broadcastInDim S1x100000 ![1] bcast_S100000_S1x100000_1 (F main_v126)⟩]
        concatenates_S1x100000_S1x100000_S1x100000_S3x100000_d0) := by
  simp only [Gen.hostOps1_6, List.drop_succ_cons, List.drop_zero]
  after_results3
  rfl

end Tail

/-! ### The first part: relation 2's messages and squares; the earlier relations' results untouched -/

section Stretches
variable (W : Valuation τ sig (Elt Ideal))

theorem h_v47 : after (List.take 38 Gen.hostOps1_6) W main_v47 = W main_v47 := by
  head_results
theorem h_v94 : after (List.take 38 Gen.hostOps1_6) W main_v94 = W main_v94 := by
  head_results
theorem h_v32 : after (List.take 38 Gen.hostOps1_6) W main_v32 = W main_v32 := by
  head_results
theorem h_v79 : after (List.take 38 Gen.hostOps1_6) W main_v79 = W main_v79 := by
  head_results
theorem h_v141 : (after (List.take 38 Gen.hostOps1_6) W main_v141 : FVec Ideal S100000x128 .f32)
    = scatV gather_S100000x128_S1600000x1_S1600000x128_1_0_n_n_0_1_1128 scatter_S100000x128_S1600000x1_S1600000x128_1_0_0_1 bcast_S1600000x1_S1600000x128_0_1 bcast_S_S100000x128 (W main_v98) (W main_v100) (W main_v110) (relRowsV ![2, 0, 0] slices_S3x100000x128_S1x100000x128_2_0_0 shapeCasts_S1x100000x128_S100000x128 (W main_v0)) := by
  head_results <;> rfl
theorem h_v126 : (after (List.take 38 Gen.hostOps1_6) W main_v126 : FVec Ideal S100000 .f32)
    = (mulf (F := Ideal) (s := S100000) (φ := .f32) (W main_v110) (W main_v110) : FVec Ideal S100000 .f32) := by
  head_results <;> rfl

/-- The last stretch in two parts. -/
theorem split6 : after Gen.hostOps1_6 W = after (List.drop 38 Gen.hostOps1_6) (after (List.take 38 Gen.hostOps1_6) W) := by
  rw [← after_append, List.take_append_drop]

/-! ### The two stacks -/

theorem s_scat : (after Gen.hostOps1_6 W main_v145 : FVec Ideal S3x100000x128 .f32)
    = concatenate S3x100000x128 0
        [⟨S1x100000x128, broadcastInDim S1x100000x128 ![1, 2] bcast_S100000x128_S1x100000x128_1_2 (W main_v47)⟩,
         ⟨S1x100000x128, broadcastInDim S1x100000x128 ![1, 2] bcast_S100000x128_S1x100000x128_1_2 (W main_v94)⟩,
         ⟨S1x100000x128, broadcastInDim S1x100000x128 ![1, 2] bcast_S100000x128_S1x100000x128_1_2
           (scatV gather_S100000x128_S1600000x1_S1600000x128_1_0_n_n_0_1_1128 scatter_S100000x128_S1600000x1_S1600000x128_1_0_0_1 bcast_S1600000x1_S1600000x128_0_1 bcast_S_S100000x128 (W main_v98) (W main_v100) (W main_v110) (relRowsV ![2, 0, 0] slices_S3x100000x128_S1x100000x128_2_0_0 shapeCasts_S1x100000x128_S100000x128 (W main_v0)))⟩]
        concatenates_S1x100000x128_S1x100000x128_S1x100000x128_S3x100000x128_d0 := by
  rw [split6, t_scat, h_v47, h_v94, h_v141]
theorem s_dsq : (after Gen.hostOps1_6 W main_v150 : FVec Ideal S3x100000x1 .f32)
    = broadcastInDim S3x100000x1 ![0, 1] bcast_S3x100000_S3x100000x1_0_1 (concatenate S3x100000 0
        [⟨S1x100000, broadcastInDim S1x100000 ![1] bcast_S100000_S1x100000_1 (W main_v32)⟩,
         ⟨S1x100000, broadcastInDim S1x100000 ![1] bcast_S100000_S1x100000_1 (W main_v79)⟩,
         ⟨S1x100000, broadcastInDim S1x100000 ![1] bcast_S100000_S1x100000_1
           (mulf (F := Ideal) (s := S100000) (φ := .f32) (W main_v110) (W main_v110))⟩]
        concatenates_S1x100000_S1x100000_S1x100000_S3x100000_d0) := by
  rw [split6, t_dsq, h_v32, h_v79, h_v126]

end Stretches

end L1

end Cert.KernelIdeal.HostValue

end
-- ==== Proof.KH.Layer1.lean ====
/-
  The operands of the first combine region, read at an index.

  The stretches between the first linear region and the first combine region are chained through the buffers they
  hand on: the edge array and the linear region's output are written by no stretch; a relation's rows of the edge
  array, then its factors, then its scattered messages and squared factors follow one from the other. The stacked
  arrays the combine region takes are then, at (relation, node, feature), the first arrangement's scattered
  messages, and at (relation, node) its squared factors.
-/
import proofs.«128058_j54425825575251_2_alg».proof.Proof.KH.Stretch1a
import proofs.«128058_j54425825575251_2_alg».proof.Proof.KH.Stretch1b
import proofs.«128058_j54425825575251_2_alg».proof.Proof.KH.Stretch1c
import proofs.«128058_j54425825575251_2_alg».proof.Proof.KH.Stretch1d

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L1

/-! ### The stacks read at each relation: the arrays stay the lemma's variables -/

section StackAt
variable {α : Type} {C : ℕ}
  (hb : (⟨2, ![100000, C]⟩ : Shape).BroadcastsInDim ⟨3, ![1, 100000, C]⟩ (![1, 2] : Fin 2 → Fin 3))
  (hc : Shape.Concatenates [(⟨3, ![1, 100000, C]⟩ : Shape), ⟨3, ![1, 100000, C]⟩, ⟨3, ![1, 100000, C]⟩] ⟨3, ![3, 100000, C]⟩ 0)
  (a0 a1 a2 : (⟨2, ![100000, C]⟩ : Shape).Idx → α) (i : Fin 100000) (n : Fin C)

theorem stackRows_0 : concatenate ⟨3, ![3, 100000, C]⟩ 0
      [⟨⟨3, ![1, 100000, C]⟩, broadcastInDim ⟨3, ![1, 100000, C]⟩ ![1, 2] hb a0⟩,
       ⟨⟨3, ![1, 100000, C]⟩, broadcastInDim ⟨3, ![1, 100000, C]⟩ ![1, 2] hb a1⟩,
       ⟨⟨3, ![1, 100000, C]⟩, broadcastInDim ⟨3, ![1, 100000, C]⟩ ![1, 2] hb a2⟩] hc (ix3 0 i n) = a0 (ix2 i n) :=
  stackRows_apply hb hc ![a0, a1, a2] 0 i n
theorem stackRows_1 : concatenate ⟨3, ![3, 100000, C]⟩ 0
      [⟨⟨3, ![1, 100000, C]⟩, broadcastInDim ⟨3, ![1, 100000, C]⟩ ![1, 2] hb a0⟩,
       ⟨⟨3, ![1, 100000, C]⟩, broadcastInDim ⟨3, ![1, 100000, C]⟩ ![1, 2] hb a1⟩,
       ⟨⟨3, ![1, 100000, C]⟩, broadcastInDim ⟨3, ![1, 100000, C]⟩ ![1, 2] hb a2⟩] hc (ix3 1 i n) = a1 (ix2 i n) :=
  stackRows_apply hb hc ![a0, a1, a2] 1 i n
theorem stackRows_2 : concatenate ⟨3, ![3, 100000, C]⟩ 0
      [⟨⟨3, ![1, 100000, C]⟩, broadcastInDim ⟨3, ![1, 100000, C]⟩ ![1, 2] hb a0⟩,
       ⟨⟨3, ![1, 100000, C]⟩, broadcastInDim ⟨3, ![1, 100000, C]⟩ ![1, 2] hb a1⟩,
       ⟨⟨3, ![1, 100000, C]⟩, broadcastInDim ⟨3, ![1, 100000, C]⟩ ![1, 2] hb a2⟩] hc (ix3 2 i n) = a2 (ix2 i n) :=
  stackRows_apply hb hc ![a0, a1, a2] 2 i n

end StackAt

section StackNumsAt
variable {α : Type}
  (hb : (⟨1, ![100000]⟩ : Shape).BroadcastsInDim ⟨2, ![1, 100000]⟩ (![1] : Fin 1 → Fin 2))
  (hc : Shape.Concatenates [(⟨2, ![1, 100000]⟩ : Shape), ⟨2, ![1, 100000]⟩, ⟨2, ![1, 100000]⟩] ⟨2, ![3, 100000]⟩ 0)
  (hb2 : (⟨2, ![3, 100000]⟩ : Shape).BroadcastsInDim ⟨3, ![3, 100000, 1]⟩ (![0, 1] : Fin 2 → Fin 3))
  (a0 a1 a2 : (⟨1, ![100000]⟩ : Shape).Idx → α) (i : Fin 100000)

theorem stackNums_0 : broadcastInDim ⟨3, ![3, 100000, 1]⟩ ![0, 1] hb2 (concatenate ⟨2, ![3, 100000]⟩ 0
      [⟨⟨2, ![1, 100000]⟩, broadcastInDim ⟨2, ![1, 100000]⟩ ![1] hb a0⟩,
       ⟨⟨2, ![1, 100000]⟩, broadcastInDim ⟨2, ![1, 100000]⟩ ![1] hb a1⟩,
       ⟨⟨2, ![1, 100000]⟩, broadcastInDim ⟨2, ![1, 100000]⟩ ![1] hb a2⟩] hc) (ix3 0 i 0) = a0 (ix1 i) :=
  stackNums_apply hb hc hb2 ![a0, a1, a2] 0 i
theorem stackNums_1 : broadcastInDim ⟨3, ![3, 100000, 1]⟩ ![0, 1] hb2 (concatenate ⟨2, ![3, 100000]⟩ 0
      [⟨⟨2, ![1, 100000]⟩, broadcastInDim ⟨2, ![1, 100000]⟩ ![1] hb a0⟩,
       ⟨⟨2, ![1, 100000]⟩, broadcastInDim ⟨2, ![1, 100000]⟩ ![1] hb a1⟩,
       ⟨⟨2, ![1, 100000]⟩, broadcastInDim ⟨2, ![1, 100000]⟩ ![1] hb a2⟩] hc) (ix3 1 i 0) = a1 (ix1 i) :=
  stackNums_apply hb hc hb2 ![a0, a1, a2] 1 i
theorem stackNums_2 : broadcastInDim ⟨3, ![3, 100000, 1]⟩ ![0, 1] hb2 (concatenate ⟨2, ![3, 100000]⟩ 0
      [⟨⟨2, ![1, 100000]⟩, broadcastInDim ⟨2, ![1, 100000]⟩ ![1] hb a0⟩,
       ⟨⟨2, ![1, 100000]⟩, broadcastInDim ⟨2, ![1, 100000]⟩ ![1] hb a1⟩,
       ⟨⟨2, ![1, 100000]⟩, broadcastInDim ⟨2, ![1, 100000]⟩ ![1] hb a2⟩] hc) (ix3 2 i 0) = a2 (ix1 i) :=
  stackNums_apply hb hc hb2 ![a0, a1, a2] 2 i

end StackNumsAt

/-! ## The stretches chained -/

section Chain
variable (m : (ℓ : Loc nD τ sig) → Buf (Elt Ideal) ℓ) (outs : Gen.Outs (F := Ideal)) (c : Dev nD)

/-! ### What no stretch writes: the edge array and the linear region's output -/

theorem arg1_V1 : (Gen.V1 m outs c main_arg1 : IVec S3x2x1600000 32) = (eiOf m c) :=
  (Gen.V1_of m outs c main_arg1 (by decide)).trans rfl
theorem arg1_V3 : (Gen.V3 m outs c main_arg1 : IVec S3x2x1600000 32) = (eiOf m c) :=
  (Gen.V3_of m outs c main_arg1 (by decide)).trans <| (Gen.V2_of m outs c main_arg1 (by decide)).trans <| arg1_V1 m outs c
theorem arg1_V5 : (Gen.V5 m outs c main_arg1 : IVec S3x2x1600000 32) = (eiOf m c) :=
  (Gen.V5_of m outs c main_arg1 (by decide)).trans <| (Gen.V4_of m outs c main_arg1 (by decide)).trans <| arg1_V3 m outs c
theorem xl_V1 : Gen.V1 m outs c main_v0 = outs 1 main_v0 c :=
  Function.update_self _ _ _
theorem xl_V3 : Gen.V3 m outs c main_v0 = outs 1 main_v0 c :=
  (Gen.V3_of m outs c main_v0 (by decide)).trans <| (Gen.V2_of m outs c main_v0 (by decide)).trans <| xl_V1 m outs c
theorem xl_V5 : Gen.V5 m outs c main_v0 = outs 1 main_v0 c :=
  (Gen.V5_of m outs c main_v0 (by decide)).trans <| (Gen.V4_of m outs c main_v0 (by decide)).trans <| xl_V3 m outs c
theorem xl_V7 : Gen.V7 m outs c main_v0 = outs 1 main_v0 c :=
  (Gen.V7_of m outs c main_v0 (by decide)).trans <| (Gen.V6_of m outs c main_v0 (by decide)).trans <| xl_V5 m outs c

/-! ### Relation 0 -/

/-- The relation's source words, where its messages are computed: row 0 of its part of the edge array. -/
theorem r0_src : (Gen.V3 m outs c main_v4 : IVec S1600000 32) = (edgeRowV ![0, 0, 0] slices_S3x2x1600000_S1x2x1600000_0_0_0 ![0, 0] slices_S2x1600000_S1x1600000_0_0 (eiOf m c)) :=
  (Gen.V3_of m outs c main_v4 (by decide)).trans <| (a0_src (Gen.V1 m outs c)).trans (by rw [arg1_V1 m outs c])
/-- Its destination words: row 1. -/
theorem r0_dst : (Gen.V3 m outs c main_v6 : IVec S1600000 32) = (edgeRowV ![0, 0, 0] slices_S3x2x1600000_S1x2x1600000_0_0_0 ![1, 0] slices_S2x1600000_S1x1600000_1_0 (eiOf m c)) :=
  (Gen.V3_of m outs c main_v6 (by decide)).trans <| (a0_dst (Gen.V1 m outs c)).trans (by rw [arg1_V1 m outs c])
/-- Its nodes' factors. -/
theorem r0_dinv : (Gen.V3 m outs c main_v16 : FVec Ideal S100000 .f32) = dinvV (edgeRowV ![0, 0, 0] slices_S3x2x1600000_S1x2x1600000_0_0_0 ![1, 0] slices_S2x1600000_S1x1600000_1_0 (eiOf m c)) := by
  have hB : (Gen.V3 m outs c main_v16 : FVec Ideal S100000 .f32)
      = select (Gen.V2 m outs c main_v14) (Gen.V2 m outs c main_v15) (broadcastInDim S100000 ![] bcast_S_S100000 (Gen.V2 m outs c main_cst_3)) :=
    b0_dinv (Gen.V2 m outs c)
  have h1 : (Gen.V2 m outs c main_v14 : IVec S100000 1) = cmpf .ogt (degV (edgeRowV ![0, 0, 0] slices_S3x2x1600000_S1x2x1600000_0_0_0 ![1, 0] slices_S2x1600000_S1x1600000_1_0 (eiOf m c))) (broadcastInDim S100000 ![] bcast_S_S100000 (constant (F := Ideal) S_ .f32 0x00000000#32)) :=
    (a0_cmp (Gen.V1 m outs c)).trans (by rw [arg1_V1 m outs c])
  have h2 : (Gen.V2 m outs c main_v15 : FVec Ideal S100000 .f32) = Host.rsqrt (degV (edgeRowV ![0, 0, 0] slices_S3x2x1600000_S1x2x1600000_0_0_0 ![1, 0] slices_S2x1600000_S1x1600000_1_0 (eiOf m c))) :=
    (a0_rs (Gen.V1 m outs c)).trans (by rw [arg1_V1 m outs c])
  have h3 : (Gen.V2 m outs c main_cst_3 : FVec Ideal S_ .f32) = constant (F := Ideal) S_ .f32 0x00000000#32 :=
    a0_cst (Gen.V1 m outs c)
  rw [hB, h1, h2, h3]
  rfl

/-- The relation's scattered messages at a node and a feature. -/
theorem r0_scat (i : Fin 100000) (n : Fin 128) :
    (Gen.V4 m outs c main_v47 : FVec Ideal S100000x128 .f32) (ix2 i n) = Net.scat (eiOf m c) (fun r i k => (outs 1 main_v0 c : S3x100000x128.Idx → EReal) (ix3 r i k)) 0 i n := by
  rw [show (Gen.V4 m outs c main_v47 : FVec Ideal S100000x128 .f32) = _ from c0_scat (Gen.V3 m outs c),
    r0_src m outs c, r0_dst m outs c, r0_dinv m outs c, xl_V3 m outs c]
  exact scat_of gather_S100000x128_S1600000x1_S1600000x128_1_0_n_n_0_1_1128_wf scatter_S100000x128_S1600000x1_S1600000x128_1_0_0_1_wf gather_S100000x128_S1600000x1_S1600000x128_1_0_n_n_0_1_1128 scatter_S100000x128_S1600000x1_S1600000x128_1_0_0_1 rfl rfl _ _ (eiOf m c) (outs 1 main_v0 c) 0 _ _ _ (fun e => edgeRowV_apply 0 0 _ _ _ _ rfl rfl _ e) (fun e => edgeRowV_apply 0 1 _ _ _ _ rfl rfl _ e) (fun i k => relRowsV_apply 0 _ _ _ rfl _ i k) i n
/-- The squares of its nodes' factors. -/
theorem r0_dsq (i : Fin 100000) :
    (Gen.V4 m outs c main_v32 : FVec Ideal S100000 .f32) (ix1 i) = Net.dsq (eiOf m c) 0 i := by
  rw [show (Gen.V4 m outs c main_v32 : FVec Ideal S100000 .f32) = _ from c0_dsq (Gen.V3 m outs c), r0_dinv m outs c]
  exact dsq_of (eiOf m c) 0 _ (fun e => edgeRowV_apply 0 1 _ _ _ _ rfl rfl _ e) i

/-! ### Relation 1 -/

/-- The relation's source words, where its messages are computed: row 0 of its part of the edge array. -/
theorem r1_src : (Gen.V5 m outs c main_v51 : IVec S1600000 32) = (edgeRowV ![1, 0, 0] slices_S3x2x1600000_S1x2x1600000_1_0_0 ![0, 0] slices_S2x1600000_S1x1600000_0_0 (eiOf m c)) :=
  (Gen.V5_of m outs c main_v51 (by decide)).trans <| (a1_src (Gen.V3 m outs c)).trans (by rw [arg1_V3 m outs c])
/-- Its destination words: row 1. -/
theorem r1_dst : (Gen.V5 m outs c main_v53 : IVec S1600000 32) = (edgeRowV ![1, 0, 0] slices_S3x2x1600000_S1x2x1600000_1_0_0 ![1, 0] slices_S2x1600000_S1x1600000_1_0 (eiOf m c)) :=
  (Gen.V5_of m outs c main_v53 (by decide)).trans <| (a1_dst (Gen.V3 m outs c)).trans (by rw [arg1_V3 m outs c])
/-- Its nodes' factors. -/
theorem r1_dinv : (Gen.V5 m outs c main_v63 : FVec Ideal S100000 .f32) = dinvV (edgeRowV ![1, 0, 0] slices_S3x2x1600000_S1x2x1600000_1_0_0 ![1, 0] slices_S2x1600000_S1x1600000_1_0 (eiOf m c)) := by
  have hB : (Gen.V5 m outs c main_v63 : FVec Ideal S100000 .f32)
      = select (Gen.V4 m outs c main_v61) (Gen.V4 m outs c main_v62) (broadcastInDim S100000 ![] bcast_S_S100000 (Gen.V4 m outs c main_cst_14)) :=
    b1_dinv (Gen.V4 m outs c)
  have h1 : (Gen.V4 m outs c main_v61 : IVec S100000 1) = cmpf .ogt (degV (edgeRowV ![1, 0, 0] slices_S3x2x1600000_S1x2x1600000_1_0_0 ![1, 0] slices_S2x1600000_S1x1600000_1_0 (eiOf m c))) (broadcastInDim S100000 ![] bcast_S_S100000 (constant (F := Ideal) S_ .f32 0x00000000#32)) :=
    (a1_cmp (Gen.V3 m outs c)).trans (by rw [arg1_V3 m outs c])
  have h2 : (Gen.V4 m outs c main_v62 : FVec Ideal S100000 .f32) = Host.rsqrt (degV (edgeRowV ![1, 0, 0] slices_S3x2x1600000_S1x2x1600000_1_0_0 ![1, 0] slices_S2x1600000_S1x1600000_1_0 (eiOf m c))) :=
    (a1_rs (Gen.V3 m outs c)).trans (by rw [arg1_V3 m outs c])
  have h3 : (Gen.V4 m outs c main_cst_14 : FVec Ideal S_ .f32) = constant (F := Ideal) S_ .f32 0x00000000#32 :=
    a1_cst (Gen.V3 m outs c)
  rw [hB, h1, h2, h3]
  rfl

/-- The relation's scattered messages at a node and a feature. -/
theorem r1_scat (i : Fin 100000) (n : Fin 128) :
    (Gen.V6 m outs c main_v94 : FVec Ideal S100000x128 .f32) (ix2 i n) = Net.scat (eiOf m c) (fun r i k => (outs 1 main_v0 c : S3x100000x128.Idx → EReal) (ix3 r i k)) 1 i n := by
  rw [show (Gen.V6 m outs c main_v94 : FVec Ideal S100000x128 .f32) = _ from c1_scat (Gen.V5 m outs c),
    r1_src m outs c, r1_dst m outs c, r1_dinv m outs c, xl_V5 m outs c]
  exact scat_of gather_S100000x128_S1600000x1_S1600000x128_1_0_n_n_0_1_1128_wf scatter_S100000x128_S1600000x1_S1600000x128_1_0_0_1_wf gather_S100000x128_S1600000x1_S1600000x128_1_0_n_n_0_1_1128 scatter_S100000x128_S1600000x1_S1600000x128_1_0_0_1 rfl rfl _ _ (eiOf m c) (outs 1 main_v0 c) 1 _ _ _ (fun e => edgeRowV_apply 1 0 _ _ _ _ rfl rfl _ e) (fun e => edgeRowV_apply 1 1 _ _ _ _ rfl rfl _ e) (fun i k => relRowsV_apply 1 _ _ _ rfl _ i k) i n
/-- The squares of its nodes' factors. -/
theorem r1_dsq (i : Fin 100000) :
    (Gen.V6 m outs c main_v79 : FVec Ideal S100000 .f32) (ix1 i) = Net.dsq (eiOf m c) 1 i := by
  rw [show (Gen.V6 m outs c main_v79 : FVec Ideal S100000 .f32) = _ from c1_dsq (Gen.V5 m outs c), r1_dinv m outs c]
  exact dsq_of (eiOf m c) 1 _ (fun e => edgeRowV_apply 1 1 _ _ _ _ rfl rfl _ e) i

/-! ### Relation 2 -/

/-- The relation's source words, where its messages are computed: row 0 of its part of the edge array. -/
theorem r2_src : (Gen.V7 m outs c main_v98 : IVec S1600000 32) = (edgeRowV ![2, 0, 0] slices_S3x2x1600000_S1x2x1600000_2_0_0 ![0, 0] slices_S2x1600000_S1x1600000_0_0 (eiOf m c)) :=
  (Gen.V7_of m outs c main_v98 (by decide)).trans <| (a2_src (Gen.V5 m outs c)).trans (by rw [arg1_V5 m outs c])
/-- Its destination words: row 1. -/
theorem r2_dst : (Gen.V7 m outs c main_v100 : IVec S1600000 32) = (edgeRowV ![2, 0, 0] slices_S3x2x1600000_S1x2x1600000_2_0_0 ![1, 0] slices_S2x1600000_S1x1600000_1_0 (eiOf m c)) :=
  (Gen.V7_of m outs c main_v100 (by decide)).trans <| (a2_dst (Gen.V5 m outs c)).trans (by rw [arg1_V5 m outs c])
/-- Its nodes' factors. -/
theorem r2_dinv : (Gen.V7 m outs c main_v110 : FVec Ideal S100000 .f32) = dinvV (edgeRowV ![2, 0, 0] slices_S3x2x1600000_S1x2x1600000_2_0_0 ![1, 0] slices_S2x1600000_S1x1600000_1_0 (eiOf m c)) := by
  have hB : (Gen.V7 m outs c main_v110 : FVec Ideal S100000 .f32)
      = select (Gen.V6 m outs c main_v108) (Gen.V6 m outs c main_v109) (broadcastInDim S100000 ![] bcast_S_S100000 (Gen.V6 m outs c main_cst_26)) :=
    b2_dinv (Gen.V6 m outs c)
  have h1 : (Gen.V6 m outs c main_v108 : IVec S100000 1) = cmpf .ogt (degV (edgeRowV ![2, 0, 0] slices_S3x2x1600000_S1x2x1600000_2_0_0 ![1, 0] slices_S2x1600000_S1x1600000_1_0 (eiOf m c))) (broadcastInDim S100000 ![] bcast_S_S100000 (constant (F := Ideal) S_ .f32 0x00000000#32)) :=
    (a2_cmp (Gen.V5 m outs c)).trans (by rw [arg1_V5 m outs c])
  have h2 : (Gen.V6 m outs c main_v109 : FVec Ideal S100000 .f32) = Host.rsqrt (degV (edgeRowV ![2, 0, 0] slices_S3x2x1600000_S1x2x1600000_2_0_0 ![1, 0] slices_S2x1600000_S1x1600000_1_0 (eiOf m c))) :=
    (a2_rs (Gen.V5 m outs c)).trans (by rw [arg1_V5 m outs c])
  have h3 : (Gen.V6 m outs c main_cst_26 : FVec Ideal S_ .f32) = constant (F := Ideal) S_ .f32 0x00000000#32 :=
    a2_cst (Gen.V5 m outs c)
  rw [hB, h1, h2, h3]
  rfl

end Chain

end L1

/-! ## The region's operands -/

section Operands
variable (m : (ℓ : Loc nD τ sig) → Buf (Elt Ideal) ℓ) (outs : Gen.Outs (F := Ideal)) (c : Dev nD)
open L1

/-- The stacked scattered messages: at (r, i, n) relation r's, of the linear region's output. -/
theorem v145_eq (r : Fin 3) (i : Fin 100000) (n : Fin 128) :
    (Gen.V8 m outs c main_v145 : S3x100000x128.Idx → EReal) (ix3 r i n) = Net.scat (eiOf m c) (fun r i k => (outs 1 main_v0 c : S3x100000x128.Idx → EReal) (ix3 r i k)) r i n := by
  rw [show (Gen.V8 m outs c main_v145 : FVec Ideal S3x100000x128 .f32) = _ from s_scat (Gen.V7 m outs c)]
  rcases (by revert r; decide : r = 0 ∨ r = 1 ∨ r = 2) with rfl | rfl | rfl
  · refine (stackRows_0 _ _ _ _ _ i n).trans ?_
    rw [show Gen.V7 m outs c main_v47 = Gen.V4 m outs c main_v47 from (Gen.V7_of m outs c main_v47 (by decide)).trans <| (Gen.V6_of m outs c main_v47 (by decide)).trans <| (Gen.V5_of m outs c main_v47 (by decide))]
    exact r0_scat m outs c i n
  · refine (stackRows_1 _ _ _ _ _ i n).trans ?_
    rw [show Gen.V7 m outs c main_v94 = Gen.V6 m outs c main_v94 from (Gen.V7_of m outs c main_v94 (by decide))]
    exact r1_scat m outs c i n
  · refine (stackRows_2 _ _ _ _ _ i n).trans ?_
    rw [r2_src m outs c, r2_dst m outs c, r2_dinv m outs c, xl_V7 m outs c]
    exact scat_of gather_S100000x128_S1600000x1_S1600000x128_1_0_n_n_0_1_1128_wf scatter_S100000x128_S1600000x1_S1600000x128_1_0_0_1_wf gather_S100000x128_S1600000x1_S1600000x128_1_0_n_n_0_1_1128 scatter_S100000x128_S1600000x1_S1600000x128_1_0_0_1 rfl rfl _ _ (eiOf m c) (outs 1 main_v0 c) 2 _ _ _ (fun e => edgeRowV_apply 2 0 _ _ _ _ rfl rfl _ e) (fun e => edgeRowV_apply 2 1 _ _ _ _ rfl rfl _ e) (fun i k => relRowsV_apply 2 _ _ _ rfl _ i k) i n

/-- The stacked squared factors: at (r, i, 0) relation r's. -/
theorem v150_eq (r : Fin 3) (i : Fin 100000) :
    (Gen.V8 m outs c main_v150 : S3x100000x1.Idx → EReal) (ix3 r i 0) = Net.dsq (eiOf m c) r i := by
  rw [show (Gen.V8 m outs c main_v150 : FVec Ideal S3x100000x1 .f32) = _ from s_dsq (Gen.V7 m outs c)]
  rcases (by revert r; decide : r = 0 ∨ r = 1 ∨ r = 2) with rfl | rfl | rfl
  · refine (stackNums_0 _ _ _ _ _ _ i).trans ?_
    rw [show Gen.V7 m outs c main_v32 = Gen.V4 m outs c main_v32 from (Gen.V7_of m outs c main_v32 (by decide)).trans <| (Gen.V6_of m outs c main_v32 (by decide)).trans <| (Gen.V5_of m outs c main_v32 (by decide))]
    exact r0_dsq m outs c i
  · refine (stackNums_1 _ _ _ _ _ _ i).trans ?_
    rw [show Gen.V7 m outs c main_v79 = Gen.V6 m outs c main_v79 from (Gen.V7_of m outs c main_v79 (by decide))]
    exact r1_dsq m outs c i
  · refine (stackNums_2 _ _ _ _ _ _ i).trans ?_
    rw [r2_dinv m outs c]
    exact dsq_of (eiOf m c) 2 _ (fun e => edgeRowV_apply 2 1 _ _ _ _ rfl rfl _ e) i

/-- The linear region's output reaches the combine region as the linear region left it. -/
theorem v8_v0 : Gen.V8 m outs c main_v0 = outs 1 main_v0 c :=
  (Gen.V8_of m outs c main_v0 (by decide)).trans (xl_V7 m outs c)

/-- The bias array reaches the combine region as launched. -/
theorem v8_arg3 : Gen.V8 m outs c main_arg3 = m ((c.tc : Thread nD τ).loc main_arg3) :=
  (Gen.V8_of m outs c main_arg3 (by decide)).trans <| (Gen.V7_of m outs c main_arg3 (by decide)).trans <| (Gen.V6_of m outs c main_arg3 (by decide)).trans <| (Gen.V5_of m outs c main_arg3 (by decide)).trans <| (Gen.V4_of m outs c main_arg3 (by decide)).trans <| (Gen.V3_of m outs c main_arg3 (by decide)).trans <| (Gen.V2_of m outs c main_arg3 (by decide)).trans <| (Gen.V1_of m outs c main_arg3 (by decide)).trans <| rfl

end Operands

end Cert.KernelIdeal.HostValue

end
-- ==== Proof.KH.Stretch2a.lean ====
/-
  The host stretches between the second linear region and the second combine region, each read as a function of the
  buffers it starts from, whatever they hold; the operations are those of the first layer at feature width 64.
  This module: relation 0's two rows of the edge array, its degrees compared with zero and their rsqrt; the select of its factors.
-/
import proofs.«128058_j54425825575251_2_alg».proof.Proof.Gen.KernelIdeal.Regions
import proofs.«128058_j54425825575251_2_alg».proof.Proof.KH.Ops
import proofs.«128058_j54425825575251_2_alg».proof.Proof.KH.Stack

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L2

section Stretches
variable (W : Valuation τ sig (Elt Ideal))

/-! ### The first stretch: relation 0's rows of the edge array, its degrees compared with zero, their rsqrt -/

theorem a0_src : (after Gen.hostOps3 W main_v156 : IVec S1600000 32) = (edgeRowV ![0, 0, 0] slices_S3x2x1600000_S1x2x1600000_0_0_0 ![0, 0] slices_S2x1600000_S1x1600000_0_0 (W main_arg1)) := by
  after_results_simp3 <;> rfl
theorem a0_dst : (after Gen.hostOps3 W main_v158 : IVec S1600000 32) = (edgeRowV ![0, 0, 0] slices_S3x2x1600000_S1x2x1600000_0_0_0 ![1, 0] slices_S2x1600000_S1x1600000_1_0 (W main_arg1)) := by
  after_results_simp3 <;> rfl
theorem a0_cmp : (after Gen.hostOps3 W main_v166 : IVec S100000 1)
    = cmpf .ogt (degV (edgeRowV ![0, 0, 0] slices_S3x2x1600000_S1x2x1600000_0_0_0 ![1, 0] slices_S2x1600000_S1x1600000_1_0 (W main_arg1))) (broadcastInDim S100000 ![] bcast_S_S100000 (constant (F := Ideal) S_ .f32 0x00000000#32)) := by
  after_results_simp3 <;> rfl
theorem a0_rs : (after Gen.hostOps3 W main_v167 : FVec Ideal S100000 .f32)
    = Host.rsqrt (degV (edgeRowV ![0, 0, 0] slices_S3x2x1600000_S1x2x1600000_0_0_0 ![1, 0] slices_S2x1600000_S1x1600000_1_0 (W main_arg1))) := by
  after_results_simp3 <;> rfl
theorem a0_cst : (after Gen.hostOps3 W main_cst_38 : FVec Ideal S_ .f32) = constant (F := Ideal) S_ .f32 0x00000000#32 := by
  after_results_simp3 <;> rfl

/-! ### The select of relation 0's factors -/

theorem b0_dinv : (after Gen.hostOps3_1 W main_v168 : FVec Ideal S100000 .f32)
    = select (W main_v166) (W main_v167) (broadcastInDim S100000 ![] bcast_S_S100000 (W main_cst_38)) := by
  after_results_simp3 <;> rfl

end Stretches

end L2

end Cert.KernelIdeal.HostValue

end
-- ==== Proof.KH.Stretch2b.lean ====
/-
  The host stretches between the second linear region and the second combine region, each read as a function of the
  buffers it starts from, whatever they hold; the operations are those of the first layer at feature width 64.
  This module: relation 0's messages scattered and its factors squared; relation 1's rows, compare and rsqrt; the select of relation 1's factors.
-/
import proofs.«128058_j54425825575251_2_alg».proof.Proof.Gen.KernelIdeal.Regions
import proofs.«128058_j54425825575251_2_alg».proof.Proof.KH.Ops
import proofs.«128058_j54425825575251_2_alg».proof.Proof.KH.Stack

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L2

section Stretches
variable (W : Valuation τ sig (Elt Ideal))

/-! ### Relation 0's messages scattered and its factors squared; relation 1's rows, compare and rsqrt -/

theorem c0_scat : (after Gen.hostOps3_2 W main_v199 : FVec Ideal S100000x64 .f32)
    = scatV gather_S100000x64_S1600000x1_S1600000x64_1_0_n_n_0_1_164 scatter_S100000x64_S1600000x1_S1600000x64_1_0_0_1 bcast_S1600000x1_S1600000x64_0_1 bcast_S_S100000x64 (W main_v156) (W main_v158) (W main_v168) (relRowsV ![0, 0, 0] slices_S3x100000x64_S1x100000x64_0_0_0 shapeCasts_S1x100000x64_S100000x64 (W main_v152)) := by
  after_results_simp3 <;> rfl
theorem c0_dsq : (after Gen.hostOps3_2 W main_v184 : FVec Ideal S100000 .f32) = (mulf (F := Ideal) (s := S100000) (φ := .f32) (W main_v168) (W main_v168) : FVec Ideal S100000 .f32) := by
  after_results_simp3 <;> rfl

theorem a1_src : (after Gen.hostOps3_2 W main_v203 : IVec S1600000 32) = (edgeRowV ![1, 0, 0] slices_S3x2x1600000_S1x2x1600000_1_0_0 ![0, 0] slices_S2x1600000_S1x1600000_0_0 (W main_arg1)) := by
  after_results_simp3 <;> rfl
theorem a1_dst : (after Gen.hostOps3_2 W main_v205 : IVec S1600000 32) = (edgeRowV ![1, 0, 0] slices_S3x2x1600000_S1x2x1600000_1_0_0 ![1, 0] slices_S2x1600000_S1x1600000_1_0 (W main_arg1)) := by
  after_results_simp3 <;> rfl
theorem a1_cmp : (after Gen.hostOps3_2 W main_v213 : IVec S100000 1)
    = cmpf .ogt (degV (edgeRowV ![1, 0, 0] slices_S3x2x1600000_S1x2x1600000_1_0_0 ![1, 0] slices_S2x1600000_S1x1600000_1_0 (W main_arg1))) (broadcastInDim S100000 ![] bcast_S_S100000 (constant (F := Ideal) S_ .f32 0x00000000#32)) := by
  after_results_simp3 <;> rfl
theorem a1_rs : (after Gen.hostOps3_2 W main_v214 : FVec Ideal S100000 .f32)
    = Host.rsqrt (degV (edgeRowV ![1, 0, 0] slices_S3x2x1600000_S1x2x1600000_1_0_0 ![1, 0] slices_S2x1600000_S1x1600000_1_0 (W main_arg1))) := by
  after_results_simp3 <;> rfl
theorem a1_cst : (after Gen.hostOps3_2 W main_cst_50 : FVec Ideal S_ .f32) = constant (F := Ideal) S_ .f32 0x00000000#32 := by
  after_results_simp3 <;> rfl

/-! ### The select of relation 1's factors -/

theorem b1_dinv : (after Gen.hostOps3_3 W main_v215 : FVec Ideal S100000 .f32)
    = select (W main_v213) (W main_v214) (broadcastInDim S100000 ![] bcast_S_S100000 (W main_cst_50)) := by
  after_results_simp3 <;> rfl

end Stretches

end L2

end Cert.KernelIdeal.HostValue

end
-- ==== Proof.KH.Stretch2c.lean ====
/-
  The host stretches between the second linear region and the second combine region, each read as a function of the
  buffers it starts from, whatever they hold; the operations are those of the first layer at feature width 64.
  This module: relation 1's messages scattered and its factors squared; relation 2's rows, compare and rsqrt; the select of relation 2's factors.
-/
import proofs.«128058_j54425825575251_2_alg».proof.Proof.Gen.KernelIdeal.Regions
import proofs.«128058_j54425825575251_2_alg».proof.Proof.KH.Ops
import proofs.«128058_j54425825575251_2_alg».proof.Proof.KH.Stack

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L2

section Stretches
variable (W : Valuation τ sig (Elt Ideal))

/-! ### Relation 1's messages and squares; relation 2's rows, compare and rsqrt -/

theorem c1_scat : (after Gen.hostOps3_4 W main_v246 : FVec Ideal S100000x64 .f32)
    = scatV gather_S100000x64_S1600000x1_S1600000x64_1_0_n_n_0_1_164 scatter_S100000x64_S1600000x1_S1600000x64_1_0_0_1 bcast_S1600000x1_S1600000x64_0_1 bcast_S_S100000x64 (W main_v203) (W main_v205) (W main_v215) (relRowsV ![1, 0, 0] slices_S3x100000x64_S1x100000x64_1_0_0 shapeCasts_S1x100000x64_S100000x64 (W main_v152)) := by
  after_results_simp3 <;> rfl
theorem c1_dsq : (after Gen.hostOps3_4 W main_v231 : FVec Ideal S100000 .f32) = (mulf (F := Ideal) (s := S100000) (φ := .f32) (W main_v215) (W main_v215) : FVec Ideal S100000 .f32) := by
  after_results_simp3 <;> rfl

theorem a2_src : (after Gen.hostOps3_4 W main_v250 : IVec S1600000 32) = (edgeRowV ![2, 0, 0] slices_S3x2x1600000_S1x2x1600000_2_0_0 ![0, 0] slices_S2x1600000_S1x1600000_0_0 (W main_arg1)) := by
  after_results_simp3 <;> rfl
theorem a2_dst : (after Gen.hostOps3_4 W main_v252 : IVec S1600000 32) = (edgeRowV ![2, 0, 0] slices_S3x2x1600000_S1x2x1600000_2_0_0 ![1, 0] slices_S2x1600000_S1x1600000_1_0 (W main_arg1)) := by
  after_results_simp3 <;> rfl
theorem a2_cmp : (after Gen.hostOps3_4 W main_v260 : IVec S100000 1)
    = cmpf .ogt (degV (edgeRowV ![2, 0, 0] slices_S3x2x1600000_S1x2x1600000_2_0_0 ![1, 0] slices_S2x1600000_S1x1600000_1_0 (W main_arg1))) (broadcastInDim S100000 ![] bcast_S_S100000 (constant (F := Ideal) S_ .f32 0x00000000#32)) := by
  after_results_simp3 <;> rfl
theorem a2_rs : (after Gen.hostOps3_4 W main_v261 : FVec Ideal S100000 .f32)
    = Host.rsqrt (degV (edgeRowV ![2, 0, 0] slices_S3x2x1600000_S1x2x1600000_2_0_0 ![1, 0] slices_S2x1600000_S1x1600000_1_0 (W main_arg1))) := by
  after_results_simp3 <;> rfl
theorem a2_cst : (after Gen.hostOps3_4 W main_cst_62 : FVec Ideal S_ .f32) = constant (F := Ideal) S_ .f32 0x00000000#32 := by
  after_results_simp3 <;> rfl

/-! ### The select of relation 2's factors -/

theorem b2_dinv : (after Gen.hostOps3_5 W main_v262 : FVec Ideal S100000 .f32)
    = select (W main_v260) (W main_v261) (broadcastInDim S100000 ![] bcast_S_S100000 (W main_cst_62)) := by
  after_results_simp3 <;> rfl

end Stretches

end L2

end Cert.KernelIdeal.HostValue

end
-- ==== Proof.KH.Stretch2d.lean ====
/-
  The host stretches between the second linear region and the second combine region, each read as a function of the
  buffers it starts from, whatever they hold; the operations are those of the first layer at feature width 64.
  This module: relation 2's messages and squares inside the two stacks of the three relations' results.
-/
import proofs.«128058_j54425825575251_2_alg».proof.Proof.Gen.KernelIdeal.Regions
import proofs.«128058_j54425825575251_2_alg».proof.Proof.KH.Ops
import proofs.«128058_j54425825575251_2_alg».proof.Proof.KH.Stack

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L2

/-- A line of host operations run in two parts. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The contents of one buffer after the first 38 operations of the last stretch, by one pass of rewriting. -/
macro "head_results2" : tactic =>
  `(tactic| (simp (disch := decide) only [Gen.hostOps3_6, List.take_succ_cons, List.take_zero, after_cons, after_nil,
      nullary_result', unary_result', binary_result', ternary_result', quaternary_result', reshape_result',
      nullary_result_ne', unary_result_ne', binary_result_ne', ternary_result_ne', quaternary_result_ne', reshape_result_ne',
      nary_result_ne']))

/-! ### The second part: the two stacks, from whatever buffers it starts from -/

section Tail
variable (F : Valuation τ sig (Elt Ideal))

theorem t_scat : (after (List.drop 38 Gen.hostOps3_6) F main_v297 : FVec Ideal S3x100000x64 .f32)
    = concatenate S3x100000x64 0
        [⟨S1x100000x64, broadcastInDim S1x100000x64 ![1, 2] bcast_S100000x64_S1x100000x64_1_2 (F main_v199)⟩,
         ⟨S1x100000x64, broadcastInDim S1x100000x64 ![1, 2] bcast_S100000x64_S1x100000x64_1_2 (F main_v246)⟩,
         ⟨S1x100000x64, broadcastInDim S1x100000x64 ![1, 2] bcast_S100000x64_S1x100000x64_1_2 (F main_v293)⟩]
        concatenates_S1x100000x64_S1x100000x64_S1x100000x64_S3x100000x64_d0 := by
  simp only [Gen.hostOps3_6, List.drop_succ_cons, List.drop_zero]
  after_results3
  rfl

theorem t_dsq : (after (List.drop 38 Gen.hostOps3_6) F main_v302 : FVec Ideal S3x100000x1 .f32)
    = broadcastInDim S3x100000x1 ![0, 1] bcast_S3x100000_S3x100000x1_0_1 (concatenate S3x100000 0
        [⟨S1x100000, broadcastInDim S1x100000 ![1] bcast_S100000_S1x100000_1 (F main_v184)⟩,
         ⟨S1x100000, broadcastInDim S1x100000 ![1] bcast_S100000_S1x100000_1 (F main_v231)⟩,
         ⟨S1x100000, broadcastInDim S1x100000 ![1] bcast_S100000_S1x100000_1 (F main_v278)⟩]
        concatenates_S1x100000_S1x100000_S1x100000_S3x100000_d0) := by
  simp only [Gen.hostOps3_6, List.drop_succ_cons, List.drop_zero]
  after_results3
  rfl

end Tail

/-! ### The first part: relation 2's messages and squares; the earlier relations' results untouched -/

section Stretches
variable (W : Valuation τ sig (Elt Ideal))

theorem h_v199 : after (List.take 38 Gen.hostOps3_6) W main_v199 = W main_v199 := by
  head_results2
theorem h_v246 : after (List.take 38 Gen.hostOps3_6) W main_v246 = W main_v246 := by
  head_results2
theorem h_v184 : after (List.take 38 Gen.hostOps3_6) W main_v184 = W main_v184 := by
  head_results2
theorem h_v231 : after (List.take 38 Gen.hostOps3_6) W main_v231 = W main_v231 := by
  head_results2
theorem h_v293 : (after (List.take 38 Gen.hostOps3_6) W main_v293 : FVec Ideal S100000x64 .f32)
    = scatV gather_S100000x64_S1600000x1_S1600000x64_1_0_n_n_0_1_164 scatter_S100000x64_S1600000x1_S1600000x64_1_0_0_1 bcast_S1600000x1_S1600000x64_0_1 bcast_S_S100000x64 (W main_v250) (W main_v252) (W main_v262) (relRowsV ![2, 0, 0] slices_S3x100000x64_S1x100000x64_2_0_0 shapeCasts_S1x100000x64_S100000x64 (W main_v152)) := by
  head_results2 <;> rfl
theorem h_v278 : (after (List.take 38 Gen.hostOps3_6) W main_v278 : FVec Ideal S100000 .f32)
    = (mulf (F := Ideal) (s := S100000) (φ := .f32) (W main_v262) (W main_v262) : FVec Ideal S100000 .f32) := by
  head_results2 <;> rfl

/-- The last stretch in two parts. -/
theorem split6 : after Gen.hostOps3_6 W = after (List.drop 38 Gen.hostOps3_6) (after (List.take 38 Gen.hostOps3_6) W) := by
  rw [← after_append, List.take_append_drop]

/-! ### The two stacks -/

theorem s_scat : (after Gen.hostOps3_6 W main_v297 : FVec Ideal S3x100000x64 .f32)
    = concatenate S3x100000x64 0
        [⟨S1x100000x64, broadcastInDim S1x100000x64 ![1, 2] bcast_S100000x64_S1x100000x64_1_2 (W main_v199)⟩,
         ⟨S1x100000x64, broadcastInDim S1x100000x64 ![1, 2] bcast_S100000x64_S1x100000x64_1_2 (W main_v246)⟩,
         ⟨S1x100000x64, broadcastInDim S1x100000x64 ![1, 2] bcast_S100000x64_S1x100000x64_1_2
           (scatV gather_S100000x64_S1600000x1_S1600000x64_1_0_n_n_0_1_164 scatter_S100000x64_S1600000x1_S1600000x64_1_0_0_1 bcast_S1600000x1_S1600000x64_0_1 bcast_S_S100000x64 (W main_v250) (W main_v252) (W main_v262) (relRowsV ![2, 0, 0] slices_S3x100000x64_S1x100000x64_2_0_0 shapeCasts_S1x100000x64_S100000x64 (W main_v152)))⟩]
        concatenates_S1x100000x64_S1x100000x64_S1x100000x64_S3x100000x64_d0 := by
  rw [split6, t_scat, h_v199, h_v246, h_v293]
theorem s_dsq : (after Gen.hostOps3_6 W main_v302 : FVec Ideal S3x100000x1 .f32)
    = broadcastInDim S3x100000x1 ![0, 1] bcast_S3x100000_S3x100000x1_0_1 (concatenate S3x100000 0
        [⟨S1x100000, broadcastInDim S1x100000 ![1] bcast_S100000_S1x100000_1 (W main_v184)⟩,
         ⟨S1x100000, broadcastInDim S1x100000 ![1] bcast_S100000_S1x100000_1 (W main_v231)⟩,
         ⟨S1x100000, broadcastInDim S1x100000 ![1] bcast_S100000_S1x100000_1
           (mulf (F := Ideal) (s := S100000) (φ := .f32) (W main_v262) (W main_v262))⟩]
        concatenates_S1x100000_S1x100000_S1x100000_S3x100000_d0) := by
  rw [split6, t_dsq, h_v184, h_v231, h_v278]

end Stretches

end L2

end Cert.KernelIdeal.HostValue

end
-- ==== Proof.KH.Layer2.lean ====
/-
  The operands of the second combine region, read at an index.

  The stretches between the second linear region and the second combine region are chained through the buffers they
  hand on: the edge array and the linear region's output are written by no stretch; a relation's rows of the edge
  array, then its factors, then its scattered messages and squared factors follow one from the other. The stacked
  arrays the combine region takes are then, at (relation, node, feature), the first arrangement's scattered
  messages, and at (relation, node) its squared factors.
-/
import proofs.«128058_j54425825575251_2_alg».proof.Proof.KH.Stretch2a
import proofs.«128058_j54425825575251_2_alg».proof.Proof.KH.Stretch2b
import proofs.«128058_j54425825575251_2_alg».proof.Proof.KH.Stretch2c
import proofs.«128058_j54425825575251_2_alg».proof.Proof.KH.Stretch2d

set_option maxRecDepth 16384

noncomputable section

namespace Cert.KernelIdeal.HostValue

open Cert.KernelIdeal Cert.KernelIdeal.Facts₀
open Idealize.ShloMosaic Idealize.ShloMosaic.TcCoe Idealize.ShloMosaic.ValueIdx Idealize.ShloMosaic.StableHlo
open Idealize.SL.Sem
open Cert.Net

namespace L2

/-! ### The stacks read at each relation: the arrays stay the lemma's variables -/

section StackAt
variable {α : Type} {C : ℕ}
  (hb : (⟨2, ![100000, C]⟩ : Shape).BroadcastsInDim ⟨3, ![1, 100000, C]⟩ (![1, 2] : Fin 2 → Fin 3))
  (hc : Shape.Concatenates [(⟨3, ![1, 100000, C]⟩ : Shape), ⟨3, ![1, 100000, C]⟩, ⟨3, ![1, 100000, C]⟩] ⟨3, ![3, 100000, C]⟩ 0)
  (a0 a1 a2 : (⟨2, ![100000, C]⟩ : Shape).Idx → α) (i : Fin 100000) (n : Fin C)

theorem stackRows_0 : concatenate ⟨3, ![3, 100000, C]⟩ 0
      [⟨⟨3, ![1, 100000, C]⟩, broadcastInDim ⟨3, ![1, 100000, C]⟩ ![1, 2] hb a0⟩,
       ⟨⟨3, ![1, 100000, C]⟩, broadcastInDim ⟨3, ![1, 100000, C]⟩ ![1, 2] hb a1⟩,
       ⟨⟨3, ![1, 100000, C]⟩, broadcastInDim ⟨3, ![1, 100000, C]⟩ ![1, 2] hb a2⟩] hc (ix3 0 i n) = a0 (ix2 i n) :=
  stackRows_apply hb hc ![a0, a1, a2] 0 i n
theorem stackRows_1 : concatenate ⟨3, ![3, 100000, C]⟩ 0
      [⟨⟨3, ![1, 100000, C]⟩, broadcastInDim ⟨3, ![1, 100000, C]⟩ ![1, 2] hb a0⟩,
       ⟨⟨3, ![1, 100000, C]⟩, broadcastInDim ⟨3, ![1, 100000, C]⟩ ![1, 2] hb a1⟩,
       ⟨⟨3, ![1, 100000, C]⟩, broadcastInDim ⟨3, ![1, 100000, C]⟩ ![1, 2] hb a2⟩] hc (ix3 1 i n) = a1 (ix2 i n) :=
  stackRows_apply hb hc ![a0, a1, a2] 1 i n
theorem stackRows_2 : concatenate ⟨3, ![3, 100000, C]⟩ 0
      [⟨⟨3, ![1, 100000, C]⟩, broadcastInDim ⟨3, ![1, 100000, C]⟩ ![1, 2] hb a0⟩,
       ⟨⟨3, ![1, 100000, C]⟩, broadcastInDim ⟨3, ![1, 100000, C]⟩ ![1, 2] hb a1⟩,
       ⟨⟨3, ![1, 100000, C]⟩, broadcastInDim ⟨3, ![1, 100000, C]⟩ ![1, 2] hb a2⟩] hc (ix3 2 i n) = a2 (ix2 i n) :=
  stackRows_apply hb hc ![a0, a1, a2] 2 i n

end StackAt

section StackNumsAt
variable {α : Type}
  (hb : (⟨1, ![100000]⟩ : Shape).BroadcastsInDim ⟨2, ![1, 100000]⟩ (![1] : Fin 1 → Fin 2))
  (hc : Shape.Concatenates [(⟨2, ![1, 100000]⟩ : Shape), ⟨2, ![1, 100000]⟩, ⟨2, ![1, 100000]⟩] ⟨2, ![3, 100000]⟩ 0)
  (hb2 : (⟨2, ![3, 100000]⟩ : Shape).BroadcastsInDim ⟨3, ![3, 100000, 1]⟩ (![0, 1] : Fin 2 → Fin 3))
  (a0 a1 a2 : (⟨1, ![100000]⟩ : Shape).Idx → α) (i : Fin 100000)

theorem stackNums_0 : broadcastInDim ⟨3, ![3, 100000, 1]⟩ ![0, 1] hb2 (concatenate ⟨2, ![3, 100000]⟩ 0
      [⟨⟨2, ![1, 100000]⟩, broadcastInDim ⟨2, ![1, 100000]⟩ ![1] hb a0⟩,
       ⟨⟨2, ![1, 100000]⟩, broadcastInDim ⟨2, ![1, 100000]⟩ ![1] hb a1⟩,
       ⟨⟨2, ![1, 100000]⟩, broadcastInDim ⟨2, ![1, 100000]⟩ ![1] hb a2⟩] hc) (ix3 0 i 0) = a0 (ix1 i) :=
  stackNums_apply hb hc hb2 ![a0, a1, a2] 0 i
theorem stackNums_1 : broadcastInDim ⟨3, ![3, 100000, 1]⟩ ![0, 1] hb2 (concatenate ⟨2, ![3, 100000]⟩ 0
      [⟨⟨2, ![1, 100000]⟩, broadcastInDim ⟨2, ![1, 100000]⟩ ![1] hb a0⟩,
       ⟨⟨2, ![1, 100000]⟩, broadcastInDim ⟨2, ![1, 100000]⟩ ![1] hb a1⟩,
       ⟨⟨2, ![1, 100000]⟩, broadcastInDim ⟨2, ![1, 100000]⟩ ![1] hb a2⟩] hc) (ix3 1 i 0) = a1 (ix1 i) :=
  stackNums_apply hb hc hb2 ![a0, a1, a2] 1 i
theorem stackNums_2 : broadcastInDim ⟨3, ![3, 100000, 1]⟩ ![0, 1] hb2 (concatenate ⟨2, ![3, 100000]⟩ 0
      [⟨⟨2, ![1, 100000]⟩, broadcastInDim ⟨2, ![1, 100000]⟩ ![1] hb a0⟩,
       ⟨⟨2, ![1, 100000]⟩, broadcastInDim ⟨2, ![1, 100000]⟩ ![1] hb a1⟩,
       ⟨⟨2, ![1, 100000]⟩, broadcastInDim ⟨2, ![1, 100000]⟩ ![1] hb a2⟩] hc) (ix3 2 i 0) = a2 (ix1 i) :=
  stackNums_apply hb hc hb2 ![a0, a1, a2] 2 i

end StackNumsAt

/-! ## The stretches chained -/

section Chain
variable (m : (ℓ : Loc nD τ sig) → Buf (Elt Ideal) ℓ) (outs : Gen.Outs (F := Ideal)) (c : Dev nD)

/-! ### What no stretch writes: the edge array and the linear region's output -/

/-- The edge array, when the second layer's stretches begin, is as launched: no region and no stretch before them
    writes it. -/
theorem arg1_V10 : (Gen.V10 m outs c main_arg1 : IVec S3x2x1600000 32) = (eiOf m c) :=
  (Gen.V10_of m outs c main_arg1 (by decide)).trans <| (Gen.V9_of m outs c main_arg1 (by decide)).trans <|
  (Gen.V8_of m outs c main_arg1 (by decide)).trans <| (Gen.V7_of m outs c main_arg1 (by decide)).trans <|
  (Gen.V6_of m outs c main_arg1 (by decide)).trans <| (Gen.V5_of m outs c main_arg1 (by decide)).trans <|
  (Gen.V4_of m outs c main_arg1 (by decide)).trans <| (Gen.V3_of m outs c main_arg1 (by decide)).trans <|
  (Gen.V2_of m outs c main_arg1 (by decide)).trans <| (Gen.V1_of m outs c main_arg1 (by decide)).trans rfl
theorem arg1_V12 : (Gen.V12 m outs c main_arg1 : IVec S3x2x1600000 32) = (eiOf m c) :=
  (Gen.V12_of m outs c main_arg1 (by decide)).trans <| (Gen.V11_of m outs c main_arg1 (by decide)).trans <| arg1_V10 m outs c
theorem arg1_V14 : (Gen.V14 m outs c main_arg1 : IVec S3x2x1600000 32) = (eiOf m c) :=
  (Gen.V14_of m outs c main_arg1 (by decide)).trans <| (Gen.V13_of m outs c main_arg1 (by decide)).trans <| arg1_V12 m outs c
theorem xl_V10 : Gen.V10 m outs c main_v152 = outs 10 main_v152 c :=
  Function.update_self _ _ _
theorem xl_V12 : Gen.V12 m outs c main_v152 = outs 10 main_v152 c :=
  (Gen.V12_of m outs c main_v152 (by decide)).trans <| (Gen.V11_of m outs c main_v152 (by decide)).trans <| xl_V10 m outs c
theorem xl_V14 : Gen.V14 m outs c main_v152 = outs 10 main_v152 c :=
  (Gen.V14_of m outs c main_v152 (by decide)).trans <| (Gen.V13_of m outs c main_v152 (by decide)).trans <| xl_V12 m outs c
theorem xl_V16 : Gen.V16 m outs c main_v152 = outs 10 main_v152 c :=
  (Gen.V16_of m outs c main_v152 (by decide)).trans <| (Gen.V15_of m outs c main_v152 (by decide)).trans <| xl_V14 m outs c

/-! ### Relation 0 -/

/-- The relation's source words, where its messages are computed: row 0 of its part of the edge array. -/
theorem r0_src : (Gen.V12 m outs c main_v156 : IVec S1600000 32) = (edgeRowV ![0, 0, 0] slices_S3x2x1600000_S1x2x1600000_0_0_0 ![0, 0] slices_S2x1600000_S1x1600000_0_0 (eiOf m c)) :=
  (Gen.V12_of m outs c main_v156 (by decide)).trans <| (a0_src (Gen.V10 m outs c)).trans (by rw [arg1_V10 m outs c])
/-- Its destination words: row 1. -/
theorem r0_dst : (Gen.V12 m outs c main_v158 : IVec S1600000 32) = (edgeRowV ![0, 0, 0] slices_S3x2x1600000_S1x2x1600000_0_0_0 ![1, 0] slices_S2x1600000_S1x1600000_1_0 (eiOf m c)) :=
  (Gen.V12_of m outs c main_v158 (by decide)).trans <| (a0_dst (Gen.V10 m outs c)).trans (by rw [arg1_V10 m outs c])
/-- Its nodes' factors. -/
theorem r0_dinv : (Gen.V12 m outs c main_v168 : FVec Ideal S100000 .f32) = dinvV (edgeRowV ![0, 0, 0] slices_S3x2x1600000_S1x2x1600000_0_0_0 ![1, 0] slices_S2x1600000_S1x1600000_1_0 (eiOf m c)) := by
  have hB : (Gen.V12 m outs c main_v168 : FVec Ideal S100000 .f32)
      = select (Gen.V11 m outs c main_v166) (Gen.V11 m outs c main_v167) (broadcastInDim S100000 ![] bcast_S_S100000 (Gen.V11 m outs c main_cst_38)) :=
    b0_dinv (Gen.V11 m outs c)
  have h1 : (Gen.V11 m outs c main_v166 : IVec S100000 1) = cmpf .ogt (degV (edgeRowV ![0, 0, 0] slices_S3x2x1600000_S1x2x1600000_0_0_0 ![1, 0] slices_S2x1600000_S1x1600000_1_0 (eiOf m c))) (broadcastInDim S100000 ![] bcast_S_S100000 (constant (F := Ideal) S_ .f32 0x00000000#32)) :=
    (a0_cmp (Gen.V10 m outs c)).trans (by rw [arg1_V10 m outs c])
  have h2 : (Gen.V11 m outs c main_v167 : FVec Ideal S100000 .f32) = Host.rsqrt (degV (edgeRowV ![0, 0, 0] slices_S3x2x1600000_S1x2x1600000_0_0_0 ![1, 0] slices_S2x1600000_S1x1600000_1_0 (eiOf m c))) :=
    (a0_rs (Gen.V10 m outs c)).trans (by rw [arg1_V10 m outs c])
  have h3 : (Gen.V11 m outs c main_cst_38 : FVec Ideal S_ .f32) = constant (F := Ideal) S_ .f32 0x00000000#32 :=
    a0_cst (Gen.V10 m outs c)
  rw [hB, h1, h2, h3]
  rfl

/-- The relation's scattered messages at a node and a feature. -/
theorem r0_scat (i : Fin 100000) (n : Fin 64) :
    (Gen.V13 m outs c main_v199 : FVec Ideal S100000x64 .f32) (ix2 i n) = Net.scat (eiOf m c) (fun r i k => (outs 10 main_v152 c : S3x100000x64.Idx → EReal) (ix3 r i k)) 0 i n := by
  rw [show (Gen.V13 m outs c main_v199 : FVec Ideal S100000x64 .f32) = _ from c0_scat (Gen.V12 m outs c),
    r0_src m outs c, r0_dst m outs c, r0_dinv m outs c, xl_V12 m outs c]
  exact scat_of gather_S100000x64_S1600000x1_S1600000x64_1_0_n_n_0_1_164_wf scatter_S100000x64_S1600000x1_S1600000x64_1_0_0_1_wf gather_S100000x64_S1600000x1_S1600000x64_1_0_n_n_0_1_164 scatter_S100000x64_S1600000x1_S1600000x64_1_0_0_1 rfl rfl _ _ (eiOf m c) (outs 10 main_v152 c) 0 _ _ _
    (fun e => edgeRowV_apply 0 0 _ _ _ _ rfl rfl _ e) (fun e => edgeRowV_apply 0 1 _ _ _ _ rfl rfl _ e)
    (fun i k => relRowsV_apply 0 _ _ _ rfl _ i k) i n
/-- The squares of its nodes' factors. -/
theorem r0_dsq (i : Fin 100000) :
    (Gen.V13 m outs c main_v184 : FVec Ideal S100000 .f32) (ix1 i) = Net.dsq (eiOf m c) 0 i := by
  rw [show (Gen.V13 m outs c main_v184 : FVec Ideal S100000 .f32) = _ from c0_dsq (Gen.V12 m outs c), r0_dinv m outs c]
  exact dsq_of (eiOf m c) 0 _ (fun e => edgeRowV_apply 0 1 _ _ _ _ rfl rfl _ e) i

/-! ### Relation 1 -/

/-- The relation's source words, where its messages are computed: row 0 of its part of the edge array. -/
theorem r1_src : (Gen.V14 m outs c main_v203 : IVec S1600000 32) = (edgeRowV ![1, 0, 0] slices_S3x2x1600000_S1x2x1600000_1_0_0 ![0, 0] slices_S2x1600000_S1x1600000_0_0 (eiOf m c)) :=
  (Gen.V14_of m outs c main_v203 (by decide)).trans <| (a1_src (Gen.V12 m outs c)).trans (by rw [arg1_V12 m outs c])
/-- Its destination words: row 1. -/
theorem r1_dst : (Gen.V14 m outs c main_v205 : IVec S1600000 32) = (edgeRowV ![1, 0, 0] slices_S3x2x1600000_S1x2x1600000_1_0_0 ![1, 0] slices_S2x1600000_S1x1600000_1_0 (eiOf m c)) :=
  (Gen.V14_of m outs c main_v205 (by decide)).trans <| (a1_dst (Gen.V12 m outs c)).trans (by rw [arg1_V12 m outs c])
/-- Its nodes' factors. -/
theorem r1_dinv : (Gen.V14 m outs c main_v215 : FVec Ideal S100000 .f32) = dinvV (edgeRowV ![1, 0, 0] slices_S3x2x1600000_S1x2x1600000_1_0_0 ![1, 0] slices_S2x1600000_S1x1600000_1_0 (eiOf m c)) := by
  have hB : (Gen.V14 m outs c main_v215 : FVec Ideal S100000 .f32)
      = select (Gen.V13 m outs c main_v213) (Gen.V13 m outs c main_v214) (broadcastInDim S100000 ![] bcast_S_S100000 (Gen.V13 m outs c main_cst_50)) :=
    b1_dinv (Gen.V13 m outs c)
  have h1 : (Gen.V13 m outs c main_v213 : IVec S100000 1) = cmpf .ogt (degV (edgeRowV ![1, 0, 0] slices_S3x2x1600000_S1x2x1600000_1_0_0 ![1, 0] slices_S2x1600000_S1x1600000_1_0 (eiOf m c))) (broadcastInDim S100000 ![] bcast_S_S100000 (constant (F := Ideal) S_ .f32 0x00000000#32)) :=
    (a1_cmp (Gen.V12 m outs c)).trans (by rw [arg1_V12 m outs c])
  have h2 : (Gen.V13 m outs c main_v214 : FVec Ideal S100000 .f32) = Host.rsqrt (degV (edgeRowV ![1, 0, 0] slices_S3x2x1600000_S1x2x1600000_1_0_0 ![1, 0] slices_S2x1600000_S1x1600000_1_0 (eiOf m c))) :=
    (a1_rs (Gen.V12 m outs c)).trans (by rw [arg1_V12 m outs c])
  have h3 : (Gen.V13 m outs c main_cst_50 : FVec Ideal S_ .f32) = constant (F := Ideal) S_ .f32 0x00000000#32 :=
    a1_cst (Gen.V12 m outs c)
  rw [hB, h1, h2, h3]
  rfl

/-- The relation's scattered messages at a node and a feature. -/
theorem r1_scat (i : Fin 100000) (n : Fin 64) :
    (Gen.V15 m outs c main_v246 : FVec Ideal S100000x64 .f32) (ix2 i n) = Net.scat (eiOf m c) (fun r i k => (outs 10 main_v152 c : S3x100000x64.Idx → EReal) (ix3 r i k)) 1 i n := by
  rw [show (Gen.V15 m outs c main_v246 : FVec Ideal S100000x64 .f32) = _ from c1_scat (Gen.V14 m outs c),
    r1_src m outs c, r1_dst m outs c, r1_dinv m outs c, xl_V14 m outs c]
  exact scat_of gather_S100000x64_S1600000x1_S1600000x64_1_0_n_n_0_1_164_wf scatter_S100000x64_S1600000x1_S1600000x64_1_0_0_1_wf gather_S100000x64_S1600000x1_S1600000x64_1_0_n_n_0_1_164 scatter_S100000x64_S1600000x1_S1600000x64_1_0_0_1 rfl rfl _ _ (eiOf m c) (outs 10 main_v152 c) 1 _ _ _
    (fun e => edgeRowV_apply 1 0 _ _ _ _ rfl rfl _ e) (fun e => edgeRowV_apply 1 1 _ _ _ _ rfl rfl _ e)
    (fun i k => relRowsV_apply 1 _ _ _ rfl _ i k) i n
/-- The squares of its nodes' factors. -/
theorem r1_dsq (i : Fin 100000) :
    (Gen.V15 m outs c main_v231 : FVec Ideal S100000 .f32) (ix1 i) = Net.dsq (eiOf m c) 1 i := by
  rw [show (Gen.V15 m outs c main_v231 : FVec Ideal S100000 .f32) = _ from c1_dsq (Gen.V14 m outs c), r1_dinv m outs c]
  exact dsq_of (eiOf m c) 1 _ (fun e => edgeRowV_apply 1 1 _ _ _ _ rfl rfl _ e) i

/-! ### Relation 2 -/

/-- The relation's source words, where its messages are computed: row 0 of its part of the edge array. -/
theorem r2_src : (Gen.V16 m outs c main_v250 : IVec S1600000 32) = (edgeRowV ![2, 0, 0] slices_S3x2x1600000_S1x2x1600000_2_0_0 ![0, 0] slices_S2x1600000_S1x1600000_0_0 (eiOf m c)) :=
  (Gen.V16_of m outs c main_v250 (by decide)).trans <| (a2_src (Gen.V14 m outs c)).trans (by rw [arg1_V14 m outs c])
/-- Its destination words: row 1. -/
theorem r2_dst : (Gen.V16 m outs c main_v252 : IVec S1600000 32) = (edgeRowV ![2, 0, 0] slices_S3x2x1600000_S1x2x1600000_2_0_0 ![1, 0] slices_S2x1600000_S1x1600000_1_0 (eiOf m c)) :=
  (Gen.V16_of m outs c main_v252 (by decide)).trans <| (a2_dst (Gen.V14 m outs c)).trans (by rw [arg1_V14 m outs c])
/-- Its nodes' factors. -/
theorem r2_dinv : (Gen.V16 m outs c main_v262 : FVec Ideal S100000 .f32) = dinvV (edgeRowV ![2, 0, 0] slices_S3x2x1600000_S1x2x1600000_2_0_0 ![1, 0] slices_S2x1600000_S1x1600000_1_0 (eiOf m c)) := by
  have hB : (Gen.V16 m outs c main_v262 : FVec Ideal S100000 .f32)
      = select (Gen.V15 m outs c main_v260) (Gen.V15 m outs c main_v261) (broadcastInDim S100000 ![] bcast_S_S100000 (Gen.V15 m outs c main_cst_62)) :=
    b2_dinv (Gen.V15 m outs c)
  have h1 : (Gen.V15 m outs c main_v260 : IVec S100000 1) = cmpf .ogt (degV (edgeRowV ![2, 0, 0] slices_S3x2x1600000_S1x2x1600000_2_0_0 ![1, 0] slices_S2x1600000_S1x1600000_1_0 (eiOf m c))) (broadcastInDim S100000 ![] bcast_S_S100000 (constant (F := Ideal) S_ .f32 0x00000000#32)) :=
    (a2_cmp (Gen.V14 m outs c)).trans (by rw [arg1_V14 m outs c])
  have h2 : (Gen.V15 m outs c main_v261 : FVec Ideal S100000 .f32) = Host.rsqrt (degV (edgeRowV ![2, 0, 0] slices_S3x2x1600000_S1x2x1600000_2_0_0 ![1, 0] slices_S2x1600000_S1x1600000_1_0 (eiOf m c))) :=
    (a2_rs (Gen.V14 m outs c)).trans (by rw [arg1_V14 m outs c])
  have h3 : (Gen.V15 m outs c main_cst_62 : FVec Ideal S_ .f32) = constant (F := Ideal) S_ .f32 0x00000000#32 :=
    a2_cst (Gen.V14 m outs c)
  rw [hB, h1, h2, h3]
  rfl

end Chain

end L2

/-! ## The region's operands -/

section Operands
variable (m : (ℓ : Loc nD τ sig) → Buf (Elt Ideal) ℓ) (outs : Gen.Outs (F := Ideal)) (c : Dev nD)
open L2

/-- The stacked scattered messages: at (r, i, n) relation r's, of the linear region's output. -/
theorem v297_eq (r : Fin 3) (i : Fin 100000) (n : Fin 64) :
    (Gen.V17 m outs c main_v297 : S3x100000x64.Idx → EReal) (ix3 r i n) = Net.scat (eiOf m c) (fun r i k => (outs 10 main_v152 c : S3x100000x64.Idx → EReal) (ix3 r i k)) r i n := by
  rw [show (Gen.V17 m outs c main_v297 : FVec Ideal S3x100000x64 .f32) = _ from s_scat (Gen.V16 m outs c)]
  rcases (by revert r; decide : r = 0 ∨ r = 1 ∨ r = 2) with rfl | rfl | rfl
  · refine (stackRows_0 _ _ _ _ _ i n).trans ?_
    rw [show Gen.V16 m outs c main_v199 = Gen.V13 m outs c main_v199 from (Gen.V16_of m outs c main_v199 (by decide)).trans <| (Gen.V15_of m outs c main_v199 (by decide)).trans <| (Gen.V14_of m outs c main_v199 (by decide))]
    exact r0_scat m outs c i n
  · refine (stackRows_1 _ _ _ _ _ i n).trans ?_
    rw [show Gen.V16 m outs c main_v246 = Gen.V15 m outs c main_v246 from (Gen.V16_of m outs c main_v246 (by decide))]
    exact r1_scat m outs c i n
  · refine (stackRows_2 _ _ _ _ _ i n).trans ?_
    rw [r2_src m outs c, r2_dst m outs c, r2_dinv m outs c, xl_V16 m outs c]
    exact scat_of gather_S100000x64_S1600000x1_S1600000x64_1_0_n_n_0_1_164_wf scatter_S100000x64_S1600000x1_S1600000x64_1_0_0_1_wf gather_S100000x64_S1600000x1_S1600000x64_1_0_n_n_0_1_164 scatter_S100000x64_S1600000x1_S1600000x64_1_0_0_1 rfl rfl _ _ (eiOf m c) (outs 10 main_v152 c) 2 _ _ _ (fun e => edgeRowV_apply 2 0 _ _ _ _ rfl rfl _ e) (fun e => edgeRowV_apply 2 1 _ _ _ _ rfl rfl _ e) (fun i k => relRowsV_apply 2 _ _ _ rfl _ i k) i n

/-- The stacked squared factors: at (r, i, 0) relation r's. -/
theorem v302_eq (r : Fin 3) (i : Fin 100000) :
    (Gen.V17 m outs c main_v302 : S3x100000x1.Idx → EReal) (ix3 r i 0) = Net.dsq (eiOf m c) r i := by
  rw [show (Gen.V17 m outs c main_v302 : FVec Ideal S3x100000x1 .f32) = _ from s_dsq (Gen.V16 m outs c)]
  rcases (by revert r; decide : r = 0 ∨ r = 1 ∨ r = 2) with rfl | rfl | rfl
  · refine (stackNums_0 _ _ _ _ _ _ i).trans ?_
    rw [show Gen.V16 m outs c main_v184 = Gen.V13 m outs c main_v184 from (Gen.V16_of m outs c main_v184 (by decide)).trans <| (Gen.V15_of m outs c main_v184 (by decide)).trans <| (Gen.V14_of m outs c main_v184 (by decide))]
    exact r0_dsq m outs c i
  · refine (stackNums_1 _ _ _ _ _ _ i).trans ?_
    rw [show Gen.V16 m outs c main_v231 = Gen.V15 m outs c main_v231 from (Gen.V16_of m outs c main_v231 (by decide))]
    exact r1_dsq m outs c i
  · refine (stackNums_2 _ _ _ _ _ _ i).trans ?_
    rw [r2_dinv m outs c]
    exact dsq_of (eiOf m c) 2 _ (fun e => edgeRowV_apply 2 1 _ _ _ _ rfl rfl _ e) i

/-- The linear region's output reaches the combine region as the linear region left it. -/
theorem v17_v152 : Gen.V17 m outs c main_v152 = outs 10 main_v152 c :=
  (Gen.V17_of m outs c main_v152 (by decide)).trans (xl_V16 m outs c)

/-- The bias array reaches the combine region as launched. -/
theorem v17_arg5 : Gen.V17 m outs c main_arg5 = m ((c.tc : Thread nD τ).loc main_arg5) :=
  (Gen.V17_of m outs c main_arg5 (by decide)).trans <| (Gen.V16_of m outs c main_arg5 (by decide)).trans <| (Gen.V15_of m outs c main_arg5 (by decide)).trans <| (Gen.V14_of m outs c main_arg5 (by decide)).trans <| (Gen.V13_of m outs c main_arg5 (by decide)).trans <| (Gen.V12_of m outs c main_arg5 (by decide)).trans <| (Gen.V11_of m outs c main_arg5 (by decide)).trans <| (Gen.V10_of m outs c main_arg5 (by decide)).trans <| (Gen.V9_of m outs c main_arg5 (by decide)).trans <| (Gen.V8_of m outs c main_arg5 (by decide)).trans <| (Gen.V7_of m outs c main_arg5 (by decide)).trans <| (Gen.V6_of m outs c main_arg5 (by decide)).trans <| (Gen.V5_of m outs c main_arg5 (by decide)).trans <| (Gen.V4_of m outs c main_arg5 (by decide)).trans <| (Gen.V3_of m outs c main_arg5 (by decide)).trans <| (Gen.V2_of m outs c main_arg5 (by decide)).trans <| (Gen.V1_of m outs c main_arg5 (by decide)).trans <| rfl

end Operands

end Cert.KernelIdeal.HostValue

end
-- ==== Proof.KI.Value.lean ====
/-
  What the kernel program computes, at the ideal values: the result array main_v303 is the first arrangement of the
  network (Cert.Net.netK) of the argument arrays, entry by entry.

  The chain: region 0 leaves the linear step x · W1[r]; the host stretches turn it into the scattered edge messages
  and the squared factors of every relation; region 1 combines them (running sum, bias, times the named third, a
  maximum with zero); region 2 is the linear step of that hidden layer with W2; the second host stretches and region 3
  repeat the aggregation at width 64 without the maximum.
-/
import proofs.«128058_j54425825575251_2_alg».proof.Proof.KI.RunAll
import proofs.«128058_j54425825575251_2_alg».proof.Proof.KI.Val0
import proofs.«128058_j54425825575251_2_alg».proof.Proof.KI.Val1
import proofs.«128058_j54425825575251_2_alg».proof.Proof.KI.Val2
import proofs.«128058_j54425825575251_2_alg».proof.Proof.KI.Val3
import proofs.«128058_j54425825575251_2_alg».proof.Proof.KH.Layer1
import proofs.«128058_j54425825575251_2_alg».proof.Proof.KH.Layer2
import proofs.«128058_j54425825575251_2_alg».proof.Proof.SpecNet

noncomputable section

namespace Cert.KernelIdeal.Hand

open Cert.KernelIdeal Cert.KernelIdeal.Gen Cert.KernelIdeal.HostValue
open Idealize.ShloMosaic Idealize.ShloMosaic.TcCoe Idealize.ShloMosaic.ValueIdx Idealize.SL.Sem

variable (m : (ℓ : Loc nD τ sig) → Buf (Elt Ideal) ℓ) (c : Dev nD)

/-- The combine kernels' named constant. -/
abbrev inv3 : EReal := Named.named (F := Ideal) κ "inv_3" (φ := .f32) 0x3EAAAAAB#32

/-- The argument arrays, entry by entry. -/
abbrev Xf : Fin 100000 → Fin 128 → EReal := fun i k => (m ((c.tc : Thread nD τ).loc main_arg0) : S100000x128.Idx → EReal) (ix2 i k)
abbrev W1f : Fin 3 → Fin 128 → Fin 128 → EReal := fun r k n => (m ((c.tc : Thread nD τ).loc main_arg2) : S3x128x128.Idx → EReal) (ix3 r k n)
abbrev B1f : Fin 3 → Fin 128 → EReal := fun r n => (m ((c.tc : Thread nD τ).loc main_arg3) : S3x128.Idx → EReal) (ix2 r n)
abbrev W2f : Fin 3 → Fin 128 → Fin 64 → EReal := fun r k n => (m ((c.tc : Thread nD τ).loc main_arg4) : S3x128x64.Idx → EReal) (ix3 r k n)
abbrev B2f : Fin 3 → Fin 64 → EReal := fun r n => (m ((c.tc : Thread nD τ).loc main_arg5) : S3x64.Idx → EReal) (ix2 r n)

/-- Region 0 leaves x · W1[r]. -/
theorem o1_apply (r : Fin 3) (i : Fin 100000) (n : Fin 128) :
    (o1 m c : S3x100000x128.Idx → EReal) (ix3 r i n) = Cert.Net.lin (Xf m c) (W1f m c) r i n :=
  final0_of (Vin0 m) c _ _ rfl rfl r i n

theorem xl1_fun : (fun (r : Fin 3) (i : Fin 100000) (k : Fin 128) => (ou1 m 1 main_v0 c : S3x100000x128.Idx → EReal) (ix3 r i k))
    = Cert.Net.lin (Xf m c) (W1f m c) := by
  funext r i k
  rw [ou1_v0]
  exact o1_apply m c r i k

/-- Region 1 leaves the first layer, a maximum with zero applied. -/
theorem o9_apply (i : Fin 100000) (n : Fin 128) :
    (o9 m c : S100000x128.Idx → EReal) (ix2 i n)
      = max (Cert.Net.layerK (eiOf m c) (Xf m c) (W1f m c) (B1f m c) inv3 i n) 0 := by
  have hXL : ∀ (r : Fin 3) (k : Fin 128), (Gen.V8 m (ou1 m) c main_v0 : S3x100000x128.Idx → EReal) (ix3 r i k)
      = Cert.Net.lin (Xf m c) (W1f m c) r i k := fun r k => by
    rw [v8_v0 m (ou1 m) c, ou1_v0]; exact o1_apply m c r i k
  unfold o9
  rw [final1]
  dsimp only [Vin1]
  rw [v145_eq m (ou1 m) c 0 i n, v145_eq m (ou1 m) c 1 i n, v145_eq m (ou1 m) c 2 i n,
    v150_eq m (ou1 m) c 0 i, v150_eq m (ou1 m) c 1 i, v150_eq m (ou1 m) c 2 i, hXL 0 n, hXL 1 n, hXL 2 n,
    v8_arg3 m (ou1 m) c, xl1_fun m c]
  unfold comb1 Cert.Net.layerK Cert.Net.comb
  rw [show Scalar.ofBits (F := Ideal) .f32 0x00000000#32 = (0 : EReal) from Ideal.ofBits_zero_f32]

theorem h_fun : (fun (i : Fin 100000) (k : Fin 128) => (o9 m c : S100000x128.Idx → EReal) (ix2 i k))
    = fun i k => max (Cert.Net.layerK (eiOf m c) (Xf m c) (W1f m c) (B1f m c) inv3 i k) 0 := by
  funext i k; exact o9_apply m c i k

/-- No item before region 2 writes main_arg4. -/
theorem V9_arg4 (o : Gen.Outs (F := Ideal)) : Gen.V9 m o c main_arg4 = m ((c.tc : Thread nD τ).loc main_arg4) :=
  (Gen.V9_of m o c main_arg4 (by decide)).trans <| (Gen.V8_of m o c main_arg4 (by decide)).trans <|
  (Gen.V7_of m o c main_arg4 (by decide)).trans <| (Gen.V6_of m o c main_arg4 (by decide)).trans <|
  (Gen.V5_of m o c main_arg4 (by decide)).trans <| (Gen.V4_of m o c main_arg4 (by decide)).trans <|
  (Gen.V3_of m o c main_arg4 (by decide)).trans <| (Gen.V2_of m o c main_arg4 (by decide)).trans <|
  (Gen.V1_of m o c main_arg4 (by decide)).trans rfl

theorem V9_v151 (o : Gen.Outs (F := Ideal)) : Gen.V9 m o c main_v151 = o 9 main_v151 c := by
  show Function.update (Gen.V8 m o c) main_v151 (o 9 main_v151 c) main_v151 = _
  rw [Function.update_self]

/-- Region 2 leaves h · W2[r], h the hidden layer. -/
theorem o10_apply (r : Fin 3) (i : Fin 100000) (n : Fin 64) :
    (o10 m c : S3x100000x64.Idx → EReal) (ix3 r i n)
      = Cert.Net.lin (fun i k => max (Cert.Net.layerK (eiOf m c) (Xf m c) (W1f m c) (B1f m c) inv3 i k) 0) (W2f m c) r i n := by
  have h := final2_of (Vin2 m) c (o9 m c) (m ((c.tc : Thread nD τ).loc main_arg4))
    ((V9_v151 m c (ou2 m)).trans (ou2_v151 m 9 c)) (V9_arg4 m c (ou2 m)) r i n
  unfold o10
  have hs : ∀ (A Y A' : Fin 128 → EReal), (∀ k, A k = A' k) → (∑ k, A k * Y k) = ∑ k, A' k * Y k :=
    fun A Y A' hA => Finset.sum_congr rfl fun k _ => by rw [hA k]
  exact h.trans (hs (fun k => (o9 m c : S100000x128.Idx → EReal) (ix2 i k))
    (fun k => (m ((c.tc : Thread nD τ).loc main_arg4) : S3x128x64.Idx → EReal) (ix3 r k n)) _ fun k => o9_apply m c i k)

theorem xl2_fun : (fun (r : Fin 3) (i : Fin 100000) (k : Fin 64) => (ou3 m 10 main_v152 c : S3x100000x64.Idx → EReal) (ix3 r i k))
    = Cert.Net.lin (fun i k => max (Cert.Net.layerK (eiOf m c) (Xf m c) (W1f m c) (B1f m c) inv3 i k) 0) (W2f m c) := by
  funext r i k
  rw [ou3_v152]
  exact o10_apply m c r i k

/-- Region 3 leaves the network's result. -/
theorem o18_apply (i : Fin 100000) (n : Fin 64) :
    (o18 m c : S100000x64.Idx → EReal) (ix2 i n)
      = Cert.Net.netK (eiOf m c) (Xf m c) (W1f m c) (B1f m c) (W2f m c) (B2f m c) inv3 i n := by
  have hXL : ∀ (r : Fin 3) (k : Fin 64), (Gen.V17 m (ou3 m) c main_v152 : S3x100000x64.Idx → EReal) (ix3 r i k)
      = Cert.Net.lin (fun i k => max (Cert.Net.layerK (eiOf m c) (Xf m c) (W1f m c) (B1f m c) inv3 i k) 0) (W2f m c) r i k := fun r k => by
    rw [v17_v152 m (ou3 m) c, ou3_v152]; exact o10_apply m c r i k
  unfold o18
  rw [final3]
  dsimp only [Vin3]
  rw [v297_eq m (ou3 m) c 0 i n, v297_eq m (ou3 m) c 1 i n, v297_eq m (ou3 m) c 2 i n,
    v302_eq m (ou3 m) c 0 i, v302_eq m (ou3 m) c 1 i, v302_eq m (ou3 m) c 2 i, hXL 0 n, hXL 1 n, hXL 2 n,
    v17_arg5 m (ou3 m) c, xl2_fun m c]
  unfold comb3 Cert.Net.netK Cert.Net.layerK Cert.Net.comb
  rfl

end Cert.KernelIdeal.Hand

end
-- ==== Proof.Ref.Ops.lean ====
/-
  The stages of one graph convolution as the reference composes them, read at an index, at the program's sizes
  (100000 nodes, 1700000 entries of a long list = 1600000 edges and 100000 self-loops).

  * the long list: entry e of the joined array is the edge word e when e < 1600000, and the word e - 1600000 otherwise;
  * the degree: a scatter of ones into zeros — on node i, 0 plus one per entry landing on i;
  * a gather of single numbers d[idx]: entry e reads d at the row of its (wrapped) word;
  * a gather of rows, and the scatter of the scaled rows — on (i, n), 0 plus the entries landing on i.
-/
import proofs.«128058_j54425825575251_2_alg».proof.Proof.SpecNet
import proofs.«128058_j54425825575251_2_alg».proof.Proof.LibEdgeOps
import Idealize.ShloMosaic.Lib.Pipeline.Value

noncomputable section

namespace Cert.ReferenceIdeal.RefValue

open Idealize.ShloMosaic Idealize.ShloMosaic.ValueIdx Cert.Net Cert.EdgeOps

/-! ## A gather of single numbers -/

section NumGather
variable {N E w : Nat}

/-- The dimension numbers of `d[idx]` for an array of N numbers and E index words (as an E × 1 array). -/
abbrev numGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e reads the number whose position is e's word, read signed, clamped into [0, N − 1]. -/
theorem gather_nums_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (numGather N E wf) x idx (ix1 e) = x (ix1 (rowOf hN idx e)) := by
  unfold Host.gather
  congr 1
  funext a
  obtain rfl : a = 0 := Subsingleton.elim _ _
  refine Fin.ext ?_
  show (numGather N E wf).start (ix1 e) idx 0 + (numGather N E wf).batchCoord (ix1 e) 0
    + (numGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (numGather N E wf).startIndexMap from List.mem_singleton.mpr rfl)]
  have hsi : (numGather N E wf).siIdx (ix1 e) ⟨List.idxOf (0 : Fin 1) (numGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end NumGather

/-! ## At the program's sizes -/

theorem node_pos : 0 < 100000 := by decide

/-- The row a gather reads at a column of words is the clamped word. -/
theorem rowOf_eq_clampRow (col : IVec ⟨2, ![1700000, 1]⟩ 32) (e : Fin 1700000) :
    rowOf node_pos col e = clampRow (col (ix2 e 0)) := rfl

/-- A column holding the words dW lands exactly the entries of dW. -/
theorem lands_eq (col : IVec ⟨2, ![1700000, 1]⟩ 32) (dW : Fin 1700000 → BitVec 32)
    (hcol : ∀ e, col (ix2 e 0) = dW e) (i : Fin 100000) : EdgeOps.lands col i = GCN.lands dW i := by
  unfold EdgeOps.lands GCN.lands
  refine Finset.filter_congr fun e _ => ?_
  rw [hcol e]

/-- The long list: the joined array of 1600000 words and the numbers 0 … 99999. -/
theorem concat_edges_apply (a : (⟨1, ![1600000]⟩ : Shape).Idx → BitVec 32)
    (h : Shape.Concatenates [(⟨1, ![1600000]⟩ : Shape), ⟨1, ![100000]⟩] ⟨1, ![1700000]⟩ 0) (e : Fin 1700000) :
    concatenate (⟨1, ![1700000]⟩ : Shape) 0
        [⟨(⟨1, ![1600000]⟩ : Shape), a⟩, ⟨(⟨1, ![100000]⟩ : Shape), iotaInDim (⟨1, ![100000]⟩ : Shape) 32 0⟩] h (ix1 e)
      = if he : e.val < 1600000 then a (ix1 ⟨e.val, he⟩) else BitVec.ofNat 32 (e.val - 1600000) := by
  have hlt := e.isLt
  by_cases he : e.val < 1600000
  · rw [dif_pos he]
    exact concatenate_pair_apply_left 0 a _ h (ix1 e) rfl (ix1 ⟨e.val, he⟩) (fun b => by
      match b with
      | ⟨0, _⟩ => rfl)
  · rw [dif_neg he]
    have hj : e.val - 1600000 < 100000 := by omega
    rw [concatenate_pair_apply_right 0 a _ h (ix1 e) rfl rfl (ix1 ⟨e.val - 1600000, hj⟩)
      (fun b hb => absurd (Subsingleton.elim _ _) hb)
      (by show e.val - 1600000 + 1600000 = e.val; omega)]
    rfl

/-- The degree of node i: zero plus one per entry landing on i. -/
theorem deg_stage (wf : ScatterDims.WF ⟨1, ![100000]⟩ ⟨2, ![1700000, 1]⟩ ⟨1, ![1700000]⟩ [] [0] [0] 1)
    (z : (⟨1, ![100000]⟩ : Shape).Idx → EReal) (col : IVec ⟨2, ![1700000, 1]⟩ 32)
    (ones : (⟨1, ![1700000]⟩ : Shape).Idx → EReal) (dW : Fin 1700000 → BitVec 32)
    (hz : ∀ i, z i = 0) (hcol : ∀ e, col (ix2 e 0) = dW e) (hones : ∀ e, ones e = oneE) (i : Fin 100000) :
    Ideal.hostScatterAdd (numScatter 100000 1700000 wf) z col ones (ix1 i) = GCN.degR oneE dW i := by
  rw [scatterAdd_nums_apply, hz, lands_eq col dW hcol]
  unfold GCN.degR
  simp only [hones]

/-- The factor of a node: d ↦ (d > 0 ? rsqrt d : 0). -/
theorem gD_stage (d z z' : EReal) (hz : z = 0) (hz' : z' = 0) :
    Scalar.select (Ideal.cmp .ogt d z) (Ideal.rsqrt d) z' = gD d := by
  subst hz hz'; rfl

/-- Entry e reads the number of the row of its word, when the column holds the wrapped words. -/
theorem gather_nums_stage {α : Type}
    (wf : GatherDims.WF ⟨1, ![100000]⟩ ⟨2, ![1700000, 1]⟩ ⟨1, ![1700000]⟩ [] [0] [] [0] [] 1 ![1])
    (d : (⟨1, ![100000]⟩ : Shape).Idx → α) (col : IVec ⟨2, ![1700000, 1]⟩ 32) (W : Fin 1700000 → BitVec 32)
    (hcol : ∀ e, col (ix2 e 0) = wrapW (W e)) (e : Fin 1700000) :
    Host.gather (numGather 100000 1700000 wf) d col (ix1 e) = d (ix1 (rowW (W e))) := by
  rw [gather_nums_apply node_pos, rowOf_eq_clampRow, hcol]
  rfl

/-- Entry (e, k) reads entry k of the row of e's word, when the column holds the wrapped words. -/
theorem gather_rows_stage {α : Type} {C : Nat}
    (wf : GatherDims.WF ⟨2, ![100000, C]⟩ ⟨2, ![1700000, 1]⟩ ⟨2, ![1700000, C]⟩ [1] [0] [] [0] [] 1 ![1, C])
    (x : (⟨2, ![100000, C]⟩ : Shape).Idx → α) (col : IVec ⟨2, ![1700000, 1]⟩ 32) (W : Fin 1700000 → BitVec 32)
    (hcol : ∀ e, col (ix2 e 0) = wrapW (W e)) (e : Fin 1700000) (k : Fin C) :
    Host.gather (rowGather 100000 1700000 C wf) x col (ix2 e k) = x (ix2 (rowW (W e)) k) := by
  rw [gather_rows_apply node_pos, rowOf_eq_clampRow, hcol]
  rfl

/-- The scattered rows: on (i, n), zero plus, over the entries landing on i, entry n of their rows. -/
theorem scatter_rows_stage {C : Nat}
    (wf : ScatterDims.WF ⟨2, ![100000, C]⟩ ⟨2, ![1700000, 1]⟩ ⟨2, ![1700000, C]⟩ [1] [0] [0] 1)
    (z : (⟨2, ![100000, C]⟩ : Shape).Idx → EReal) (col : IVec ⟨2, ![1700000, 1]⟩ 32)
    (upd : (⟨2, ![1700000, C]⟩ : Shape).Idx → EReal) (dW : Fin 1700000 → BitVec 32) (f : Fin 1700000 → Fin C → EReal)
    (hz : ∀ i, z i = 0) (hcol : ∀ e, col (ix2 e 0) = dW e) (hupd : ∀ e n, upd (ix2 e n) = f e n)
    (i : Fin 100000) (n : Fin C) :
    Ideal.hostScatterAdd (rowScatter 100000 1700000 C wf) z col upd (ix2 i n) = 0 + ∑ e ∈ GCN.lands dW i, f e n := by
  rw [scatterAdd_rows_apply, hz, lands_eq col dW hcol]
  simp only [hupd]

end Cert.ReferenceIdeal.RefValue

end
-- ==== Proof.Ref.Conv.lean ====
/-
  One graph convolution as a composition of array operations, over variables, and what it computes.

  From the two rows of edge words (sources, destinations), the linear step's output xl and the bias row b:
  the long lists append the self-loops j ↦ j; the degree of a node counts the entries of the long destination list
  landing on it; the factor of a node is g (degree); an entry's weight is the product of the factors of its source
  row and of its destination row (a negative word wrapped by the node count, the row clamped); the message of an
  entry is its source row of xl scaled by the weight; the result scatters the messages over the destinations and adds
  the bias. Read at (i, n) this is the second arrangement GCN.convR. Generic in the width C; every side condition of
  the operations (shape relations, dimension numbers) is a field of the structure Side.
-/
import proofs.«128058_j54425825575251_2_alg».proof.Proof.Ref.Ops

noncomputable section

namespace Cert.ReferenceIdeal.RefValue

open Idealize.ShloMosaic Idealize.ShloMosaic.ValueIdx Cert.Net Cert.EdgeOps

/-- The side conditions of one convolution's operations at width C. -/
structure Side (C : ℕ) : Prop where
  cat : Shape.Concatenates [(⟨1, ![1600000]⟩ : Shape), ⟨1, ![100000]⟩] ⟨1, ![1700000]⟩ 0
  bE : (⟨0, ![]⟩ : Shape).BroadcastsInDim ⟨1, ![1700000]⟩ (![] : Fin 0 → Fin (⟨1, ![1700000]⟩ : Shape).rank)
  bN : (⟨0, ![]⟩ : Shape).BroadcastsInDim ⟨1, ![100000]⟩ (![] : Fin 0 → Fin (⟨1, ![100000]⟩ : Shape).rank)
  bCol : (⟨1, ![1700000]⟩ : Shape).BroadcastsInDim ⟨2, ![1700000, 1]⟩ (![0] : Fin 1 → Fin (⟨2, ![1700000, 1]⟩ : Shape).rank)
  bEC : (⟨2, ![1700000, 1]⟩ : Shape).BroadcastsInDim ⟨2, ![1700000, C]⟩
    (![0, 1] : Fin 2 → Fin (⟨2, ![1700000, C]⟩ : Shape).rank)
  bNC : (⟨0, ![]⟩ : Shape).BroadcastsInDim ⟨2, ![100000, C]⟩ (![] : Fin 0 → Fin (⟨2, ![100000, C]⟩ : Shape).rank)
  bB1 : (⟨1, ![C]⟩ : Shape).BroadcastsInDim ⟨2, ![1, C]⟩ (![1] : Fin 1 → Fin (⟨2, ![1, C]⟩ : Shape).rank)
  bB2 : (⟨2, ![1, C]⟩ : Shape).BroadcastsInDim ⟨2, ![100000, C]⟩ (![0, 1] : Fin 2 → Fin (⟨2, ![100000, C]⟩ : Shape).rank)
  wfd : ScatterDims.WF ⟨1, ![100000]⟩ ⟨2, ![1700000, 1]⟩ ⟨1, ![1700000]⟩ [] [0] [0] 1
  wfn : GatherDims.WF ⟨1, ![100000]⟩ ⟨2, ![1700000, 1]⟩ ⟨1, ![1700000]⟩ [] [0] [] [0] [] 1 ![1]
  wfg : GatherDims.WF ⟨2, ![100000, C]⟩ ⟨2, ![1700000, 1]⟩ ⟨2, ![1700000, C]⟩ [1] [0] [] [0] [] 1 ![1, C]
  wfs : ScatterDims.WF ⟨2, ![100000, C]⟩ ⟨2, ![1700000, 1]⟩ ⟨2, ![1700000, C]⟩ [1] [0] [0] 1

section Conv
variable {C : ℕ} (h : Side C)

/-! ## The operations -/

/-- The long list: 1600000 words, then the numbers 0 … 99999. -/
def longList (a : (⟨1, ![1600000]⟩ : Shape).Idx → BitVec 32) : (⟨1, ![1700000]⟩ : Shape).Idx → BitVec 32 :=
  concatenate (⟨1, ![1700000]⟩ : Shape) 0
    [⟨(⟨1, ![1600000]⟩ : Shape), a⟩, ⟨(⟨1, ![100000]⟩ : Shape), iotaInDim (⟨1, ![100000]⟩ : Shape) 32 0⟩] h.cat

/-- A negative word wrapped by the node count, entry by entry. -/
def wrapV (w : (⟨1, ![1700000]⟩ : Shape).Idx → BitVec 32) : (⟨1, ![1700000]⟩ : Shape).Idx → BitVec 32 :=
  select (cmpi .slt w (broadcastInDim (⟨1, ![1700000]⟩ : Shape) ![] h.bE (constantI (⟨0, ![]⟩ : Shape) 32 0#32)))
    (addi w (broadcastInDim (⟨1, ![1700000]⟩ : Shape) ![] h.bE (constantI (⟨0, ![]⟩ : Shape) 32 100000#32))) w

/-- A list as a column. -/
def colV {α : Type} (w : (⟨1, ![1700000]⟩ : Shape).Idx → α) : (⟨2, ![1700000, 1]⟩ : Shape).Idx → α :=
  broadcastInDim (⟨2, ![1700000, 1]⟩ : Shape) ![0] h.bCol w

/-- Zeros over the nodes. -/
def zerosN : FVec Ideal ⟨1, ![100000]⟩ .f32 :=
  broadcastInDim (⟨1, ![100000]⟩ : Shape) ![] h.bN (constant (F := Ideal) (⟨0, ![]⟩ : Shape) .f32 0x00000000#32)

/-- The degrees: ones scattered into zeros at the destination words. -/
def degV (dst : (⟨1, ![1700000]⟩ : Shape).Idx → BitVec 32) : FVec Ideal ⟨1, ![100000]⟩ .f32 :=
  Host.scatterAdd (F := Ideal) (numScatter 100000 1700000 h.wfd) (zerosN h) (colV h dst)
    (broadcastInDim (⟨1, ![1700000]⟩ : Shape) ![] h.bE (constant (F := Ideal) (⟨0, ![]⟩ : Shape) .f32 0x3F800000#32))

/-- The factors: g (degree). -/
def dinvV (dst : (⟨1, ![1700000]⟩ : Shape).Idx → BitVec 32) : FVec Ideal ⟨1, ![100000]⟩ .f32 :=
  select (cmpf (F := Ideal) .ogt (degV h dst) (zerosN h)) (Host.rsqrt (F := Ideal) (degV h dst)) (zerosN h)

/-- The weights: the factor of the source row times the factor of the destination row. -/
def normV (src dst : (⟨1, ![1700000]⟩ : Shape).Idx → BitVec 32) : FVec Ideal ⟨1, ![1700000]⟩ .f32 :=
  mulf (F := Ideal) (Host.gather (numGather 100000 1700000 h.wfn) (dinvV h dst) (colV h (wrapV h src)))
    (Host.gather (numGather 100000 1700000 h.wfn) (dinvV h dst) (colV h (wrapV h dst)))

/-- The messages: the gathered source rows scaled by the weights. -/
def msgV (src dst : (⟨1, ![1700000]⟩ : Shape).Idx → BitVec 32) (xl : FVec Ideal ⟨2, ![100000, C]⟩ .f32) :
    FVec Ideal ⟨2, ![1700000, C]⟩ .f32 :=
  mulf (F := Ideal) (Host.gather (rowGather 100000 1700000 C h.wfg) xl (colV h (wrapV h src)))
    (broadcastInDim (⟨2, ![1700000, C]⟩ : Shape) ![0, 1] h.bEC (colV h (normV h src dst)))

/-- The messages scattered into zeros at the destination words. -/
def scatV (dst : (⟨1, ![1700000]⟩ : Shape).Idx → BitVec 32) (msg : FVec Ideal ⟨2, ![1700000, C]⟩ .f32) :
    FVec Ideal ⟨2, ![100000, C]⟩ .f32 :=
  Host.scatterAdd (F := Ideal) (rowScatter 100000 1700000 C h.wfs)
    (broadcastInDim (⟨2, ![100000, C]⟩ : Shape) ![] h.bNC (constant (F := Ideal) (⟨0, ![]⟩ : Shape) .f32 0x00000000#32))
    (colV h dst) msg

/-- The bias row on every node. -/
def biasV (b : FVec Ideal ⟨1, ![C]⟩ .f32) : FVec Ideal ⟨2, ![100000, C]⟩ .f32 :=
  broadcastInDim (⟨2, ![100000, C]⟩ : Shape) ![0, 1] h.bB2 (broadcastInDim (⟨2, ![1, C]⟩ : Shape) ![1] h.bB1 b)

/-- One convolution. -/
def convOps (sw dw : (⟨1, ![1600000]⟩ : Shape).Idx → BitVec 32) (xl : FVec Ideal ⟨2, ![100000, C]⟩ .f32)
    (b : FVec Ideal ⟨1, ![C]⟩ .f32) : FVec Ideal ⟨2, ![100000, C]⟩ .f32 :=
  addf (F := Ideal) (scatV h (longList h dw) (msgV h (longList h sw) (longList h dw) xl)) (biasV h b)

/-! ## The operations read at an index -/

/-- A broadcast scalar is that scalar everywhere. -/
theorem bcast0_apply {α : Type} {t : Shape} (dims : Fin (⟨0, ![]⟩ : Shape).rank → Fin t.rank)
    (hb : (⟨0, ![]⟩ : Shape).BroadcastsInDim t dims) (x : (⟨0, ![]⟩ : Shape).Idx → α) (j : t.Idx) :
    broadcastInDim t dims hb x j = x ix0 :=
  broadcastInDim_apply dims hb x j ix0 (fun a => a.elim0)

theorem zerosN_apply (j : (⟨1, ![100000]⟩ : Shape).Idx) : zerosN h j = 0 :=
  (bcast0_apply _ h.bN _ j).trans Ideal.ofBits_zero_f32

theorem longList_apply (a : (⟨1, ![1600000]⟩ : Shape).Idx → BitVec 32) (e : Fin 1700000) :
    longList h a (ix1 e) = if he : e.val < 1600000 then a (ix1 ⟨e.val, he⟩) else BitVec.ofNat 32 (e.val - 1600000) :=
  concat_edges_apply a h.cat e

theorem wrapV_apply (w : (⟨1, ![1700000]⟩ : Shape).Idx → BitVec 32) (j : (⟨1, ![1700000]⟩ : Shape).Idx) :
    wrapV h w j = wrapW (w j) := by
  have e0 : broadcastInDim (⟨1, ![1700000]⟩ : Shape) ![] h.bE (constantI (⟨0, ![]⟩ : Shape) 32 0#32) j = 0#32 :=
    bcast0_apply _ h.bE _ j
  have e1 : broadcastInDim (⟨1, ![1700000]⟩ : Shape) ![] h.bE (constantI (⟨0, ![]⟩ : Shape) 32 100000#32) j
      = 100000#32 := bcast0_apply _ h.bE _ j
  show Scalar.select (IntOp.cmpi .slt (w j)
      (broadcastInDim (⟨1, ![1700000]⟩ : Shape) ![] h.bE (constantI (⟨0, ![]⟩ : Shape) 32 0#32) j))
    (IntOp.addi (w j) (broadcastInDim (⟨1, ![1700000]⟩ : Shape) ![] h.bE (constantI (⟨0, ![]⟩ : Shape) 32 100000#32) j))
    (w j) = _
  rw [e0, e1]
  rfl

theorem colV_apply {α : Type} (w : (⟨1, ![1700000]⟩ : Shape).Idx → α) (e : Fin 1700000) :
    colV h w (ix2 e 0) = w (ix1 e) :=
  broadcastInDim_apply _ h.bCol w (ix2 e 0) (ix1 e) (fun a => match a with
    | ⟨0, _⟩ => by show e.val = if (1700000 : Nat) = 1 then 0 else e.val; rw [if_neg (by decide)])

/-- The host's scatter that adds, at the extended reals. -/
theorem hostScatterAdd_eq {s si su : Shape} {w : ℕ} {φ : FTy} (d : ScatterDims s si su) (x : FVec Ideal s φ) (idx : IVec si w)
    (upd : FVec Ideal su φ) : Host.scatterAdd d x idx upd = Ideal.hostScatterAdd d x idx upd := rfl

theorem hostRsqrt_apply {s : Shape} {φ : FTy} (x : FVec Ideal s φ) (i : s.Idx) : Host.rsqrt x i = Ideal.rsqrt (x i) := rfl

/-- The constant 1.0 is the float 1.0. -/
theorem one_const : constant (F := Ideal) (⟨0, ![]⟩ : Shape) .f32 0x3F800000#32 ix0 = oneE := by
  unfold constant oneE
  rw [Ideal.ofBits_def]

theorem onesE_apply (j : (⟨1, ![1700000]⟩ : Shape).Idx) :
    broadcastInDim (⟨1, ![1700000]⟩ : Shape) ![] h.bE (constant (F := Ideal) (⟨0, ![]⟩ : Shape) .f32 0x3F800000#32) j = oneE :=
  (bcast0_apply _ h.bE (constant (F := Ideal) (⟨0, ![]⟩ : Shape) .f32 0x3F800000#32) j).trans one_const

theorem zerosNC_apply (j : (⟨2, ![100000, C]⟩ : Shape).Idx) :
    broadcastInDim (⟨2, ![100000, C]⟩ : Shape) ![] h.bNC (constant (F := Ideal) (⟨0, ![]⟩ : Shape) .f32 0x00000000#32) j = 0 :=
  (bcast0_apply _ h.bNC _ j).trans Ideal.ofBits_zero_f32

theorem degV_apply (dst : (⟨1, ![1700000]⟩ : Shape).Idx → BitVec 32) (i : Fin 100000) :
    degV h dst (ix1 i) = GCN.degR oneE (fun e => dst (ix1 e)) i := by
  unfold degV GCN.degR
  rw [hostScatterAdd_eq, scatterAdd_nums_apply, zerosN_apply,
    lands_eq (colV h dst) (fun e => dst (ix1 e)) (fun e => colV_apply h dst e),
    Finset.sum_congr rfl (fun e _ => onesE_apply h (ix1 e))]

theorem dinvV_apply (dst : (⟨1, ![1700000]⟩ : Shape).Idx → BitVec 32) (i : Fin 100000) :
    dinvV h dst (ix1 i) = GCN.dinvR gD oneE (fun e => dst (ix1 e)) i := by
  unfold dinvV GCN.dinvR gD
  rw [select_apply, cmpf_apply, Ideal.cmpf_def, hostRsqrt_apply, zerosN_apply, degV_apply]

theorem normV_apply (src dst : (⟨1, ![1700000]⟩ : Shape).Idx → BitVec 32) (e : Fin 1700000) :
    normV h src dst (ix1 e) = GCN.normR gD oneE (fun e => dst (ix1 e)) (fun e => rowW (src (ix1 e))) (fun e => rowW (dst (ix1 e))) e := by
  unfold normV GCN.normR
  dsimp only
  rw [mulf_apply,
    gather_nums_stage h.wfn (dinvV h dst) (colV h (wrapV h src)) (fun e => src (ix1 e))
      (fun e => by rw [colV_apply, wrapV_apply]) e,
    gather_nums_stage h.wfn (dinvV h dst) (colV h (wrapV h dst)) (fun e => dst (ix1 e))
      (fun e => by rw [colV_apply, wrapV_apply]) e,
    dinvV_apply, dinvV_apply]

/-- A column broadcast along the rows' entries reads the column. -/
theorem bEC_apply {α : Type} (v : (⟨2, ![1700000, 1]⟩ : Shape).Idx → α) (e : Fin 1700000) (k : Fin C) :
    broadcastInDim (⟨2, ![1700000, C]⟩ : Shape) ![0, 1] h.bEC v (ix2 e k) = v (ix2 e 0) :=
  broadcastInDim_apply _ h.bEC v (ix2 e k) (ix2 e 0) (fun a => match a with
    | ⟨0, _⟩ => by show e.val = if (1700000 : Nat) = 1 then 0 else e.val; rw [if_neg (by decide)]
    | ⟨1, _⟩ => by show (0 : Nat) = if (1 : Nat) = 1 then 0 else k.val; rw [if_pos rfl])

theorem msgV_apply (src dst : (⟨1, ![1700000]⟩ : Shape).Idx → BitVec 32) (xl : FVec Ideal ⟨2, ![100000, C]⟩ .f32)
    (e : Fin 1700000) (k : Fin C) :
    msgV h src dst xl (ix2 e k) = xl (ix2 (rowW (src (ix1 e))) k) * GCN.normR gD oneE (fun e => dst (ix1 e)) (fun e => rowW (src (ix1 e))) (fun e => rowW (dst (ix1 e))) e := by
  unfold msgV
  rw [mulf_apply,
    gather_rows_stage h.wfg xl (colV h (wrapV h src)) (fun e => src (ix1 e))
      (fun e => by rw [colV_apply, wrapV_apply]) e k,
    bEC_apply h, colV_apply, normV_apply]

theorem scatV_apply (dst : (⟨1, ![1700000]⟩ : Shape).Idx → BitVec 32) (msg : FVec Ideal ⟨2, ![1700000, C]⟩ .f32)
    (f : Fin 1700000 → Fin C → EReal) (hmsg : ∀ e n, msg (ix2 e n) = f e n) (i : Fin 100000) (n : Fin C) :
    scatV h dst msg (ix2 i n) = 0 + ∑ e ∈ GCN.lands (fun e => dst (ix1 e)) i, f e n := by
  unfold scatV
  rw [hostScatterAdd_eq,
    scatter_rows_stage h.wfs
      (broadcastInDim (⟨2, ![100000, C]⟩ : Shape) ![] h.bNC (constant (F := Ideal) (⟨0, ![]⟩ : Shape) .f32 0x00000000#32))
      (colV h dst) msg (fun e => dst (ix1 e)) f (zerosNC_apply h) (fun e => colV_apply h dst e) hmsg i n]

theorem biasV_apply (b : FVec Ideal ⟨1, ![C]⟩ .f32) (i : Fin 100000) (n : Fin C) :
    biasV h b (ix2 i n) = b (ix1 n) := by
  have hn := n.isLt
  unfold biasV
  rw [broadcastInDim_apply _ h.bB2 _ (ix2 i n) (ix2 (0 : Fin 1) n) (fun a => match a with
      | ⟨0, _⟩ => by show (0 : Nat) = if (1 : Nat) = 1 then 0 else i.val; rw [if_pos rfl]
      | ⟨1, _⟩ => by
        show n.val = if C = 1 then 0 else n.val
        split
        · omega
        · rfl),
    broadcastInDim_apply _ h.bB1 b (ix2 (0 : Fin 1) n) (ix1 n) (fun a => match a with
      | ⟨0, _⟩ => by
        show n.val = if C = 1 then 0 else n.val
        split
        · omega
        · rfl)]

/-- ONE CONVOLUTION READ AT (i, n): the second arrangement, over the long lists of the two rows of edge words. -/
theorem convOps_apply (sw dw : (⟨1, ![1600000]⟩ : Shape).Idx → BitVec 32) (xl : FVec Ideal ⟨2, ![100000, C]⟩ .f32)
    (b : FVec Ideal ⟨1, ![C]⟩ .f32) (i : Fin 100000) (n : Fin C) :
    convOps h sw dw xl b (ix2 i n)
      = GCN.convR gD oneE (fun e => longList h dw (ix1 e)) (fun e => rowW (longList h sw (ix1 e)))
          (fun e => rowW (longList h dw (ix1 e))) (fun j k => xl (ix2 j k)) (fun k => b (ix1 k)) i n := by
  unfold convOps GCN.convR
  dsimp only
  rw [addf_apply,
    scatV_apply h (longList h dw) (msgV h (longList h sw) (longList h dw) xl)
      (fun e n => xl (ix2 (rowW (longList h sw (ix1 e))) n)
        * GCN.normR gD oneE (fun e => longList h dw (ix1 e)) (fun e => rowW (longList h sw (ix1 e)))
            (fun e => rowW (longList h dw (ix1 e))) e)
      (fun e n => msgV_apply h (longList h sw) (longList h dw) xl e n) i n,
    biasV_apply]

end Conv

end Cert.ReferenceIdeal.RefValue

end
-- ==== Proof.LibLinear.lean ====
/-
  A matrix product against a transposed weight matrix, read at an index, at the ideal values.

  `X` has rows of `K` numbers and `W` has `n` rows of `K` numbers; entry `(a, b)` of `X · Wᵀ` is the sum over `c` of
  `X[a, c] · W[b, c]`. The matrix unit computes it contracting the LAST axis of both operands into a zero
  accumulator; the host computes it as a plain product with the transposed matrix. Both are that sum.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Linear

open Idealize.ShloMosaic Idealize.ShloMosaic.ValueIdx

variable {M K n : Nat} {φ₁ φ₂ : FTy}

/-- The matrix unit's product contracting the last axis of both operands, into the zero accumulator. -/
theorem matmul_lastAxes_apply (w : DotDims.WF ⟨2, ![M, K]⟩ ⟨2, ![n, K]⟩ ⟨2, ![M, n]⟩ [1] [1] [0] [0] [] [])
    (prec : Option ContractPrecision) (A : FVec Ideal ⟨2, ![M, K]⟩ φ₁) (B : FVec Ideal ⟨2, ![n, K]⟩ φ₂) (a : Fin M) (b : Fin n) :
    FloatOps.matmul (⟨[1], [1], [0], [0], [], [], w⟩ : DotDims ⟨2, ![M, K]⟩ ⟨2, ![n, K]⟩ ⟨2, ![M, n]⟩) prec A B
        (constant ⟨2, ![M, n]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], w⟩ : DotDims ⟨2, ![M, K]⟩ ⟨2, ![n, K]⟩ ⟨2, ![M, n]⟩) K rfl rfl).symm]
  refine Finset.sum_congr rfl fun c _ => ?_
  have c2 := contrEquiv1_symm_val
    (⟨[1], [1], [0], [0], [], [], w⟩ : DotDims ⟨2, ![M, K]⟩ ⟨2, ![n, K]⟩ ⟨2, ![M, n]⟩) K rfl rfl c
  have l2 : (⟨[1], [1], [0], [0], [], [], w⟩ : DotDims ⟨2, ![M, K]⟩ ⟨2, ![n, K]⟩ ⟨2, ![M, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![n, K]⟩ ⟨2, ![M, n]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The host's plain product with an operand on the right, read at an index. -/
theorem dotGeneral_plain_apply (w : DotDims.WF ⟨2, ![M, K]⟩ ⟨2, ![K, n]⟩ ⟨2, ![M, n]⟩ [1] [0] [0] [1] [] [])
    (prec : Option ContractPrecision) (A : FVec Ideal ⟨2, ![M, K]⟩ φ₁) (B : FVec Ideal ⟨2, ![K, n]⟩ φ₂) (a : Fin M) (b : Fin n) :
    Host.dotGeneral (⟨[1], [0], [0], [1], [], [], w⟩ : DotDims ⟨2, ![M, K]⟩ ⟨2, ![K, n]⟩ ⟨2, ![M, n]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, n]⟩ ⟨2, ![M, n]⟩) K rfl rfl).symm]
  refine Finset.sum_congr rfl fun c _ => ?_
  have c2 := contrEquiv1_symm_val
    (⟨[1], [0], [0], [1], [], [], w⟩ : DotDims ⟨2, ![M, K]⟩ ⟨2, ![K, n]⟩ ⟨2, ![M, n]⟩) K rfl rfl c
  have l2 : (⟨[1], [0], [0], [1], [], [], w⟩ : DotDims ⟨2, ![M, K]⟩ ⟨2, ![K, n]⟩ ⟨2, ![M, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, n]⟩ ⟨2, ![M, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The column forms of the layout operations -/

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Linear

end
-- ==== Proof.Ref.Slices.lean ====
/-
  The slices of the program's arguments that one relation's convolution reads, and the linear step, over variables.

  The two rows of edge words of relation r are slices of the edge array (relation r, then row 0 or 1, each followed by
  the reshape that drops the unit axis); the weight matrix and the bias row of relation r are slices of the weight and
  bias arrays; the linear step is the plain matrix product x · W[r]. Generic in the width C; the side conditions of the
  slices, reshapes and of the product are the fields of the structure SliceSide.
-/
import proofs.«128058_j54425825575251_2_alg».proof.Proof.SpecNet
import proofs.«128058_j54425825575251_2_alg».proof.Proof.LibLinear
import Idealize.ShloMosaic.Lib.Pipeline.Value

noncomputable section

namespace Cert.ReferenceIdeal.RefValue

open Idealize.ShloMosaic Idealize.ShloMosaic.ValueIdx Cert.Net

/-- The side conditions of the slices of relation r at width C, and of the matrix product. -/
structure SliceSide (C r : ℕ) : Prop where
  e1 : (⟨3, ![3, 2, 1600000]⟩ : Shape).Slices ![r, 0, 0] ⟨3, ![1, 2, 1600000]⟩
  c1 : (⟨3, ![1, 2, 1600000]⟩ : Shape).ShapeCasts ⟨2, ![2, 1600000]⟩
  e20 : (⟨2, ![2, 1600000]⟩ : Shape).Slices ![0, 0] ⟨2, ![1, 1600000]⟩
  e21 : (⟨2, ![2, 1600000]⟩ : Shape).Slices ![1, 0] ⟨2, ![1, 1600000]⟩
  c2 : (⟨2, ![1, 1600000]⟩ : Shape).ShapeCasts ⟨1, ![1600000]⟩
  w1 : (⟨3, ![3, 128, C]⟩ : Shape).Slices ![r, 0, 0] ⟨3, ![1, 128, C]⟩
  wc : (⟨3, ![1, 128, C]⟩ : Shape).ShapeCasts ⟨2, ![128, C]⟩
  b1 : (⟨2, ![3, C]⟩ : Shape).Slices ![r, 0] ⟨2, ![1, C]⟩
  bc : (⟨2, ![1, C]⟩ : Shape).ShapeCasts ⟨1, ![C]⟩
  wdot : DotDims.WF ⟨2, ![100000, 128]⟩ ⟨2, ![128, C]⟩ ⟨2, ![100000, C]⟩ [1] [0] [0] [1] [] []

section Slices
variable {C r : ℕ} (hs : SliceSide C r)

/-! ## The slices -/

/-- Row `row` (0: sources, 1: destinations) of relation r's edge words. -/
def edgeRow (row : ℕ) (hrow : (⟨2, ![2, 1600000]⟩ : Shape).Slices ![row, 0] ⟨2, ![1, 1600000]⟩) (ei : EI) :
    (⟨1, ![1600000]⟩ : Shape).Idx → BitVec 32 :=
  shapeCast (⟨1, ![1600000]⟩ : Shape)
    (extractStridedSlice (⟨2, ![1, 1600000]⟩ : Shape) ![row, 0]
      (shapeCast (⟨2, ![2, 1600000]⟩ : Shape)
        (extractStridedSlice (⟨3, ![1, 2, 1600000]⟩ : Shape) ![r, 0, 0] ei hs.e1) hs.c1) hrow) hs.c2

/-- Relation r's weight matrix. -/
def wMat (W : FVec Ideal ⟨3, ![3, 128, C]⟩ .f32) : FVec Ideal ⟨2, ![128, C]⟩ .f32 :=
  shapeCast (⟨2, ![128, C]⟩ : Shape) (extractStridedSlice (⟨3, ![1, 128, C]⟩ : Shape) ![r, 0, 0] W hs.w1) hs.wc

/-- Relation r's bias row. -/
def bRow (B : FVec Ideal ⟨2, ![3, C]⟩ .f32) : FVec Ideal ⟨1, ![C]⟩ .f32 :=
  shapeCast (⟨1, ![C]⟩ : Shape) (extractStridedSlice (⟨2, ![1, C]⟩ : Shape) ![r, 0] B hs.b1) hs.bc

/-- The linear step x · W[r]. -/
def linV (x : FVec Ideal ⟨2, ![100000, 128]⟩ .f32) (W : FVec Ideal ⟨3, ![3, 128, C]⟩ .f32) :
    FVec Ideal ⟨2, ![100000, C]⟩ .f32 :=
  Host.dotGeneral (⟨[1], [0], [0], [1], [], [], hs.wdot⟩ : DotDims ⟨2, ![100000, 128]⟩ ⟨2, ![128, C]⟩ ⟨2, ![100000, C]⟩)
    none x (wMat hs W)

variable (hr : r < 3)

theorem edgeRow_apply (row : ℕ) (hrow2 : row < 2)
    (hrow : (⟨2, ![2, 1600000]⟩ : Shape).Slices ![row, 0] ⟨2, ![1, 1600000]⟩) (ei : EI) (e : Fin 1600000) :
    edgeRow hs row hrow ei (ix1 e) = ei (ix3 (⟨r, hr⟩ : Fin 3) (⟨row, hrow2⟩ : Fin 2) e) := by
  unfold edgeRow
  rw [shapeCast_apply _ hs.c2 (ix1 e) (ix2 (0 : Fin 1) e) (by
      rw [Shape.rowMajor_val_two, Shape.rowMajor_val_one]
      show 0 * 1600000 + e.val = e.val
      omega),
    extractStridedSlice_apply ![row, 0] _ hrow (ix2 (0 : Fin 1) e) (ix2 (⟨row, hrow2⟩ : Fin 2) e) (fun a => match a with
      | ⟨0, _⟩ => by show row = row + 0; omega
      | ⟨1, _⟩ => by show e.val = 0 + e.val; omega),
    shapeCast_apply _ hs.c1 (ix2 (⟨row, hrow2⟩ : Fin 2) e) (ix3 (0 : Fin 1) (⟨row, hrow2⟩ : Fin 2) e) (by
      rw [Shape.rowMajor_val_three, Shape.rowMajor_val_two]
      show (0 * 2 + row) * 1600000 + e.val = row * 1600000 + e.val
      omega),
    extractStridedSlice_apply ![r, 0, 0] ei hs.e1 (ix3 (0 : Fin 1) (⟨row, hrow2⟩ : Fin 2) e)
      (ix3 (⟨r, hr⟩ : Fin 3) (⟨row, hrow2⟩ : Fin 2) e) (fun a => match a with
      | ⟨0, _⟩ => by show r = r + 0; omega
      | ⟨1, _⟩ => by show row = 0 + row; omega
      | ⟨2, _⟩ => by show e.val = 0 + e.val; omega)]

theorem wMat_apply (W : FVec Ideal ⟨3, ![3, 128, C]⟩ .f32) (k : Fin 128) (n : Fin C) :
    wMat hs W (ix2 k n) = W (ix3 (⟨r, hr⟩ : Fin 3) k n) := by
  unfold wMat
  rw [shapeCast_apply _ hs.wc (ix2 k n) (ix3 (0 : Fin 1) k n) (by
      rw [Shape.rowMajor_val_three, Shape.rowMajor_val_two]
      show (0 * 128 + k.val) * C + n.val = k.val * C + n.val
      rw [Nat.zero_mul, Nat.zero_add]),
    extractStridedSlice_apply ![r, 0, 0] W hs.w1 (ix3 (0 : Fin 1) k n) (ix3 (⟨r, hr⟩ : Fin 3) k n) (fun a => match a with
      | ⟨0, _⟩ => by show r = r + 0; omega
      | ⟨1, _⟩ => by show k.val = 0 + k.val; omega
      | ⟨2, _⟩ => by show n.val = 0 + n.val; omega)]

theorem bRow_apply (B : FVec Ideal ⟨2, ![3, C]⟩ .f32) (n : Fin C) :
    bRow hs B (ix1 n) = B (ix2 (⟨r, hr⟩ : Fin 3) n) := by
  unfold bRow
  rw [shapeCast_apply _ hs.bc (ix1 n) (ix2 (0 : Fin 1) n) (by
      rw [Shape.rowMajor_val_two, Shape.rowMajor_val_one]
      show 0 * C + n.val = n.val
      rw [Nat.zero_mul, Nat.zero_add]),
    extractStridedSlice_apply ![r, 0] B hs.b1 (ix2 (0 : Fin 1) n) (ix2 (⟨r, hr⟩ : Fin 3) n) (fun a => match a with
      | ⟨0, _⟩ => by show r = r + 0; omega
      | ⟨1, _⟩ => by show n.val = 0 + n.val; omega)]

theorem linV_apply (x : FVec Ideal ⟨2, ![100000, 128]⟩ .f32) (W : FVec Ideal ⟨3, ![3, 128, C]⟩ .f32)
    (j : Fin 100000) (n : Fin C) :
    linV hs x W (ix2 j n) = lin (fun i k => x (ix2 i k)) (fun r k n => W (ix3 r k n)) (⟨r, hr⟩ : Fin 3) j n := by
  unfold linV lin
  rw [Cert.Linear.dotGeneral_plain_apply]
  refine Finset.sum_congr rfl fun k _ => ?_
  rw [wMat_apply hs hr]

end Slices

end Cert.ReferenceIdeal.RefValue

end
-- ==== Proof.Ref.Block.lean ====
/-
  One relation's convolution from the program's arguments, as a composition of array operations over variables, and
  what it computes.

  The two rows of edge words of relation r are slices of the edge array; the weight matrix and the bias row of
  relation r are slices of the weight and bias arrays; the linear step is the plain matrix product. The long lists of
  the convolution are then the long lists srcW', dstW' of relation r, and the convolution read at (i, n) is
  Cert.Net.convR. Generic in the width C and the relation r.
-/
import proofs.«128058_j54425825575251_2_alg».proof.Proof.Ref.Conv
import proofs.«128058_j54425825575251_2_alg».proof.Proof.Ref.Slices

noncomputable section

namespace Cert.ReferenceIdeal.RefValue

open Idealize.ShloMosaic Idealize.ShloMosaic.ValueIdx Cert.Net Cert.EdgeOps

section Block
variable {C r : ℕ} (h : Side C) (hs : SliceSide C r)

/-- Relation r's convolution from the arguments. -/
def convBlock (x : FVec Ideal ⟨2, ![100000, 128]⟩ .f32) (ei : EI) (W : FVec Ideal ⟨3, ![3, 128, C]⟩ .f32)
    (B : FVec Ideal ⟨2, ![3, C]⟩ .f32) : FVec Ideal ⟨2, ![100000, C]⟩ .f32 :=
  convOps h (edgeRow hs 0 hs.e20 ei) (edgeRow hs 1 hs.e21 ei) (linV hs x W) (bRow hs B)

variable (hr : r < 3)

theorem srcList_apply (ei : EI) (e : Fin 1700000) :
    longList h (edgeRow hs 0 hs.e20 ei) (ix1 e) = srcW' ei (⟨r, hr⟩ : Fin 3) e := by
  rw [longList_apply]
  unfold srcW'
  by_cases he : e.val < 1600000
  · rw [dif_pos he, dif_pos he, edgeRow_apply hs hr 0 (by decide) hs.e20]
    rfl
  · rw [dif_neg he, dif_neg he]

theorem dstList_apply (ei : EI) (e : Fin 1700000) :
    longList h (edgeRow hs 1 hs.e21 ei) (ix1 e) = dstW' ei (⟨r, hr⟩ : Fin 3) e := by
  rw [longList_apply]
  unfold dstW'
  by_cases he : e.val < 1600000
  · rw [dif_pos he, dif_pos he, edgeRow_apply hs hr 1 (by decide) hs.e21]
    rfl
  · rw [dif_neg he, dif_neg he]

/-- RELATION r'S CONVOLUTION READ AT (i, n). -/
theorem convBlock_apply (x : FVec Ideal ⟨2, ![100000, 128]⟩ .f32) (ei : EI) (W : FVec Ideal ⟨3, ![3, 128, C]⟩ .f32)
    (B : FVec Ideal ⟨2, ![3, C]⟩ .f32) (i : Fin 100000) (n : Fin C) :
    convBlock h hs x ei W B (ix2 i n)
      = convR ei (lin (fun i k => x (ix2 i k)) (fun r k n => W (ix3 r k n))) (fun r n => B (ix2 r n)) (⟨r, hr⟩ : Fin 3) i n := by
  unfold convBlock Net.convR
  rw [convOps_apply]
  simp only [srcList_apply h hs hr, dstList_apply h hs hr, linV_apply hs hr, bRow_apply hs hr]

end Block

end Cert.ReferenceIdeal.RefValue

end
-- ==== Proof.Ref.Layer.lean ====
/-
  One layer and both layers of the network as compositions of array operations over variables, and what they compute.

  One layer sums the three relations' convolutions from zero and divides by the float 3.0; a maximum with zero sits
  between the layers. Read at an index these are Cert.Net.layerR and netR.
-/
import proofs.«128058_j54425825575251_2_alg».proof.Proof.Ref.Block

noncomputable section

namespace Cert.ReferenceIdeal.RefValue

open Idealize.ShloMosaic Idealize.ShloMosaic.ValueIdx Cert.Net Cert.EdgeOps

/-! ## One layer and both layers -/

section Layer
variable {C : ℕ} (h : Side C) (h0 : SliceSide C 0) (h1 : SliceSide C 1) (h2 : SliceSide C 2)

/-- One layer: the three relations' convolutions summed from zero, divided by the float 3.0. -/
def layerOps (x : FVec Ideal ⟨2, ![100000, 128]⟩ .f32) (ei : EI) (W : FVec Ideal ⟨3, ![3, 128, C]⟩ .f32)
    (B : FVec Ideal ⟨2, ![3, C]⟩ .f32) : FVec Ideal ⟨2, ![100000, C]⟩ .f32 :=
  Host.divf (F := Ideal)
    (addf (F := Ideal) (addf (F := Ideal) (addf (F := Ideal)
      (broadcastInDim (⟨2, ![100000, C]⟩ : Shape) ![] h.bNC (constant (F := Ideal) (⟨0, ![]⟩ : Shape) .f32 0x00000000#32))
      (convBlock h h0 x ei W B)) (convBlock h h1 x ei W B)) (convBlock h h2 x ei W B))
    (broadcastInDim (⟨2, ![100000, C]⟩ : Shape) ![] h.bNC (constant (F := Ideal) (⟨0, ![]⟩ : Shape) .f32 0x40400000#32))

/-- ONE LAYER READ AT (i, n). -/
theorem layerOps_apply (x : FVec Ideal ⟨2, ![100000, 128]⟩ .f32) (ei : EI) (W : FVec Ideal ⟨3, ![3, 128, C]⟩ .f32)
    (B : FVec Ideal ⟨2, ![3, C]⟩ .f32) (i : Fin 100000) (n : Fin C) :
    layerOps h h0 h1 h2 x ei W B (ix2 i n)
      = layerR ei (fun i k => x (ix2 i k)) (fun r k n => W (ix3 r k n)) (fun r n => B (ix2 r n))
          (Ideal.ofBits .f32 0x40400000#32) i n := by
  have z : broadcastInDim (⟨2, ![100000, C]⟩ : Shape) ![] h.bNC
      (constant (F := Ideal) (⟨0, ![]⟩ : Shape) .f32 0x00000000#32) (ix2 i n) = 0 :=
    (bcast0_apply _ h.bNC _ _).trans Ideal.ofBits_zero_f32
  have t : broadcastInDim (⟨2, ![100000, C]⟩ : Shape) ![] h.bNC
      (constant (F := Ideal) (⟨0, ![]⟩ : Shape) .f32 0x40400000#32) (ix2 i n) = Ideal.ofBits .f32 0x40400000#32 :=
    bcast0_apply _ h.bNC _ _
  have hd : ∀ a b : FVec Ideal ⟨2, ![100000, C]⟩ .f32,
      Host.divf (F := Ideal) a b (ix2 i n) = Ideal.div (a (ix2 i n)) (b (ix2 i n)) := fun _ _ => rfl
  unfold layerOps layerR
  rw [hd, addf_apply, addf_apply, addf_apply, z, t,
    convBlock_apply h h0 (by decide), convBlock_apply h h1 (by decide), convBlock_apply h h2 (by decide)]
  rfl

/-- The maximum with zero. -/
def reluV (v : FVec Ideal ⟨2, ![100000, C]⟩ .f32) : FVec Ideal ⟨2, ![100000, C]⟩ .f32 :=
  maximumf (F := Ideal) v
    (broadcastInDim (⟨2, ![100000, C]⟩ : Shape) ![] h.bNC (constant (F := Ideal) (⟨0, ![]⟩ : Shape) .f32 0x00000000#32))

theorem reluV_apply (v : FVec Ideal ⟨2, ![100000, C]⟩ .f32) (i : Fin 100000) (k : Fin C) :
    reluV h v (ix2 i k) = max (v (ix2 i k)) 0 := by
  have z : broadcastInDim (⟨2, ![100000, C]⟩ : Shape) ![] h.bNC
      (constant (F := Ideal) (⟨0, ![]⟩ : Shape) .f32 0x00000000#32) (ix2 i k) = 0 :=
    (bcast0_apply _ h.bNC _ _).trans Ideal.ofBits_zero_f32
  unfold reluV
  rw [maximumf_apply, z]

end Layer

section Net
variable (g : Side 128) (g0 : SliceSide 128 0) (g1 : SliceSide 128 1) (g2 : SliceSide 128 2)
  (h : Side 64) (h0 : SliceSide 64 0) (h1 : SliceSide 64 1) (h2 : SliceSide 64 2)

/-- Both layers. -/
def netOps (x : FVec Ideal ⟨2, ![100000, 128]⟩ .f32) (ei : EI) (w1 : FVec Ideal ⟨3, ![3, 128, 128]⟩ .f32)
    (b1 : FVec Ideal ⟨2, ![3, 128]⟩ .f32) (w2 : FVec Ideal ⟨3, ![3, 128, 64]⟩ .f32) (b2 : FVec Ideal ⟨2, ![3, 64]⟩ .f32) :
    FVec Ideal ⟨2, ![100000, 64]⟩ .f32 :=
  layerOps h h0 h1 h2 (reluV g (layerOps g g0 g1 g2 x ei w1 b1)) ei w2 b2

/-- BOTH LAYERS READ AT (i, n): the second arrangement of the network. -/
theorem netOps_apply (x : FVec Ideal ⟨2, ![100000, 128]⟩ .f32) (ei : EI) (w1 : FVec Ideal ⟨3, ![3, 128, 128]⟩ .f32)
    (b1 : FVec Ideal ⟨2, ![3, 128]⟩ .f32) (w2 : FVec Ideal ⟨3, ![3, 128, 64]⟩ .f32) (b2 : FVec Ideal ⟨2, ![3, 64]⟩ .f32)
    (i : Fin 100000) (n : Fin 64) :
    netOps g g0 g1 g2 h h0 h1 h2 x ei w1 b1 w2 b2 (ix2 i n)
      = netR ei (fun i k => x (ix2 i k)) (fun r k n => w1 (ix3 r k n)) (fun r n => b1 (ix2 r n))
          (fun r k n => w2 (ix3 r k n)) (fun r n => b2 (ix2 r n)) (Ideal.ofBits .f32 0x40400000#32) i n := by
  unfold netOps netR
  rw [layerOps_apply]
  simp only [reluV_apply, layerOps_apply]

end Net

end Cert.ReferenceIdeal.RefValue

end
-- ==== Proof.Ref.Result.lean ====
/-
  The reference's result is the network in its second arrangement, over the program's arguments.

  The reference's result is one long composition of array operations of its six arguments. The side conditions of
  those operations at the program's shapes (widths 128 and 64, relations 0, 1, 2) are the program's own; with them
  the composition is, operation by operation, both layers as composed over variables: two layers, each the three
  relations' convolutions summed from zero and divided by the float 3.0, a maximum with zero between them. Read at
  (i, n) it is therefore the network's second arrangement of the arguments' entries.
-/
import proofs.«128058_j54425825575251_2_alg».proof.Proof.Ref.Layer
import proofs.«128058_j54425825575251_2_alg».proof.Proof.RefP.Run

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Net Cert.EdgeOps

/-! ## The side conditions at the program's shapes -/

theorem side128 : Side 128 where
  cat := concatenates_S1600000_S100000_S1700000_d0
  bE := bcast_S_S1700000
  bN := bcast_S_S100000
  bCol := bcast_S1700000_S1700000x1_0
  bEC := bcast_S1700000x1_S1700000x128_0_1
  bNC := bcast_S_S100000x128
  bB1 := bcast_S128_S1x128_1
  bB2 := bcast_S1x128_S100000x128_0_1
  wfd := scatter_S100000_S1700000x1_S1700000_n_0_0_1_wf
  wfn := gather_S100000_S1700000x1_S1700000_n_0_n_n_0_1_1_wf
  wfg := gather_S100000x128_S1700000x1_S1700000x128_1_0_n_n_0_1_1128_wf
  wfs := scatter_S100000x128_S1700000x1_S1700000x128_1_0_0_1_wf

theorem side64 : Side 64 where
  cat := concatenates_S1600000_S100000_S1700000_d0
  bE := bcast_S_S1700000
  bN := bcast_S_S100000
  bCol := bcast_S1700000_S1700000x1_0
  bEC := bcast_S1700000x1_S1700000x64_0_1
  bNC := bcast_S_S100000x64
  bB1 := bcast_S64_S1x64_1
  bB2 := bcast_S1x64_S100000x64_0_1
  wfd := scatter_S100000_S1700000x1_S1700000_n_0_0_1_wf
  wfn := gather_S100000_S1700000x1_S1700000_n_0_n_n_0_1_1_wf
  wfg := gather_S100000x64_S1700000x1_S1700000x64_1_0_n_n_0_1_164_wf
  wfs := scatter_S100000x64_S1700000x1_S1700000x64_1_0_0_1_wf

theorem slice128_0 : SliceSide 128 0 where
  e1 := slices_S3x2x1600000_S1x2x1600000_0_0_0
  c1 := shapeCasts_S1x2x1600000_S2x1600000
  e20 := slices_S2x1600000_S1x1600000_0_0
  e21 := slices_S2x1600000_S1x1600000_1_0
  c2 := shapeCasts_S1x1600000_S1600000
  w1 := slices_S3x128x128_S1x128x128_0_0_0
  wc := shapeCasts_S1x128x128_S128x128
  b1 := slices_S3x128_S1x128_0_0
  bc := shapeCasts_S1x128_S128
  wdot := dot_S100000x128_S128x128_S100000x128_1_0_0_1_n_n_wf

theorem slice64_0 : SliceSide 64 0 where
  e1 := slices_S3x2x1600000_S1x2x1600000_0_0_0
  c1 := shapeCasts_S1x2x1600000_S2x1600000
  e20 := slices_S2x1600000_S1x1600000_0_0
  e21 := slices_S2x1600000_S1x1600000_1_0
  c2 := shapeCasts_S1x1600000_S1600000
  w1 := slices_S3x128x64_S1x128x64_0_0_0
  wc := shapeCasts_S1x128x64_S128x64
  b1 := slices_S3x64_S1x64_0_0
  bc := shapeCasts_S1x64_S64
  wdot := dot_S100000x128_S128x64_S100000x64_1_0_0_1_n_n_wf

theorem slice128_1 : SliceSide 128 1 where
  e1 := slices_S3x2x1600000_S1x2x1600000_1_0_0
  c1 := shapeCasts_S1x2x1600000_S2x1600000
  e20 := slices_S2x1600000_S1x1600000_0_0
  e21 := slices_S2x1600000_S1x1600000_1_0
  c2 := shapeCasts_S1x1600000_S1600000
  w1 := slices_S3x128x128_S1x128x128_1_0_0
  wc := shapeCasts_S1x128x128_S128x128
  b1 := slices_S3x128_S1x128_1_0
  bc := shapeCasts_S1x128_S128
  wdot := dot_S100000x128_S128x128_S100000x128_1_0_0_1_n_n_wf

theorem slice64_1 : SliceSide 64 1 where
  e1 := slices_S3x2x1600000_S1x2x1600000_1_0_0
  c1 := shapeCasts_S1x2x1600000_S2x1600000
  e20 := slices_S2x1600000_S1x1600000_0_0
  e21 := slices_S2x1600000_S1x1600000_1_0
  c2 := shapeCasts_S1x1600000_S1600000
  w1 := slices_S3x128x64_S1x128x64_1_0_0
  wc := shapeCasts_S1x128x64_S128x64
  b1 := slices_S3x64_S1x64_1_0
  bc := shapeCasts_S1x64_S64
  wdot := dot_S100000x128_S128x64_S100000x64_1_0_0_1_n_n_wf

theorem slice128_2 : SliceSide 128 2 where
  e1 := slices_S3x2x1600000_S1x2x1600000_2_0_0
  c1 := shapeCasts_S1x2x1600000_S2x1600000
  e20 := slices_S2x1600000_S1x1600000_0_0
  e21 := slices_S2x1600000_S1x1600000_1_0
  c2 := shapeCasts_S1x1600000_S1600000
  w1 := slices_S3x128x128_S1x128x128_2_0_0
  wc := shapeCasts_S1x128x128_S128x128
  b1 := slices_S3x128_S1x128_2_0
  bc := shapeCasts_S1x128_S128
  wdot := dot_S100000x128_S128x128_S100000x128_1_0_0_1_n_n_wf

theorem slice64_2 : SliceSide 64 2 where
  e1 := slices_S3x2x1600000_S1x2x1600000_2_0_0
  c1 := shapeCasts_S1x2x1600000_S2x1600000
  e20 := slices_S2x1600000_S1x1600000_0_0
  e21 := slices_S2x1600000_S1x1600000_1_0
  c2 := shapeCasts_S1x1600000_S1600000
  w1 := slices_S3x128x64_S1x128x64_2_0_0
  wc := shapeCasts_S1x128x64_S128x64
  b1 := slices_S3x64_S1x64_2_0
  bc := shapeCasts_S1x64_S64
  wdot := dot_S100000x128_S128x64_S100000x64_1_0_0_1_n_n_wf

/-! ## The reference's result is the composition -/

set_option maxRecDepth 65536 in
/-- The composed term of the reference's result is, operation by operation, both layers over the program's
    arguments. -/
theorem res_ops (m : (ℓ : Loc nD τ sig) → Buf (Elt Ideal) ℓ) (c : Dev nD) :
    Cert.ReferenceIdeal.Value.res_main_v330 (F := Ideal) m c
      = netOps side128 slice128_0 slice128_1 slice128_2 side64 slice64_0 slice64_1 slice64_2
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

/-- THE REFERENCE'S RESULT READ AT (i, n): the network in its second arrangement, over the program's arguments. -/
theorem res_eq (m : (ℓ : Loc nD τ sig) → Buf (Elt Ideal) ℓ) (c : Dev nD) (i : Fin 100000) (n : Fin 64) :
    (Cert.ReferenceIdeal.Value.res_main_v330 (F := Ideal) m c : S100000x64.Idx → EReal) (ix2 i n)
      = Cert.Net.netR (m ((c.tc : Thread nD τ).loc main_arg1))
          (fun i k => (m ((c.tc : Thread nD τ).loc main_arg0) : S100000x128.Idx → EReal) (ix2 i k))
          (fun r k n => (m ((c.tc : Thread nD τ).loc main_arg2) : S3x128x128.Idx → EReal) (ix3 r k n))
          (fun r n => (m ((c.tc : Thread nD τ).loc main_arg3) : S3x128.Idx → EReal) (ix2 r n))
          (fun r k n => (m ((c.tc : Thread nD τ).loc main_arg4) : S3x128x64.Idx → EReal) (ix3 r k n))
          (fun r n => (m ((c.tc : Thread nD τ).loc main_arg5) : S3x64.Idx → EReal) (ix2 r n))
          (Ideal.ofBits .f32 0x40400000#32) i n :=
  (congrFun (res_ops m c) (ix2 i n)).trans
    (netOps_apply side128 slice128_0 slice128_1 slice128_2 side64 slice64_0 slice64_1 slice64_2
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) i n)

end Cert.ReferenceIdeal.RefValue

end
-- ==== Proof.SpecEq.lean ====
/-
  The two arrangements of the network agree.

  Per relation the single scatter over edges and self-loops is the scatter over the edges plus the self-loop term
  (GCN.convR_eq), given that the long lists extend the edge lists by the self-loops j ↦ j (Links). The average: a
  quotient by 3 is the product with 1/3 on every extended real, and the kernel's running sum is the reference's sum of
  the three relations regrouped (associativity of + only).
-/
import proofs.«128058_j54425825575251_2_alg».proof.Proof.SpecNet

noncomputable section

namespace Cert.Net

open Idealize.ShloMosaic

theorem hE : (1700000 : ℕ) = 1600000 + 100000 := rfl

/-- The long lists of every relation extend its edge lists by the self-loops: entry e of the first 1600000 is edge e;
    entry 1600000 + j is the loop at j, whose word lands on j and reads row j. -/
structure Links (ei : EI) : Prop where
  dl : ∀ r e, dstW' ei r (GCN.inl hE e) = dstW ei r e
  sl : ∀ r e, rowW (srcW' ei r (GCN.inl hE e)) = rowW (srcW ei r e)
  rl : ∀ r e, rowW (dstW' ei r (GCN.inl hE e)) = rowW (dstW ei r e)
  dr : ∀ r (j : Fin 100000), (dstW' ei r (GCN.inr hE j)).toInt = (j.val : Int)
  sr : ∀ r (j : Fin 100000), rowW (srcW' ei r (GCN.inr hE j)) = j
  rr : ∀ r (j : Fin 100000), rowW (dstW' ei r (GCN.inr hE j)) = j

variable {C : ℕ}

theorem convR_eq (ei : EI) (H : Links ei) (XL : Fin 3 → Fin 100000 → Fin C → EReal) (B : Fin 3 → Fin C → EReal)
    (r : Fin 3) (i : Fin 100000) (n : Fin C) :
    convR ei XL B r i n = (scat ei XL r i n + XL r i n * dsq ei r i) + B r n := by
  unfold convR scat dsq
  exact GCN.convR_eq gD oneE hE (dstW ei r) (fun e => rowW (srcW ei r e)) (fun e => rowW (dstW ei r e))
    (dstW' ei r) (fun e => rowW (srcW' ei r e)) (fun e => rowW (dstW' ei r e))
    (H.dl r) (H.sl r) (H.rl r) (H.dr r) (H.sr r) (H.rr r) (XL r) (B r) i n

/-- One layer: summed from zero and divided by 3, against the running sum times 1/3. -/
theorem layerR_eq (ei : EI) (H : Links ei) (X : Fin 100000 → Fin 128 → EReal) (W : Fin 3 → Fin 128 → Fin C → EReal)
    (B : Fin 3 → Fin C → EReal) (i : Fin 100000) (n : Fin C) :
    layerR ei X W B ((3 : ℝ) : EReal) i n = layerK ei X W B ((1 / 3 : ℝ) : EReal) i n := by
  unfold layerR layerK comb
  rw [convR_eq ei H, convR_eq ei H, convR_eq ei H, Ideal.div_coe (by norm_num : (3 : ℝ) ≠ 0), zero_add]
  refine congrArg (fun z => z * ((1 / 3 : ℝ) : EReal)) ?_
  simp only [add_assoc]

/-- Both layers. -/
theorem netR_eq (ei : EI) (H : Links ei) (X : Fin 100000 → Fin 128 → EReal) (W1 : Fin 3 → Fin 128 → Fin 128 → EReal)
    (B1 : Fin 3 → Fin 128 → EReal) (W2 : Fin 3 → Fin 128 → Fin 64 → EReal) (B2 : Fin 3 → Fin 64 → EReal)
    (i : Fin 100000) (n : Fin 64) :
    netR ei X W1 B1 W2 B2 ((3 : ℝ) : EReal) i n = netK ei X W1 B1 W2 B2 ((1 / 3 : ℝ) : EReal) i n := by
  unfold netR netK
  rw [layerR_eq ei H]
  have h : (fun (i : Fin 100000) (k : Fin 128) => max (layerR ei X W1 B1 ((3 : ℝ) : EReal) i k) 0)
      = fun i k => max (layerK ei X W1 B1 ((1 / 3 : ℝ) : EReal) i k) 0 := by
    funext i k; rw [layerR_eq ei H]
  rw [h]

/-- The float 3.0 denotes the real 3. -/
theorem ofBits_three : Ideal.ofBits .f32 0x40400000#32 = ((3 : ℝ) : EReal) := by
  simp [Ideal.ofBits, Ideal.ieee, -EReal.coe_mul]; norm_num

end Cert.Net

end
-- ==== Proof.Ref.Edge.lean ====
/-
  The long lists of one relation against its edges: entry e < 1600000 of a long list is edge e, entry 1600000 + j is
  the self-loop of node j, whose word is j itself. A self-loop's word is below 100000 < 2^31, so read signed it is j:
  it is not negative (not wrapped) and already inside [0, 99999] (clamped to itself).
-/
import proofs.«128058_j54425825575251_2_alg».proof.Proof.SpecEq

noncomputable section

namespace Cert.ReferenceIdeal.RefValue

open Cert.Net Idealize.ShloMosaic

theorem inl_val (e : Fin 1600000) : (GCN.inl hE e).val = e.val := rfl
theorem inr_val (j : Fin 100000) : (GCN.inr hE j).val = 1600000 + j.val := rfl

/-- The word j < 100000, read signed, is j. -/
theorem toInt_ofNat_node (j : Fin 100000) : (BitVec.ofNat 32 j.val).toInt = (j.val : Int) := by
  have hj := j.isLt
  have hm : j.val % 2 ^ 32 = j.val := Nat.mod_eq_of_lt (by omega)
  rw [BitVec.toInt_eq_toNat_cond, BitVec.toNat_ofNat, hm, if_pos (by omega)]

/-- A word that is not negative is not wrapped. -/
theorem wrapW_of_nonneg (w : BitVec 32) (h : 0 ≤ w.toInt) : wrapW w = w := by
  unfold wrapW Scalar.select IntOp.cmpi
  have : w.slt 0#32 = false := by
    rw [BitVec.slt_eq_decide]
    simpa using h
  rw [this]
  rfl

/-- A word that, read signed, is the node j reads row j. -/
theorem rowW_of_toInt (w : BitVec 32) (j : Fin 100000) (h : w.toInt = (j.val : Int)) : rowW w = j := by
  unfold rowW
  rw [wrapW_of_nonneg w (by omega)]
  unfold clampRow
  refine Fin.ext ?_
  have hj := j.isLt
  show min w.toInt.toNat 99999 = j.val
  rw [h]
  omega

variable (ei : EI) (r : Fin 3)

/-! ### The first 1600000 entries are the edges -/

theorem srcW'_inl (e : Fin 1600000) : srcW' ei r (GCN.inl hE e) = srcW ei r e := by
  unfold srcW'
  rw [dif_pos (show (GCN.inl hE e).val < 1600000 from e.isLt)]
  rfl

theorem dstW'_inl (e : Fin 1600000) : dstW' ei r (GCN.inl hE e) = dstW ei r e := by
  unfold dstW'
  rw [dif_pos (show (GCN.inl hE e).val < 1600000 from e.isLt)]
  rfl

theorem rowW_srcW'_inl (e : Fin 1600000) : rowW (srcW' ei r (GCN.inl hE e)) = rowW (srcW ei r e) := by
  rw [srcW'_inl]

theorem rowW_dstW'_inl (e : Fin 1600000) : rowW (dstW' ei r (GCN.inl hE e)) = rowW (dstW ei r e) := by
  rw [dstW'_inl]

/-! ### The last 100000 entries are the self-loops -/

theorem srcW'_inr (j : Fin 100000) : srcW' ei r (GCN.inr hE j) = BitVec.ofNat 32 j.val := by
  unfold srcW'
  rw [dif_neg (by rw [inr_val]; omega), inr_val, Nat.add_sub_cancel_left]

theorem dstW'_inr (j : Fin 100000) : dstW' ei r (GCN.inr hE j) = BitVec.ofNat 32 j.val := by
  unfold dstW'
  rw [dif_neg (by rw [inr_val]; omega), inr_val, Nat.add_sub_cancel_left]

theorem toInt_dstW'_inr (j : Fin 100000) : (dstW' ei r (GCN.inr hE j)).toInt = (j.val : Int) := by
  rw [dstW'_inr, toInt_ofNat_node]

theorem rowW_srcW'_inr (j : Fin 100000) : rowW (srcW' ei r (GCN.inr hE j)) = j := by
  rw [srcW'_inr]; exact rowW_of_toInt _ j (toInt_ofNat_node j)

theorem rowW_dstW'_inr (j : Fin 100000) : rowW (dstW' ei r (GCN.inr hE j)) = j := by
  rw [dstW'_inr]; exact rowW_of_toInt _ j (toInt_ofNat_node j)

/-- Every relation's long lists extend its edge lists by the self-loops. -/
theorem links : Links ei where
  dl := fun r e => dstW'_inl ei r e
  sl := fun r e => rowW_srcW'_inl ei r e
  rl := fun r e => rowW_dstW'_inl ei r e
  dr := fun r j => toInt_dstW'_inr ei r j
  sr := fun r j => rowW_srcW'_inr ei r j
  rr := fun r j => rowW_dstW'_inr ei r j

end Cert.ReferenceIdeal.RefValue

end
-- ==== Proof.lean ====
/-
  A two-layer graph convolution over three relations (100000 nodes, 1600000 edges per relation), as a TPU program of
  four kernels — x · W[r] for the three relations; the combination of the relations' scattered edge messages, self-loop
  terms and biases, averaged by the constant 1/3; the same two again at the second layer's width — with the degree
  normalisation, the gathers and the scatter-adds on the host between them, against the plain reference that appends
  the self-loops to the edge lists, scatters once per relation, sums the relations and divides by 3.

  * The three frames: the word-level and the idealized kernel program run through their eighteen items (four kernel
    regions, fourteen host stretches), every region's pipeline proved from its kernel body's run, no item writing an
    argument; the reference is a straight-line host program.
  * The idealization names one constant, the float nearest 1/3, as the rational 1/3 (twice: once per combine kernel).
  * At the ideal values the two programs compute one function of the arguments: per relation the scatter over edges and
    self-loops splits into the scatter over the edges and the self-loop term xl i · dinv i · dinv i, the degree into the
    edge count plus one (Cert.GCN.convR_eq); the kernel's running sum is the reference's sum regrouped; a quotient by 3
    is the product with 1/3 on every extended real. No distributive law is used, so finiteness of the inputs is not.
-/
import proofs.«128058_j54425825575251_2_alg».proof.Defs
import proofs.«128058_j54425825575251_2_alg».proof.Proof.Gen.Kernel
import proofs.«128058_j54425825575251_2_alg».proof.Proof.Gen.KernelIdeal
import proofs.«128058_j54425825575251_2_alg».proof.Proof.Gen.ReferenceIdeal
import proofs.«128058_j54425825575251_2_alg».proof.Proof.Gen.Pre_finite_inputs
import proofs.«128058_j54425825575251_2_alg».proof.Proof.K.RunAll
import proofs.«128058_j54425825575251_2_alg».proof.Proof.KI.RunAll
import proofs.«128058_j54425825575251_2_alg».proof.Proof.KI.Value
import proofs.«128058_j54425825575251_2_alg».proof.Proof.RefP.Run
import proofs.«128058_j54425825575251_2_alg».proof.Proof.Ref.Result
import proofs.«128058_j54425825575251_2_alg».proof.Proof.Ref.Edge
import proofs.«128058_j54425825575251_2_alg».proof.Proof.SpecEq
import Idealize.ShloMosaic.Adequacy
import Idealize.ShloMosaic.Init

noncomputable section

namespace Cert.Proof

open Idealize.ShloMosaic Idealize.SL.Sem Idealize.ShloMosaic.ValueIdx

/-- The combine kernels' named constant denotes the rational 1/3 at the ideal values. -/
theorem inv_3 : Named.named (F := Ideal) Cert.KernelIdeal.κ "inv_3" (φ := .f32) 0x3EAAAAAB#32 = ((1 / 3 : ℝ) : EReal) :=
  IdealRules.named_const.ideal_named_scalar _ _ _ _ rfl

theorem frame_k : Cert.frame_Kernel := fun m ρ _ => Cert.Kernel.Hand.frame m ρ

theorem frame_ki : Cert.frame_KernelIdeal := fun m ρ _ => Cert.KernelIdeal.Hand.frame m ρ

/-- The reference is a host program: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two named constants: the table gives "inv_3" the value 1/3. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- Both runs end at one array: the first arrangement of the network, which the second arrangement equals. -/
theorem algebraic : Cert.algebraic_KernelIdeal_ReferenceIdeal := by
  intro m ρ m' ρ' _ hagree
  refine ⟨fun c => Cert.KernelIdeal.Hand.o18 m c, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  show (Cert.ReferenceIdeal.Value.res_main_v330 (F := Ideal) m' c : Cert.ReferenceIdeal.S100000x64.Idx → EReal)
    = (Cert.KernelIdeal.Hand.o18 m c : Cert.KernelIdeal.S100000x64.Idx → EReal)
  funext j
  obtain ⟨i, n, rfl⟩ : ∃ (i : Fin 100000) (n : Fin 64), j = ix2 i n := ⟨j 0, j 1, eq_ix2 j⟩
  rw [Cert.ReferenceIdeal.RefValue.res_eq m' c i n, (hagree c).1, (hagree c).2.1, (hagree c).2.2.1, (hagree c).2.2.2.1,
    (hagree c).2.2.2.2.1, (hagree c).2.2.2.2.2, Cert.Net.ofBits_three,
    Cert.Net.netR_eq _ (Cert.ReferenceIdeal.RefValue.links _), ← inv_3]
  exact (Cert.KernelIdeal.Hand.o18_apply m c i n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
